-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x76x76x255 : Shape := ⟨4, ![16, 76, 76, 255]⟩
abbrev S16x76x76x3x85 : Shape := ⟨5, ![16, 76, 76, 3, 85]⟩
abbrev S16x150x4 : Shape := ⟨3, ![16, 150, 4]⟩
abbrev S_ : Shape := ⟨0, ![]⟩

class Facts : Prop where
  bcast_S_S16x76x76x255 : S_.BroadcastsInDim S16x76x76x255 (![] : Fin 0 → Fin S16x76x76x255.rank)
  reducesTo_S16x76x76x255_S_d0_1_2_3 : S16x76x76x255.ReducesTo [0, 1, 2, 3] S_
  h_S_ : 0 < S_.numel
  bcast_S_S16x76x76x3x85 : S_.BroadcastsInDim S16x76x76x3x85 (![] : Fin 0 → Fin S16x76x76x3x85.rank)
  reducesTo_S16x76x76x3x85_S_d0_1_2_3_4 : S16x76x76x3x85.ReducesTo [0, 1, 2, 3, 4] S_
  bcast_S_S16x150x4 : S_.BroadcastsInDim S16x150x4 (![] : Fin 0 → Fin S16x150x4.rank)
  reducesTo_S16x150x4_S_d0_1_2 : S16x150x4.ReducesTo [0, 1, 2] S_

variable [Facts]

def fn {F : FTy → Type} [FloatOps F] (main_arg0 : FVec F S16x76x76x255 .f32) (main_arg1 : FVec F S16x76x76x3x85 .f32) (main_arg2 : FVec F S16x150x4 .f32) : IVec S_ 1 :=
  let main_v0 : FVec F S16x76x76x255 .f32 := Host.absf main_arg0
  let main_cst : FVec F S_ .f32 := constant S_ .f32 0x7F800000#32
  let main_v1 : FVec F S16x76x76x255 .f32 := broadcastInDim S16x76x76x255 ![] bcast_S_S16x76x76x255 main_cst
  let main_v2 : IVec S16x76x76x255 1 := cmpf .olt main_v0 main_v1
  let main_c : IVec S_ 1 := constantI S_ 1 1#1
  let main_v3 : IVec S_ 1 := (fun x v => Host.reduce IntOp.andi x v reducesTo_S16x76x76x255_S_d0_1_2_3 h_S_) main_v2 main_c
  let main_v4 : FVec F S16x76x76x3x85 .f32 := Host.absf main_arg1
  let main_cst_0 : FVec F S_ .f32 := constant S_ .f32 0x7F800000#32
  let main_v5 : FVec F S16x76x76x3x85 .f32 := broadcastInDim S16x76x76x3x85 ![] bcast_S_S16x76x76x3x85 main_cst_0
  let main_v6 : IVec S16x76x76x3x85 1 := cmpf .olt main_v4 main_v5
  let main_c_1 : IVec S_ 1 := constantI S_ 1 1#1
  let main_v7 : IVec S_ 1 := (fun x v => Host.reduce IntOp.andi x v reducesTo_S16x76x76x3x85_S_d0_1_2_3_4 h_S_) main_v6 main_c_1
  let main_v8 : IVec S_ 1 := andi main_v3 main_v7
  let main_v9 : FVec F S16x150x4 .f32 := Host.absf main_arg2
  let main_cst_2 : FVec F S_ .f32 := constant S_ .f32 0x7F800000#32
  let main_v10 : FVec F S16x150x4 .f32 := broadcastInDim S16x150x4 ![] bcast_S_S16x150x4 main_cst_2
  let main_v11 : IVec S16x150x4 1 := cmpf .olt main_v9 main_v10
  let main_c_3 : IVec S_ 1 := constantI S_ 1 1#1
  let main_v12 : IVec S_ 1 := (fun x v => Host.reduce IntOp.andi x v reducesTo_S16x150x4_S_d0_1_2 h_S_) main_v11 main_c_3
  let main_v13 : IVec S_ 1 := andi main_v8 main_v12
  main_v13
-- ==== Kernel.lean ====
abbrev S16x76x76x255 : Shape := ⟨4, ![16, 76, 76, 255]⟩
abbrev S16x76x76x3x85 : Shape := ⟨5, ![16, 76, 76, 3, 85]⟩
abbrev S16x150x4 : Shape := ⟨3, ![16, 150, 4]⟩
abbrev S3x2 : Shape := ⟨2, ![3, 2]⟩
abbrev S16x1x128 : Shape := ⟨3, ![16, 1, 128]⟩
abbrev S1x19x76x3x85 : Shape := ⟨5, ![1, 19, 76, 3, 85]⟩
abbrev S1x150x4 : Shape := ⟨3, ![1, 150, 4]⟩
abbrev S1x1x128 : Shape := ⟨3, ![1, 1, 128]⟩
abbrev S1x128 : Shape := ⟨2, ![1, 128]⟩
abbrev S19x76x3x85 : Shape := ⟨4, ![19, 76, 3, 85]⟩
abbrev S150x4 : Shape := ⟨2, ![150, 4]⟩
abbrev S19x76x3x2 : Shape := ⟨4, ![19, 76, 3, 2]⟩
abbrev S19x76x3x1 : Shape := ⟨4, ![19, 76, 3, 1]⟩
abbrev S19x76x3x80 : Shape := ⟨4, ![19, 76, 3, 80]⟩
abbrev S1x76x1x1 : Shape := ⟨4, ![1, 76, 1, 1]⟩
abbrev S19x1x1x1 : Shape := ⟨4, ![19, 1, 1, 1]⟩
abbrev S19x76x1x1 : Shape := ⟨4, ![19, 76, 1, 1]⟩
abbrev S19x76x1x2 : Shape := ⟨4, ![19, 76, 1, 2]⟩
abbrev S1x1x3x2 : Shape := ⟨4, ![1, 1, 3, 2]⟩
abbrev S19x76x3 : Shape := ⟨3, ![19, 76, 3]⟩
abbrev S19x76x3x4 : Shape := ⟨4, ![19, 76, 3, 4]⟩
abbrev S19x228 : Shape := ⟨2, ![19, 228]⟩
abbrev S19 : Shape := ⟨1, ![19]⟩
abbrev S19x1 : Shape := ⟨2, ![19, 1]⟩
abbrev S1 : Shape := ⟨1, ![1]⟩
abbrev S1x1 : Shape := ⟨2, ![1, 1]⟩
abbrev S150x1 : Shape := ⟨2, ![150, 1]⟩
abbrev S150 : Shape := ⟨1, ![150]⟩
abbrev S1x1x1x150 : Shape := ⟨4, ![1, 1, 1, 150]⟩
abbrev S19x76x3x150 : Shape := ⟨4, ![19, 76, 3, 150]⟩
abbrev S19x18240 : Shape := ⟨2, ![19, 18240]⟩
abbrev S16x1x1 : Shape := ⟨3, ![16, 1, 1]⟩
abbrev S16 : Shape := ⟨1, ![16]⟩
abbrev S_ : Shape := ⟨0, ![]⟩
abbrev S3 : Shape := ⟨1, ![3]⟩

abbrev nBuf : Space → Nat
  | .hbm => 28
  | .vmem => 9
  | .smem => 0
  | _ => 0

abbrev bufTy : (tb : Table) → Fin (tcTables nBuf tb) → BufTy
  | .hbm, ⟨0, _⟩ => ⟨S16x76x76x255, .f32⟩
  | .hbm, ⟨1, _⟩ => ⟨S16x76x76x3x85, .f32⟩
  | .hbm, ⟨2, _⟩ => ⟨S16x150x4, .f32⟩
  | .hbm, ⟨3, _⟩ => ⟨S3x2, .f32⟩
  | .hbm, ⟨4, _⟩ => ⟨S16x76x76x3x85, .f32⟩
  | .hbm, ⟨5, _⟩ => ⟨S16x1x128, .f32⟩
  | .hbm, ⟨6, _⟩ => ⟨S16x1x1, .f32⟩
  | .hbm, ⟨7, _⟩ => ⟨S16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16x1x1, .f32⟩
  | .hbm, ⟨13, _⟩ => ⟨S16, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16x1x1, .f32⟩
  | .hbm, ⟨19, _⟩ => ⟨S16, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S1, .f32⟩
  | .hbm, ⟨27, _⟩ => ⟨S3, .f32⟩
  | .local _ .vmem, ⟨0, _⟩ => ⟨S1x19x76x3x85, .f32⟩
  | .local _ .vmem, ⟨1, _⟩ => ⟨S1x19x76x3x85, .f32⟩
  | .local _ .vmem, ⟨2, _⟩ => ⟨S1x19x76x3x85, .f32⟩
  | .local _ .vmem, ⟨3, _⟩ => ⟨S1x19x76x3x85, .f32⟩
  | .local _ .vmem, ⟨4, _⟩ => ⟨S1x150x4, .f32⟩
  | .local _ .vmem, ⟨5, _⟩ => ⟨S1x150x4, .f32⟩
  | .local _ .vmem, ⟨6, _⟩ => ⟨S3x2, .f32⟩
  | .local _ .vmem, ⟨7, _⟩ => ⟨S1x1x128, .f32⟩
  | .local _ .vmem, ⟨8, _⟩ => ⟨S1x1x128, .f32⟩
  | _, _ => ⟨S16x76x76x255, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x76x3x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x19x76x3x85 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x150x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S3x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16x76x76x255_S16x76x76x3x85 : S16x76x76x255.ShapeCasts S16x76x76x3x85
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x19x76x3x85_S1x19x76x3x85_0_0_0_0_0 : ∀ a, (![0, 0, 0, 0, 0] : Fin 5 → Nat) a + S1x19x76x3x85.size a ≤ S1x19x76x3x85.size a
  h_S1x19x76x3x85 : 0 < S1x19x76x3x85.numel
  shapeCasts_S1x19x76x3x85_S19x76x3x85 : S1x19x76x3x85.ShapeCasts S19x76x3x85
  inb_S1x150x4_S1x150x4_0_0_0 : ∀ a, (![0, 0, 0] : Fin 3 → Nat) a + S1x150x4.size a ≤ S1x150x4.size a
  h_S1x150x4 : 0 < S1x150x4.numel
  shapeCasts_S1x150x4_S150x4 : S1x150x4.ShapeCasts S150x4
  inb_S3x2_S3x2_0_0 : ∀ a, (![0, 0] : Fin 2 → Nat) a + S3x2.size a ≤ S3x2.size a
  h_S3x2 : 0 < S3x2.numel
  slices_S19x76x3x85_o0_0_0_0_S19x76x3x2 : S19x76x3x85.Slices ![0, 0, 0, 0] S19x76x3x2
  slices_S19x76x3x85_o0_0_0_2_S19x76x3x2 : S19x76x3x85.Slices ![0, 0, 0, 2] S19x76x3x2
  slices_S19x76x3x85_o0_0_0_4_S19x76x3x1 : S19x76x3x85.Slices ![0, 0, 0, 4] S19x76x3x1
  slices_S19x76x3x85_o0_0_0_5_S19x76x3x80 : S19x76x3x85.Slices ![0, 0, 0, 5] S19x76x3x80
  iota_S1x76x1x1_d1_w32 : S1x76x1x1.Iotas .tc 32 [1]
  iota_S19x1x1x1_d0_w32 : S19x1x1x1.Iotas .tc 32 [0]
  shapeCasts_S1x76x1x1_S1x76x1x1 : S1x76x1x1.ShapeCasts S1x76x1x1
  broadcasts_S1x76x1x1_S19x76x1x1 : S1x76x1x1.Broadcasts S19x76x1x1
  shapeCasts_S19x1x1x1_S19x1x1x1 : S19x1x1x1.ShapeCasts S19x1x1x1
  broadcasts_S19x1x1x1_S19x76x1x1 : S19x1x1x1.Broadcasts S19x76x1x1
  concatenates_S19x76x1x1_S19x76x1x1_S19x76x1x2_d3 : Shape.Concatenates [S19x76x1x1, S19x76x1x1] S19x76x1x2 3
  broadcasts_S19x76x1x2_S19x76x3x2 : S19x76x1x2.Broadcasts S19x76x3x2
  shapeCasts_S3x2_S1x1x3x2 : S3x2.ShapeCasts S1x1x3x2
  broadcasts_S1x1x3x2_S19x76x3x2 : S1x1x3x2.Broadcasts S19x76x3x2
  slices_S19x76x3x2_o0_0_0_0_S19x76x3x1 : S19x76x3x2.Slices ![0, 0, 0, 0] S19x76x3x1
  shapeCasts_S19x76x3x1_S19x76x3 : S19x76x3x1.ShapeCasts S19x76x3
  slices_S19x76x3x2_o0_0_0_1_S19x76x3x1 : S19x76x3x2.Slices ![0, 0, 0, 1] S19x76x3x1
  slices_S19x76x3x85_o0_0_0_0_S19x76x3x4 : S19x76x3x85.Slices ![0, 0, 0, 0] S19x76x3x4
  slices_S19x76x3x4_o0_0_0_0_S19x76x3x1 : S19x76x3x4.Slices ![0, 0, 0, 0] S19x76x3x1
  slices_S19x76x3x4_o0_0_0_1_S19x76x3x1 : S19x76x3x4.Slices ![0, 0, 0, 1] S19x76x3x1
  slices_S19x76x3x4_o0_0_0_2_S19x76x3x1 : S19x76x3x4.Slices ![0, 0, 0, 2] S19x76x3x1
  slices_S19x76x3x4_o0_0_0_3_S19x76x3x1 : S19x76x3x4.Slices ![0, 0, 0, 3] S19x76x3x1
  shapeCasts_S19x76x3_S19x228 : S19x76x3.ShapeCasts S19x228
  reduces_S19x228_S19 : S19x228.Reduces [1] S19
  shapeCasts_S19_S19x1 : S19.ShapeCasts S19x1
  reduces_S19x1_S1 : S19x1.Reduces [0] S1
  shapeCasts_S1_S1x1 : S1.ShapeCasts S1x1
  slices_S150x4_o0_0_S150x1 : S150x4.Slices ![0, 0] S150x1
  shapeCasts_S150x1_S150 : S150x1.ShapeCasts S150
  slices_S150x4_o0_1_S150x1 : S150x4.Slices ![0, 1] S150x1
  slices_S150x4_o0_2_S150x1 : S150x4.Slices ![0, 2] S150x1
  slices_S150x4_o0_3_S150x1 : S150x4.Slices ![0, 3] S150x1
  shapeCasts_S150_S1x1x1x150 : S150.ShapeCasts S1x1x1x150
  shapeCasts_S19x76x3_S19x76x3x1 : S19x76x3.ShapeCasts S19x76x3x1
  broadcasts_S19x76x3x1_S19x76x3x150 : S19x76x3x1.Broadcasts S19x76x3x150
  broadcasts_S1x1x1x150_S19x76x3x150 : S1x1x1x150.Broadcasts S19x76x3x150
  reduces_S19x76x3x150_S19x76x3 : S19x76x3x150.Reduces [3] S19x76x3
  natLt_1_32 : 1 < 32
  broadcasts_S19x76x3x1_S19x76x3x80 : S19x76x3x1.Broadcasts S19x76x3x80
  shapeCasts_S19x76x3x80_S19x18240 : S19x76x3x80.ShapeCasts S19x18240
  reduces_S19x18240_S19 : S19x18240.Reduces [1] S19
  iota_S1x128_d1_w32 : S1x128.Iotas .tc 32 [1]
  shapeCasts_S1x1_S1x1 : S1x1.ShapeCasts S1x1
  broadcasts_S1x1_S1x128 : S1x1.Broadcasts S1x128
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  slices_S16x1x128_S16x1x1_0_0_1 : S16x1x128.Slices ![0, 0, 1] S16x1x1
  slices_S16x1x128_S16x1x1_0_0_2 : S16x1x128.Slices ![0, 0, 2] S16x1x1
  bcast_S_S1 : S_.BroadcastsInDim S1 (![] : Fin 0 → Fin S1.rank)
  concatenates_S1_S1_S1_S3_d0 : Shape.Concatenates [S1, S1, S1] S3 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x76x3x85.size a ≤ S16x76x76x3x85.size a
  hwx0_0 : ∀ i : grid0.Coords, EltTy.bits .f32 = 32 ∨ (Rect.block (s := S16x76x76x3x85) S1x19x76x3x85.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x19x76x3x85.size a ≤ S16x76x76x3x85.size a
  hwx0_1 : ∀ i : grid0.Coords, EltTy.bits .f32 = 32 ∨ (Rect.block (s := S16x76x76x3x85) S1x19x76x3x85.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x150x4.size a ≤ S16x150x4.size a
  hwx0_2 : ∀ i : grid0.Coords, EltTy.bits .f32 = 32 ∨ (Rect.block (s := S16x150x4) S1x150x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x2.size a ≤ S3x2.size a
  hwx0_3 : ∀ i : grid0.Coords, EltTy.bits .f32 = 32 ∨ (Rect.block (s := S3x2) S3x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S16x1x128.size a
  hwx0_4 : ∀ i : grid0.Coords, EltTy.bits .f32 = 32 ∨ (Rect.block (s := S16x1x128) S1x1x128.size (cc0_transform_4 i) (hinb0_4 i)).WholeWords (EltTy.packing .f32)

variable [Facts₀]

abbrev win0_0 : Pipeline.Window sig grid0 :=
  Pipeline.Window.ofSpec (Memref.whole main_v0) S1x19x76x3x85.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x19x76x3x85.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x150x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_cst) S3x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x76x76x255 : Shape := ⟨4, ![16, 76, 76, 255]⟩
abbrev S16x76x76x3x85 : Shape := ⟨5, ![16, 76, 76, 3, 85]⟩
abbrev S16x150x4 : Shape := ⟨3, ![16, 150, 4]⟩
abbrev S3x2 : Shape := ⟨2, ![3, 2]⟩
abbrev S16x76x76x3x2 : Shape := ⟨5, ![16, 76, 76, 3, 2]⟩
abbrev S16x76x76x3x1 : Shape := ⟨5, ![16, 76, 76, 3, 1]⟩
abbrev S16x76x76x3x80 : Shape := ⟨5, ![16, 76, 76, 3, 80]⟩
abbrev S76 : Shape := ⟨1, ![76]⟩
abbrev S76x76 : Shape := ⟨2, ![76, 76]⟩
abbrev S76x76x1 : Shape := ⟨3, ![76, 76, 1]⟩
abbrev S76x76x2 : Shape := ⟨3, ![76, 76, 2]⟩
abbrev S1x76x76x1x2 : Shape := ⟨5, ![1, 76, 76, 1, 2]⟩
abbrev S_ : Shape := ⟨0, ![]⟩
abbrev S1x1x1x3x2 : Shape := ⟨5, ![1, 1, 1, 3, 2]⟩
abbrev S16x76x76x3x4 : Shape := ⟨5, ![16, 76, 76, 3, 4]⟩
abbrev S16x76x76x3 : Shape := ⟨4, ![16, 76, 76, 3]⟩
abbrev S16x76x76x3x1x4 : Shape := ⟨6, ![16, 76, 76, 3, 1, 4]⟩
abbrev S16x1x1x1x150x4 : Shape := ⟨6, ![16, 1, 1, 1, 150, 4]⟩
abbrev S16x76x76x3x1x1 : Shape := ⟨6, ![16, 76, 76, 3, 1, 1]⟩
abbrev S16x1x1x1x150x1 : Shape := ⟨6, ![16, 1, 1, 1, 150, 1]⟩
abbrev S16x1x1x1x150 : Shape := ⟨5, ![16, 1, 1, 1, 150]⟩
abbrev S16x76x76x3x1x2 : Shape := ⟨6, ![16, 76, 76, 3, 1, 2]⟩
abbrev S16x1x1x1x150x2 : Shape := ⟨6, ![16, 1, 1, 1, 150, 2]⟩
abbrev S16x76x76x3x150x2 : Shape := ⟨6, ![16, 76, 76, 3, 150, 2]⟩
abbrev S16x76x76x3x150x1 : Shape := ⟨6, ![16, 76, 76, 3, 150, 1]⟩
abbrev S16x76x76x3x150 : Shape := ⟨5, ![16, 76, 76, 3, 150]⟩
abbrev S16 : Shape := ⟨1, ![16]⟩
abbrev S1 : Shape := ⟨1, ![1]⟩
abbrev S3 : Shape := ⟨1, ![3]⟩

abbrev nBuf : Space → Nat
  | .hbm => 276
  | .vmem => 0
  | .smem => 0
  | _ => 0

abbrev hbmTy0_0 (i : Nat) : BufTy := match i % 128 with
  | 0 => ⟨S16x76x76x255, .f32⟩
  | 1 => ⟨S16x76x76x3x85, .f32⟩
  | 2 => ⟨S16x150x4, .f32⟩
  | 3 => ⟨S3x2, .f32⟩
  | 4 => ⟨S16x76x76x3x85, .f32⟩
  | 5 => ⟨S16x76x76x3x2, .f32⟩
  | 6 => ⟨S16x76x76x3x2, .f32⟩
  | 7 => ⟨S16x76x76x3x1, .f32⟩
  | 8 => ⟨S16x76x76x3x80, .f32⟩
  | 9 => ⟨S76, .i32⟩
  | 10 => ⟨S76, .i32⟩
  | 11 => ⟨S76x76, .i32⟩
  | 12 => ⟨S76x76, .i32⟩
  | 13 => ⟨S76x76x1, .i32⟩
  | 14 => ⟨S76x76x1, .i32⟩
  | 15 => ⟨S76x76x2, .i32⟩
  | 16 => ⟨S1x76x76x1x2, .i32⟩
  | 17 => ⟨S1x76x76x1x2, .f32⟩
  | 18 => ⟨S16x76x76x3x2, .f32⟩
  | 19 => ⟨S16x76x76x3x2, .f32⟩
  | 20 => ⟨S_, .f32⟩
  | 21 => ⟨S16x76x76x3x2, .f32⟩
  | 22 => ⟨S16x76x76x3x2, .f32⟩
  | 23 => ⟨S_, .f32⟩
  | 24 => ⟨S16x76x76x3x2, .f32⟩
  | 25 => ⟨S16x76x76x3x2, .f32⟩
  | 26 => ⟨S_, .f32⟩
  | 27 => ⟨S16x76x76x3x2, .f32⟩
  | 28 => ⟨S16x76x76x3x2, .f32⟩
  | 29 => ⟨S_, .f32⟩
  | 30 => ⟨S16x76x76x3x2, .f32⟩
  | 31 => ⟨S16x76x76x3x2, .f32⟩
  | 32 => ⟨S16x76x76x3x2, .f32⟩
  | 33 => ⟨S16x76x76x3x2, .f32⟩
  | 34 => ⟨S_, .f32⟩
  | 35 => ⟨S16x76x76x3x2, .f32⟩
  | 36 => ⟨S16x76x76x3x2, .f32⟩
  | 37 => ⟨S16x76x76x3x2, .f32⟩
  | 38 => ⟨S1x1x1x3x2, .f32⟩
  | 39 => ⟨S16x76x76x3x2, .f32⟩
  | 40 => ⟨S16x76x76x3x2, .f32⟩
  | 41 => ⟨S16x76x76x3x1, .f32⟩
  | 42 => ⟨S16x76x76x3x1, .f32⟩
  | 43 => ⟨S_, .f32⟩
  | 44 => ⟨S16x76x76x3x1, .f32⟩
  | 45 => ⟨S16x76x76x3x1, .f32⟩
  | 46 => ⟨S_, .f32⟩
  | 47 => ⟨S16x76x76x3x1, .f32⟩
  | 48 => ⟨S16x76x76x3x1, .f32⟩
  | 49 => ⟨S16x76x76x3x80, .f32⟩
  | 50 => ⟨S16x76x76x3x80, .f32⟩
  | 51 => ⟨S_, .f32⟩
  | 52 => ⟨S16x76x76x3x80, .f32⟩
  | 53 => ⟨S16x76x76x3x80, .f32⟩
  | 54 => ⟨S_, .f32⟩
  | 55 => ⟨S16x76x76x3x80, .f32⟩
  | 56 => ⟨S16x76x76x3x80, .f32⟩
  | 57 => ⟨S16x76x76x3x85, .f32⟩
  | 58 => ⟨S16x76x76x3x85, .f32⟩
  | 59 => ⟨S16x76x76x3x1, .f32⟩
  | 60 => ⟨S16x76x76x3x80, .f32⟩
  | 61 => ⟨S16x76x76x3x4, .f32⟩
  | 62 => ⟨S16x76x76x3x1, .f32⟩
  | 63 => ⟨S16x76x76x3x4, .f32⟩
  | 64 => ⟨S16x76x76x3x1, .f32⟩
  | 65 => ⟨S16x76x76x3x80, .f32⟩
  | 66 => ⟨S16x76x76x3x1, .f32⟩
  | 67 => ⟨S16x76x76x3, .f32⟩
  | 68 => ⟨S16x76x76x3x1, .f32⟩
  | 69 => ⟨S16x76x76x3, .f32⟩
  | 70 => ⟨S16x76x76x3, .f32⟩
  | 71 => ⟨S16x76x76x3x1, .f32⟩
  | 72 => ⟨S16x76x76x3, .f32⟩
  | 73 => ⟨S16x76x76x3x1, .f32⟩
  | 74 => ⟨S16x76x76x3, .f32⟩
  | 75 => ⟨S16x76x76x3, .f32⟩
  | 76 => ⟨S16x76x76x3x2, .f32⟩
  | 77 => ⟨S16x76x76x3x2, .f32⟩
  | 78 => ⟨S_, .f32⟩
  | 79 => ⟨S16x76x76x3x2, .f32⟩
  | 80 => ⟨S16x76x76x3x2, .f32⟩
  | 81 => ⟨S16x76x76x3x2, .f32⟩
  | 82 => ⟨S16x76x76x3x2, .f32⟩
  | 83 => ⟨S16x76x76x3x2, .f32⟩
  | 84 => ⟨S_, .f32⟩
  | 85 => ⟨S16x76x76x3x2, .f32⟩
  | 86 => ⟨S16x76x76x3x2, .f32⟩
  | 87 => ⟨S16x76x76x3x2, .f32⟩
  | 88 => ⟨S16x76x76x3x4, .f32⟩
  | 89 => ⟨S16x76x76x3x2, .f32⟩
  | 90 => ⟨S16x76x76x3x2, .f32⟩
  | 91 => ⟨S_, .f32⟩
  | 92 => ⟨S16x76x76x3x2, .f32⟩
  | 93 => ⟨S16x76x76x3x2, .f32⟩
  | 94 => ⟨S16x76x76x3x2, .f32⟩
  | 95 => ⟨S16x76x76x3x2, .f32⟩
  | 96 => ⟨S16x76x76x3x2, .f32⟩
  | 97 => ⟨S_, .f32⟩
  | 98 => ⟨S16x76x76x3x2, .f32⟩
  | 99 => ⟨S16x76x76x3x2, .f32⟩
  | 100 => ⟨S16x76x76x3x2, .f32⟩
  | 101 => ⟨S16x76x76x3x4, .f32⟩
  | 102 => ⟨S16x76x76x3x2, .f32⟩
  | 103 => ⟨S16x76x76x3x2, .f32⟩
  | 104 => ⟨S16x76x76x3x2, .f32⟩
  | 105 => ⟨S16x76x76x3x2, .f32⟩
  | 106 => ⟨S16x76x76x3x2, .f32⟩
  | 107 => ⟨S16x76x76x3x2, .f32⟩
  | 108 => ⟨S16x76x76x3x2, .f32⟩
  | 109 => ⟨S_, .f32⟩
  | 110 => ⟨S16x76x76x3x2, .f32⟩
  | 111 => ⟨S16x76x76x3x2, .f32⟩
  | 112 => ⟨S16x76x76x3x1, .f32⟩
  | 113 => ⟨S16x76x76x3, .f32⟩
  | 114 => ⟨S16x76x76x3x1, .f32⟩
  | 115 => ⟨S16x76x76x3, .f32⟩
  | 116 => ⟨S16x76x76x3, .f32⟩
  | 117 => ⟨S16x76x76x3, .f32⟩
  | 118 => ⟨S16x76x76x3, .f32⟩
  | 119 => ⟨S16x76x76x3, .f32⟩
  | 120 => ⟨S16x76x76x3x2, .f32⟩
  | 121 => ⟨S16x76x76x3x2, .f32⟩
  | 122 => ⟨S16x76x76x3x2, .f32⟩
  | 123 => ⟨S16x76x76x3x2, .f32⟩
  | 124 => ⟨S16x76x76x3x2, .f32⟩
  | 125 => ⟨S16x76x76x3x2, .f32⟩
  | 126 => ⟨S16x76x76x3x2, .f32⟩
  | 127 => ⟨S_, .f32⟩
  | _ => ⟨S16x76x76x255, .f32⟩

abbrev hbmTy0_1 (i : Nat) : BufTy := match i % 128 with
  | 0 => ⟨S16x76x76x3x2, .f32⟩
  | 1 => ⟨S16x76x76x3x2, .f32⟩
  | 2 => ⟨S16x76x76x3x1, .f32⟩
  | 3 => ⟨S16x76x76x3, .f32⟩
  | 4 => ⟨S16x76x76x3x1, .f32⟩
  | 5 => ⟨S16x76x76x3, .f32⟩
  | 6 => ⟨S16x76x76x3, .f32⟩
  | 7 => ⟨S16x76x76x3, .f32⟩
  | 8 => ⟨S16x76x76x3, .f32⟩
  | 9 => ⟨S16x76x76x3, .f32⟩
  | 10 => ⟨S16x76x76x3x1, .f32⟩
  | 11 => ⟨S16x76x76x3x1, .f32⟩
  | 12 => ⟨S16x76x76x3x1, .f32⟩
  | 13 => ⟨S16x76x76x3x1, .f32⟩
  | 14 => ⟨S_, .f32⟩
  | 15 => ⟨S16x76x76x3x1, .f32⟩
  | 16 => ⟨S16x76x76x3x1, .f32⟩
  | 17 => ⟨S_, .f32⟩
  | 18 => ⟨S16x76x76x3x1, .f32⟩
  | 19 => ⟨S16x76x76x3x1, .f32⟩
  | 20 => ⟨S16x76x76x3x1, .f32⟩
  | 21 => ⟨S_, .f32⟩
  | 22 => ⟨S16x76x76x3x1, .f32⟩
  | 23 => ⟨S16x76x76x3x1, .f32⟩
  | 24 => ⟨S16x76x76x3x1, .f32⟩
  | 25 => ⟨S16x76x76x3x1x4, .f32⟩
  | 26 => ⟨S16x1x1x1x150x4, .f32⟩
  | 27 => ⟨S16x76x76x3x1x1, .f32⟩
  | 28 => ⟨S16x76x76x3x1, .f32⟩
  | 29 => ⟨S16x76x76x3x1x1, .f32⟩
  | 30 => ⟨S16x76x76x3x1, .f32⟩
  | 31 => ⟨S16x76x76x3x1, .f32⟩
  | 32 => ⟨S16x1x1x1x150x1, .f32⟩
  | 33 => ⟨S16x1x1x1x150, .f32⟩
  | 34 => ⟨S16x1x1x1x150x1, .f32⟩
  | 35 => ⟨S16x1x1x1x150, .f32⟩
  | 36 => ⟨S16x1x1x1x150, .f32⟩
  | 37 => ⟨S16x76x76x3x1x2, .f32⟩
  | 38 => ⟨S16x76x76x3x1x2, .f32⟩
  | 39 => ⟨S_, .f32⟩
  | 40 => ⟨S16x76x76x3x1x2, .f32⟩
  | 41 => ⟨S16x76x76x3x1x2, .f32⟩
  | 42 => ⟨S16x76x76x3x1x2, .f32⟩
  | 43 => ⟨S16x76x76x3x1x2, .f32⟩
  | 44 => ⟨S16x76x76x3x1x2, .f32⟩
  | 45 => ⟨S_, .f32⟩
  | 46 => ⟨S16x76x76x3x1x2, .f32⟩
  | 47 => ⟨S16x76x76x3x1x2, .f32⟩
  | 48 => ⟨S16x76x76x3x1x2, .f32⟩
  | 49 => ⟨S16x76x76x3x1x4, .f32⟩
  | 50 => ⟨S16x1x1x1x150x2, .f32⟩
  | 51 => ⟨S16x1x1x1x150x2, .f32⟩
  | 52 => ⟨S_, .f32⟩
  | 53 => ⟨S16x1x1x1x150x2, .f32⟩
  | 54 => ⟨S16x1x1x1x150x2, .f32⟩
  | 55 => ⟨S16x1x1x1x150x2, .f32⟩
  | 56 => ⟨S16x1x1x1x150x2, .f32⟩
  | 57 => ⟨S16x1x1x1x150x2, .f32⟩
  | 58 => ⟨S_, .f32⟩
  | 59 => ⟨S16x1x1x1x150x2, .f32⟩
  | 60 => ⟨S16x1x1x1x150x2, .f32⟩
  | 61 => ⟨S16x1x1x1x150x2, .f32⟩
  | 62 => ⟨S16x1x1x1x150x4, .f32⟩
  | 63 => ⟨S16x76x76x3x1x2, .f32⟩
  | 64 => ⟨S16x1x1x1x150x2, .f32⟩
  | 65 => ⟨S16x76x76x3x150x2, .f32⟩
  | 66 => ⟨S16x76x76x3x150x2, .f32⟩
  | 67 => ⟨S16x76x76x3x150x2, .f32⟩
  | 68 => ⟨S16x76x76x3x1x2, .f32⟩
  | 69 => ⟨S16x1x1x1x150x2, .f32⟩
  | 70 => ⟨S16x76x76x3x150x2, .f32⟩
  | 71 => ⟨S16x76x76x3x150x2, .f32⟩
  | 72 => ⟨S16x76x76x3x150x2, .f32⟩
  | 73 => ⟨S16x76x76x3x150x2, .f32⟩
  | 74 => ⟨S_, .f32⟩
  | 75 => ⟨S16x76x76x3x150x2, .f32⟩
  | 76 => ⟨S16x76x76x3x150x2, .f32⟩
  | 77 => ⟨S16x76x76x3x150x1, .f32⟩
  | 78 => ⟨S16x76x76x3x150, .f32⟩
  | 79 => ⟨S16x76x76x3x150x1, .f32⟩
  | 80 => ⟨S16x76x76x3x150, .f32⟩
  | 81 => ⟨S16x76x76x3x150, .f32⟩
  | 82 => ⟨S16x76x76x3x150, .f32⟩
  | 83 => ⟨S16x76x76x3x150, .f32⟩
  | 84 => ⟨S16x76x76x3x150, .f32⟩
  | 85 => ⟨S16x76x76x3x150, .f32⟩
  | 86 => ⟨S16x76x76x3x150, .f32⟩
  | 87 => ⟨S_, .f32⟩
  | 88 => ⟨S16x76x76x3, .f32⟩
  | 89 => ⟨S16x76x76x3x1, .f32⟩
  | 90 => ⟨S_, .f32⟩
  | 91 => ⟨S16x76x76x3x1, .f32⟩
  | 92 => ⟨S16x76x76x3x1, .f32⟩
  | 93 => ⟨S_, .f32⟩
  | 94 => ⟨S16x76x76x3x1, .f32⟩
  | 95 => ⟨S16x76x76x3x1, .i1⟩
  | 96 => ⟨S16x76x76x3x1, .f32⟩
  | 97 => ⟨S16x76x76x3x1, .f32⟩
  | 98 => ⟨S16x76x76x3x1, .f32⟩
  | 99 => ⟨S16x76x76x3x1, .f32⟩
  | 100 => ⟨S_, .f32⟩
  | 101 => ⟨S16x76x76x3x1, .f32⟩
  | 102 => ⟨S16x76x76x3x1, .f32⟩
  | 103 => ⟨S16x76x76x3x1, .f32⟩
  | 104 => ⟨S16x76x76x3x1, .f32⟩
  | 105 => ⟨S16x76x76x3x1, .f32⟩
  | 106 => ⟨S16x76x76x3x1, .f32⟩
  | 107 => ⟨S16x76x76x3x1, .f32⟩
  | 108 => ⟨S16x76x76x3x1, .f32⟩
  | 109 => ⟨S16x76x76x3x1, .f32⟩
  | 110 => ⟨S16x76x76x3x1, .f32⟩
  | 111 => ⟨S16x76x76x3x1, .f32⟩
  | 112 => ⟨S16x76x76x3x1, .f32⟩
  | 113 => ⟨S16x76x76x3x1, .f32⟩
  | 114 => ⟨S_, .f32⟩
  | 115 => ⟨S16x76x76x3x80, .f32⟩
  | 116 => ⟨S16x76x76x3x80, .f32⟩
  | 117 => ⟨S16x76x76x3x80, .f32⟩
  | 118 => ⟨S16x76x76x3x80, .f32⟩
  | 119 => ⟨S16x76x76x3x80, .f32⟩
  | 120 => ⟨S16x76x76x3x80, .f32⟩
  | 121 => ⟨S16x76x76x3x80, .f32⟩
  | 122 => ⟨S16x76x76x3x80, .f32⟩
  | 123 => ⟨S16x76x76x3x80, .f32⟩
  | 124 => ⟨S16x76x76x3x80, .f32⟩
  | 125 => ⟨S16x76x76x3x80, .f32⟩
  | 126 => ⟨S_, .f32⟩
  | 127 => ⟨S16, .f32⟩
  | _ => ⟨S16x76x76x255, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S16, .f32⟩
  | 6 => ⟨S_, .f32⟩
  | 7 => ⟨S_, .f32⟩
  | 8 => ⟨S_, .f32⟩
  | 9 => ⟨S_, .f32⟩
  | 10 => ⟨S_, .f32⟩
  | 11 => ⟨S16, .f32⟩
  | 12 => ⟨S_, .f32⟩
  | 13 => ⟨S_, .f32⟩
  | 14 => ⟨S_, .f32⟩
  | 15 => ⟨S_, .f32⟩
  | 16 => ⟨S1, .f32⟩
  | 17 => ⟨S1, .f32⟩
  | 18 => ⟨S1, .f32⟩
  | 19 => ⟨S3, .f32⟩
  | _ => ⟨S16x76x76x255, .f32⟩

abbrev hbmTy (i : Nat) : BufTy := match i / 128 with
  | 0 => hbmTy0_0 i
  | 1 => hbmTy0_1 i
  | 2 => hbmTy0_2 i
  | _ => ⟨S16x76x76x255, .f32⟩

abbrev bufTy : (tb : Table) → Fin (tcTables nBuf tb) → BufTy
  | .hbm, ⟨i, _⟩ => hbmTy i
  | _, _ => ⟨S16x76x76x255, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_9 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_10 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_11 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_12 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_13 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_cst_14 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_15 : Ref sig .tc := ⟨.hbm, 142, rfl⟩
abbrev main_v123 : Ref sig .tc := ⟨.hbm, 143, rfl⟩
abbrev main_v124 : Ref sig .tc := ⟨.hbm, 144, rfl⟩
abbrev main_cst_16 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_cst_17 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_cst_18 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_cst_19 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_cst_20 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_cst_21 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_cst_22 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_cst_23 : Ref sig .tc := ⟨.hbm, 215, rfl⟩
abbrev main_v188 : Ref sig .tc := ⟨.hbm, 216, rfl⟩
abbrev main_v189 : Ref sig .tc := ⟨.hbm, 217, rfl⟩
abbrev main_cst_24 : Ref sig .tc := ⟨.hbm, 218, rfl⟩
abbrev main_v190 : Ref sig .tc := ⟨.hbm, 219, rfl⟩
abbrev main_v191 : Ref sig .tc := ⟨.hbm, 220, rfl⟩
abbrev main_cst_25 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_cst_26 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_cst_27 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_cst_28 : Ref sig .tc := ⟨.hbm, 254, rfl⟩
abbrev main_v222 : Ref sig .tc := ⟨.hbm, 255, rfl⟩
abbrev main_cst_29 : Ref sig .tc := ⟨.hbm, 256, rfl⟩
abbrev main_v223 : Ref sig .tc := ⟨.hbm, 257, rfl⟩
abbrev main_cst_30 : Ref sig .tc := ⟨.hbm, 258, rfl⟩
abbrev main_v224 : Ref sig .tc := ⟨.hbm, 259, rfl⟩
abbrev main_cst_31 : Ref sig .tc := ⟨.hbm, 260, rfl⟩
abbrev main_v225 : Ref sig .tc := ⟨.hbm, 261, rfl⟩
abbrev main_cst_32 : Ref sig .tc := ⟨.hbm, 262, rfl⟩
abbrev main_v226 : Ref sig .tc := ⟨.hbm, 263, rfl⟩
abbrev main_cst_33 : Ref sig .tc := ⟨.hbm, 264, rfl⟩
abbrev main_v227 : Ref sig .tc := ⟨.hbm, 265, rfl⟩
abbrev main_cst_34 : Ref sig .tc := ⟨.hbm, 266, rfl⟩
abbrev main_v228 : Ref sig .tc := ⟨.hbm, 267, rfl⟩
abbrev main_cst_35 : Ref sig .tc := ⟨.hbm, 268, rfl⟩
abbrev main_v229 : Ref sig .tc := ⟨.hbm, 269, rfl⟩
abbrev main_cst_36 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩

abbrev nD : Nat := 1
abbrev τ : Topo := Topo.v7x

variable {F : FTy → Type} [FloatOps F]

class Facts₀ : Prop where
  shapeCasts_S16x76x76x255_S16x76x76x3x85 : S16x76x76x255.ShapeCasts S16x76x76x3x85
  slices_S16x76x76x3x85_S16x76x76x3x2_0_0_0_0_0 : S16x76x76x3x85.Slices ![0, 0, 0, 0, 0] S16x76x76x3x2
  slices_S16x76x76x3x85_S16x76x76x3x2_0_0_0_0_2 : S16x76x76x3x85.Slices ![0, 0, 0, 0, 2] S16x76x76x3x2
  slices_S16x76x76x3x85_S16x76x76x3x1_0_0_0_0_4 : S16x76x76x3x85.Slices ![0, 0, 0, 0, 4] S16x76x76x3x1
  slices_S16x76x76x3x85_S16x76x76x3x80_0_0_0_0_5 : S16x76x76x3x85.Slices ![0, 0, 0, 0, 5] S16x76x76x3x80
  bcast_S76_S76x76_0 : S76.BroadcastsInDim S76x76 (![0] : Fin 1 → Fin S76x76.rank)
  bcast_S76_S76x76_1 : S76.BroadcastsInDim S76x76 (![1] : Fin 1 → Fin S76x76.rank)
  bcast_S76x76_S76x76x1_0_1 : S76x76.BroadcastsInDim S76x76x1 (![0, 1] : Fin 2 → Fin S76x76x1.rank)
  concatenates_S76x76x1_S76x76x1_S76x76x2_d2 : Shape.Concatenates [S76x76x1, S76x76x1] S76x76x2 2
  bcast_S76x76x2_S1x76x76x1x2_1_2_4 : S76x76x2.BroadcastsInDim S1x76x76x1x2 (![1, 2, 4] : Fin 3 → Fin S1x76x76x1x2.rank)
  bcast_S_S16x76x76x3x2 : S_.BroadcastsInDim S16x76x76x3x2 (![] : Fin 0 → Fin S16x76x76x3x2.rank)
  bcast_S1x76x76x1x2_S16x76x76x3x2_0_1_2_3_4 : S1x76x76x1x2.BroadcastsInDim S16x76x76x3x2 (![0, 1, 2, 3, 4] : Fin 5 → Fin S16x76x76x3x2.rank)
  bcast_S3x2_S1x1x1x3x2_3_4 : S3x2.BroadcastsInDim S1x1x1x3x2 (![3, 4] : Fin 2 → Fin S1x1x1x3x2.rank)
  bcast_S1x1x1x3x2_S16x76x76x3x2_0_1_2_3_4 : S1x1x1x3x2.BroadcastsInDim S16x76x76x3x2 (![0, 1, 2, 3, 4] : Fin 5 → Fin S16x76x76x3x2.rank)
  bcast_S_S16x76x76x3x1 : S_.BroadcastsInDim S16x76x76x3x1 (![] : Fin 0 → Fin S16x76x76x3x1.rank)
  bcast_S_S16x76x76x3x80 : S_.BroadcastsInDim S16x76x76x3x80 (![] : Fin 0 → Fin S16x76x76x3x80.rank)
  concatenates_S16x76x76x3x2_S16x76x76x3x2_S16x76x76x3x1_S16x76x76x3x80_S16x76x76x3x85_d4 : Shape.Concatenates [S16x76x76x3x2, S16x76x76x3x2, S16x76x76x3x1, S16x76x76x3x80] S16x76x76x3x85 4
  slices_S16x76x76x3x85_S16x76x76x3x4_0_0_0_0_0 : S16x76x76x3x85.Slices ![0, 0, 0, 0, 0] S16x76x76x3x4
  slices_S16x76x76x3x4_S16x76x76x3x1_0_0_0_0_2 : S16x76x76x3x4.Slices ![0, 0, 0, 0, 2] S16x76x76x3x1
  shapeCasts_S16x76x76x3x1_S16x76x76x3 : S16x76x76x3x1.ShapeCasts S16x76x76x3
  slices_S16x76x76x3x4_S16x76x76x3x1_0_0_0_0_3 : S16x76x76x3x4.Slices ![0, 0, 0, 0, 3] S16x76x76x3x1
  slices_S16x76x76x3x4_S16x76x76x3x2_0_0_0_0_0 : S16x76x76x3x4.Slices ![0, 0, 0, 0, 0] S16x76x76x3x2
  slices_S16x76x76x3x4_S16x76x76x3x2_0_0_0_0_2 : S16x76x76x3x4.Slices ![0, 0, 0, 0, 2] S16x76x76x3x2
  concatenates_S16x76x76x3x2_S16x76x76x3x2_S16x76x76x3x4_d4 : Shape.Concatenates [S16x76x76x3x2, S16x76x76x3x2] S16x76x76x3x4 4
  slices_S16x76x76x3x2_S16x76x76x3x1_0_0_0_0_0 : S16x76x76x3x2.Slices ![0, 0, 0, 0, 0] S16x76x76x3x1
  slices_S16x76x76x3x2_S16x76x76x3x1_0_0_0_0_1 : S16x76x76x3x2.Slices ![0, 0, 0, 0, 1] S16x76x76x3x1
  bcast_S16x76x76x3_S16x76x76x3x1_0_1_2_3 : S16x76x76x3.BroadcastsInDim S16x76x76x3x1 (![0, 1, 2, 3] : Fin 4 → Fin S16x76x76x3x1.rank)
  bcast_S16x76x76x3x4_S16x76x76x3x1x4_0_1_2_3_5 : S16x76x76x3x4.BroadcastsInDim S16x76x76x3x1x4 (![0, 1, 2, 3, 5] : Fin 5 → Fin S16x76x76x3x1x4.rank)
  bcast_S16x150x4_S16x1x1x1x150x4_0_4_5 : S16x150x4.BroadcastsInDim S16x1x1x1x150x4 (![0, 4, 5] : Fin 3 → Fin S16x1x1x1x150x4.rank)
  slices_S16x76x76x3x1x4_S16x76x76x3x1x1_0_0_0_0_0_2 : S16x76x76x3x1x4.Slices ![0, 0, 0, 0, 0, 2] S16x76x76x3x1x1
  shapeCasts_S16x76x76x3x1x1_S16x76x76x3x1 : S16x76x76x3x1x1.ShapeCasts S16x76x76x3x1
  slices_S16x76x76x3x1x4_S16x76x76x3x1x1_0_0_0_0_0_3 : S16x76x76x3x1x4.Slices ![0, 0, 0, 0, 0, 3] S16x76x76x3x1x1
  slices_S16x1x1x1x150x4_S16x1x1x1x150x1_0_0_0_0_0_2 : S16x1x1x1x150x4.Slices ![0, 0, 0, 0, 0, 2] S16x1x1x1x150x1
  shapeCasts_S16x1x1x1x150x1_S16x1x1x1x150 : S16x1x1x1x150x1.ShapeCasts S16x1x1x1x150
  slices_S16x1x1x1x150x4_S16x1x1x1x150x1_0_0_0_0_0_3 : S16x1x1x1x150x4.Slices ![0, 0, 0, 0, 0, 3] S16x1x1x1x150x1
  slices_S16x76x76x3x1x4_S16x76x76x3x1x2_0_0_0_0_0_0 : S16x76x76x3x1x4.Slices ![0, 0, 0, 0, 0, 0] S16x76x76x3x1x2
  slices_S16x76x76x3x1x4_S16x76x76x3x1x2_0_0_0_0_0_2 : S16x76x76x3x1x4.Slices ![0, 0, 0, 0, 0, 2] S16x76x76x3x1x2
  bcast_S_S16x76x76x3x1x2 : S_.BroadcastsInDim S16x76x76x3x1x2 (![] : Fin 0 → Fin S16x76x76x3x1x2.rank)
  concatenates_S16x76x76x3x1x2_S16x76x76x3x1x2_S16x76x76x3x1x4_d5 : Shape.Concatenates [S16x76x76x3x1x2, S16x76x76x3x1x2] S16x76x76x3x1x4 5
  slices_S16x1x1x1x150x4_S16x1x1x1x150x2_0_0_0_0_0_0 : S16x1x1x1x150x4.Slices ![0, 0, 0, 0, 0, 0] S16x1x1x1x150x2
  slices_S16x1x1x1x150x4_S16x1x1x1x150x2_0_0_0_0_0_2 : S16x1x1x1x150x4.Slices ![0, 0, 0, 0, 0, 2] S16x1x1x1x150x2
  bcast_S_S16x1x1x1x150x2 : S_.BroadcastsInDim S16x1x1x1x150x2 (![] : Fin 0 → Fin S16x1x1x1x150x2.rank)
  concatenates_S16x1x1x1x150x2_S16x1x1x1x150x2_S16x1x1x1x150x4_d5 : Shape.Concatenates [S16x1x1x1x150x2, S16x1x1x1x150x2] S16x1x1x1x150x4 5
  bcast_S16x76x76x3x1x2_S16x76x76x3x150x2_0_1_2_3_4_5 : S16x76x76x3x1x2.BroadcastsInDim S16x76x76x3x150x2 (![0, 1, 2, 3, 4, 5] : Fin 6 → Fin S16x76x76x3x150x2.rank)
  bcast_S16x1x1x1x150x2_S16x76x76x3x150x2_0_1_2_3_4_5 : S16x1x1x1x150x2.BroadcastsInDim S16x76x76x3x150x2 (![0, 1, 2, 3, 4, 5] : Fin 6 → Fin S16x76x76x3x150x2.rank)
  bcast_S_S16x76x76x3x150x2 : S_.BroadcastsInDim S16x76x76x3x150x2 (![] : Fin 0 → Fin S16x76x76x3x150x2.rank)
  slices_S16x76x76x3x150x2_S16x76x76x3x150x1_0_0_0_0_0_0 : S16x76x76x3x150x2.Slices ![0, 0, 0, 0, 0, 0] S16x76x76x3x150x1
  shapeCasts_S16x76x76x3x150x1_S16x76x76x3x150 : S16x76x76x3x150x1.ShapeCasts S16x76x76x3x150
  slices_S16x76x76x3x150x2_S16x76x76x3x150x1_0_0_0_0_0_1 : S16x76x76x3x150x2.Slices ![0, 0, 0, 0, 0, 1] S16x76x76x3x150x1
  bcast_S16x76x76x3x1_S16x76x76x3x150_0_1_2_3_4 : S16x76x76x3x1.BroadcastsInDim S16x76x76x3x150 (![0, 1, 2, 3, 4] : Fin 5 → Fin S16x76x76x3x150.rank)
  bcast_S16x1x1x1x150_S16x76x76x3x150_0_1_2_3_4 : S16x1x1x1x150.BroadcastsInDim S16x76x76x3x150 (![0, 1, 2, 3, 4] : Fin 5 → Fin S16x76x76x3x150.rank)
  reducesTo_S16x76x76x3x150_S16x76x76x3_d4 : S16x76x76x3x150.ReducesTo [4] S16x76x76x3
  h_S_ : 0 < S_.numel
  bcast_S16x76x76x3x1_S16x76x76x3x80_0_1_2_3_4 : S16x76x76x3x1.BroadcastsInDim S16x76x76x3x80 (![0, 1, 2, 3, 4] : Fin 5 → Fin S16x76x76x3x80.rank)
  reducesTo_S16x76x76x3x1_S16_d1_2_3_4 : S16x76x76x3x1.ReducesTo [1, 2, 3, 4] S16
  reducesTo_S16_S_d0 : S16.ReducesTo [0] S_
  reducesTo_S16x76x76x3x80_S16_d1_2_3_4 : S16x76x76x3x80.ReducesTo [1, 2, 3, 4] S16
  bcast_S_S1 : S_.BroadcastsInDim S1 (![] : Fin 0 → Fin S1.rank)
  concatenates_S1_S1_S1_S3_d0 : Shape.Concatenates [S1, S1, S1] S3 0

variable [Facts₀]

class Facts : Prop extends Facts₀ where

variable [Facts]
-- ==== Proof.KFrameBitsRuns.lean ====
import proofs.«179941_j67783173865496_2_alg».proof.Proof.Gen.Kernel.Launch
import proofs.«179941_j67783173865496_2_alg».proof.Proof.Gen.Kernel.Skeleton
import proofs.«179941_j67783173865496_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program around its one grid region

The program is two host operations (a constant table and a reshape of the first argument), the grid region, and
twenty-two host operations that reduce the region's result. -/

/-- The TensorCore buffer contents of core `c` when the region is entered: the launch contents after the two host
    operations that precede the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the operations before the region, the region, and the operations after it; so running it reduces
    to running the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 400000 in
/-- And none of them writes an array of the region: each writes its own result buffer, which is none of the five. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The two operations before the region write the constant table and the reshaped copy; the three argument arrays
    are as launched when the region is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The first argument is no array of the region and no later operation writes it: after the whole program it holds
    what it held at launch. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- The block of window `w` at grid point `t`, cut out of the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, whether the block was fetched
    at that point or kept from the point before (its index has then not moved), for any proof data over the region-entry
    arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every point, whether the block was fetched
    at that point or kept from the point before (its index has then not moved), for any proof data over the region-entry
    arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every point, whether the block was fetched
    at that point or kept from the point before (its index has then not moved), for any proof data over the region-entry
    arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every point, whether the block was fetched
    at that point or kept from the point before (its index has then not moved), for any proof data over the region-entry
    arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## From a run of the region to the argument arrays left unchanged -/

/-- A run that ends with every array of the region at what the proof data compute, and every other buffer at what the
    later operations leave, ends with the three argument arrays as launched: the first bypasses the region and is
    written by no operation; the second and third are input arrays of the region, which the region only reads. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_main_arg0 m dats c)),
      ((h c).1 1).trans (((dats 0 c).arrAt_in 1 rfl _).trans ((hA c 1).trans (V_main_arg1 m c))),
      ((h c).1 2).trans (((dats 0 c).arrAt_in 2 rfl _).trans ((hA c 2).trans (V_main_arg2 m c)))⟩) h

/-! ## The body's one branch -/

/-- The body's one conditional tests whether the second grid coordinate is zero: the output block is zeroed there. -/
abbrev cond0_0 (i : grid0.Coords) : Prop := (Scalar.cmpi .ne (Scalar.extui (Scalar.cmpi .eq (BitVec.ofNat 32 (i 1).val) 0#32)) 0#32) = 1#1
/-- Point `t` has coordinates `(t / 4, t % 4)`, so the condition holds exactly at the points divisible by four. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging buffers the body is called with -/

/-- One staging buffer of the output window, through which the output block's contents are stated (which of the two
    is used does not matter: a whole buffer's contents are a function of its index). -/
abbrev VO0_4 : View sig .tc .vmem S1x1x128 .f32 := (Memref.whole cc0_stg4_0 : Memref sig .tc .vmem S1x1x128 .f32).view
abbrev ms0_0 (t : Fin cfg0.N) : Memref sig .tc .vmem S1x19x76x3x85 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x19x76x3x85 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x150x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)

end Cert.Kernel.KFrame

end
-- ==== Proof.KFrameBitsRunA.lean ====
import proofs.«179941_j67783173865496_2_alg».proof.Proof.KFrameBitsRuns

-- membership in a rectangle of the blocks' extents recurses once per coordinate of the long axes
set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- THE BODY AT A POINT WHERE THE OUTPUT BLOCK IS ZEROED (the second grid coordinate is zero). On whole staging buffers — the
    four inputs at their contents, the output at anything — the body runs to its end, leaves the inputs as they were,
    and leaves the output buffer written by a list of pieces, last first: the zero block, then the zero block read back
    plus this point's three partial sums. The list is the witness the symbolic execution finds. -/
noncomputable def kernelRun0_A (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : cond0_0 i)
    (x0 : Vec F S1x19x76x3x85 .f32) (x1 : Vec F S1x19x76x3x85 .f32) (x2 : Vec F S1x150x4 .f32) (x3 : Vec F S3x2 .f32) :
    { L4 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__yolo_kernel i arg2 harg2 arg3 harg3 arg4 harg4 arg5 harg5 arg6 harg6) K } := by
  refine ⟨?_, fun E K => ?run⟩
  case run =>
    simp only [cc0__yolo_kernel_eq_skeleton]; unfold cc0__yolo_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.KFrame

end
-- ==== Proof.KFrameBitsRunB.lean ====
import proofs.«179941_j67783173865496_2_alg».proof.Proof.KFrameBitsRunA

-- membership in a rectangle of the blocks' extents recurses once per coordinate of the long axes
set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- THE BODY AT A POINT WHERE THE OUTPUT BLOCK ACCUMULATES (the second grid coordinate is not zero). On whole staging
    buffers — the four inputs at their contents, the output at its running contents `xo4` — the body runs to its end,
    leaves the inputs as they were, and leaves the output buffer written by one piece: the running contents plus this
    point's three partial sums. The list is the witness the symbolic execution finds. -/
noncomputable def kernelRun0_B (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : ¬cond0_0 i)
    (x0 : Vec F S1x19x76x3x85 .f32) (x1 : Vec F S1x19x76x3x85 .f32) (x2 : Vec F S1x150x4 .f32) (x3 : Vec F S3x2 .f32) (xo4 : Vec F S1x1x128 .f32) :
    { L4 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__yolo_kernel i arg2 harg2 arg3 harg3 arg4 harg4 arg5 harg5 arg6 harg6) K } := by
  refine ⟨?_, fun E K => ?run⟩
  case run =>
    simp only [cc0__yolo_kernel_eq_skeleton]; unfold cc0__yolo_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.KFrame

end
-- ==== Proof.KFrameBits.lean ====
import proofs.«179941_j67783173865496_2_alg».proof.Proof.KFrameBitsRunB

-- membership in a rectangle of the blocks' extents recurses once per coordinate of the long axes
set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What each case leaves in the output block -/

/-- Where the block is zeroed, the body's pieces for the output tile the block (two whole-block stores), so they cover it. -/
theorem cover0_A_4 (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : cond0_0 i)
    (x0 : Vec F S1x19x76x3x85 .f32) (x1 : Vec F S1x19x76x3x85 .f32) (x2 : Vec F S1x150x4 .f32) (x3 : Vec F S3x2 .f32) (y : S1x1x128.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S1x1x128.size (by sl_kernel_rfl) y

/-- What the body leaves in the output's staging buffer where the block is zeroed: its pieces read back. -/
def out0_A_4 (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : cond0_0 i)
    (x0 : Vec F S1x19x76x3x85 .f32) (x1 : Vec F S1x19x76x3x85 .f32) (x2 : Vec F S1x150x4 .f32) (x3 : Vec F S3x2 .f32) : Vec F S1x1x128 .f32 :=
  VO0_4.read (Elt F) (VO0_4.writes (Elt F) VO0_4.junk (kernelRun0_A c i arg2 harg2 arg3 harg3 arg4 harg4 arg5 harg5 arg6 harg6 hc0 x0 x1 x2 x3).1)

/-- Where the block accumulates, the body's one piece for the output is the whole block, so it covers it. -/
theorem cover0_B_4 (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : ¬cond0_0 i)
    (x0 : Vec F S1x19x76x3x85 .f32) (x1 : Vec F S1x19x76x3x85 .f32) (x2 : Vec F S1x150x4 .f32) (x3 : Vec F S3x2 .f32) (xo4 : Vec F S1x1x128 .f32) (y : S1x1x128.Idx) :
    ∃ pc ∈ (kernelRun0_B c i arg2 harg2 arg3 harg3 arg4 harg4 arg5 harg5 arg6 harg6 hc0 x0 x1 x2 x3 xo4).1, y ∈ pc.1.set :=
  View.cover_of_tiledL (kernelRun0_B c i arg2 harg2 arg3 harg3 arg4 harg4 arg5 harg5 arg6 harg6 hc0 x0 x1 x2 x3 xo4).1 S1x1x128.size (by sl_kernel_rfl) y

/-- What the body leaves in the output's staging buffer where the block accumulates: its piece read back. -/
def out0_B_4 (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : ¬cond0_0 i)
    (x0 : Vec F S1x19x76x3x85 .f32) (x1 : Vec F S1x19x76x3x85 .f32) (x2 : Vec F S1x150x4 .f32) (x3 : Vec F S3x2 .f32) (xo4 : Vec F S1x1x128 .f32) : Vec F S1x1x128 .f32 :=
  VO0_4.read (Elt F) (VO0_4.writes (Elt F) VO0_4.junk (kernelRun0_B c i arg2 harg2 arg3 harg3 arg4 harg4 arg5 harg5 arg6 harg6 hc0 x0 x1 x2 x3 xo4).1)

/-! ## What the output block holds after each point -/

/-- THE ACCUMULATION. What the output's staging buffer holds after the body at position `n` of the grid: at a position
    divisible by four the zeroing case's contents over that point's input blocks; elsewhere the accumulating case's, over
    what the position before left (the buffer is not written back between the two). -/
def outsAt0 (c : Dev nD) : (n : ℕ) → n < cfg0.N → Vec F S1x1x128 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 4 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- At a point divisible by four: the zeroing case's contents. -/
theorem outsAt0_A (c : Dev nD) (t : Fin cfg0.N) (h0 : t.val % 4 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- At any other point: the accumulating case's contents, over what the point before left. -/
theorem outsAt0_B (c : Dev nD) (t : Fin cfg0.N) (h0 : ¬t.val % 4 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- The proof data of the region on core `c`: the arrays as the region finds them; after the body at point `t` each
    input's buffer still at its block and the output's at `outsAt0`; the invariant is the scoped rest and the generator
    register, which the body neither uses nor describes; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q _ := fullShare
  owed _ := 0

/-- The proof data's arrays are the region-entry contents (by projection, never unfolding those contents). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

/-- Each input's current staging buffer holds its block at every point, fetched there or kept. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a point not divisible by four the output's current staging buffer holds what the body left at the point before:
    the point is not the first, and the block is written back only at the points that are 3 modulo 4, so the point
    before (which is then not 3 modulo 4) did not write it back. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; the point is divisible by four or not, which selects
    the case; where the block accumulates, the output's buffer holds what the point before left; so the case's run
    applies, the invariant passes through untouched, and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 4 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- For any values, from any memory with zero counters: every weakly fair execution of the program on the TensorCores
    terminates without a fault, and every final state has every array of the region at what the library computes from
    the proof data, and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to its end from any memory and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.KFrame

end
-- ==== Proof.KFrameRuns.lean ====
import proofs.«179941_j67783173865496_2_alg».proof.Proof.Gen.KernelIdeal.Launch
import proofs.«179941_j67783173865496_2_alg».proof.Proof.Gen.KernelIdeal.Skeleton
import proofs.«179941_j67783173865496_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program around its one grid region

The program is two host operations (a constant table and a reshape of the first argument), the grid region, and
twenty-two host operations that reduce the region's result. -/

/-- The TensorCore buffer contents of core `c` when the region is entered: the launch contents after the two host
    operations that precede the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the operations before the region, the region, and the operations after it; so running it reduces
    to running the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 400000 in
/-- And none of them writes an array of the region: each writes its own result buffer, which is none of the five. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The two operations before the region write the constant table and the reshaped copy; the three argument arrays
    are as launched when the region is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The first argument is no array of the region and no later operation writes it: after the whole program it holds
    what it held at launch. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- The block of window `w` at grid point `t`, cut out of the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, whether the block was fetched
    at that point or kept from the point before (its index has then not moved), for any proof data over the region-entry
    arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every point, whether the block was fetched
    at that point or kept from the point before (its index has then not moved), for any proof data over the region-entry
    arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every point, whether the block was fetched
    at that point or kept from the point before (its index has then not moved), for any proof data over the region-entry
    arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every point, whether the block was fetched
    at that point or kept from the point before (its index has then not moved), for any proof data over the region-entry
    arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## From a run of the region to the argument arrays left unchanged -/

/-- A run that ends with every array of the region at what the proof data compute, and every other buffer at what the
    later operations leave, ends with the three argument arrays as launched: the first bypasses the region and is
    written by no operation; the second and third are input arrays of the region, which the region only reads. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_main_arg0 m dats c)),
      ((h c).1 1).trans (((dats 0 c).arrAt_in 1 rfl _).trans ((hA c 1).trans (V_main_arg1 m c))),
      ((h c).1 2).trans (((dats 0 c).arrAt_in 2 rfl _).trans ((hA c 2).trans (V_main_arg2 m c)))⟩) h

/-! ## The body's one branch -/

/-- The body's one conditional tests whether the second grid coordinate is zero: the output block is zeroed there. -/
abbrev cond0_0 (i : grid0.Coords) : Prop := (Scalar.cmpi .ne (Scalar.extui (Scalar.cmpi .eq (BitVec.ofNat 32 (i 1).val) 0#32)) 0#32) = 1#1
/-- Point `t` has coordinates `(t / 4, t % 4)`, so the condition holds exactly at the points divisible by four. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging buffers the body is called with -/

/-- One staging buffer of the output window, through which the output block's contents are stated (which of the two
    is used does not matter: a whole buffer's contents are a function of its index). -/
abbrev VO0_4 : View sig .tc .vmem S1x1x128 .f32 := (Memref.whole cc0_stg4_0 : Memref sig .tc .vmem S1x1x128 .f32).view
abbrev ms0_0 (t : Fin cfg0.N) : Memref sig .tc .vmem S1x19x76x3x85 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x19x76x3x85 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x150x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)

end Cert.KernelIdeal.KFrame

end
-- ==== Proof.KFrameRunA.lean ====
import proofs.«179941_j67783173865496_2_alg».proof.Proof.KFrameRuns

-- membership in a rectangle of the blocks' extents recurses once per coordinate of the long axes
set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- THE BODY AT A POINT WHERE THE OUTPUT BLOCK IS ZEROED (the second grid coordinate is zero). On whole staging buffers — the
    four inputs at their contents, the output at anything — the body runs to its end, leaves the inputs as they were,
    and leaves the output buffer written by a list of pieces, last first: the zero block, then the zero block read back
    plus this point's three partial sums. The list is the witness the symbolic execution finds. -/
noncomputable def kernelRun0_A (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : cond0_0 i)
    (x0 : Vec F S1x19x76x3x85 .f32) (x1 : Vec F S1x19x76x3x85 .f32) (x2 : Vec F S1x150x4 .f32) (x3 : Vec F S3x2 .f32) :
    { L4 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__yolo_kernel i arg2 harg2 arg3 harg3 arg4 harg4 arg5 harg5 arg6 harg6) K } := by
  refine ⟨?_, fun E K => ?run⟩
  case run =>
    simp only [cc0__yolo_kernel_eq_skeleton]; unfold cc0__yolo_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.KFrame

end
-- ==== Proof.KFrameRunB.lean ====
import proofs.«179941_j67783173865496_2_alg».proof.Proof.KFrameRunA

-- membership in a rectangle of the blocks' extents recurses once per coordinate of the long axes
set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- THE BODY AT A POINT WHERE THE OUTPUT BLOCK ACCUMULATES (the second grid coordinate is not zero). On whole staging
    buffers — the four inputs at their contents, the output at its running contents `xo4` — the body runs to its end,
    leaves the inputs as they were, and leaves the output buffer written by one piece: the running contents plus this
    point's three partial sums. The list is the witness the symbolic execution finds. -/
noncomputable def kernelRun0_B (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : ¬cond0_0 i)
    (x0 : Vec F S1x19x76x3x85 .f32) (x1 : Vec F S1x19x76x3x85 .f32) (x2 : Vec F S1x150x4 .f32) (x3 : Vec F S3x2 .f32) (xo4 : Vec F S1x1x128 .f32) :
    { L4 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__yolo_kernel i arg2 harg2 arg3 harg3 arg4 harg4 arg5 harg5 arg6 harg6) K } := by
  refine ⟨?_, fun E K => ?run⟩
  case run =>
    simp only [cc0__yolo_kernel_eq_skeleton]; unfold cc0__yolo_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.KFrame

end
-- ==== Proof.KFrame.lean ====
import proofs.«179941_j67783173865496_2_alg».proof.Proof.KFrameRunB

-- membership in a rectangle of the blocks' extents recurses once per coordinate of the long axes
set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What each case leaves in the output block -/

/-- Where the block is zeroed, the body's pieces for the output tile the block (two whole-block stores), so they cover it. -/
theorem cover0_A_4 (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : cond0_0 i)
    (x0 : Vec F S1x19x76x3x85 .f32) (x1 : Vec F S1x19x76x3x85 .f32) (x2 : Vec F S1x150x4 .f32) (x3 : Vec F S3x2 .f32) (y : S1x1x128.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S1x1x128.size (by sl_kernel_rfl) y

/-- What the body leaves in the output's staging buffer where the block is zeroed: its pieces read back. -/
def out0_A_4 (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : cond0_0 i)
    (x0 : Vec F S1x19x76x3x85 .f32) (x1 : Vec F S1x19x76x3x85 .f32) (x2 : Vec F S1x150x4 .f32) (x3 : Vec F S3x2 .f32) : Vec F S1x1x128 .f32 :=
  VO0_4.read (Elt F) (VO0_4.writes (Elt F) VO0_4.junk (kernelRun0_A c i arg2 harg2 arg3 harg3 arg4 harg4 arg5 harg5 arg6 harg6 hc0 x0 x1 x2 x3).1)

/-- Where the block accumulates, the body's one piece for the output is the whole block, so it covers it. -/
theorem cover0_B_4 (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : ¬cond0_0 i)
    (x0 : Vec F S1x19x76x3x85 .f32) (x1 : Vec F S1x19x76x3x85 .f32) (x2 : Vec F S1x150x4 .f32) (x3 : Vec F S3x2 .f32) (xo4 : Vec F S1x1x128 .f32) (y : S1x1x128.Idx) :
    ∃ pc ∈ (kernelRun0_B c i arg2 harg2 arg3 harg3 arg4 harg4 arg5 harg5 arg6 harg6 hc0 x0 x1 x2 x3 xo4).1, y ∈ pc.1.set :=
  View.cover_of_tiledL (kernelRun0_B c i arg2 harg2 arg3 harg3 arg4 harg4 arg5 harg5 arg6 harg6 hc0 x0 x1 x2 x3 xo4).1 S1x1x128.size (by sl_kernel_rfl) y

/-- What the body leaves in the output's staging buffer where the block accumulates: its piece read back. -/
def out0_B_4 (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : ¬cond0_0 i)
    (x0 : Vec F S1x19x76x3x85 .f32) (x1 : Vec F S1x19x76x3x85 .f32) (x2 : Vec F S1x150x4 .f32) (x3 : Vec F S3x2 .f32) (xo4 : Vec F S1x1x128 .f32) : Vec F S1x1x128 .f32 :=
  VO0_4.read (Elt F) (VO0_4.writes (Elt F) VO0_4.junk (kernelRun0_B c i arg2 harg2 arg3 harg3 arg4 harg4 arg5 harg5 arg6 harg6 hc0 x0 x1 x2 x3 xo4).1)

/-! ## What the output block holds after each point -/

/-- THE ACCUMULATION. What the output's staging buffer holds after the body at position `n` of the grid: at a position
    divisible by four the zeroing case's contents over that point's input blocks; elsewhere the accumulating case's, over
    what the position before left (the buffer is not written back between the two). -/
def outsAt0 (c : Dev nD) : (n : ℕ) → n < cfg0.N → Vec F S1x1x128 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 4 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- At a point divisible by four: the zeroing case's contents. -/
theorem outsAt0_A (c : Dev nD) (t : Fin cfg0.N) (h0 : t.val % 4 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- At any other point: the accumulating case's contents, over what the point before left. -/
theorem outsAt0_B (c : Dev nD) (t : Fin cfg0.N) (h0 : ¬t.val % 4 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- The proof data of the region on core `c`: the arrays as the region finds them; after the body at point `t` each
    input's buffer still at its block and the output's at `outsAt0`; the invariant is the scoped rest and the generator
    register, which the body neither uses nor describes; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q _ := fullShare
  owed _ := 0

/-- The proof data's arrays are the region-entry contents (by projection, never unfolding those contents). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

/-- Each input's current staging buffer holds its block at every point, fetched there or kept. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a point not divisible by four the output's current staging buffer holds what the body left at the point before:
    the point is not the first, and the block is written back only at the points that are 3 modulo 4, so the point
    before (which is then not 3 modulo 4) did not write it back. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; the point is divisible by four or not, which selects
    the case; where the block accumulates, the output's buffer holds what the point before left; so the case's run
    applies, the invariant passes through untouched, and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 4 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- For any values, from any memory with zero counters: every weakly fair execution of the program on the TensorCores
    terminates without a fault, and every final state has every array of the region at what the library computes from
    the proof data, and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to its end from any memory and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.KFrame

end
-- ==== Proof.KTile.lean ====
/-
  What one grid point adds to its image's row of partial sums, as one pure function of what the body loads: the raw
  block, the label block, the image's ground-truth boxes, the anchor table, and the row as the point finds it.
  Every intermediate is the corresponding value of the kernel's body, in the body's order.
-/
import proofs.«179941_j67783173865496_2_alg».proof.Proof.Gen.KernelIdeal.Skeleton

noncomputable section

namespace Cert.KernelIdeal.KTile

open Cert.KernelIdeal Cert.KernelIdeal.Gen Idealize.ShloMosaic

variable {F : FTy → Type} [FloatOps F]

/-- The sum of the box terms over the tile, as a [1, 1] array. -/
def boxSum (i : grid0.Coords) (v3 v5 : Vec F S1x19x76x3x85 .f32) (v9 : Vec F S3x2 .f32) : FVec F S1x1 .f32 :=
  let v6 := k0_pay4 v5
  let v11 := k0_pay6 v3
  let v34 := k0_pay9 i v3
  let v35 := k0_pay10 v9
  k0_pay35 (k0_pay15 v11 v35) (k0_pay16 v11 v35) (k0_pay18 v6) (k0_pay22 v6) (k0_pay23 v6)
    (k0_pay24 v11 v34 v35) (k0_pay25 v11 v34 v35) (k0_pay26 v11 v34 v35) (k0_pay27 v11 v34 v35)
    (k0_pay28 v6) (k0_pay29 v6) (k0_pay30 v6) (k0_pay31 v6) (k0_pay32 v6 v11 v34 v35) (k0_pay33 (F := F))

/-- The sum of the confidence terms over the tile. -/
def confSum (i : grid0.Coords) (v3 v5 : Vec F S1x19x76x3x85 .f32) (v7 : Vec F S1x150x4 .f32) (v9 : Vec F S3x2 .f32) :
    FVec F S1x1 .f32 :=
  let v6 := k0_pay4 v5
  let v8 := k0_pay5 v7
  let v11 := k0_pay6 v3
  let v12 := k0_pay7 v3
  let v34 := k0_pay9 i v3
  let v35 := k0_pay10 v9
  let v49 := k0_pay18 v6
  k0_pay43 v12 (k0_pay12 v12) v49 (k0_pay41 v49)
    (k0_pay42 (k0_pay24 v11 v34 v35) (k0_pay25 v11 v34 v35) (k0_pay26 v11 v34 v35) (k0_pay27 v11 v34 v35)
      (k0_pay34 (k0_pay15 v11 v35) (k0_pay16 v11 v35)) (k0_pay36 v8) (k0_pay37 v8) (k0_pay38 v8) (k0_pay39 v8) (k0_pay40 v8))

/-- The sum of the class terms over the tile. -/
def classSum (v3 v5 : Vec F S1x19x76x3x85 .f32) : FVec F S1x1 .f32 :=
  let v6 := k0_pay4 v5
  k0_pay44 (k0_pay8 v3) (k0_pay18 v6) (k0_pay19 v6)

/-- The row after the point: the row before it with the three sums added in lanes 0, 1 and 2. -/
def tileOut (i : grid0.Coords) (v3 v5 : Vec F S1x19x76x3x85 .f32) (v7 : Vec F S1x150x4 .f32) (v9 : Vec F S3x2 .f32)
    (prev : Vec F S1x1x128 .f32) : FVec F S1x1x128 .f32 :=
  k0_pay1 (confSum i v3 v5 v7 v9) (classSum v3 v5) (iota .tc S1x128 32 [1] iota_S1x128_d1_w32)
    (k0_pay45 (boxSum i v3 v5 v9)) (k0_pay46) prev

end Cert.KernelIdeal.KTile

end
-- ==== Proof.KFramePieces.lean ====
import proofs.«179941_j67783173865496_2_alg».proof.Proof.KFrame
import proofs.«179941_j67783173865496_2_alg».proof.Proof.KTile
import Idealize.ShloMosaic.Lib.Pipeline.Value

-- membership in a rectangle of the blocks' extents recurses once per coordinate of the long axes
set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The all-zero offsets of the whole-block loads and stores, at each rank met. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- WHERE THE BLOCK IS ZEROED the output's staging buffer ends at the point's row function applied to the zero row:
    the last store covers the block, and the row it adds to is the zero store read back. Every load of a whole input
    buffer reads that buffer's contents. -/
theorem out0_A_4_eq (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : cond0_0 i)
    (x0 : Vec F S1x19x76x3x85 .f32) (x1 : Vec F S1x19x76x3x85 .f32) (x2 : Vec F S1x150x4 .f32) (x3 : Vec F S3x2 .f32) :
    out0_A_4 c i arg2 harg2 arg3 harg3 arg4 harg4 arg5 harg5 arg6 harg6 hc0 x0 x1 x2 x3 = KTile.tileOut i x0 x1 x2 x3 (k0_pay2 (F := F)) := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_run_names
  rw [View.canon_cons_unit_zero (S := S1x1x128) hz3]
  rw [View.readCov_unit_zero (S := S1x1x128) _ hz3]
  simp only [View.readAt_eq_ld, harg2.read_unread, harg3.read_unread, harg4.read_unread, harg5.read_unread,
    View.ld_unit_zero (S := S1x19x76x3x85) hz5, View.ld_unit_zero (S := S1x150x4) hz3, View.ld_unit_zero (S := S3x2) hz2]
  unfold KTile.tileOut KTile.confSum KTile.classSum KTile.boxSum
  rfl

/-- WHERE THE BLOCK ACCUMULATES the output's staging buffer ends at the point's row function applied to the row the
    buffer held on entry: the one store covers the block, and every load of a whole buffer reads its contents. -/
theorem out0_B_4_eq (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : ¬cond0_0 i)
    (x0 : Vec F S1x19x76x3x85 .f32) (x1 : Vec F S1x19x76x3x85 .f32) (x2 : Vec F S1x150x4 .f32) (x3 : Vec F S3x2 .f32) (xo4 : Vec F S1x1x128 .f32) :
    out0_B_4 c i arg2 harg2 arg3 harg3 arg4 harg4 arg5 harg5 arg6 harg6 hc0 x0 x1 x2 x3 xo4 = KTile.tileOut i x0 x1 x2 x3 xo4 := by
  unfold out0_B_4
  rw [View.read_writes_eq_canon _ _ _ (cover0_B_4 c i arg2 harg2 arg3 harg3 arg4 harg4 arg5 harg5 arg6 harg6 hc0 x0 x1 x2 x3 xo4)]
  unfold kernelRun0_B
  dsimp only
  sl_unfold_run_names
  rw [View.canon_unit_zero (S := S1x1x128) hz3]
  simp only [View.readAt_eq_ld, harg2.read_unread, harg3.read_unread, harg4.read_unread, harg5.read_unread,
    View.ld_unit_zero (S := S1x19x76x3x85) hz5, View.ld_unit_zero (S := S1x150x4) hz3, View.ld_unit_zero (S := S3x2) hz2, harg6.read_unread, View.ld_unit_zero (S := S1x1x128) hz3]
  unfold KTile.tileOut KTile.confSum KTile.classSum KTile.boxSum
  rfl

end Cert.KernelIdeal.KFrame

end
-- ==== Proof.LibLine.lean ====
/- A straight line of host operations in single-assignment form: every operation writes one buffer, and a
   buffer read by an operation is never written at or after it. Then the contents a buffer holds after the whole
   line are what its own operation computes from the contents its operands hold after the whole line. -/
import Idealize.ShloMosaic.Lib.StableHlo.Run
import Idealize.ShloMosaic.Lib.Pipeline.Frame

namespace Cert.LibLine

open Idealize.ShloMosaic Idealize.ShloMosaic.TcCoe Idealize.ShloMosaic.StableHlo

variable {τ : Topo} {sig : RefSig} {Val : EltTy → Type}

/-- Operation by operation, the line `ops` writes exactly the references `outs`. -/
abbrev WritesAre (ops : List (HloOp τ sig Val)) (outs : List (Ref sig .tc)) : Prop :=
  List.Forall₂ (fun op y => op.writes = {Proc.devRef (τ := τ) .tc y}) ops outs

/-- A reference that is not among the written ones keeps its contents. -/
theorem after_of_writesAre {ops : List (HloOp τ sig Val)} {outs : List (Ref sig .tc)} (h : WritesAre ops outs)
    (V : Valuation τ sig Val) {r : Ref sig .tc} (hr : r ∉ outs) :
    after ops V (Proc.devRef .tc r) = V (Proc.devRef .tc r) := by
  induction h generalizing V with
  | nil => rfl
  | @cons op y ops' outs' hw _ ih =>
    rw [after_cons, ih _ (fun hm => hr (List.mem_cons_of_mem _ hm)), HloOp.result_of_not_mem]
    rw [hw, Finset.mem_singleton]
    exact devRef_ne_of_ne (fun e => hr (e ▸ List.mem_cons_self))

/-- A reference written by none of the operations from position `k` on holds, after the whole line, what it
    holds after the first `k` operations. -/
theorem after_eq_take {ops : List (HloOp τ sig Val)} {outs : List (Ref sig .tc)} (h : WritesAre ops outs) (k : Nat)
    (V : Valuation τ sig Val) {r : Ref sig .tc} (hr : r ∉ outs.drop k) :
    after ops V (Proc.devRef .tc r) = after (ops.take k) V (Proc.devRef .tc r) := by
  conv_lhs => rw [← List.take_append_drop k ops]
  rw [StableHlo.after_append]
  exact after_of_writesAre (List.forall₂_drop k h) _ hr

/-- The contents after the first `k + 1` operations, at the `k`-th operation. -/
theorem after_take_succ {ops : List (HloOp τ sig Val)} {k : Nat} {op : HloOp τ sig Val} (hk : ops[k]? = some op)
    (V : Valuation τ sig Val) : after (ops.take (k + 1)) V = op.result (after (ops.take k) V) := by
  rw [List.take_succ, hk, StableHlo.after_append]; rfl

section Stages

variable {ops : List (HloOp τ sig Val)} {outs : List (Ref sig .tc)} (h : WritesAre ops outs) (k : Nat)
include h

/-- The stage of a constant. -/
theorem stage_nullary (y : Ref sig .tc) (v : y.ty.Contents Val) {hy}
    (hk : ops[k]? = some (nullary y v hy)) (hy' : y ∉ outs.drop (k + 1)) (V : Valuation τ sig Val) :
    after ops V (Proc.devRef .tc y) = v := by
  rw [after_eq_take h (k + 1) V hy', after_take_succ hk]; exact nullary_result ..

/-- The stage of a one-operand operation. -/
theorem stage_unary (x y : Ref sig .tc) (f : x.ty.Contents Val → y.ty.Contents Val) {hx hy}
    (hk : ops[k]? = some (unary x y f hx hy)) (hy' : y ∉ outs.drop (k + 1)) (hx' : x ∉ outs.drop k)
    (V : Valuation τ sig Val) :
    after ops V (Proc.devRef .tc y) = f (after ops V (Proc.devRef .tc x)) := by
  rw [after_eq_take h (k + 1) V hy', after_eq_take h k V hx', after_take_succ hk]; exact unary_result ..

/-- The stage of a two-operand operation. -/
theorem stage_binary (a b y : Ref sig .tc) (f : a.ty.Contents Val → b.ty.Contents Val → y.ty.Contents Val) {ha hb hy}
    (hk : ops[k]? = some (binary a b y f ha hb hy)) (hy' : y ∉ outs.drop (k + 1)) (ha' : a ∉ outs.drop k)
    (hb' : b ∉ outs.drop k) (V : Valuation τ sig Val) :
    after ops V (Proc.devRef .tc y) = f (after ops V (Proc.devRef .tc a)) (after ops V (Proc.devRef .tc b)) := by
  rw [after_eq_take h (k + 1) V hy', after_eq_take h k V ha', after_eq_take h k V hb', after_take_succ hk]
  exact binary_result ..

/-- The stage of a reshape. -/
theorem stage_reshape (x y : Ref sig .tc) (he : x.ty.elt = y.ty.elt) (hn : x.ty.shape.ShapeCasts y.ty.shape) {hx hy}
    (hk : ops[k]? = some (reshape x y he hn hx hy)) (hy' : y ∉ outs.drop (k + 1)) (hx' : x ∉ outs.drop k)
    (V : Valuation τ sig Val) :
    after ops V (Proc.devRef .tc y) = fun i => he ▸ shapeCast y.ty.shape (after ops V (Proc.devRef .tc x)) hn i := by
  rw [after_eq_take h (k + 1) V hy', after_eq_take h k V hx', after_take_succ hk]; exact reshape_result ..

/-- The stage of an operation over a family of operands. -/
theorem stage_nary {n : Nat} (xs : Fin n → Ref sig .tc) (y : Ref sig .tc)
    (f : ((j : Fin n) → (xs j).ty.Contents Val) → y.ty.Contents Val) {hxs hy}
    (hk : ops[k]? = some (nary xs y f hxs hy)) (hy' : y ∉ outs.drop (k + 1)) (hxs' : ∀ j, xs j ∉ outs.drop k)
    (V : Valuation τ sig Val) :
    after ops V (Proc.devRef .tc y) = f (fun j => after ops V (Proc.devRef .tc (xs j))) := by
  rw [after_eq_take h (k + 1) V hy', after_take_succ hk, nary_result]
  exact congrArg f (funext fun j => (after_eq_take h k V (hxs' j)).symm)

end Stages

end Cert.LibLine
-- ==== Proof.KTail.lean ====
/-
  The lines after the region: from the [16, 1, 128] array of partial sums, lane q of every image's row is taken, the
  sixteen of them are added from zero and divided by sixteen, for q = 0, 1, 2, and the three averages are laid end to end.
-/
import proofs.«179941_j67783173865496_2_alg».proof.Proof.Gen.KernelIdeal.Launch
import proofs.«179941_j67783173865496_2_alg».proof.Proof.LibLine
import Idealize.ShloMosaic.Lib.StableHlo.Run

noncomputable section

namespace Cert.KernelIdeal.KTail

open Cert.KernelIdeal Cert.KernelIdeal.Gen
open Idealize.ShloMosaic Idealize.ShloMosaic.TcCoe Idealize.SL.Sem Idealize.ShloMosaic.StableHlo

variable {F : FTy → Type} [FloatOps F]

/-- The buffers the lines write, in order. -/
abbrev outsT : List (Ref sig .tc) := [main_v2, main_v3, main_cst_0, main_v4, main_cst_1, main_v5, main_v6, main_v7, main_cst_2, main_v8, main_cst_3, main_v9, main_v10, main_v11, main_cst_4, main_v12, main_cst_5, main_v13, main_v14, main_v15, main_v16, main_v17]

/-- Each line writes its own buffer and no other. -/
theorem writesT : Cert.LibLine.WritesAre (τ := τ) (hostOps1 : List (HloOp τ sig (Elt F))) outsT :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))

/-- One average: the lane at offset `off` of every row, the sixteen added from zero, divided by sixteen, as a one-entry array. -/
def avg (out : FVec F S16x1x128 .f32) (off : Fin 3 → Nat) (hs : S16x1x128.Slices off S16x1x1) : FVec F S1 .f32 :=
  broadcastInDim S1 ![] bcast_S_S1
    (Host.divf
      (Host.reduceAdd (shapeCast S16 (extractStridedSlice S16x1x1 off out hs) shapeCasts_S16x1x1_S16)
        (constant S_ .f32 0x00000000#32) reducesTo_S16_S_d0 h_S_)
      (constant S_ .f32 0x41800000#32))

/-- The three averages, end to end. -/
def tailK (out : FVec F S16x1x128 .f32) : FVec F S3 .f32 :=
  concatenate S3 0 [⟨S1, avg out ![0, 0, 0] slices_S16x1x128_S16x1x1_0_0_0⟩, ⟨S1, avg out ![0, 0, 1] slices_S16x1x128_S16x1x1_0_0_1⟩,
    ⟨S1, avg out ![0, 0, 2] slices_S16x1x128_S16x1x1_0_0_2⟩] concatenates_S1_S1_S1_S3_d0

theorem a14 (W : Valuation τ sig (Elt F)) :
    after (hostOps1 : List (HloOp τ sig (Elt F))) W (Proc.devRef .tc main_v14) = avg (W (Proc.devRef .tc main_v1)) ![0, 0, 0] slices_S16x1x128_S16x1x1_0_0_0 := by
  after_results
  rfl
theorem a15 (W : Valuation τ sig (Elt F)) :
    after (hostOps1 : List (HloOp τ sig (Elt F))) W (Proc.devRef .tc main_v15) = avg (W (Proc.devRef .tc main_v1)) ![0, 0, 1] slices_S16x1x128_S16x1x1_0_0_1 := by
  after_results
  rfl
theorem a16 (W : Valuation τ sig (Elt F)) :
    after (hostOps1 : List (HloOp τ sig (Elt F))) W (Proc.devRef .tc main_v16) = avg (W (Proc.devRef .tc main_v1)) ![0, 0, 2] slices_S16x1x128_S16x1x1_0_0_2 := by
  after_results
  rfl

/-- After the lines, the result buffer holds the three averages of the array of partial sums. -/
theorem tail_eq (W : Valuation τ sig (Elt F)) :
    after (hostOps1 : List (HloOp τ sig (Elt F))) W (Proc.devRef .tc main_v17) = tailK (W (Proc.devRef .tc main_v1)) := by
  rw [Cert.LibLine.stage_nary writesT 21 ![main_v14, main_v15, main_v16] main_v17 _ (hk := rfl) (by decide) (by decide) W]
  show concatenate S3 0 [⟨S1, after hostOps1 W (Proc.devRef .tc main_v14)⟩, ⟨S1, after hostOps1 W (Proc.devRef .tc main_v15)⟩,
    ⟨S1, after hostOps1 W (Proc.devRef .tc main_v16)⟩] concatenates_S1_S1_S1_S3_d0 = _
  rw [a14, a15, a16]
  rfl

end Cert.KernelIdeal.KTail

end
-- ==== Proof.KArr.lean ====
import proofs.«179941_j67783173865496_2_alg».proof.Proof.KFramePieces
import proofs.«179941_j67783173865496_2_alg».proof.Proof.KTail
import Idealize.ShloMosaic.Lib.ValueIdx
import Idealize.ShloMosaic.Lib.Pipeline.Value

set_option maxRecDepth 16384

noncomputable section

namespace Cert.KernelIdeal.KArr

open Cert.KernelIdeal Cert.KernelIdeal.Gen Cert.KernelIdeal.KFrame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The row of partial sums after each grid point

Point `t` has coordinates `(t / 4, t % 4)`: image `t / 4`, quarter `t % 4` of its rows. The image's row of partial
sums is zeroed at the first quarter and added to at every quarter. -/

/-- The row the output's staging buffer holds after the body at position `n`: the point's row function applied to the
    zero row where the position is divisible by four, and to the row after the position before elsewhere. -/
def rowAt (c : Dev nD) : (n : ℕ) → n < cfg0.N → Vec F S1x1x128 .f32
  | 0, h => KTile.tileOut (grid0.coords ⟨0, h⟩) (iblk m c 0 ⟨0, h⟩) (iblk m c 1 ⟨0, h⟩) (iblk m c 2 ⟨0, h⟩) (iblk m c 3 ⟨0, h⟩) (k0_pay2 (F := F))
  | n + 1, h =>
    if (n + 1) % 4 = 0 then KTile.tileOut (grid0.coords ⟨n + 1, h⟩) (iblk m c 0 ⟨n + 1, h⟩) (iblk m c 1 ⟨n + 1, h⟩) (iblk m c 2 ⟨n + 1, h⟩) (iblk m c 3 ⟨n + 1, h⟩) (k0_pay2 (F := F))
    else KTile.tileOut (grid0.coords ⟨n + 1, h⟩) (iblk m c 0 ⟨n + 1, h⟩) (iblk m c 1 ⟨n + 1, h⟩) (iblk m c 2 ⟨n + 1, h⟩) (iblk m c 3 ⟨n + 1, h⟩) (rowAt c n (Nat.lt_of_succ_lt h))

/-- At a point divisible by four the row starts afresh. -/
theorem rowAt_reset (c : Dev nD) (t : Fin cfg0.N) (h0 : t.val % 4 = 0) :
    rowAt m c t.val t.isLt = KTile.tileOut (grid0.coords t) (iblk m c 0 t) (iblk m c 1 t) (iblk m c 2 t) (iblk m c 3 t) (k0_pay2 (F := F)) := by
  obtain ⟨n, hn⟩ := t
  cases n with
  | zero => rfl
  | succ n => exact if_pos h0

/-- At any other point the row is the point's function of the row after the point before. -/
theorem rowAt_step (c : Dev nD) (t : Fin cfg0.N) (h0 : ¬t.val % 4 = 0) :
    rowAt m c t.val t.isLt = KTile.tileOut (grid0.coords t) (iblk m c 0 t) (iblk m c 1 t) (iblk m c 2 t) (iblk m c 3 t) (rowAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The row depends on the position only, not on the proof that the position is in the grid. -/
theorem rowAt_congr (c : Dev nD) {n n' : ℕ} (e : n = n') (h : n < cfg0.N) (h' : n' < cfg0.N) : rowAt m c n h = rowAt m c n' h' := by
  subst e; rfl

/-- What the output's staging buffer holds after each point IS that row: by induction on the point, each case of the
    body read as the point's row function. -/
theorem outsAt_eq (c : Dev nD) : ∀ (n : ℕ) (h : n < cfg0.N), outsAt0 m c n h = rowAt m c n h
  | 0, h => (outsAt0_A m c ⟨0, h⟩ rfl).trans
      (out0_A_4_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (iblk m c 0 ⟨0, h⟩) (iblk m c 1 ⟨0, h⟩) (iblk m c 2 ⟨0, h⟩) (iblk m c 3 ⟨0, h⟩))
  | n + 1, h => by
    by_cases h0 : (n + 1) % 4 = 0
    · exact ((outsAt0_A m c ⟨n + 1, h⟩ h0).trans
        (out0_A_4_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) ((hcond0_0 ⟨n + 1, h⟩).mpr h0) (iblk m c 0 ⟨n + 1, h⟩) (iblk m c 1 ⟨n + 1, h⟩) (iblk m c 2 ⟨n + 1, h⟩) (iblk m c 3 ⟨n + 1, h⟩))).trans (if_pos h0).symm
    · refine ((outsAt0_B m c ⟨n + 1, h⟩ h0).trans
        (out0_B_4_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) _)).trans ?_
      refine Eq.trans ?_ (if_neg h0).symm
      exact congrArg (KTile.tileOut (grid0.coords ⟨n + 1, h⟩) (iblk m c 0 ⟨n + 1, h⟩) (iblk m c 1 ⟨n + 1, h⟩) (iblk m c 2 ⟨n + 1, h⟩) (iblk m c 3 ⟨n + 1, h⟩)) (outsAt_eq c n _)

/-! ## The result array

The output window's block at point `t` is row `t / 4` of the `[16, 1, 128]` array, and the block is written back at
the points that are 3 modulo 4 only: row `b` of the array ends holding the row after point `4 b + 3`. -/

/-- The result array of the region: row `b` is the row of partial sums after the last quarter of image `b`. -/
def outArr (c : Dev nD) : FVec F S16x1x128 .f32 := fun idx =>
  rowAt m c (4 * (idx 0).val + 3) (by have h : (idx 0).val < 16 := (idx 0).isLt; have hN : cfg0.N = 64 := N_0; omega)
    (ValueIdx.ix3 (0 : Fin 1) (0 : Fin 1) (idx 2 : Fin 128))

/-- The output window's block index at a point: the image's number on the first axis, zero on the others. -/
theorem idx_facts4 : ∀ t : Fin cfg0.N, win0_4.index t (0 : Fin 3) = t.val / 4 ∧ win0_4.index t (1 : Fin 3) = 0 ∧ win0_4.index t (2 : Fin 3) = 0 :=
  (by decide +kernel : ∀ t : Fin grid0.N, win0_4.index t (0 : Fin 3) = t.val / 4 ∧ win0_4.index t (1 : Fin 3) = 0 ∧ win0_4.index t (2 : Fin 3) = 0)

/-- What a point that writes back writes is its block of the result array. -/
theorem flushed_eq (c : Dev nD) (t : Fin cfg0.N) (hf : (cfg0.win 4).flush t = true) :
    (dats m 0 c).flushed 4 t = ((cfg0.win 4).blk t).view.read (Elt F) (outArr m c) := by
  have hN : cfg0.N = 64 := N_0
  have h3 : t.val % 4 = 3 := (flush0_4 t).mp hf
  have hlt : t.val < 64 := lt_of_lt_of_eq t.isLt hN
  obtain ⟨e0, e1, e2⟩ := idx_facts4 t
  show (cfg0.win 4).cut (grid0.coords t) ((dats m 0 c).after 4 t) = _
  rw [after0_4, outsAt_eq]
  funext j
  rw [View.read_apply]
  have hj0 : (j 0).val < 1 := (j 0).isLt
  have hj1 : (j 1).val < 1 := (j 1).isLt
  have he : ((cfg0.win 4).blk t).view.emb j = ValueIdx.ix3 (⟨t.val / 4, by omega⟩ : Fin 16) (0 : Fin 1) (j 2 : Fin 128) := by
    funext a; apply Fin.ext
    match a with
    | ⟨0, _⟩ => show win0_4.index t (0 : Fin 3) * 1 + 1 * (j 0).val = t.val / 4; omega
    | ⟨1, _⟩ => show win0_4.index t (1 : Fin 3) * 1 + 1 * (j 1).val = 0; omega
    | ⟨2, _⟩ => show win0_4.index t (2 : Fin 3) * 128 + 1 * (j 2).val = (j 2).val; omega
  rw [he]
  show rowAt m c t.val t.isLt j = rowAt m c (4 * (t.val / 4) + 3) _ (ValueIdx.ix3 (0 : Fin 1) (0 : Fin 1) (j 2 : Fin 128))
  rw [rowAt_congr m c (show 4 * (t.val / 4) + 3 = t.val by omega) _ t.isLt]
  refine congrArg (rowAt m c t.val t.isLt) ?_
  funext a
  match a with
  | ⟨0, _⟩ => exact Fin.ext (by show (j 0).val = 0; omega)
  | ⟨1, _⟩ => exact Fin.ext (by show (j 1).val = 0; omega)
  | ⟨2, _⟩ => rfl

/-- An index of the array lies in point `t`'s block iff each coordinate lies in the block's range on its axis. -/
theorem mem_blk4 (t : Fin cfg0.N) (i : S16x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v1).slice (win0_4.rect t)).set ↔ _
  rw [View.set_slice_whole, Rect.mem_set_unit]
  exact Iff.rfl

/-- THE RESULT ARRAY after the region: every index `(b, 0, l)` lies in the block of point `4 b + 3`, which writes back. -/
theorem final_o (c : Dev nD) : (dats m 0 c).arrAt 4 cfg0.N = outArr m c :=
  (dats m 0 c).arrAt_eq_of_cover 4 (outArr m c) (flushed_eq m c) fun i => by
    have hN : cfg0.N = 64 := N_0
    have h0 : (i 0 : Nat) < 16 := (i 0).isLt
    have h1 : (i 1 : Nat) < 1 := (i 1).isLt
    have h2 : (i 2 : Nat) < 128 := (i 2).isLt
    obtain ⟨t, ht⟩ : ∃ t : Fin cfg0.N, t.val = 4 * (i 0 : Nat) + 3 := ⟨⟨4 * (i 0 : Nat) + 3, by omega⟩, rfl⟩
    obtain ⟨e0, e1, e2⟩ := idx_facts4 t
    refine ⟨t, (flush0_4 t).mpr (by omega), ?_⟩
    rw [mem_blk4]
    intro a
    match a with
    | ⟨0, _⟩ => show win0_4.index t (0 : Fin 3) * 1 ≤ (i 0 : Nat) ∧ (i 0 : Nat) < win0_4.index t (0 : Fin 3) * 1 + 1; omega
    | ⟨1, _⟩ => show win0_4.index t (1 : Fin 3) * 1 ≤ (i 1 : Nat) ∧ (i 1 : Nat) < win0_4.index t (1 : Fin 3) * 1 + 1; omega
    | ⟨2, _⟩ => show win0_4.index t (2 : Fin 3) * 128 ≤ (i 2 : Nat) ∧ (i 2 : Nat) < win0_4.index t (2 : Fin 3) * 128 + 128; omega

/-! ## The whole program's run, with the operations after the region -/

/-- The program's result buffer is no array of the region; after the operations that follow the region it holds those
    operations' function of the region's result array. -/
theorem tail_v17 (c : Dev nD) :
    Pipeline.afterTail₀ cfgs (dats m) 0 (V0 m) [hostOps1] c main_v17 = KTail.tailK (outArr m c) := by
  unfold Pipeline.afterTail₀
  show StableHlo.after hostOps1 _ (Proc.devRef .tc main_v17) = _
  rw [KTail.tail_eq]
  refine congrArg KTail.tailK ?_
  exact (Pipeline.withArrays_arr spec0 launch0.win.arr_inj c _ _ 4).trans (final_o m c)

/-- THE RUN, READ: from any memory with zero counters every weakly fair execution of the program terminates without a
    fault, with the result buffer at the later operations' function of the result array and the three argument arrays
    as launched. -/
theorem run_tail : θ_run defs (onTc (τ := τ) (main (F := F))) ⟨m, fun _ => 0, ρ⟩ fun r => ∀ c : Dev nD,
      r.2.mem ((c.tc : Thread nD τ).loc main_v17) = KTail.tailK (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v17 (Pipeline.mem_restRefs_of main_v17 (by decide) (by decide))).trans (tail_v17 m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.KernelIdeal.KArr

end
-- ==== Proof.KBlocks.lean ====
import proofs.«179941_j67783173865496_2_alg».proof.Proof.KFrameRuns
import Idealize.ShloMosaic.Lib.ValueIdx
import Idealize.ShloMosaic.Lib.Pipeline.Value
import Idealize.ShloMosaic.Lib.StableHlo.Run

set_option maxRecDepth 16384

noncomputable section

namespace Cert.KernelIdeal.KArr

open Cert.KernelIdeal Cert.KernelIdeal.Gen Cert.KernelIdeal.KFrame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

variable (m : (ℓ : Loc nD τ sig) → Buf (Elt F) ℓ) (ρ : Dev nD → PrngReg)
/-! ## The windows' blocks as entries of the arrays

Point `t` has coordinates `(t / 4, t % 4)`. The first two windows' block at `t` is rows `19 (t % 4) … 19 (t % 4) + 18`
of image `t / 4`; the third window's is the boxes of image `t / 4`; the fourth is the whole anchor table. -/

/-- The grid coordinates of a point. -/
theorem coords_val : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

/-- The image a point works on. -/
abbrev bq (t : Fin cfg0.N) : Fin 16 :=
  ⟨t.val / 4, by have h : t.val < 64 := lt_of_lt_of_eq t.isLt (show cfg0.N = 64 from N_0); omega⟩
/-- Row `i'` of the point's quarter, as a row of the image. -/
abbrev iq (t : Fin cfg0.N) (i' : Fin 19) : Fin 76 :=
  ⟨19 * (t.val % 4) + i'.val, by have h := i'.isLt; omega⟩

/-- The block indices of the three windows that move with the point, decided over the grid. -/
theorem idx_facts0 : ∀ t : Fin cfg0.N, win0_0.index t (0 : Fin 5) = t.val / 4 ∧ win0_0.index t (1 : Fin 5) = t.val % 4
    ∧ win0_0.index t (2 : Fin 5) = 0 ∧ win0_0.index t (3 : Fin 5) = 0 ∧ win0_0.index t (4 : Fin 5) = 0 :=
  (by decide +kernel : ∀ t : Fin grid0.N, win0_0.index t (0 : Fin 5) = t.val / 4 ∧ win0_0.index t (1 : Fin 5) = t.val % 4
    ∧ win0_0.index t (2 : Fin 5) = 0 ∧ win0_0.index t (3 : Fin 5) = 0 ∧ win0_0.index t (4 : Fin 5) = 0)
theorem idx_facts1 : ∀ t : Fin cfg0.N, win0_1.index t (0 : Fin 5) = t.val / 4 ∧ win0_1.index t (1 : Fin 5) = t.val % 4
    ∧ win0_1.index t (2 : Fin 5) = 0 ∧ win0_1.index t (3 : Fin 5) = 0 ∧ win0_1.index t (4 : Fin 5) = 0 :=
  (by decide +kernel : ∀ t : Fin grid0.N, win0_1.index t (0 : Fin 5) = t.val / 4 ∧ win0_1.index t (1 : Fin 5) = t.val % 4
    ∧ win0_1.index t (2 : Fin 5) = 0 ∧ win0_1.index t (3 : Fin 5) = 0 ∧ win0_1.index t (4 : Fin 5) = 0)
theorem idx_facts2 : ∀ t : Fin cfg0.N, win0_2.index t (0 : Fin 3) = t.val / 4 ∧ win0_2.index t (1 : Fin 3) = 0 ∧ win0_2.index t (2 : Fin 3) = 0 :=
  (by decide +kernel : ∀ t : Fin grid0.N, win0_2.index t (0 : Fin 3) = t.val / 4 ∧ win0_2.index t (1 : Fin 3) = 0 ∧ win0_2.index t (2 : Fin 3) = 0)
theorem idx_facts3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- An entry of the first window's block is the entry of the reshaped first argument at the image and the image's row. -/
theorem iblk0_apply (c : Dev nD) (t : Fin cfg0.N) (i' : Fin 19) (j : Fin 76) (a : Fin 3) (k : Fin 85) :
    iblk m c 0 t (ValueIdx.ix5 (0 : Fin 1) i' j a k) = V m c main_v0 (ValueIdx.ix5 (bq t) (iq t i') j a k) := by
  obtain ⟨e0, e1, e2, e3, e4⟩ := idx_facts0 t
  have hi := i'.isLt
  unfold iblk
  rw [View.read_apply]
  show V m c main_v0 _ = V m c main_v0 _
  refine congrArg (V m c main_v0) ?_
  funext x; apply Fin.ext
  match x with
  | ⟨0, _⟩ => show win0_0.index t (0 : Fin 5) * 1 + 1 * (0 : Fin 1).val = t.val / 4; rw [e0]; simp
  | ⟨1, _⟩ => show win0_0.index t (1 : Fin 5) * 19 + 1 * i'.val = 19 * (t.val % 4) + i'.val; omega
  | ⟨2, _⟩ => show win0_0.index t (2 : Fin 5) * 76 + 1 * j.val = j.val; omega
  | ⟨3, _⟩ => show win0_0.index t (3 : Fin 5) * 3 + 1 * a.val = a.val; omega
  | ⟨4, _⟩ => show win0_0.index t (4 : Fin 5) * 85 + 1 * k.val = k.val; omega

/-- An entry of the second window's block is the second argument's entry at the image and the image's row. -/
theorem iblk1_apply (c : Dev nD) (t : Fin cfg0.N) (i' : Fin 19) (j : Fin 76) (a : Fin 3) (k : Fin 85) :
    iblk m c 1 t (ValueIdx.ix5 (0 : Fin 1) i' j a k) = m ((c.tc : Thread nD τ).loc main_arg1) (ValueIdx.ix5 (bq t) (iq t i') j a k) := by
  obtain ⟨e0, e1, e2, e3, e4⟩ := idx_facts1 t
  have hi := i'.isLt
  unfold iblk
  rw [View.read_apply]
  show V m c main_arg1 _ = _
  rw [V_main_arg1]
  refine congrArg (m ((c.tc : Thread nD τ).loc main_arg1)) ?_
  funext x; apply Fin.ext
  match x with
  | ⟨0, _⟩ => show win0_1.index t (0 : Fin 5) * 1 + 1 * (0 : Fin 1).val = t.val / 4; rw [e0]; simp
  | ⟨1, _⟩ => show win0_1.index t (1 : Fin 5) * 19 + 1 * i'.val = 19 * (t.val % 4) + i'.val; omega
  | ⟨2, _⟩ => show win0_1.index t (2 : Fin 5) * 76 + 1 * j.val = j.val; omega
  | ⟨3, _⟩ => show win0_1.index t (3 : Fin 5) * 3 + 1 * a.val = a.val; omega
  | ⟨4, _⟩ => show win0_1.index t (4 : Fin 5) * 85 + 1 * k.val = k.val; omega

/-- An entry of the third window's block is the third argument's entry at the image. -/
theorem iblk2_apply (c : Dev nD) (t : Fin cfg0.N) (g : Fin 150) (cc : Fin 4) :
    iblk m c 2 t (ValueIdx.ix3 (0 : Fin 1) g cc) = m ((c.tc : Thread nD τ).loc main_arg2) (ValueIdx.ix3 (bq t) g cc) := by
  obtain ⟨e0, e1, e2⟩ := idx_facts2 t
  unfold iblk
  rw [View.read_apply]
  show V m c main_arg2 _ = _
  rw [V_main_arg2]
  refine congrArg (m ((c.tc : Thread nD τ).loc main_arg2)) ?_
  funext x; apply Fin.ext
  match x with
  | ⟨0, _⟩ => show win0_2.index t (0 : Fin 3) * 1 + 1 * (0 : Fin 1).val = t.val / 4; rw [e0]; simp
  | ⟨1, _⟩ => show win0_2.index t (1 : Fin 3) * 150 + 1 * g.val = g.val; omega
  | ⟨2, _⟩ => show win0_2.index t (2 : Fin 3) * 4 + 1 * cc.val = cc.val; omega

/-- The anchor table as the region finds it: the constant the program's first operation writes (the reshape after it
    writes another buffer). -/
theorem V_main_cst (c : Dev nD) :
    (V m c main_cst : Vec F S3x2 .f32) = fun i => FloatOps.ofBits .f32 (lit0 (S3x2.rowMajor i)) := by
  show StableHlo.after hostOps0 (fun b => m (c, b)) (Proc.devRef .tc main_cst) = _
  after_results
  rfl

/-- The fourth window's block is the whole anchor table at every point. -/
theorem iblk3_eq (c : Dev nD) (t : Fin cfg0.N) :
    (iblk m c 3 t : Vec F S3x2 .f32) = fun i => FloatOps.ofBits .f32 (lit0 (S3x2.rowMajor i)) := by
  obtain ⟨e0, e1⟩ := idx_facts3 t
  funext i
  unfold iblk
  rw [View.read_apply]
  show V m c main_cst _ = _
  rw [V_main_cst]
  show FloatOps.ofBits .f32 (lit0 (S3x2.rowMajor _)) = FloatOps.ofBits .f32 (lit0 (S3x2.rowMajor i))
  refine congrArg (fun z => FloatOps.ofBits .f32 (lit0 (S3x2.rowMajor z))) ?_
  funext x; apply Fin.ext
  match x with
  | ⟨0, _⟩ => show win0_3.index t (0 : Fin 2) * 3 + 1 * (i 0).val = (i 0).val; omega
  | ⟨1, _⟩ => show win0_3.index t (1 : Fin 2) * 2 + 1 * (i 1).val = (i 1).val; omega

/-- The first window's array as the region finds it: the first argument reshaped from `[16, 76, 76, 255]` to
    `[16, 76, 76, 3, 85]` by the program's second operation. -/
theorem V_main_v0 (c : Dev nD) :
    (V m c main_v0 : Vec F S16x76x76x3x85 .f32) = shapeCast S16x76x76x3x85 (m ((c.tc : Thread nD τ).loc main_arg0)) shapeCasts_S16x76x76x255_S16x76x76x3x85 := by
  show StableHlo.after hostOps0 (fun b => m (c, b)) (Proc.devRef .tc main_v0) = _
  after_results
  rfl

end Cert.KernelIdeal.KArr

end
-- ==== Proof.KTailValue.lean ====
/-
  The lines after the region, read at the ideal values: entry q of the result is (0 + the sum over the sixteen images
  of lane q of the image's row of partial sums) / 16, the zero and the sixteen being the words the program carries.
-/
import proofs.«179941_j67783173865496_2_alg».proof.Proof.KTail
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.KTail

open Cert.KernelIdeal Cert.KernelIdeal.Gen
open Idealize.ShloMosaic Idealize.ShloMosaic.ValueIdx

/-- A sum over the indices of a vector is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _ fun i => congrArg f (eq_ix1 i)

/-- One average read: the word of zero plus the sum over the sixteen rows of the lane, divided by the word of sixteen. -/
theorem avg_apply (out : FVec Ideal S16x1x128 .f32) (q : Fin 128) (off : Fin 3 → Nat) (hs : S16x1x128.Slices off S16x1x1)
    (hoff : off = ![0, 0, q.val]) (y : S1.Idx) :
    avg (F := Ideal) out off hs y
      = Ideal.div (Ideal.ofBits .f32 0x00000000#32 + ∑ b : Fin 16, out (ix3 b (0 : Fin 1) q)) (Ideal.ofBits .f32 0x41800000#32) := by
  subst hoff
  unfold avg
  rw [broadcastInDim_scalar_apply, hostDivf_apply, hostReduceAdd_apply]
  rw [Ideal.hostReduceAdd_total reducesTo_S16_S_d0 (fun b => b.elim0), sum_idx1]
  show Ideal.div (Ideal.ofBits .f32 0x00000000#32 + ∑ k : Fin 16, _) (Ideal.ofBits .f32 0x41800000#32) = _
  congr 2
  refine Finset.sum_congr rfl fun k _ => ?_
  rw [shapeCast_apply _ _ (ix1 k) (ix3 k (0 : Fin 1) (0 : Fin 1)) (by
    rw [Shape.rowMajor_val_three, Shape.rowMajor_val_one]; show k.val * 1 * 1 + 0 * 1 + 0 = k.val; omega)]
  exact extractStridedSlice_apply _ _ _ _ (ix3 k (0 : Fin 1) q) (fun a => by
    match a with
    | ⟨0, _⟩ => show k.val = 0 + k.val; omega
    | ⟨1, _⟩ => show 0 = 0 + 0; rfl
    | ⟨2, _⟩ => show q.val = q.val + 0; omega)

/-- A one-entry array has one axis. -/
theorem only_axis (b : Fin S1.rank) : b.cast (rfl : S1.rank = S3.rank) = (0 : Fin S3.rank) :=
  Fin.ext (by have h1 : b.val < 1 := b.isLt; show b.val = 0; omega)

/-- The result read at q: the average of lane q. -/
theorem tailK_apply (out : FVec Ideal S16x1x128 .f32) (q : Fin 3) :
    tailK (F := Ideal) out (ix1 q)
      = Ideal.div (Ideal.ofBits .f32 0x00000000#32 + ∑ b : Fin 16, out (ix3 b (0 : Fin 1) (⟨q.val, by omega⟩ : Fin 128)))
          (Ideal.ofBits .f32 0x41800000#32) := by
  unfold tailK
  match q with
  | ⟨0, hq⟩ =>
    rw [concatenate_apply_piece (0 : Fin S3.rank) _ _ _ 0 (by show 0 < 3; omega) S1 _ rfl rfl 0 (by rfl) (ix1 (0 : Fin 1))
      (fun b hb => absurd (only_axis b) hb) (by rfl)]
    exact avg_apply out ⟨0, by omega⟩ _ _ rfl _
  | ⟨1, hq⟩ =>
    rw [concatenate_apply_piece (0 : Fin S3.rank) _ _ _ 1 (by show 1 < 3; omega) S1 _ rfl rfl 1 (by rfl) (ix1 (0 : Fin 1))
      (fun b hb => absurd (only_axis b) hb) (by rfl)]
    exact avg_apply out ⟨1, by omega⟩ _ _ rfl _
  | ⟨2, hq⟩ =>
    rw [concatenate_apply_piece (0 : Fin S3.rank) _ _ _ 2 (by show 2 < 3; omega) S1 _ rfl rfl 2 (by rfl) (ix1 (0 : Fin 1))
      (fun b hb => absurd (only_axis b) hb) (by rfl)]
    exact avg_apply out ⟨2, by omega⟩ _ _ rfl _

end Cert.KernelIdeal.KTail

end
-- ==== Proof.Loss.lean ====
/-
  The loss both programs compute, stated once as scalar formulas on the extended reals and then array by array.

  A cell (b, i, j, a) of the 76 × 76 grid with three anchors per cell carries 85 raw numbers x(·, k) and 85 label
  numbers l(·, k).  The predicted box has centre ((σ(x₀)·1.2 − 0.1 + j)·8, (σ(x₁)·1.2 − 0.1 + i)·8) — column j for the
  abscissa, row i for the ordinate — and extents (e^{x₂}·A(a,0), e^{x₃}·A(a,1)), A the anchor table.  Three sums over
  the cells of each image, averaged over the 16 images, are returned:
    0. the label's objectness l₄ times (2 − l₂l₃/608²) times (1 − GIoU(predicted box, label box));
    1. (l₄ − σ(x₄))² times the logistic cross-entropy of x₄ against l₄ times (l₄ + (1 − l₄)·[max over the 150 ground-truth
       boxes of the IoU with the predicted box < ½]);
    2. over the 80 classes k, l₄ times the logistic cross-entropy of x_{5+k} against l_{5+k}.
  A box is (x, y, w, h): centre and extents.  Every constant is kept as the binary32 word the programs carry.
-/
import Idealize.ShloMosaic.PureOps.Ideal
import Idealize.ShloMosaic.PureOps.Ideal.Laws
import Idealize.ShloMosaic.Lib.ValueIdx
import Idealize.ShloMosaic.Lib.IdealHost

noncomputable section

namespace Cert.Loss

open Idealize.ShloMosaic Idealize.ShloMosaic.ValueIdx

/-- The extended real a binary32 word denotes. -/
abbrev lit (b : BitVec 32) : EReal := Ideal.ofBits .f32 b

/-! ## One cell -/

/-- A box centre from its raw number `s` and its grid coordinate `g`: (σ(s)·1.2 − 0.1 + g)·8. -/
def centre (s g : EReal) : EReal :=
  ((Ideal.logistic s * lit 0x3F99999A#32 - lit 0x3DCCCCCD#32) + g) * lit 0x41000000#32

/-- A box extent from its raw number `d` and the anchor's extent `a`: e^d · a. -/
def extent (d a : EReal) : EReal := Ideal.exp d * a

/-- The lower and upper end of the interval of centre `c` and length `w`. -/
def lo (c w : EReal) : EReal := c - w * lit 0x3F000000#32
def hi (c w : EReal) : EReal := c + w * lit 0x3F000000#32

/-- The length of the overlap of [plo, phi] and [qlo, qhi], and of their hull, each clipped at zero. -/
def ov (plo phi qlo qhi : EReal) : EReal := max (min phi qhi - max plo qlo) (lit 0x00000000#32)
def hull (plo phi qlo qhi : EReal) : EReal := max (max phi qhi - min plo qlo) (lit 0x00000000#32)

/-- The area two boxes share, the area of their union, and of the smallest box holding both. -/
def interArea (px py pw ph qx qy qw qh : EReal) : EReal :=
  ov (lo px pw) (hi px pw) (lo qx qw) (hi qx qw) * ov (lo py ph) (hi py ph) (lo qy qh) (hi qy qh)
def unionArea (px py pw ph qx qy qw qh : EReal) : EReal :=
  (pw * ph + qw * qh) - interArea px py pw ph qx qy qw qh
def hullArea (px py pw ph qx qy qw qh : EReal) : EReal :=
  hull (lo px pw) (hi px pw) (lo qx qw) (hi qx qw) * hull (lo py ph) (hi py ph) (lo qy qh) (hi qy qh)

/-- Intersection over union, and the generalized one: IoU − (hull − union)/hull. -/
def iou (px py pw ph qx qy qw qh : EReal) : EReal :=
  Ideal.div (interArea px py pw ph qx qy qw qh) (unionArea px py pw ph qx qy qw qh)
def giou (px py pw ph qx qy qw qh : EReal) : EReal :=
  iou px py pw ph qx qy qw qh
    - Ideal.div (hullArea px py pw ph qx qy qw qh - unionArea px py pw ph qx qy qw qh) (hullArea px py pw ph qx qy qw qh)

/-- The box term: objectness · (2 − w·h/608²) · (1 − GIoU). -/
def boxTerm (rb lw lh g : EReal) : EReal :=
  (rb * (lit 0x40000000#32 - Ideal.div (lw * lh) (lit 0x48B48000#32))) * (lit 0x3F800000#32 - g)

/-- The logistic cross-entropy of the logit `x` against the label `l`: max(x, 0) − x·l + log(1 + e^{−|x|}). -/
def bce (x l : EReal) : EReal :=
  (max x (lit 0x00000000#32) - x * l) + Ideal.log1p (Ideal.exp (-(max x (-x))))

/-- 1 where the best overlap `m` is below ½, else 0. -/
def below (m : EReal) : EReal := if m < lit 0x3F000000#32 then 1 else 0

/-- The background weight: (1 − objectness) where no ground-truth box overlaps by half. -/
def bgd (rb m : EReal) : EReal := (lit 0x3F800000#32 - rb) * below m

/-- The confidence term, grouped as a product of three factors … -/
def confProd (x rb m : EReal) : EReal :=
  (((rb - Ideal.logistic x) * (rb - Ideal.logistic x)) * bce x rb) * (rb + bgd rb m)
/-- … and with the cross-entropy distributed over the two weights. -/
def confSum (x rb m : EReal) : EReal :=
  ((rb - Ideal.logistic x) * (rb - Ideal.logistic x)) * (rb * bce x rb + bgd rb m * bce x rb)

/-- The class term. -/
def classTerm (rb x l : EReal) : EReal := rb * bce x l

/-! ## The arrays -/

abbrev Raw : Shape := ⟨5, ![16, 76, 76, 3, 85]⟩
abbrev Boxes : Shape := ⟨3, ![16, 150, 4]⟩
abbrev Anchors : Shape := ⟨2, ![3, 2]⟩

/-- A grid coordinate as a number: the 32-bit word of `n`, read signed. -/
def coord (n : ℕ) : EReal := FloatOps.sitofp (F := Ideal) .f32 (BitVec.ofNat 32 n)

section Cell

/-! A cell is read through accessors: `xk k` and `lk k` its 85 raw and label numbers, `gt g c` coordinate `c` of
    ground-truth box `g` of its image, `anc` the anchor table, `a` its anchor, `row` and `col` its place in the grid. -/

variable (xk lk : Fin 85 → EReal) (gt : Fin 150 → Fin 4 → EReal) (anc : Anchors.Idx → EReal) (a : Fin 3) (row col : ℕ)

/-- The predicted box of the cell. -/
def px : EReal := centre (xk 0) (coord col)
def py : EReal := centre (xk 1) (coord row)
def pw : EReal := extent (xk 2) (anc (ix2 a (0 : Fin 2)))
def ph : EReal := extent (xk 3) (anc (ix2 a (1 : Fin 2)))

/-- Its overlap with ground-truth box `g`, and the best of them (from −∞). -/
def pairIou (g : Fin 150) : EReal :=
  iou (px xk col) (py xk row) (pw xk anc a) (ph xk anc a) (gt g 0) (gt g 1) (gt g 2) (gt g 3)
def bestIou : EReal := (Finset.univ : Finset (Fin 150)).fold max (lit 0xFF800000#32) (pairIou xk gt anc a row col)

/-- The three terms of the cell (the third per class `k`). -/
def boxCell : EReal :=
  boxTerm (lk 4) (lk 2) (lk 3) (giou (px xk col) (py xk row) (pw xk anc a) (ph xk anc a) (lk 0) (lk 1) (lk 2) (lk 3))
def confProdCell : EReal := confProd (xk 4) (lk 4) (bestIou xk gt anc a row col)
def confSumCell : EReal := confSum (xk 4) (lk 4) (bestIou xk gt anc a row col)
def classCell (k : Fin 80) : EReal :=
  classTerm (lk 4) (xk (⟨5 + k.val, by omega⟩ : Fin 85)) (lk (⟨5 + k.val, by omega⟩ : Fin 85))

end Cell

/-- Cell (b, i, j, a) of the whole arrays, through its accessors. -/
abbrev cellOf (x : Raw.Idx → EReal) (b : Fin 16) (i j : Fin 76) (a : Fin 3) : Fin 85 → EReal := fun k => x (ix5 b i j a k)
abbrev boxesOf (bb : Boxes.Idx → EReal) (b : Fin 16) : Fin 150 → Fin 4 → EReal := fun g c => bb (ix3 b g c)

/-- The three averaged sums. -/
def total (x l : Raw.Idx → EReal) (bb : Boxes.Idx → EReal) (anc : Anchors.Idx → EReal) : (⟨1, ![3]⟩ : Shape).Idx → EReal :=
  fun q => match q 0 with
    | ⟨0, _⟩ => Ideal.div (∑ b : Fin 16, ∑ i : Fin 76, ∑ j : Fin 76, ∑ a : Fin 3,
        boxCell (cellOf x b i j a) (cellOf l b i j a) anc a i.val j.val) (lit 0x41800000#32)
    | ⟨1, _⟩ => Ideal.div (∑ b : Fin 16, ∑ i : Fin 76, ∑ j : Fin 76, ∑ a : Fin 3,
        confSumCell (cellOf x b i j a) (cellOf l b i j a) (boxesOf bb b) anc a i.val j.val) (lit 0x41800000#32)
    | ⟨_ + 2, _⟩ => Ideal.div (∑ b : Fin 16, ∑ i : Fin 76, ∑ j : Fin 76, ∑ a : Fin 3, ∑ k : Fin 80,
        classCell (cellOf x b i j a) (cellOf l b i j a) k) (lit 0x41800000#32)

/-! ## The one law: distributing the cross-entropy over the two weights, on real numbers -/

/-- A real number among the extended reals. -/
def IsReal (z : EReal) : Prop := ∃ r : ℝ, z = (r : EReal)

/-- The coercion of the reals commutes with `max`. -/
theorem coe_max (a b : ℝ) : ((max a b : ℝ) : EReal) = max (a : EReal) (b : EReal) :=
  EReal.coe_strictMono.monotone.map_max

theorem lit_zero : lit 0x00000000#32 = 0 := Ideal.ofBits_zero_f32
theorem lit_one : lit 0x3F800000#32 = 1 := Ideal.ofBits_one_f32

/-- The cross-entropy of a real logit against a real label is a real number: e^{−|x|} lies in (0, 1], so the
    logarithm's argument is positive. -/
theorem bce_real {x l : EReal} (hx : IsReal x) (hl : IsReal l) : IsReal (bce x l) := by
  obtain ⟨r, rfl⟩ := hx
  obtain ⟨s, rfl⟩ := hl
  have habs : -(max (r : EReal) (-(r : EReal))) = ((-(max r (-r)) : ℝ) : EReal) := by
    rw [← EReal.coe_neg r, ← coe_max, ← EReal.coe_neg]
  have hpos : ¬ (1 + Real.exp (-(max r (-r))) ≤ 0) := not_le.mpr (by positivity)
  refine ⟨(max r 0 - r * s) + Real.log (1 + Real.exp (-(max r (-r)))), ?_⟩
  unfold bce
  rw [habs, lit_zero, Ideal.exp_coe, Ideal.log1p, ← EReal.coe_one, ← EReal.coe_add, Ideal.log_coe, if_neg hpos,
    ← EReal.coe_zero, ← coe_max, ← EReal.coe_mul, ← EReal.coe_sub, ← EReal.coe_add]

/-- The background weight of a real objectness is real: the indicator is 0 or 1. -/
theorem bgd_real {rb : EReal} (m : EReal) (h : IsReal rb) : IsReal (bgd rb m) := by
  obtain ⟨r, rfl⟩ := h
  unfold bgd below
  rw [lit_one]
  split
  · exact ⟨1 - r, by rw [mul_one, ← EReal.coe_one, ← EReal.coe_sub]⟩
  · exact ⟨0, by rw [mul_zero, EReal.coe_zero]⟩

/-- On real logit and objectness the two groupings of the confidence term agree (the first factor may be any
    extended real: only commutativity and associativity of the product touch it). -/
theorem confProd_eq_confSum {x rb : EReal} (m : EReal) (hx : IsReal x) (hrb : IsReal rb) :
    confProd x rb m = confSum x rb m := by
  obtain ⟨B, hB⟩ := bce_real hx hrb
  obtain ⟨g, hg⟩ := bgd_real m hrb
  obtain ⟨r, hr⟩ := hrb
  unfold confProd confSum
  rw [hB, hg, hr]
  have e : ((r : EReal) * (B : EReal) + (g : EReal) * (B : EReal)) = (B : EReal) * ((r : EReal) + (g : EReal)) := by
    rw [← EReal.coe_mul, ← EReal.coe_mul, ← EReal.coe_add, ← EReal.coe_add, ← EReal.coe_mul]
    exact congrArg _ (by ring)
  rw [e, mul_assoc]

/-- The same at a cell whose logit and objectness are real. -/
theorem confProdCell_eq_confSumCell (xk lk : Fin 85 → EReal) (gt : Fin 150 → Fin 4 → EReal) (anc : Anchors.Idx → EReal)
    (a : Fin 3) (row col : ℕ) (hx : IsReal (xk 4)) (hl : IsReal (lk 4)) :
    confProdCell xk lk gt anc a row col = confSumCell xk lk gt anc a row col :=
  confProd_eq_confSum _ hx hl

end Cert.Loss

end
-- ==== Proof.LibTileLayout.lean ====
/-
  Layout operations on small-rank tiles, read at an index written by coordinates.

  A tile of shape [a, b, c, d] whose last axis carries the fields of a cell is cut along that axis, loses or gains a
  trailing unit axis, is broadcast along its unit axes, and two of its unit columns are laid side by side; a vector
  of n numbers becomes the last axis of a [1, 1, 1, n] tile; a [a, b, c] tile is flattened to [a, b·c] (row-major:
  position j·c + k) and a [a, b, c, d] tile to [a, b·c·d]. Each lemma reads one such operation at an index built
  from its coordinates as the operand at the matching index. No program is mentioned: the extents are variables.
-/
import Idealize.ShloMosaic.Lib.ValueLayout

namespace Cert.LibTileLayout

open Idealize.ShloMosaic Idealize.ShloMosaic.ValueIdx

variable {α : Type}

/-! ## A slice along the last axis of a rank-4 array -/

/-- A rank-4 array cut along axis 3 from o reads, at (a, b, c, j), the source at (a, b, c, k) with k = o + j. -/
theorem slice4_axis3_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) (k : Fin n3) (hk : k.val = o + j.val) :
    extractStridedSlice ⟨4, ![n0, n1, n2, m]⟩ ![0, 0, 0, o] X h (ix4 a b c j) = X (ix4 a b c k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

/-- The same with the source coordinate written out. -/
theorem slice4_axis3_eq {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) :
    extractStridedSlice ⟨4, ![n0, n1, n2, m]⟩ ![0, 0, 0, o] X h (ix4 a b c j)
      = X (ix4 a b c ⟨o + j.val, Nat.lt_of_lt_of_le (Nat.add_lt_add_left j.isLt o) (h.2 3)⟩) :=
  slice4_axis3_apply o X h a b c j _ rfl

/-! ## Shape casts that drop or add unit axes -/

/-- A [1, a, b, c, d] array cast to [a, b, c, d] reads, at (i, j, k, l), the operand at (0, i, j, k, l). -/
theorem shapeCast_1abcd_abcd_apply {a b c d : ℕ} (x : (⟨5, ![1, a, b, c, d]⟩ : Shape).Idx → α)
    (h : (⟨5, ![1, a, b, c, d]⟩ : Shape).ShapeCasts ⟨4, ![a, b, c, d]⟩) (i : Fin a) (j : Fin b) (k : Fin c) (l : Fin d) :
    shapeCast ⟨4, ![a, b, c, d]⟩ x h (ix4 i j k l) = x (ix5 (0 : Fin 1) i j k l) :=
  shapeCast_apply x h _ _ (by
    rw [Shape.rowMajor_val_five, Shape.rowMajor_val_four]
    show ((((0 * a + i.val) * b + j.val) * c + k.val) * d + l.val) = ((i.val * b + j.val) * c + k.val) * d + l.val
    rw [Nat.zero_mul, Nat.zero_add])

/-- An [a, b, c, 1] array cast to [a, b, c] reads, at (i, j, k), the operand at (i, j, k, 0). -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An [a, b, c] array cast to [a, b, c, 1] reads, at (i, j, k, u), the operand at (i, j, k). -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An [a, 1] array cast to [a] reads, at i, the operand at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a] array cast to [1, 1, 1, a] reads, at (u, v, w, i), the operand at i. -/
theorem shapeCast_a_111a_apply {a : ℕ} (x : (⟨1, ![a]⟩ : Shape).Idx → α)
    (h : (⟨1, ![a]⟩ : Shape).ShapeCasts ⟨4, ![1, 1, 1, a]⟩) (u v w : Fin 1) (i : Fin a) :
    shapeCast ⟨4, ![1, 1, 1, a]⟩ x h (ix4 u v w i) = x (ix1 i) :=
  shapeCast_apply x h _ _ (by
    have hu : u.val = 0 := by omega
    have hv : v.val = 0 := by omega
    have hw : w.val = 0 := by omega
    rw [Shape.rowMajor_val_four, Shape.rowMajor_val_one]
    show i.val = ((u.val * 1 + v.val) * 1 + w.val) * a + i.val
    simp only [hu, hv, hw, Nat.zero_mul, Nat.zero_add])

/-- An [a, b] array cast to [1, 1, a, b] reads, at (u, v, i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-! ## Flattening the trailing axes -/

/-- An [a, b, c] array cast to [a, N], N = b·c, reads, at (i, j·c + k), the operand at (i, j, k). -/
theorem shapeCast_abc_aN_apply {a b c N : ℕ} (x : (⟨3, ![a, b, c]⟩ : Shape).Idx → α)
    (h : (⟨3, ![a, b, c]⟩ : Shape).ShapeCasts ⟨2, ![a, N]⟩) (hN : N = b * c) (i : Fin a) (j : Fin b) (k : Fin c)
    (q : Fin N) (hq : q.val = j.val * c + k.val) :
    shapeCast ⟨2, ![a, N]⟩ x h (ix2 i q) = x (ix3 i j k) :=
  shapeCast_apply x h _ _ (by
    rw [Shape.rowMajor_val_three, Shape.rowMajor_val_two]
    show (i.val * b + j.val) * c + k.val = i.val * N + q.val
    rw [hq, hN]; ring)

/-- An [a, b, c, d] array cast to [a, N], N = b·c·d, reads, at (i, (j·c + k)·d + l), the operand at (i, j, k, l). -/
theorem shapeCast_abcd_aN_apply {a b c d N : ℕ} (x : (⟨4, ![a, b, c, d]⟩ : Shape).Idx → α)
    (h : (⟨4, ![a, b, c, d]⟩ : Shape).ShapeCasts ⟨2, ![a, N]⟩) (hN : N = b * c * d) (i : Fin a) (j : Fin b) (k : Fin c)
    (l : Fin d) (q : Fin N) (hq : q.val = (j.val * c + k.val) * d + l.val) :
    shapeCast ⟨2, ![a, N]⟩ x h (ix2 i q) = x (ix4 i j k l) :=
  shapeCast_apply x h _ _ (by
    rw [Shape.rowMajor_val_four, Shape.rowMajor_val_two]
    show ((i.val * b + j.val) * c + k.val) * d + l.val = i.val * N + q.val
    rw [hq, hN]; ring)

end Cert.LibTileLayout
-- ==== Proof.LibTileBroadcast.lean ====
/-
  Broadcasts of rank-4 tiles along their unit axes, and two unit columns laid side by side, read at an index
  written by coordinates. A rank-4 broadcast keeps a coordinate where the operand's extent is not one and reads 0
  where it is; the special cases name which axes are unit. A concatenation of two [a, b, 1, 1] tiles along the
  last axis reads the first at last coordinate 0 and the second at last coordinate 1. The extents are variables.
-/
import Idealize.ShloMosaic.Lib.ValueLayout

namespace Cert.LibTileBroadcast

open Idealize.ShloMosaic Idealize.ShloMosaic.ValueIdx

variable {α : Type}

/-- A coordinate is itself unless its extent is one, when it is 0 anyway. -/
theorem val_eq_ite {n : ℕ} (q : Fin n) : q.val = if n = 1 then 0 else q.val := by
  split
  · have := q.isLt; omega
  · rfl

/-- A rank-4 broadcast at (p, q, r, s) reads the operand at the coordinates that are 0 on its unit axes and
    p, q, r, s on the others. -/
theorem broadcastTo4_apply {s0 s1 s2 s3 t0 t1 t2 t3 : ℕ} (x : (⟨4, ![s0, s1, s2, s3]⟩ : Shape).Idx → α)
    (h : (⟨4, ![s0, s1, s2, s3]⟩ : Shape).Broadcasts ⟨4, ![t0, t1, t2, t3]⟩)
    (p : Fin t0) (q : Fin t1) (r : Fin t2) (s : Fin t3) (p' : Fin s0) (q' : Fin s1) (r' : Fin s2) (s' : Fin s3)
    (hp : p'.val = if s0 = 1 then 0 else p.val) (hq : q'.val = if s1 = 1 then 0 else q.val)
    (hr : r'.val = if s2 = 1 then 0 else r.val) (hs : s'.val = if s3 = 1 then 0 else s.val) :
    broadcastTo ⟨4, ![t0, t1, t2, t3]⟩ x h (ix4 p q r s) = x (ix4 p' q' r' s') :=
  broadcastTo_apply x h _ _ (fun ax => by
    match ax with
    | ⟨0, _⟩ => exact hp
    | ⟨1, _⟩ => exact hq
    | ⟨2, _⟩ => exact hr
    | ⟨3, _⟩ => exact hs)

/-- [1, b, 1, 1] → [a, b, 1, 1]. -/
theorem broadcastTo_1b11_ab11_apply {a b : ℕ} (x : (⟨4, ![1, b, 1, 1]⟩ : Shape).Idx → α)
    (h : (⟨4, ![1, b, 1, 1]⟩ : Shape).Broadcasts ⟨4, ![a, b, 1, 1]⟩) (p : Fin a) (q : Fin b) (u v : Fin 1) :
    broadcastTo ⟨4, ![a, b, 1, 1]⟩ x h (ix4 p q u v) = x (ix4 (0 : Fin 1) q (0 : Fin 1) (0 : Fin 1)) :=
  broadcastTo4_apply x h p q u v _ _ _ _ rfl (val_eq_ite q) rfl rfl

/-- [a, 1, 1, 1] → [a, b, 1, 1]. -/
theorem broadcastTo_a111_ab11_apply {a b : ℕ} (x : (⟨4, ![a, 1, 1, 1]⟩ : Shape).Idx → α)
    (h : (⟨4, ![a, 1, 1, 1]⟩ : Shape).Broadcasts ⟨4, ![a, b, 1, 1]⟩) (p : Fin a) (q : Fin b) (u v : Fin 1) :
    broadcastTo ⟨4, ![a, b, 1, 1]⟩ x h (ix4 p q u v) = x (ix4 p (0 : Fin 1) (0 : Fin 1) (0 : Fin 1)) :=
  broadcastTo4_apply x h p q u v _ _ _ _ (val_eq_ite p) rfl rfl rfl

/-- [a, b, 1, d] → [a, b, c, d]. -/
theorem broadcastTo_ab1d_abcd_apply {a b c d : ℕ} (x : (⟨4, ![a, b, 1, d]⟩ : Shape).Idx → α)
    (h : (⟨4, ![a, b, 1, d]⟩ : Shape).Broadcasts ⟨4, ![a, b, c, d]⟩) (p : Fin a) (q : Fin b) (r : Fin c) (s : Fin d) :
    broadcastTo ⟨4, ![a, b, c, d]⟩ x h (ix4 p q r s) = x (ix4 p q (0 : Fin 1) s) :=
  broadcastTo4_apply x h p q r s _ _ _ _ (val_eq_ite p) (val_eq_ite q) rfl (val_eq_ite s)

/-- [1, 1, c, d] → [a, b, c, d]. -/
theorem broadcastTo_11cd_abcd_apply {a b c d : ℕ} (x : (⟨4, ![1, 1, c, d]⟩ : Shape).Idx → α)
    (h : (⟨4, ![1, 1, c, d]⟩ : Shape).Broadcasts ⟨4, ![a, b, c, d]⟩) (p : Fin a) (q : Fin b) (r : Fin c) (s : Fin d) :
    broadcastTo ⟨4, ![a, b, c, d]⟩ x h (ix4 p q r s) = x (ix4 (0 : Fin 1) (0 : Fin 1) r s) :=
  broadcastTo4_apply x h p q r s _ _ _ _ rfl rfl (val_eq_ite r) (val_eq_ite s)

/-- [a, b, c, 1] → [a, b, c, n]. -/
theorem broadcastTo_abc1_abcn_apply {a b c n : ℕ} (x : (⟨4, ![a, b, c, 1]⟩ : Shape).Idx → α)
    (h : (⟨4, ![a, b, c, 1]⟩ : Shape).Broadcasts ⟨4, ![a, b, c, n]⟩) (p : Fin a) (q : Fin b) (r : Fin c) (s : Fin n) :
    broadcastTo ⟨4, ![a, b, c, n]⟩ x h (ix4 p q r s) = x (ix4 p q r (0 : Fin 1)) :=
  broadcastTo4_apply x h p q r s _ _ _ _ (val_eq_ite p) (val_eq_ite q) (val_eq_ite r) rfl

/-- [1, 1, 1, n] → [a, b, c, n]. -/
theorem broadcastTo_111n_abcn_apply {a b c n : ℕ} (x : (⟨4, ![1, 1, 1, n]⟩ : Shape).Idx → α)
    (h : (⟨4, ![1, 1, 1, n]⟩ : Shape).Broadcasts ⟨4, ![a, b, c, n]⟩) (p : Fin a) (q : Fin b) (r : Fin c) (s : Fin n) :
    broadcastTo ⟨4, ![a, b, c, n]⟩ x h (ix4 p q r s) = x (ix4 (0 : Fin 1) (0 : Fin 1) (0 : Fin 1) s) :=
  broadcastTo4_apply x h p q r s _ _ _ _ rfl rfl rfl (val_eq_ite s)

/-- [1, 1] → [1, n]: every lane reads the one element. -/
theorem broadcastTo_11_1n_apply {n : ℕ} (x : (⟨2, ![1, 1]⟩ : Shape).Idx → α)
    (h : (⟨2, ![1, 1]⟩ : Shape).Broadcasts ⟨2, ![1, n]⟩) (u : Fin 1) (l : Fin n) :
    broadcastTo ⟨2, ![1, n]⟩ x h (ix2 u l) = x (ix2 (0 : Fin 1) (0 : Fin 1)) :=
  broadcastTo_apply x h _ _ (fun ax => by
    match ax with
    | ⟨0, _⟩ => rfl
    | ⟨1, _⟩ => rfl)

/-! ## Two unit columns side by side -/

/-- The concatenation of two [a, b, 1, 1] tiles along the last axis reads the first at last coordinate 0 … -/
theorem concatenate_ab11_left {a b : ℕ} (x₁ x₂ : (⟨4, ![a, b, 1, 1]⟩ : Shape).Idx → α)
    (h : Shape.Concatenates [(⟨4, ![a, b, 1, 1]⟩ : Shape), ⟨4, ![a, b, 1, 1]⟩] ⟨4, ![a, b, 1, 2]⟩ 3)
    (p : Fin a) (q : Fin b) (u : Fin 1) :
    concatenate ⟨4, ![a, b, 1, 2]⟩ 3 [⟨⟨4, ![a, b, 1, 1]⟩, x₁⟩, ⟨⟨4, ![a, b, 1, 1]⟩, x₂⟩] h (ix4 p q u (0 : Fin 2))
      = x₁ (ix4 p q u (0 : Fin 1)) :=
  concatenate_pair_apply_left 3 x₁ x₂ h _ rfl _ (fun bx => by
    match bx with
    | ⟨0, _⟩ => rfl
    | ⟨1, _⟩ => rfl
    | ⟨2, _⟩ => rfl
    | ⟨3, _⟩ => rfl)

/-- … and the second at last coordinate 1. -/
theorem concatenate_ab11_right {a b : ℕ} (x₁ x₂ : (⟨4, ![a, b, 1, 1]⟩ : Shape).Idx → α)
    (h : Shape.Concatenates [(⟨4, ![a, b, 1, 1]⟩ : Shape), ⟨4, ![a, b, 1, 1]⟩] ⟨4, ![a, b, 1, 2]⟩ 3)
    (p : Fin a) (q : Fin b) (u : Fin 1) :
    concatenate ⟨4, ![a, b, 1, 2]⟩ 3 [⟨⟨4, ![a, b, 1, 1]⟩, x₁⟩, ⟨⟨4, ![a, b, 1, 1]⟩, x₂⟩] h (ix4 p q u (1 : Fin 2))
      = x₂ (ix4 p q u (0 : Fin 1)) :=
  concatenate_pair_apply_right 3 x₁ x₂ h _ rfl rfl _ (fun bx hne => by
    match bx, hne with
    | ⟨0, _⟩, _ => rfl
    | ⟨1, _⟩, _ => rfl
    | ⟨2, _⟩, _ => rfl
    | ⟨3, _⟩, hne => exact absurd rfl hne) rfl

end Cert.LibTileBroadcast
-- ==== Proof.KTileCell.lean ====
/-
  One cell of the tile, field by field. The point loads a [1, 19, 76, 3, 85] block of raw numbers and one of labels,
  the image's [1, 150, 4] ground-truth boxes and the [3, 2] anchor table. Every intermediate the body forms from them
  is read here at one cell (i', j, a) of the tile, as the scalar the loss names: a field of the cell, the cell's
  place in the grid (row 19·(point's second coordinate) + i', column j) as a number, the predicted box's centre
  and extents, and the two ends of the predicted and the labelled box along each direction.
-/
import proofs.«179941_j67783173865496_2_alg».proof.Proof.KTile
import proofs.«179941_j67783173865496_2_alg».proof.Proof.Loss
import proofs.«179941_j67783173865496_2_alg».proof.Proof.LibTileLayout
import proofs.«179941_j67783173865496_2_alg».proof.Proof.LibTileBroadcast

set_option pp.maxSteps 5000
set_option pp.deepTerms false

noncomputable section

namespace Cert.KernelIdeal.KTileValue

open Cert.KernelIdeal Cert.KernelIdeal.Gen Idealize.ShloMosaic Idealize.ShloMosaic.ValueIdx
open Cert.LibTileLayout Cert.LibTileBroadcast

/-- The 85 numbers of cell (i', j, a) of a block. -/
abbrev cellBlk (v : Vec Ideal S1x19x76x3x85 .f32) (i' : Fin 19) (j : Fin 76) (a : Fin 3) : Fin 85 → EReal :=
  fun k => v (ix5 (0 : Fin 1) i' j a k)
/-- The image's ground-truth boxes, box by box and coordinate by coordinate. -/
abbrev boxesBlk (v7 : Vec Ideal S1x150x4 .f32) : Fin 150 → Fin 4 → EReal := fun g c => v7 (ix3 (0 : Fin 1) g c)

/-! ## Unary operations at an index (definitional at the exact values) -/

theorem logistic_apply {s : Shape} {φ : FTy} (x : FVec Ideal s φ) (i : s.Idx) : logistic x i = Ideal.logistic (x i) := rfl
theorem exp_apply {s : Shape} {φ : FTy} (x : FVec Ideal s φ) (i : s.Idx) : exp x i = Ideal.exp (x i) := rfl
theorem log1p_apply {s : Shape} {φ : FTy} (x : FVec Ideal s φ) (i : s.Idx) : log1p x i = Ideal.log1p (x i) := rfl
theorem absf_apply {s : Shape} {φ : FTy} (x : FVec Ideal s φ) (i : s.Idx) : absf x i = max (x i) (-(x i)) := rfl

/-! ## The blocks with their leading unit axis dropped, and their fields -/

theorem pay3_apply (v3 : Vec Ideal S1x19x76x3x85 .f32) (i' : Fin 19) (j : Fin 76) (a : Fin 3) (k : Fin 85) :
    k0_pay3 (F := Ideal) v3 (ix4 i' j a k) = cellBlk v3 i' j a k :=
  shapeCast_1abcd_abcd_apply v3 _ i' j a k

theorem pay4_apply (v5 : Vec Ideal S1x19x76x3x85 .f32) (i' : Fin 19) (j : Fin 76) (a : Fin 3) (k : Fin 85) :
    k0_pay4 (F := Ideal) v5 (ix4 i' j a k) = cellBlk v5 i' j a k :=
  shapeCast_1abcd_abcd_apply v5 _ i' j a k

theorem pay5_apply (v7 : Vec Ideal S1x150x4 .f32) (g : Fin 150) (c : Fin 4) :
    k0_pay5 (F := Ideal) v7 (ix2 g c) = boxesBlk v7 g c :=
  shapeCast_1ab_ab_apply v7 _ g c

/-- Raw fields 2 and 3 (the extents' exponents). -/
theorem pay6_apply (v3 : Vec Ideal S1x19x76x3x85 .f32) (i' : Fin 19) (j : Fin 76) (a : Fin 3) (c : Fin 2) (k : Fin 85)
    (hk : k.val = 2 + c.val) : k0_pay6 (F := Ideal) v3 (ix4 i' j a c) = cellBlk v3 i' j a k :=
  (slice4_axis3_apply 2 _ (by decide) i' j a c k hk).trans (pay3_apply v3 i' j a k)

/-- Raw field 4 (the objectness logit). -/
theorem pay7_apply (v3 : Vec Ideal S1x19x76x3x85 .f32) (i' : Fin 19) (j : Fin 76) (a : Fin 3) :
    k0_pay7 (F := Ideal) v3 (ix4 i' j a (0 : Fin 1)) = cellBlk v3 i' j a 4 :=
  (slice4_axis3_apply 4 _ (by decide) i' j a 0 4 rfl).trans (pay3_apply v3 i' j a 4)

/-- Raw fields 5 … 84 (the class logits). -/
theorem pay8_apply (v3 : Vec Ideal S1x19x76x3x85 .f32) (i' : Fin 19) (j : Fin 76) (a : Fin 3) (k : Fin 80) :
    k0_pay8 (F := Ideal) v3 (ix4 i' j a k) = cellBlk v3 i' j a (⟨5 + k.val, by omega⟩ : Fin 85) :=
  (slice4_axis3_apply 5 _ (by decide) i' j a k _ rfl).trans (pay3_apply v3 i' j a _)

/-- The anchor table seen as a [1, 1, 3, 2] tile. -/
theorem pay10_apply (v9 : Vec Ideal S3x2 .f32) (a : Fin 3) (c : Fin 2) :
    k0_pay10 (F := Ideal) v9 (ix4 (0 : Fin 1) (0 : Fin 1) a c) = v9 (ix2 a c) :=
  shapeCast_ab_11ab_apply v9 _ 0 0 a c

/-- Label fields, from the label block with its unit axis dropped. -/
theorem pay17_apply (v6 : FVec Ideal S19x76x3x85 .f32) (i' : Fin 19) (j : Fin 76) (a : Fin 3) (c : Fin 4) (k : Fin 85)
    (hk : k.val = 0 + c.val) : k0_pay17 (F := Ideal) v6 (ix4 i' j a c) = v6 (ix4 i' j a k) :=
  slice4_axis3_apply 0 _ (by decide) i' j a c k hk

theorem pay18_apply (v6 : FVec Ideal S19x76x3x85 .f32) (i' : Fin 19) (j : Fin 76) (a : Fin 3) :
    k0_pay18 (F := Ideal) v6 (ix4 i' j a (0 : Fin 1)) = v6 (ix4 i' j a (4 : Fin 85)) :=
  slice4_axis3_apply 4 _ (by decide) i' j a 0 4 rfl

theorem pay19_apply (v6 : FVec Ideal S19x76x3x85 .f32) (i' : Fin 19) (j : Fin 76) (a : Fin 3) (k : Fin 80) :
    k0_pay19 (F := Ideal) v6 (ix4 i' j a k) = v6 (ix4 i' j a (⟨5 + k.val, by omega⟩ : Fin 85)) :=
  slice4_axis3_apply 5 _ (by decide) i' j a k _ rfl

theorem pay20_apply (v6 : FVec Ideal S19x76x3x85 .f32) (i' : Fin 19) (j : Fin 76) (a : Fin 3) :
    k0_pay20 (F := Ideal) v6 (ix3 i' j a) = v6 (ix4 i' j a (0 : Fin 85)) :=
  (shapeCast_abc1_abc_apply _ (by decide) i' j a).trans
    ((slice4_axis3_apply 0 _ (by decide) i' j a 0 0 rfl).trans (pay17_apply v6 i' j a 0 0 rfl))

theorem pay21_apply (v6 : FVec Ideal S19x76x3x85 .f32) (i' : Fin 19) (j : Fin 76) (a : Fin 3) :
    k0_pay21 (F := Ideal) v6 (ix3 i' j a) = v6 (ix4 i' j a (1 : Fin 85)) :=
  (shapeCast_abc1_abc_apply _ (by decide) i' j a).trans
    ((slice4_axis3_apply 1 _ (by decide) i' j a 0 1 rfl).trans (pay17_apply v6 i' j a 1 1 rfl))

theorem pay22_apply (v6 : FVec Ideal S19x76x3x85 .f32) (i' : Fin 19) (j : Fin 76) (a : Fin 3) :
    k0_pay22 (F := Ideal) v6 (ix3 i' j a) = v6 (ix4 i' j a (2 : Fin 85)) :=
  (shapeCast_abc1_abc_apply _ (by decide) i' j a).trans
    ((slice4_axis3_apply 2 _ (by decide) i' j a 0 2 rfl).trans (pay17_apply v6 i' j a 2 2 rfl))

theorem pay23_apply (v6 : FVec Ideal S19x76x3x85 .f32) (i' : Fin 19) (j : Fin 76) (a : Fin 3) :
    k0_pay23 (F := Ideal) v6 (ix3 i' j a) = v6 (ix4 i' j a (3 : Fin 85)) :=
  (shapeCast_abc1_abc_apply _ (by decide) i' j a).trans
    ((slice4_axis3_apply 3 _ (by decide) i' j a 0 3 rfl).trans (pay17_apply v6 i' j a 3 3 rfl))

end Cert.KernelIdeal.KTileValue

end
-- ==== Proof.KTileOut.lean ====
/-
  The row of partial sums after the point. The body adds, to the row as it finds it, a [1, 128] row that holds the
  tile's box sum in lane 0, its confidence sum in lane 1, its class sum in lane 2 and zero elsewhere: each sum is
  spread over the lanes and kept only where the lane number equals 0, 1 or 2. So lanes 0, 1 and 2 grow by the three
  sums.
-/
import proofs.«179941_j67783173865496_2_alg».proof.Proof.KTile
import proofs.«179941_j67783173865496_2_alg».proof.Proof.LibTileBroadcast
import Idealize.ShloMosaic.PureOps.Ideal.Laws

set_option pp.maxSteps 5000
set_option pp.deepTerms false

noncomputable section

namespace Cert.KernelIdeal.KTileValue

open Cert.KernelIdeal Cert.KernelIdeal.Gen Idealize.ShloMosaic Idealize.ShloMosaic.ValueIdx
open Cert.LibTileBroadcast

/-- An integer comparison at an index compares the elements. -/
theorem cmpi_apply {s : Shape} {w : ℕ} (p : CmpIPredicate) (x y : IVec s w) (i : s.Idx) :
    cmpi p x y i = IntOp.cmpi p (x i) (y i) := rfl

/-- The row the body stores, at lane l, over the three sums and the row it found: the found row's lane plus the
    three sums, each kept where the lane's number is its own. -/
theorem pay1_lane (c s b : FVec Ideal S1x1 .f32) (prev : Vec Ideal S1x1x128 .f32) (l : Fin 128) :
    k0_pay1 (F := Ideal) c s (iota .tc S1x128 32 [1] iota_S1x128_d1_w32) (k0_pay45 b) (k0_pay46) prev
        (ix3 (0 : Fin 1) (0 : Fin 1) l)
      = prev (ix3 (0 : Fin 1) (0 : Fin 1) l)
        + ((Scalar.select (IntOp.cmpi .eq (BitVec.ofNat 32 l.val) 0#32) (b (ix2 (0 : Fin 1) (0 : Fin 1))) (Ideal.ofBits .f32 0x00000000#32)
            + Scalar.select (IntOp.cmpi .eq (BitVec.ofNat 32 l.val) 1#32) (c (ix2 (0 : Fin 1) (0 : Fin 1))) (Ideal.ofBits .f32 0x00000000#32))
          + Scalar.select (IntOp.cmpi .eq (BitVec.ofNat 32 l.val) 2#32) (s (ix2 (0 : Fin 1) (0 : Fin 1))) (Ideal.ofBits .f32 0x00000000#32)) := by
  unfold k0_pay1 k0_pay45 k0_pay46
  dsimp only
  rw [shapeCast_ab_1ab_apply]
  simp only [addf_apply, select_apply, broadcast_apply, cmpi_apply]
  rw [shapeCast_1ab_ab_apply, broadcastTo_11_1n_apply, broadcastTo_11_1n_apply, broadcastTo_11_1n_apply,
    shapeCast_self, shapeCast_self, shapeCast_self, iota_single_apply]
  rfl

theorem tileOut_lane0 (i : grid0.Coords) (v3 v5 : Vec Ideal S1x19x76x3x85 .f32) (v7 : Vec Ideal S1x150x4 .f32)
    (v9 : Vec Ideal S3x2 .f32) (prev : Vec Ideal S1x1x128 .f32) :
    KTile.tileOut (F := Ideal) i v3 v5 v7 v9 prev (ix3 (0 : Fin 1) (0 : Fin 1) (0 : Fin 128))
      = prev (ix3 0 0 0) + KTile.boxSum (F := Ideal) i v3 v5 v9 (ix2 (0 : Fin 1) (0 : Fin 1)) := by
  unfold KTile.tileOut
  rw [pay1_lane]
  rw [show IntOp.cmpi .eq (BitVec.ofNat 32 (0 : Fin 128).val) 0#32 = 1#1 from by decide,
    show IntOp.cmpi .eq (BitVec.ofNat 32 (0 : Fin 128).val) 1#32 = 0#1 from by decide,
    show IntOp.cmpi .eq (BitVec.ofNat 32 (0 : Fin 128).val) 2#32 = 0#1 from by decide,
    select_one, select_zero, select_zero, Ideal.ofBits_zero_f32, add_zero, add_zero]

theorem tileOut_lane1 (i : grid0.Coords) (v3 v5 : Vec Ideal S1x19x76x3x85 .f32) (v7 : Vec Ideal S1x150x4 .f32)
    (v9 : Vec Ideal S3x2 .f32) (prev : Vec Ideal S1x1x128 .f32) :
    KTile.tileOut (F := Ideal) i v3 v5 v7 v9 prev (ix3 (0 : Fin 1) (0 : Fin 1) (1 : Fin 128))
      = prev (ix3 0 0 1) + KTile.confSum (F := Ideal) i v3 v5 v7 v9 (ix2 (0 : Fin 1) (0 : Fin 1)) := by
  unfold KTile.tileOut
  rw [pay1_lane]
  rw [show IntOp.cmpi .eq (BitVec.ofNat 32 (1 : Fin 128).val) 0#32 = 0#1 from by decide,
    show IntOp.cmpi .eq (BitVec.ofNat 32 (1 : Fin 128).val) 1#32 = 1#1 from by decide,
    show IntOp.cmpi .eq (BitVec.ofNat 32 (1 : Fin 128).val) 2#32 = 0#1 from by decide,
    select_one, select_zero, select_zero, Ideal.ofBits_zero_f32, zero_add, add_zero]

theorem tileOut_lane2 (i : grid0.Coords) (v3 v5 : Vec Ideal S1x19x76x3x85 .f32) (v7 : Vec Ideal S1x150x4 .f32)
    (v9 : Vec Ideal S3x2 .f32) (prev : Vec Ideal S1x1x128 .f32) :
    KTile.tileOut (F := Ideal) i v3 v5 v7 v9 prev (ix3 (0 : Fin 1) (0 : Fin 1) (2 : Fin 128))
      = prev (ix3 0 0 2) + KTile.classSum (F := Ideal) v3 v5 (ix2 (0 : Fin 1) (0 : Fin 1)) := by
  unfold KTile.tileOut
  rw [pay1_lane]
  rw [show IntOp.cmpi .eq (BitVec.ofNat 32 (2 : Fin 128).val) 0#32 = 0#1 from by decide,
    show IntOp.cmpi .eq (BitVec.ofNat 32 (2 : Fin 128).val) 1#32 = 0#1 from by decide,
    show IntOp.cmpi .eq (BitVec.ofNat 32 (2 : Fin 128).val) 2#32 = 1#1 from by decide,
    select_one, select_zero, select_zero, Ideal.ofBits_zero_f32, add_zero, zero_add]

end Cert.KernelIdeal.KTileValue

end
-- ==== Proof.KTileGeom.lean ====
/-
  The geometry of one cell of the tile: where the cell sits in the grid, as numbers; the predicted box's centre
  and extents; and the two ends, along each direction, of the predicted box and of the labelled box.
-/
import proofs.«179941_j67783173865496_2_alg».proof.Proof.KTileCell

set_option pp.maxSteps 5000
set_option pp.deepTerms false

noncomputable section

namespace Cert.KernelIdeal.KTileValue

open Cert Cert.KernelIdeal Cert.KernelIdeal.Gen Idealize.ShloMosaic Idealize.ShloMosaic.ValueIdx
open Cert.LibTileLayout Cert.LibTileBroadcast

/-- The row's 32-bit word: the iota's word plus the point's second coordinate times 19 is the word of the row. -/
theorem row_word (n r : ℕ) : BitVec.ofNat 32 r + BitVec.ofNat 32 n * 19#32 = BitVec.ofNat 32 (19 * n + r) := by
  apply BitVec.eq_of_toNat_eq
  simp only [BitVec.toNat_add, BitVec.toNat_mul, BitVec.toNat_ofNat]
  omega

/-- The abscissa of the predicted centre: from raw field 0 and the column. -/
theorem pay9_x (i : grid0.Coords) (v3 : Vec Ideal S1x19x76x3x85 .f32) (i' : Fin 19) (j : Fin 76) (a : Fin 3) :
    k0_pay9 (F := Ideal) i v3 (ix4 i' j a (0 : Fin 2)) = Loss.px (cellBlk v3 i' j a) j.val := by
  unfold k0_pay9 Loss.px Loss.centre Loss.coord
  simp only [mulf_apply, addf_apply, subf_apply, broadcast_apply, logistic_apply]
  rw [slice4_axis3_apply 0 (k0_pay3 v3) (by decide) i' j a (0 : Fin 2) (0 : Fin 85) rfl, pay3_apply,
    broadcastTo_ab1d_abcd_apply, concatenate_ab11_left, broadcastTo_1b11_ab11_apply, shapeCast_self, sitofp_apply,
    iota_single_apply]
  rfl

/-- An integer sum at an index adds the elements. -/
theorem addi_apply {s : Shape} {w : ℕ} (x y : IVec s w) (i : s.Idx) : addi x y i = x i + y i := rfl

/-- The ordinate of the predicted centre: from raw field 1 and the row 19·(point's second coordinate) + i'. -/
theorem pay9_y (i : grid0.Coords) (v3 : Vec Ideal S1x19x76x3x85 .f32) (i' : Fin 19) (j : Fin 76) (a : Fin 3) :
    k0_pay9 (F := Ideal) i v3 (ix4 i' j a (1 : Fin 2)) = Loss.py (cellBlk v3 i' j a) (19 * (i 1).val + i'.val) := by
  unfold k0_pay9 Loss.py Loss.centre Loss.coord
  simp only [mulf_apply, addf_apply, subf_apply, broadcast_apply, logistic_apply]
  rw [slice4_axis3_apply 0 (k0_pay3 v3) (by decide) i' j a (1 : Fin 2) (1 : Fin 85) rfl, pay3_apply,
    broadcastTo_ab1d_abcd_apply, concatenate_ab11_right, broadcastTo_a111_ab11_apply, shapeCast_self, sitofp_apply]
  simp only [addi_apply, broadcast_apply]
  rw [iota_single_apply]
  refine congrArg (· * _) (congrArg (_ + ·) (congrArg (FloatOps.sitofp (F := Ideal) .f32) ?_))
  exact row_word (i 1).val i'.val

/-- The predicted extents before the anchor's are read: e^(raw field) times the anchor entry. -/
theorem pay11_apply (v11 : FVec Ideal S19x76x3x2 .f32) (v35 : FVec Ideal S1x1x3x2 .f32) (i' : Fin 19) (j : Fin 76)
    (a : Fin 3) (c : Fin 2) :
    k0_pay11 (F := Ideal) v11 v35 (ix4 i' j a c) = Ideal.exp (v11 (ix4 i' j a c)) * v35 (ix4 (0 : Fin 1) (0 : Fin 1) a c) := by
  unfold k0_pay11
  simp only [mulf_apply, exp_apply]
  rw [broadcastTo_11cd_abcd_apply]

/-- The predicted width … -/
theorem pw_apply (v3 : Vec Ideal S1x19x76x3x85 .f32) (v9 : Vec Ideal S3x2 .f32) (i' : Fin 19) (j : Fin 76) (a : Fin 3) :
    k0_pay15 (F := Ideal) (k0_pay6 (F := Ideal) v3) (k0_pay10 (F := Ideal) v9) (ix3 i' j a)
      = Loss.pw (cellBlk v3 i' j a) v9 a := by
  unfold k0_pay15 Loss.pw Loss.extent
  rw [shapeCast_abc1_abc_apply,
    slice4_axis3_apply 0 (k0_pay11 (F := Ideal) (k0_pay6 (F := Ideal) v3) (k0_pay10 (F := Ideal) v9)) (by decide) i' j a
      (0 : Fin 1) (0 : Fin 2) rfl,
    pay11_apply, pay6_apply v3 i' j a 0 2 rfl, pay10_apply]

/-- … and height. -/
theorem ph_apply (v3 : Vec Ideal S1x19x76x3x85 .f32) (v9 : Vec Ideal S3x2 .f32) (i' : Fin 19) (j : Fin 76) (a : Fin 3) :
    k0_pay16 (F := Ideal) (k0_pay6 (F := Ideal) v3) (k0_pay10 (F := Ideal) v9) (ix3 i' j a)
      = Loss.ph (cellBlk v3 i' j a) v9 a := by
  unfold k0_pay16 Loss.ph Loss.extent
  rw [shapeCast_abc1_abc_apply,
    slice4_axis3_apply 1 (k0_pay11 (F := Ideal) (k0_pay6 (F := Ideal) v3) (k0_pay10 (F := Ideal) v9)) (by decide) i' j a
      (0 : Fin 1) (1 : Fin 2) rfl,
    pay11_apply, pay6_apply v3 i' j a 1 3 rfl, pay10_apply]

/-- The two coordinates of the predicted centre, as rank-3 tiles. -/
theorem pay13_apply (v34 : FVec Ideal S19x76x3x2 .f32) (i' : Fin 19) (j : Fin 76) (a : Fin 3) :
    k0_pay13 (F := Ideal) v34 (ix3 i' j a) = v34 (ix4 i' j a (0 : Fin 2)) :=
  (shapeCast_abc1_abc_apply _ (by decide) i' j a).trans (slice4_axis3_apply 0 _ (by decide) i' j a 0 0 rfl)

theorem pay14_apply (v34 : FVec Ideal S19x76x3x2 .f32) (i' : Fin 19) (j : Fin 76) (a : Fin 3) :
    k0_pay14 (F := Ideal) v34 (ix3 i' j a) = v34 (ix4 i' j a (1 : Fin 2)) :=
  (shapeCast_abc1_abc_apply _ (by decide) i' j a).trans (slice4_axis3_apply 1 _ (by decide) i' j a 0 1 rfl)

section Ends

variable (i : grid0.Coords) (v3 v5 : Vec Ideal S1x19x76x3x85 .f32) (v9 : Vec Ideal S3x2 .f32)
  (i' : Fin 19) (j : Fin 76) (a : Fin 3)

/-- The predicted box's ends along the abscissa … -/
theorem pay24_apply :
    k0_pay24 (F := Ideal) (k0_pay6 (F := Ideal) v3) (k0_pay9 (F := Ideal) i v3) (k0_pay10 (F := Ideal) v9) (ix3 i' j a)
      = Loss.lo (Loss.px (cellBlk v3 i' j a) j.val) (Loss.pw (cellBlk v3 i' j a) v9 a) := by
  unfold k0_pay24 Loss.lo
  simp only [subf_apply, mulf_apply, broadcast_apply]
  rw [pay13_apply, pay9_x, pw_apply] <;> rfl

theorem pay25_apply :
    k0_pay25 (F := Ideal) (k0_pay6 (F := Ideal) v3) (k0_pay9 (F := Ideal) i v3) (k0_pay10 (F := Ideal) v9) (ix3 i' j a)
      = Loss.hi (Loss.px (cellBlk v3 i' j a) j.val) (Loss.pw (cellBlk v3 i' j a) v9 a) := by
  unfold k0_pay25 Loss.hi
  simp only [addf_apply, mulf_apply, broadcast_apply]
  rw [pay13_apply, pay9_x, pw_apply] <;> rfl

/-- … and along the ordinate. -/
theorem pay26_apply :
    k0_pay26 (F := Ideal) (k0_pay6 (F := Ideal) v3) (k0_pay9 (F := Ideal) i v3) (k0_pay10 (F := Ideal) v9) (ix3 i' j a)
      = Loss.lo (Loss.py (cellBlk v3 i' j a) (19 * (i 1).val + i'.val)) (Loss.ph (cellBlk v3 i' j a) v9 a) := by
  unfold k0_pay26 Loss.lo
  simp only [subf_apply, mulf_apply, broadcast_apply]
  rw [pay14_apply, pay9_y, ph_apply] <;> rfl

theorem pay27_apply :
    k0_pay27 (F := Ideal) (k0_pay6 (F := Ideal) v3) (k0_pay9 (F := Ideal) i v3) (k0_pay10 (F := Ideal) v9) (ix3 i' j a)
      = Loss.hi (Loss.py (cellBlk v3 i' j a) (19 * (i 1).val + i'.val)) (Loss.ph (cellBlk v3 i' j a) v9 a) := by
  unfold k0_pay27 Loss.hi
  simp only [addf_apply, mulf_apply, broadcast_apply]
  rw [pay14_apply, pay9_y, ph_apply] <;> rfl

/-- The labelled box's ends along the abscissa … -/
theorem pay28_apply :
    k0_pay28 (F := Ideal) (k0_pay4 (F := Ideal) v5) (ix3 i' j a)
      = Loss.lo (cellBlk v5 i' j a 0) (cellBlk v5 i' j a 2) := by
  unfold k0_pay28 Loss.lo
  simp only [subf_apply, mulf_apply, broadcast_apply]
  rw [pay20_apply, pay22_apply, pay4_apply, pay4_apply] <;> rfl

theorem pay29_apply :
    k0_pay29 (F := Ideal) (k0_pay4 (F := Ideal) v5) (ix3 i' j a)
      = Loss.hi (cellBlk v5 i' j a 0) (cellBlk v5 i' j a 2) := by
  unfold k0_pay29 Loss.hi
  simp only [addf_apply, mulf_apply, broadcast_apply]
  rw [pay20_apply, pay22_apply, pay4_apply, pay4_apply] <;> rfl

/-- … and along the ordinate. -/
theorem pay30_apply :
    k0_pay30 (F := Ideal) (k0_pay4 (F := Ideal) v5) (ix3 i' j a)
      = Loss.lo (cellBlk v5 i' j a 1) (cellBlk v5 i' j a 3) := by
  unfold k0_pay30 Loss.lo
  simp only [subf_apply, mulf_apply, broadcast_apply]
  rw [pay21_apply, pay23_apply, pay4_apply, pay4_apply] <;> rfl

theorem pay31_apply :
    k0_pay31 (F := Ideal) (k0_pay4 (F := Ideal) v5) (ix3 i' j a)
      = Loss.hi (cellBlk v5 i' j a 1) (cellBlk v5 i' j a 3) := by
  unfold k0_pay31 Loss.hi
  simp only [addf_apply, mulf_apply, broadcast_apply]
  rw [pay21_apply, pay23_apply, pay4_apply, pay4_apply] <;> rfl

/-- The overlap of the two boxes along the abscissa, before it is clipped at zero. -/
theorem pay32_apply :
    k0_pay32 (F := Ideal) (k0_pay4 (F := Ideal) v5) (k0_pay6 (F := Ideal) v3) (k0_pay9 (F := Ideal) i v3)
        (k0_pay10 (F := Ideal) v9) (ix3 i' j a)
      = min (Loss.hi (Loss.px (cellBlk v3 i' j a) j.val) (Loss.pw (cellBlk v3 i' j a) v9 a))
            (Loss.hi (cellBlk v5 i' j a 0) (cellBlk v5 i' j a 2))
        - max (Loss.lo (Loss.px (cellBlk v3 i' j a) j.val) (Loss.pw (cellBlk v3 i' j a) v9 a))
            (Loss.lo (cellBlk v5 i' j a 0) (cellBlk v5 i' j a 2)) := by
  unfold k0_pay32
  simp only [subf_apply, maximumf_apply, minimumf_apply]
  rw [pay24_apply, pay25_apply, pay28_apply, pay29_apply]

end Ends

/-- The zero tile. -/
theorem pay33_apply (i' : Fin 19) (j : Fin 76) (a : Fin 3) :
    k0_pay33 (F := Ideal) (ix3 i' j a) = Loss.lit 0x00000000#32 := rfl

/-- The predicted box's area. -/
theorem pay34_apply (v45 v47 : FVec Ideal S19x76x3 .f32) (x : S19x76x3.Idx) :
    k0_pay34 (F := Ideal) v45 v47 x = v45 x * v47 x := rfl

end Cert.KernelIdeal.KTileValue

end
-- ==== Proof.LibTileSum.lean ====
/-
  The sum of a tile, as the kernel takes it: flatten the trailing axes, add along the flattened axis, add the row
  sums. A sum over the positions q < m·n is the double sum over (q / n, q % n); a one-axis add-reduction of a
  matrix is the sum of a row or of its one column; a maximum-reduction along the last axis of a rank-4 array is the
  fold of max over that axis. Together: the flatten–reduce–reduce chain on an [a, b, c] (or [a, b, c, d]) tile is
  the triple (quadruple) sum of its entries. All at the exact extended reals. The extents are variables.
-/
import Idealize.ShloMosaic.PureOps.Ideal.Laws
import proofs.«179941_j67783173865496_2_alg».proof.Proof.LibTileLayout

open scoped BigOperators

namespace Cert.LibTileSum

open Idealize.ShloMosaic Idealize.ShloMosaic.ValueIdx Cert.LibTileLayout

/-- Position a·n + b lies below m·n. -/
theorem mul_add_lt {m n : ℕ} (a : Fin m) (b : Fin n) : a.val * n + b.val < m * n := by
  have h1 : a.val * n + b.val < (a.val + 1) * n := by
    rw [Nat.add_mul, Nat.one_mul]; exact Nat.add_lt_add_left b.isLt _
  exact Nat.lt_of_lt_of_le h1 (Nat.mul_le_mul_right n a.isLt)

/-- A sum over the positions below N = m·n is the double sum over rows and columns, position a·n + b. -/
theorem sum_fin_mul {M : Type*} [AddCommMonoid M] {m n N : ℕ} (hN : N = m * n) (f : Fin N → M) :
    ∑ q : Fin N, f q = ∑ a : Fin m, ∑ b : Fin n, f ⟨a.val * n + b.val, hN ▸ mul_add_lt a b⟩ := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

/-- Adding a matrix along axis 1: at row r, the sum of the row. -/
theorem rowSum_apply {m n : ℕ} (src : FVec Ideal ⟨2, ![m, n]⟩ .f32) (acc : BitVec 32)
    (h : (⟨2, ![m, n]⟩ : Shape).Reduces [1] ⟨1, ![m]⟩) (hφ : FKind.Formats .f32) (hacc : acc = FKind.add.neutral .f32 hφ)
    (r : Fin m) :
    multiReduction (F := Ideal) .add [1] ⟨1, ![m]⟩ src acc h hφ hacc (ix1 r) = ∑ k : Fin n, src (ix2 r k) := by
  refine (Ideal.multiReduction_add_single src acc h hφ hacc (ix1 r)).trans ?_
  refine Finset.sum_congr rfl fun k _ => congrArg src ?_
  funext c
  match c with
  | ⟨0, _⟩ => exact Fin.ext rfl
  | ⟨1, _⟩ => exact Fin.ext rfl

/-- Adding a one-column matrix along axis 0: the sum of the column. -/
theorem colSum_apply {m : ℕ} (src : FVec Ideal ⟨2, ![m, 1]⟩ .f32) (acc : BitVec 32)
    (h : (⟨2, ![m, 1]⟩ : Shape).Reduces [0] ⟨1, ![1]⟩) (hφ : FKind.Formats .f32) (hacc : acc = FKind.add.neutral .f32 hφ)
    (u : Fin 1) :
    multiReduction (F := Ideal) .add [0] ⟨1, ![1]⟩ src acc h hφ hacc (ix1 u) = ∑ r : Fin m, src (ix2 r (0 : Fin 1)) := by
  refine (Ideal.multiReduction_add_single src acc h hφ hacc (ix1 u)).trans ?_
  refine Finset.sum_congr rfl fun r _ => congrArg src ?_
  funext c
  match c with
  | ⟨0, _⟩ => exact Fin.ext rfl
  | ⟨1, _⟩ => exact Fin.ext (by show u.val = 0; omega)

/-- The maximum along the last axis of a rank-4 array: the fold of max, from the accumulator's value. -/
theorem lastMax_apply {a b c n : ℕ} (src : FVec Ideal ⟨4, ![a, b, c, n]⟩ .f32) (acc : BitVec 32)
    (h : (⟨4, ![a, b, c, n]⟩ : Shape).Reduces [3] ⟨3, ![a, b, c]⟩) (hφ : FKind.Formats .f32)
    (hacc : acc = FKind.maximumf.neutral .f32 hφ) (p : Fin a) (q : Fin b) (r : Fin c) :
    multiReduction (F := Ideal) .maximumf [3] ⟨3, ![a, b, c]⟩ src acc h hφ hacc (ix3 p q r)
      = (Finset.univ : Finset (Fin n)).fold max (Ideal.ofBits .f32 acc) (fun g => src (ix4 p q r g)) := by
  have e : (src ∘ h.lift (ix3 p q r)) = fun g : Fin n => src (ix4 p q r g) :=
    funext fun g => congrArg src (funext fun c => by
      match c with
      | ⟨0, _⟩ => exact Fin.ext rfl
      | ⟨1, _⟩ => exact Fin.ext rfl
      | ⟨2, _⟩ => exact Fin.ext rfl
      | ⟨3, _⟩ => exact Fin.ext rfl)
  refine (Ideal.multiReduction_maximumf_single src acc h hφ hacc (ix3 p q r)).trans ?_
  rw [e]
  rfl

/-- The sum of an [a, b, c] tile taken by flattening to [a, b·c], adding each row, and adding the row sums. -/
theorem tileSum3 {a b c N : ℕ} (w : FVec Ideal ⟨3, ![a, b, c]⟩ .f32) (hN : N = b * c)
    (h1 : (⟨3, ![a, b, c]⟩ : Shape).ShapeCasts ⟨2, ![a, N]⟩) (h2 : (⟨2, ![a, N]⟩ : Shape).Reduces [1] ⟨1, ![a]⟩)
    (h3 : (⟨1, ![a]⟩ : Shape).ShapeCasts ⟨2, ![a, 1]⟩) (h4 : (⟨2, ![a, 1]⟩ : Shape).Reduces [0] ⟨1, ![1]⟩)
    (h5 : (⟨1, ![1]⟩ : Shape).ShapeCasts ⟨2, ![1, 1]⟩) (acc acc' : BitVec 32) (hφ hφ' : FKind.Formats .f32)
    (hacc : acc = FKind.add.neutral .f32 hφ) (hacc' : acc' = FKind.add.neutral .f32 hφ') (u v : Fin 1) :
    shapeCast ⟨2, ![1, 1]⟩ (multiReduction (F := Ideal) .add [0] ⟨1, ![1]⟩
        (shapeCast ⟨2, ![a, 1]⟩ (multiReduction (F := Ideal) .add [1] ⟨1, ![a]⟩ (shapeCast ⟨2, ![a, N]⟩ w h1) acc h2 hφ hacc) h3)
        acc' h4 hφ' hacc') h5 (ix2 u v)
      = ∑ i : Fin a, ∑ j : Fin b, ∑ k : Fin c, w (ix3 i j k) := by
  rw [shapeCast_a_1a_apply, colSum_apply]
  refine Finset.sum_congr rfl fun i _ => ?_
  rw [shapeCast_a_a1_apply, rowSum_apply, sum_fin_mul hN]
  refine Finset.sum_congr rfl fun j _ => Finset.sum_congr rfl fun k _ => ?_
  exact shapeCast_abc_aN_apply w h1 hN i j k _ rfl

/-- The same for an [a, b, c, d] tile flattened to [a, b·c·d]. -/
theorem tileSum4 {a b c d N : ℕ} (w : FVec Ideal ⟨4, ![a, b, c, d]⟩ .f32) (hN : N = b * c * d)
    (h1 : (⟨4, ![a, b, c, d]⟩ : Shape).ShapeCasts ⟨2, ![a, N]⟩) (h2 : (⟨2, ![a, N]⟩ : Shape).Reduces [1] ⟨1, ![a]⟩)
    (h3 : (⟨1, ![a]⟩ : Shape).ShapeCasts ⟨2, ![a, 1]⟩) (h4 : (⟨2, ![a, 1]⟩ : Shape).Reduces [0] ⟨1, ![1]⟩)
    (h5 : (⟨1, ![1]⟩ : Shape).ShapeCasts ⟨2, ![1, 1]⟩) (acc acc' : BitVec 32) (hφ hφ' : FKind.Formats .f32)
    (hacc : acc = FKind.add.neutral .f32 hφ) (hacc' : acc' = FKind.add.neutral .f32 hφ') (u v : Fin 1) :
    shapeCast ⟨2, ![1, 1]⟩ (multiReduction (F := Ideal) .add [0] ⟨1, ![1]⟩
        (shapeCast ⟨2, ![a, 1]⟩ (multiReduction (F := Ideal) .add [1] ⟨1, ![a]⟩ (shapeCast ⟨2, ![a, N]⟩ w h1) acc h2 hφ hacc) h3)
        acc' h4 hφ' hacc') h5 (ix2 u v)
      = ∑ i : Fin a, ∑ j : Fin b, ∑ k : Fin c, ∑ l : Fin d, w (ix4 i j k l) := by
  rw [shapeCast_a_1a_apply, colSum_apply]
  refine Finset.sum_congr rfl fun i _ => ?_
  have hN' : N = (b * c) * d := hN
  rw [shapeCast_a_a1_apply, rowSum_apply, sum_fin_mul hN']
  have hbc : b * c = b * c := rfl
  rw [sum_fin_mul hbc]
  refine Finset.sum_congr rfl fun j _ => Finset.sum_congr rfl fun k _ => Finset.sum_congr rfl fun l _ => ?_
  exact shapeCast_abcd_aN_apply w h1 hN i j k l _ rfl

end Cert.LibTileSum
-- ==== Proof.KTileBox.lean ====
/-
  The tile's box sum. The body forms, cell by cell, the label's objectness times (2 − w·h/608²) times
  (1 − GIoU of the predicted and the labelled box), flattens the [19, 76, 3] tile of these to [19, 228], adds
  along the rows and then adds the 19 row sums. Read at its one index this is the triple sum, over the tile's
  rows, columns and anchors, of the loss's box term of the cell.
-/
import proofs.«179941_j67783173865496_2_alg».proof.Proof.KTileGeom
import proofs.«179941_j67783173865496_2_alg».proof.Proof.LibTileSum

set_option pp.maxSteps 5000
set_option pp.deepTerms false

noncomputable section

namespace Cert.KernelIdeal.KTileValue

open Cert Cert.KernelIdeal Cert.KernelIdeal.Gen Idealize.ShloMosaic Idealize.ShloMosaic.ValueIdx
open Cert.LibTileLayout Cert.LibTileBroadcast Cert.LibTileSum

theorem boxSum_apply (i : grid0.Coords) (v3 v5 : Vec Ideal S1x19x76x3x85 .f32) (v9 : Vec Ideal S3x2 .f32) (y : S1x1.Idx) :
    KTile.boxSum (F := Ideal) i v3 v5 v9 y = ∑ i' : Fin 19, ∑ j : Fin 76, ∑ a : Fin 3,
      Cert.Loss.boxCell (cellBlk v3 i' j a) (cellBlk v5 i' j a) v9 a (19 * (i 1).val + i'.val) j.val := by
  obtain ⟨u, v, rfl⟩ : ∃ u v : Fin 1, y = ix2 u v := ⟨y 0, y 1, eq_ix2 y⟩
  unfold KTile.boxSum k0_pay35
  refine (tileSum3 (a := 19) (b := 76) (c := 3) (N := 228) _ rfl (by decide) (by decide) (by decide) (by decide) (by decide)
    0x00000000#32 0x00000000#32 (.inl rfl) (.inl rfl) rfl rfl u v).trans ?_
  refine Finset.sum_congr rfl fun i' _ => Finset.sum_congr rfl fun j _ => Finset.sum_congr rfl fun a _ => ?_
  simp only [mulf_apply, subf_apply, addf_apply, divf_apply, maximumf_apply, minimumf_apply, broadcast_apply,
    pay34_apply]
  rw [shapeCast_abc1_abc_apply]
  simp only [pay18_apply, pay4_apply, pw_apply, ph_apply, pay22_apply, pay23_apply, pay24_apply, pay25_apply,
    pay26_apply, pay27_apply, pay28_apply, pay29_apply, pay30_apply, pay31_apply, pay32_apply, pay33_apply]
  unfold Loss.boxCell Loss.boxTerm Loss.giou Loss.iou Loss.hullArea Loss.unionArea Loss.interArea Loss.ov Loss.hull
  rfl

end Cert.KernelIdeal.KTileValue

end
-- ==== Proof.KTileConf.lean ====
/-
  The tile's confidence sum. For every cell the body compares the predicted box with each of the image's 150
  ground-truth boxes (intersection over union), takes the best of the 150, and marks the cell as background
  where the best overlap is below one half. The cell's term is the squared gap between the label's objectness and
  the predicted one, times the logistic cross-entropy of the objectness logit, times (objectness + background
  weight) — in that grouping. The tile of these is summed as the box terms are.
-/
import proofs.«179941_j67783173865496_2_alg».proof.Proof.KTileGeom
import proofs.«179941_j67783173865496_2_alg».proof.Proof.LibTileSum

set_option pp.maxSteps 5000
set_option pp.deepTerms false

noncomputable section

namespace Cert.KernelIdeal.KTileValue

open Cert Cert.KernelIdeal Cert.KernelIdeal.Gen Idealize.ShloMosaic Idealize.ShloMosaic.ValueIdx
open Cert.LibTileLayout Cert.LibTileBroadcast Cert.LibTileSum

/-! ## The ground-truth boxes, coordinate by coordinate -/

section Boxes

variable (v7 : Vec Ideal S1x150x4 .f32) (g : Fin 150)

theorem pay36_apply : k0_pay36 (F := Ideal) (k0_pay5 (F := Ideal) v7) (ix1 g) = boxesBlk v7 g 0 :=
  (shapeCast_a1_a_apply _ (by decide) g).trans
    ((slice2_axis1_apply 0 _ (by decide) g (0 : Fin 1) (0 : Fin 4) rfl).trans (pay5_apply v7 g 0))

theorem pay37_apply : k0_pay37 (F := Ideal) (k0_pay5 (F := Ideal) v7) (ix1 g) = boxesBlk v7 g 1 :=
  (shapeCast_a1_a_apply _ (by decide) g).trans
    ((slice2_axis1_apply 1 _ (by decide) g (0 : Fin 1) (1 : Fin 4) rfl).trans (pay5_apply v7 g 1))

theorem pay38_apply : k0_pay38 (F := Ideal) (k0_pay5 (F := Ideal) v7) (ix1 g) = boxesBlk v7 g 2 :=
  (shapeCast_a1_a_apply _ (by decide) g).trans
    ((slice2_axis1_apply 2 _ (by decide) g (0 : Fin 1) (2 : Fin 4) rfl).trans (pay5_apply v7 g 2))

theorem pay39_apply : k0_pay39 (F := Ideal) (k0_pay5 (F := Ideal) v7) (ix1 g) = boxesBlk v7 g 3 :=
  (shapeCast_a1_a_apply _ (by decide) g).trans
    ((slice2_axis1_apply 3 _ (by decide) g (0 : Fin 1) (3 : Fin 4) rfl).trans (pay5_apply v7 g 3))

/-- Half the box's width. -/
theorem pay40_apply :
    k0_pay40 (F := Ideal) (k0_pay5 (F := Ideal) v7) (ix1 g) = boxesBlk v7 g 2 * Loss.lit 0x3F000000#32 := by
  unfold k0_pay40
  simp only [mulf_apply, broadcast_apply]
  rw [pay38_apply] <;> rfl

end Boxes

/-! ## The background mark -/

/-- The comparison's bit, widened and read as a number, is the indicator of "below one half". -/
theorem below_word (m : EReal) :
    FloatOps.sitofp (F := Ideal) .f32
        ((FloatOps.cmpf (F := Ideal) (φ := .f32) .olt m (Loss.lit 0x3F000000#32)).setWidth 32) = Loss.below m := by
  have hc : FloatOps.cmpf (F := Ideal) (φ := .f32) .olt m (Loss.lit 0x3F000000#32)
      = BitVec.ofBool (decide (m < Loss.lit 0x3F000000#32)) := rfl
  rw [hc]
  unfold Loss.below
  by_cases h : m < Loss.lit 0x3F000000#32
  · rw [if_pos h, decide_eq_true h]
    show (((1 : ℤ) : ℝ) : EReal) = 1
    simp
  · rw [if_neg h, decide_eq_false h]
    show (((0 : ℤ) : ℝ) : EReal) = 0
    simp

theorem pay12_apply (v12 : FVec Ideal S19x76x3x1 .f32) (x : S19x76x3x1.Idx) :
    k0_pay12 (F := Ideal) v12 x = Ideal.logistic (v12 x) := rfl

theorem pay41_apply (v49 : FVec Ideal S19x76x3x1 .f32) (x : S19x76x3x1.Idx) :
    k0_pay41 (F := Ideal) v49 x = Loss.lit 0x3F800000#32 - v49 x := rfl

section Best

variable (i : grid0.Coords) (v3 : Vec Ideal S1x19x76x3x85 .f32) (v7 : Vec Ideal S1x150x4 .f32) (v9 : Vec Ideal S3x2 .f32)
  (i' : Fin 19) (j : Fin 76) (a : Fin 3)

/-- The mark of cell (i', j, a): the bit "the best overlap with a ground-truth box is below one half", widened. -/
theorem pay42_apply :
    k0_pay42 (F := Ideal)
        (k0_pay24 (F := Ideal) (k0_pay6 (F := Ideal) v3) (k0_pay9 (F := Ideal) i v3) (k0_pay10 (F := Ideal) v9))
        (k0_pay25 (F := Ideal) (k0_pay6 (F := Ideal) v3) (k0_pay9 (F := Ideal) i v3) (k0_pay10 (F := Ideal) v9))
        (k0_pay26 (F := Ideal) (k0_pay6 (F := Ideal) v3) (k0_pay9 (F := Ideal) i v3) (k0_pay10 (F := Ideal) v9))
        (k0_pay27 (F := Ideal) (k0_pay6 (F := Ideal) v3) (k0_pay9 (F := Ideal) i v3) (k0_pay10 (F := Ideal) v9))
        (k0_pay34 (F := Ideal) (k0_pay15 (F := Ideal) (k0_pay6 (F := Ideal) v3) (k0_pay10 (F := Ideal) v9))
          (k0_pay16 (F := Ideal) (k0_pay6 (F := Ideal) v3) (k0_pay10 (F := Ideal) v9)))
        (k0_pay36 (F := Ideal) (k0_pay5 (F := Ideal) v7)) (k0_pay37 (F := Ideal) (k0_pay5 (F := Ideal) v7))
        (k0_pay38 (F := Ideal) (k0_pay5 (F := Ideal) v7)) (k0_pay39 (F := Ideal) (k0_pay5 (F := Ideal) v7))
        (k0_pay40 (F := Ideal) (k0_pay5 (F := Ideal) v7)) (ix4 i' j a (0 : Fin 1))
      = (FloatOps.cmpf (F := Ideal) (φ := .f32) .olt
          (Loss.bestIou (cellBlk v3 i' j a) (boxesBlk v7) v9 a (19 * (i 1).val + i'.val) j.val)
          (Loss.lit 0x3F000000#32)).setWidth 32 := by
  unfold k0_pay42
  simp only [extui_apply, cmpf_apply, broadcast_apply]
  rw [shapeCast_abc_abc1_apply]
  refine congrArg (fun m : EReal => (FloatOps.cmpf (F := Ideal) (φ := .f32) .olt m (Loss.lit 0x3F000000#32)).setWidth 32) ?_
  refine (lastMax_apply (a := 19) (b := 76) (c := 3) (n := 150) _ 0xFF800000#32 (by decide) (.inl rfl) rfl i' j a).trans ?_
  unfold Loss.bestIou
  refine congrArg (fun f : Fin 150 → EReal => (Finset.univ : Finset (Fin 150)).fold max (Loss.lit 0xFF800000#32) f)
    (funext fun g => ?_)
  simp only [divf_apply, mulf_apply, subf_apply, addf_apply, maximumf_apply, minimumf_apply, broadcast_apply,
    pay34_apply, broadcastTo_abc1_abcn_apply, broadcastTo_111n_abcn_apply, shapeCast_abc_abc1_apply,
    shapeCast_a_111a_apply]
  simp only [pay24_apply, pay25_apply, pay26_apply, pay27_apply, pw_apply, ph_apply, pay36_apply, pay37_apply,
    pay38_apply, pay39_apply, pay40_apply]
  unfold Loss.pairIou Loss.iou Loss.unionArea Loss.interArea Loss.ov Loss.lo Loss.hi
  rfl

end Best

theorem confSum_apply (i : grid0.Coords) (v3 v5 : Vec Ideal S1x19x76x3x85 .f32) (v7 : Vec Ideal S1x150x4 .f32)
    (v9 : Vec Ideal S3x2 .f32) (y : S1x1.Idx) :
    KTile.confSum (F := Ideal) i v3 v5 v7 v9 y = ∑ i' : Fin 19, ∑ j : Fin 76, ∑ a : Fin 3,
      Cert.Loss.confProdCell (cellBlk v3 i' j a) (cellBlk v5 i' j a) (boxesBlk v7) v9 a (19 * (i 1).val + i'.val) j.val := by
  obtain ⟨u, v, rfl⟩ : ∃ u v : Fin 1, y = ix2 u v := ⟨y 0, y 1, eq_ix2 y⟩
  unfold KTile.confSum k0_pay43
  refine (tileSum3 (a := 19) (b := 76) (c := 3) (N := 228) _ rfl (by decide) (by decide) (by decide) (by decide) (by decide)
    0x00000000#32 0x00000000#32 (.inl rfl) (.inl rfl) rfl rfl u v).trans ?_
  refine Finset.sum_congr rfl fun i' _ => Finset.sum_congr rfl fun j _ => Finset.sum_congr rfl fun a _ => ?_
  rw [shapeCast_abc1_abc_apply]
  simp only [mulf_apply, subf_apply, addf_apply, maximumf_apply, broadcast_apply, sitofp_apply, absf_apply, exp_apply,
    log1p_apply, pay12_apply, pay41_apply]
  rw [pay42_apply]
  simp only [pay7_apply, pay18_apply, pay4_apply]
  rw [below_word]
  unfold Loss.confProdCell Loss.confProd Loss.bgd Loss.bce
  have hz : (Scalar.ofBits (F := Ideal) .f32 0x00000000#32 : EReal) = 0 := Loss.lit_zero
  simp only [hz, Loss.lit_zero, zero_sub]

end Cert.KernelIdeal.KTileValue

end
-- ==== Proof.KTileClass.lean ====
/-
  The tile's class sum. For each cell of the tile and each of the 80 classes the body forms the logistic
  cross-entropy of the class logit against the class label, weighs it by the label's objectness, and adds all of
  them up by flattening the tile, adding each row and adding the row sums. Read entry by entry this is the sum,
  over the tile's cells and classes, of the class term of the loss.
-/
import proofs.«179941_j67783173865496_2_alg».proof.Proof.KTileCell
import proofs.«179941_j67783173865496_2_alg».proof.Proof.LibTileSum

open scoped BigOperators

noncomputable section

namespace Cert.KernelIdeal.KTileValue

open Cert.KernelIdeal Cert.KernelIdeal.Gen Idealize.ShloMosaic Idealize.ShloMosaic.ValueIdx
open Cert.LibTileLayout Cert.LibTileBroadcast Cert.LibTileSum

/-- Subtracting from the zero word negates: the word denotes 0. -/
theorem zero_word_sub (z : EReal) : Ideal.ofBits .f32 0x00000000#32 - z = -z := by
  rw [Ideal.ofBits_zero_f32, zero_sub]

/-- The body's chain at one entry — max(x, 0) − x·l + log(1 + e^{0 − |x|}) — is the logistic cross-entropy of the
    logit x against the label l. -/
theorem bce_chain (x l : EReal) :
    (max x (Ideal.ofBits .f32 0x00000000#32) - x * l)
        + Ideal.log1p (Ideal.exp (Ideal.ofBits .f32 0x00000000#32 - max x (-x))) = Cert.Loss.bce x l := by
  unfold Cert.Loss.bce
  rw [zero_word_sub]

/-- THE TILE'S CLASS SUM. The body weighs each class's cross-entropy by the label's objectness (field 4 of the label
    cell, spread over the 80 classes), flattens the [19, 76, 3, 80] tile to [19, 18240], adds each row and adds the
    19 row sums: the sum over the tile's cells and classes of the loss's class term. -/
theorem classSum_apply (v3 v5 : Vec Ideal S1x19x76x3x85 .f32) (y : S1x1.Idx) :
    KTile.classSum (F := Ideal) v3 v5 y
      = ∑ i' : Fin 19, ∑ j : Fin 76, ∑ a : Fin 3, ∑ k : Fin 80,
          Cert.Loss.classCell (cellBlk v3 i' j a) (cellBlk v5 i' j a) k := by
  obtain ⟨u, v, rfl⟩ : ∃ (u v : Fin 1), y = ix2 u v := ⟨y 0, y 1, eq_ix2 y⟩
  unfold KTile.classSum k0_pay44
  dsimp only
  refine (tileSum4 (a := 19) (b := 76) (c := 3) (d := 80) (N := 18240) _ rfl shapeCasts_S19x76x3x80_S19x18240
    reduces_S19x18240_S19 shapeCasts_S19_S19x1 reduces_S19x1_S1 shapeCasts_S1_S1x1 0x00000000#32 0x00000000#32
    (.inl rfl) (.inl rfl) rfl rfl u v).trans ?_
  refine Finset.sum_congr rfl fun i' _ => Finset.sum_congr rfl fun j _ => Finset.sum_congr rfl fun a _ =>
    Finset.sum_congr rfl fun k _ => ?_
  have hw : broadcastTo S19x76x3x80 (k0_pay18 (F := Ideal) (k0_pay4 v5)) broadcasts_S19x76x3x1_S19x76x3x80 (ix4 i' j a k)
      = cellBlk v5 i' j a 4 :=
    (broadcastTo_abc1_abcn_apply _ _ i' j a k).trans ((pay18_apply _ i' j a).trans (pay4_apply v5 i' j a 4))
  have hx : k0_pay8 (F := Ideal) v3 (ix4 i' j a k) = cellBlk v3 i' j a (⟨5 + k.val, by omega⟩ : Fin 85) :=
    pay8_apply v3 i' j a k
  have hl : k0_pay19 (F := Ideal) (k0_pay4 v5) (ix4 i' j a k) = cellBlk v5 i' j a (⟨5 + k.val, by omega⟩ : Fin 85) :=
    (pay19_apply _ i' j a k).trans (pay4_apply v5 i' j a _)
  simp only [mulf_apply, addf_apply, subf_apply, maximumf_apply, log1p_apply, exp_apply, absf_apply, broadcast_apply]
  rw [hw, hx, hl]
  exact congrArg (fun z => cellBlk v5 i' j a 4 * z) (bce_chain _ _)

end Cert.KernelIdeal.KTileValue

end
-- ==== Proof.KTileZero.lean ====
/-
  The row a point divisible by four starts from: the zero word spread over the 128 lanes, which at the exact
  values is 0 in every lane.
-/
import proofs.«179941_j67783173865496_2_alg».proof.Proof.Gen.KernelIdeal.Skeleton
import Idealize.ShloMosaic.PureOps.Ideal.Laws

noncomputable section

namespace Cert.KernelIdeal.KTileValue

open Cert.KernelIdeal Cert.KernelIdeal.Gen Idealize.ShloMosaic

/-- The row a point divisible by four starts from is zero in every lane: it is the zero word spread over the row. -/
theorem pay2_lane (y : S1x1x128.Idx) : k0_pay2 (F := Ideal) y = 0 :=
  (show k0_pay2 (F := Ideal) y = Ideal.ofBits .f32 0x00000000#32 from rfl).trans Ideal.ofBits_zero_f32

end Cert.KernelIdeal.KTileValue

end
-- ==== Proof.Finite.lean ====
/-
  Every entry of the three arrays is a real number when the precondition holds: the precondition says that each
  entry's absolute value is below +∞, and an extended real whose absolute value is below +∞ is neither +∞ nor −∞.
-/
import proofs.«179941_j67783173865496_2_alg».proof.Proof.Gen.Pre_finite_inputs
import proofs.«179941_j67783173865496_2_alg».proof.Proof.Loss
import Idealize.ShloMosaic.Lib.ReduceAll
import Idealize.ShloMosaic.PureOps.Ideal.Laws
import Idealize.ShloMosaic.Lib.ValueIdx

noncomputable section

namespace Cert.Finite

open Idealize.ShloMosaic Cert.Pre_finite_inputs Cert.Pre_finite_inputs.Gen

/-- The rank-0 shape has one index. -/
instance : Subsingleton S_.Idx := ⟨fun a b => funext fun d => d.elim0⟩

/-- The word of +∞. -/
theorem top_word : Ideal.ofBits .f32 0x7F800000#32 = (⊤ : EReal) := by simp [Ideal.ofBits, Ideal.ieee]

/-- |z| < +∞ leaves only the real numbers: at either infinity max(z, −z) is +∞. -/
theorem real_of_abs_lt (z : EReal) (h : Ideal.cmp .olt (max z (-z)) (Ideal.ofBits .f32 0x7F800000#32) = 1#1) :
    Cert.Loss.IsReal z := by
  rw [top_word] at h
  have hlt : max z (-z) < ⊤ := by
    by_contra hn
    have e : Ideal.cmp .olt (max z (-z)) ⊤ = 0#1 := by
      simp only [Ideal.cmp, decide_eq_false hn]; rfl
    rw [e] at h
    exact absurd h (by decide)
  induction z using EReal.rec with
  | bot => simp at hlt
  | top => simp at hlt
  | coe r => exact ⟨r, rfl⟩

/-- The precondition is a conjunction of three "all entries have |·| < +∞": each conjunct is 1, so each entry's
    comparison is 1, so each entry is real. -/
theorem finite_of_pre (a0 : FVec Ideal S16x76x76x255 .f32) (a1 : FVec Ideal S16x76x76x3x85 .f32) (a2 : FVec Ideal S16x150x4 .f32)
    (h : Cert.Pre_finite_inputs.fn (F := Ideal) a0 a1 a2 = fun _ => 1#1) :
    (∀ i, Cert.Loss.IsReal (a0 i)) ∧ (∀ i, Cert.Loss.IsReal (a1 i)) ∧ (∀ i, Cert.Loss.IsReal (a2 i)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i)⟩

end Cert.Finite

end
-- ==== Proof.KValue.lean ====
/-
  The kernel's result is the three averaged sums of the whole arrays.
  Row b of the [16, 1, 128] array of partial sums is zeroed at the first of image b's four grid points and receives, at
  each of the four, that point's three tile sums in lanes 0, 1, 2: so lane q ends at the sum of the four tile sums.
  A tile sum is the sum of the cell terms over the tile's 19 rows (rows 19s … 19s + 18 of the image at the s-th point),
  its 76 columns and 3 anchors, each cell read off the whole arrays; four quarters of nineteen rows are the image's
  seventy-six. The lines after the region average lane q over the sixteen images. Sums of extended reals regroup freely
  (addition is commutative and associative there); the one step that needs real numbers is the regrouping of the
  confidence term, product of three factors against the cross-entropy distributed over the two weights.
-/
import proofs.«179941_j67783173865496_2_alg».proof.Proof.KArr
import proofs.«179941_j67783173865496_2_alg».proof.Proof.KBlocks
import proofs.«179941_j67783173865496_2_alg».proof.Proof.KTailValue
import proofs.«179941_j67783173865496_2_alg».proof.Proof.KTileCell
import proofs.«179941_j67783173865496_2_alg».proof.Proof.KTileOut
import proofs.«179941_j67783173865496_2_alg».proof.Proof.KTileBox
import proofs.«179941_j67783173865496_2_alg».proof.Proof.KTileConf
import proofs.«179941_j67783173865496_2_alg».proof.Proof.KTileClass
import proofs.«179941_j67783173865496_2_alg».proof.Proof.KTileZero
import proofs.«179941_j67783173865496_2_alg».proof.Proof.Loss
import proofs.«179941_j67783173865496_2_alg».proof.Proof.Finite

noncomputable section

namespace Cert.KernelIdeal.KValue

open Cert.KernelIdeal Cert.KernelIdeal.Gen Cert.KernelIdeal.KFrame Cert.KernelIdeal.KArr Cert.KernelIdeal.KTileValue
open Idealize.ShloMosaic Idealize.ShloMosaic.TcCoe Idealize.ShloMosaic.ValueIdx Idealize.SL.Sem

variable (m : (ℓ : Loc nD τ sig) → Buf (Elt Ideal) ℓ) (c : Dev nD)

/-- The arrays the region finds: the raw numbers (the first argument, reshaped), the labels, the boxes, the anchors. -/
abbrev X : Cert.Loss.Raw.Idx → EReal := V m c main_v0
abbrev Lb : Cert.Loss.Raw.Idx → EReal := m ((c.tc : Thread nD τ).loc main_arg1)
abbrev Bb : Cert.Loss.Boxes.Idx → EReal := m ((c.tc : Thread nD τ).loc main_arg2)
abbrev Anc : Cert.Loss.Anchors.Idx → EReal := fun i => Ideal.ofBits .f32 (lit0 (S3x2.rowMajor i))

/-- Lane q of a row of partial sums. -/
abbrev lane (q : Fin 3) : S1x1x128.Idx := ix3 (0 : Fin 1) (0 : Fin 1) (⟨q.val, by omega⟩ : Fin 128)

/-- The q-th of a point's three tile sums. -/
def tileSum (q : Fin 3) (t : Fin cfg0.N) : EReal :=
  match q with
  | ⟨0, _⟩ => KTile.boxSum (F := Ideal) (grid0.coords t) (iblk m c 0 t) (iblk m c 1 t) (iblk m c 3 t) (ix2 (0 : Fin 1) (0 : Fin 1))
  | ⟨1, _⟩ => KTile.confSum (F := Ideal) (grid0.coords t) (iblk m c 0 t) (iblk m c 1 t) (iblk m c 2 t) (iblk m c 3 t) (ix2 (0 : Fin 1) (0 : Fin 1))
  | ⟨_ + 2, _⟩ => KTile.classSum (F := Ideal) (iblk m c 0 t) (iblk m c 1 t) (ix2 (0 : Fin 1) (0 : Fin 1))

/-- A point adds its q-th tile sum to lane q of the row. -/
theorem tileOut_lane (q : Fin 3) (t : Fin cfg0.N) (prev : Vec Ideal S1x1x128 .f32) :
    KTile.tileOut (F := Ideal) (grid0.coords t) (iblk m c 0 t) (iblk m c 1 t) (iblk m c 2 t) (iblk m c 3 t) prev (lane q)
      = prev (lane q) + tileSum m c q t := by
  match q with
  | ⟨0, _⟩ => exact tileOut_lane0 ..
  | ⟨1, _⟩ => exact tileOut_lane1 ..
  | ⟨2, _⟩ => exact tileOut_lane2 ..

/-- Point s of image b's group of four. -/
abbrev pt (b : Fin 16) (s : Fin 4) : Fin cfg0.N :=
  ⟨4 * b.val + s.val, by have := b.isLt; have := s.isLt; have hN : cfg0.N = 64 := N_0; omega⟩

theorem bq_pt (b : Fin 16) (s : Fin 4) : bq (pt b s) = b := Fin.ext (by show (4 * b.val + s.val) / 4 = b.val; have := s.isLt; omega)
theorem iq_pt (b : Fin 16) (s : Fin 4) (i' : Fin 19) :
    iq (pt b s) i' = (⟨19 * s.val + i'.val, by have := s.isLt; have := i'.isLt; omega⟩ : Fin 76) :=
  Fin.ext (by show 19 * ((4 * b.val + s.val) % 4) + i'.val = 19 * s.val + i'.val; have := s.isLt; omega)

/-- Lane q of image b's row after its last point is the sum of its four points' q-th tile sums: the row is zeroed at the
    first of the four and each adds its own. -/
theorem out_lane (b : Fin 16) (q : Fin 3) :
    outArr m c (ix3 b (0 : Fin 1) (⟨q.val, by omega⟩ : Fin 128)) = ∑ s : Fin 4, tileSum m c q (pt b s) := by
  have r0 : rowAt m c (pt b 0).val (pt b 0).isLt (lane q) = tileSum m c q (pt b 0) := by
    rw [rowAt_reset m c (pt b 0) (by show (4 * b.val + 0) % 4 = 0; omega), tileOut_lane, pay2_lane, zero_add]
  have step : ∀ s s' : Fin 4, s'.val + 1 = s.val →
      rowAt m c (pt b s).val (pt b s).isLt (lane q) = rowAt m c (pt b s').val (pt b s').isLt (lane q) + tileSum m c q (pt b s) := by
    intro s s' hs
    rw [rowAt_step m c (pt b s) (by show ¬(4 * b.val + s.val) % 4 = 0; have := s.isLt; omega), tileOut_lane]
    congr 1
    exact congrFun (rowAt_congr m c (by show 4 * b.val + s.val - 1 = 4 * b.val + s'.val; omega) _ _) _
  have e3 := step 3 2 (by decide)
  have e2 := step 2 1 (by decide)
  have e1 := step 1 0 (by decide)
  rw [Fin.sum_univ_four]
  show rowAt m c (pt b 3).val (pt b 3).isLt (lane q) = _
  rw [e3, e2, e1, r0]

theorem cellBlk0 (t : Fin cfg0.N) (i' : Fin 19) (j : Fin 76) (a : Fin 3) :
    cellBlk (iblk m c 0 t) i' j a = Cert.Loss.cellOf (X m c) (bq t) (iq t i') j a := funext fun k => iblk0_apply m c t i' j a k
theorem cellBlk1 (t : Fin cfg0.N) (i' : Fin 19) (j : Fin 76) (a : Fin 3) :
    cellBlk (iblk m c 1 t) i' j a = Cert.Loss.cellOf (Lb m c) (bq t) (iq t i') j a := funext fun k => iblk1_apply m c t i' j a k
theorem boxesBlk2 (t : Fin cfg0.N) : boxesBlk (iblk m c 2 t) = Cert.Loss.boxesOf (Bb m c) (bq t) :=
  funext fun g => funext fun cc => iblk2_apply m c t g cc

/-- A point's box sum is the sum of the box terms of its tile's cells, read off the whole arrays. -/
theorem tileSum_box (t : Fin cfg0.N) : tileSum m c 0 t = ∑ i' : Fin 19, ∑ j : Fin 76, ∑ a : Fin 3,
    Cert.Loss.boxCell (Cert.Loss.cellOf (X m c) (bq t) (iq t i') j a) (Cert.Loss.cellOf (Lb m c) (bq t) (iq t i') j a) Anc a (iq t i').val j.val := by
  show KTile.boxSum (F := Ideal) _ _ _ _ _ = _
  rw [boxSum_apply]
  refine Finset.sum_congr rfl fun i' _ => Finset.sum_congr rfl fun j _ => Finset.sum_congr rfl fun a _ => ?_
  rw [cellBlk0, cellBlk1, iblk3_eq, (coords_val t).2]
  rfl

theorem tileSum_conf (t : Fin cfg0.N) : tileSum m c 1 t = ∑ i' : Fin 19, ∑ j : Fin 76, ∑ a : Fin 3,
    Cert.Loss.confProdCell (Cert.Loss.cellOf (X m c) (bq t) (iq t i') j a) (Cert.Loss.cellOf (Lb m c) (bq t) (iq t i') j a)
      (Cert.Loss.boxesOf (Bb m c) (bq t)) Anc a (iq t i').val j.val := by
  show KTile.confSum (F := Ideal) _ _ _ _ _ _ = _
  rw [confSum_apply]
  refine Finset.sum_congr rfl fun i' _ => Finset.sum_congr rfl fun j _ => Finset.sum_congr rfl fun a _ => ?_
  rw [cellBlk0, cellBlk1, boxesBlk2, iblk3_eq, (coords_val t).2]
  rfl

theorem tileSum_class (t : Fin cfg0.N) : tileSum m c 2 t = ∑ i' : Fin 19, ∑ j : Fin 76, ∑ a : Fin 3, ∑ k : Fin 80,
    Cert.Loss.classCell (Cert.Loss.cellOf (X m c) (bq t) (iq t i') j a) (Cert.Loss.cellOf (Lb m c) (bq t) (iq t i') j a) k := by
  show KTile.classSum (F := Ideal) _ _ _ = _
  rw [classSum_apply]
  refine Finset.sum_congr rfl fun i' _ => Finset.sum_congr rfl fun j _ => Finset.sum_congr rfl fun a _ => Finset.sum_congr rfl fun k _ => ?_
  rw [cellBlk0, cellBlk1]

/-- Four quarters of nineteen rows are the seventy-six rows. -/
theorem sum_quarters (G : Fin 76 → EReal) :
    ∑ s : Fin 4, ∑ i' : Fin 19, G ⟨19 * s.val + i'.val, by have := s.isLt; have := i'.isLt; omega⟩ = ∑ i : Fin 76, G i := by
  rw [← Equiv.sum_comp (finProdFinEquiv : Fin 4 × Fin 19 ≃ Fin 76) G, Fintype.sum_prod_type]
  refine Finset.sum_congr rfl fun s _ => Finset.sum_congr rfl fun i' _ => congrArg G (Fin.ext ?_)
  show 19 * s.val + i'.val = i'.val + 19 * s.val
  omega

/-- So the sum over the images of lane q is the sum over images and rows of whatever a point's tile sum is per row. -/
theorem lanes_sum (q : Fin 3) (G : Fin 16 → Fin 76 → EReal)
    (hG : ∀ (b : Fin 16) (s : Fin 4), tileSum m c q (pt b s)
      = ∑ i' : Fin 19, G b ⟨19 * s.val + i'.val, by have := s.isLt; have := i'.isLt; omega⟩) :
    ∑ b : Fin 16, outArr m c (ix3 b (0 : Fin 1) (⟨q.val, by omega⟩ : Fin 128)) = ∑ b : Fin 16, ∑ i : Fin 76, G b i := by
  refine Finset.sum_congr rfl fun b _ => ?_
  rw [out_lane, ← sum_quarters (G b)]
  exact Finset.sum_congr rfl fun s _ => hG b s

/-- THE KERNEL'S RESULT: the three averaged sums of the whole arrays, when the raw numbers and the labels are real
    (which the one regrouping, of the confidence term, needs). -/
theorem kernel_total (hx : ∀ i, Cert.Loss.IsReal (X m c i)) (hl : ∀ i, Cert.Loss.IsReal (Lb m c i)) :
    KTail.tailK (F := Ideal) (outArr m c) = Cert.Loss.total (X m c) (Lb m c) (Bb m c) Anc := by
  funext idx
  obtain ⟨q, rfl⟩ : ∃ q : Fin 3, idx = ix1 q := ⟨idx 0, eq_ix1 idx⟩
  rw [KTail.tailK_apply, Ideal.ofBits_zero_f32, zero_add]
  match q with
  | ⟨0, _⟩ =>
    show _ = Ideal.div (∑ b : Fin 16, ∑ i : Fin 76, ∑ j : Fin 76, ∑ a : Fin 3,
      Cert.Loss.boxCell (Cert.Loss.cellOf (X m c) b i j a) (Cert.Loss.cellOf (Lb m c) b i j a) Anc a i.val j.val) _
    congr 1
    refine lanes_sum m c 0 (fun b i => ∑ j : Fin 76, ∑ a : Fin 3,
      Cert.Loss.boxCell (Cert.Loss.cellOf (X m c) b i j a) (Cert.Loss.cellOf (Lb m c) b i j a) Anc a i.val j.val) fun b s => ?_
    rw [tileSum_box]
    refine Finset.sum_congr rfl fun i' _ => ?_
    rw [bq_pt, iq_pt]
  | ⟨1, _⟩ =>
    show _ = Ideal.div (∑ b : Fin 16, ∑ i : Fin 76, ∑ j : Fin 76, ∑ a : Fin 3,
      Cert.Loss.confSumCell (Cert.Loss.cellOf (X m c) b i j a) (Cert.Loss.cellOf (Lb m c) b i j a) (Cert.Loss.boxesOf (Bb m c) b) Anc a i.val j.val) _
    congr 1
    refine lanes_sum m c 1 (fun b i => ∑ j : Fin 76, ∑ a : Fin 3,
      Cert.Loss.confSumCell (Cert.Loss.cellOf (X m c) b i j a) (Cert.Loss.cellOf (Lb m c) b i j a) (Cert.Loss.boxesOf (Bb m c) b) Anc a i.val j.val) fun b s => ?_
    rw [tileSum_conf]
    refine Finset.sum_congr rfl fun i' _ => ?_
    rw [bq_pt, iq_pt]
    refine Finset.sum_congr rfl fun j _ => Finset.sum_congr rfl fun a _ => ?_
    exact Cert.Loss.confProdCell_eq_confSumCell _ _ _ _ _ _ _ (hx _) (hl _)
  | ⟨2, _⟩ =>
    show _ = Ideal.div (∑ b : Fin 16, ∑ i : Fin 76, ∑ j : Fin 76, ∑ a : Fin 3, ∑ k : Fin 80,
      Cert.Loss.classCell (Cert.Loss.cellOf (X m c) b i j a) (Cert.Loss.cellOf (Lb m c) b i j a) k) _
    congr 1
    refine lanes_sum m c 2 (fun b i => ∑ j : Fin 76, ∑ a : Fin 3, ∑ k : Fin 80,
      Cert.Loss.classCell (Cert.Loss.cellOf (X m c) b i j a) (Cert.Loss.cellOf (Lb m c) b i j a) k) fun b s => ?_
    rw [tileSum_class]
    refine Finset.sum_congr rfl fun i' _ => ?_
    rw [bq_pt, iq_pt]

end Cert.KernelIdeal.KValue

end
-- ==== Proof.RefOps.lean ====
import proofs.«179941_j67783173865496_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 60 of the reference, in order. -/
abbrev ops0 : List (HloOp τ sig (Elt F)) :=
  [ StableHlo.nullary main_cst (fun i => FloatOps.ofBits .f32 (lit0 (S3x2.rowMajor i))),
    StableHlo.reshape main_arg0 main_v0 rfl shapeCasts_S16x76x76x255_S16x76x76x3x85,
    StableHlo.unary main_v0 main_v1 ((extractStridedSlice S16x76x76x3x2 ![0, 0, 0, 0, 0] · slices_S16x76x76x3x85_S16x76x76x3x2_0_0_0_0_0) : (⟨S16x76x76x3x85, .f32⟩ : BufTy).Contents (Elt F) → (⟨S16x76x76x3x2, .f32⟩ : BufTy).Contents (Elt F)),
    StableHlo.unary main_v0 main_v2 ((extractStridedSlice S16x76x76x3x2 ![0, 0, 0, 0, 2] · slices_S16x76x76x3x85_S16x76x76x3x2_0_0_0_0_2) : (⟨S16x76x76x3x85, .f32⟩ : BufTy).Contents (Elt F) → (⟨S16x76x76x3x2, .f32⟩ : BufTy).Contents (Elt F)),
    StableHlo.unary main_v0 main_v3 ((extractStridedSlice S16x76x76x3x1 ![0, 0, 0, 0, 4] · slices_S16x76x76x3x85_S16x76x76x3x1_0_0_0_0_4) : (⟨S16x76x76x3x85, .f32⟩ : BufTy).Contents (Elt F) → (⟨S16x76x76x3x1, .f32⟩ : BufTy).Contents (Elt F)),
    StableHlo.unary main_v0 main_v4 ((extractStridedSlice S16x76x76x3x80 ![0, 0, 0, 0, 5] · slices_S16x76x76x3x85_S16x76x76x3x80_0_0_0_0_5) : (⟨S16x76x76x3x85, .f32⟩ : BufTy).Contents (Elt F) → (⟨S16x76x76x3x80, .f32⟩ : BufTy).Contents (Elt F)),
    StableHlo.nullary main_v5 (iotaInDim S76 32 0),
    StableHlo.nullary main_v6 (iotaInDim S76 32 0),
    StableHlo.unary main_v6 main_v7 (broadcastInDim S76x76 ![0] bcast_S76_S76x76_0 : (⟨S76, .i32⟩ : BufTy).Contents (Elt F) → (⟨S76x76, .i32⟩ : BufTy).Contents (Elt F)),
    StableHlo.unary main_v5 main_v8 (broadcastInDim S76x76 ![1] bcast_S76_S76x76_1 : (⟨S76, .i32⟩ : BufTy).Contents (Elt F) → (⟨S76x76, .i32⟩ : BufTy).Contents (Elt F)),
    StableHlo.unary main_v8 main_v9 (broadcastInDim S76x76x1 ![0, 1] bcast_S76x76_S76x76x1_0_1 : (⟨S76x76, .i32⟩ : BufTy).Contents (Elt F) → (⟨S76x76x1, .i32⟩ : BufTy).Contents (Elt F)),
    StableHlo.unary main_v7 main_v10 (broadcastInDim S76x76x1 ![0, 1] bcast_S76x76_S76x76x1_0_1 : (⟨S76x76, .i32⟩ : BufTy).Contents (Elt F) → (⟨S76x76x1, .i32⟩ : BufTy).Contents (Elt F)),
    StableHlo.binary main_v9 main_v10 main_v11 ((fun a b => concatenate S76x76x2 2 [⟨S76x76x1, a⟩, ⟨S76x76x1, b⟩] concatenates_S76x76x1_S76x76x1_S76x76x2_d2) : (⟨S76x76x1, .i32⟩ : BufTy).Contents (Elt F) → (⟨S76x76x1, .i32⟩ : BufTy).Contents (Elt F) → (⟨S76x76x2, .i32⟩ : BufTy).Contents (Elt F)),
    StableHlo.unary main_v11 main_v12 (broadcastInDim S1x76x76x1x2 ![1, 2, 4] bcast_S76x76x2_S1x76x76x1x2_1_2_4 : (⟨S76x76x2, .i32⟩ : BufTy).Contents (Elt F) → (⟨S1x76x76x1x2, .i32⟩ : BufTy).Contents (Elt F)),
    StableHlo.unary main_v12 main_v13 (sitofp .f32 : (⟨S1x76x76x1x2, .i32⟩ : BufTy).Contents (Elt F) → (⟨S1x76x76x1x2, .f32⟩ : BufTy).Contents (Elt F)),
    StableHlo.unary main_v1 main_v14 (Host.negf : (⟨S16x76x76x3x2, .f32⟩ : BufTy).Contents (Elt F) → (⟨S16x76x76x3x2, .f32⟩ : BufTy).Contents (Elt F)),
    StableHlo.unary main_v14 main_v15 (Host.exp : (⟨S16x76x76x3x2, .f32⟩ : BufTy).Contents (Elt F) → (⟨S16x76x76x3x2, .f32⟩ : BufTy).Contents (Elt F)),
    StableHlo.nullary main_cst_0 (constant S_ .f32 0x3F800000#32),
    StableHlo.unary main_cst_0 main_v16 (broadcastInDim S16x76x76x3x2 ![] bcast_S_S16x76x76x3x2 : (⟨S_, .f32⟩ : BufTy).Contents (Elt F) → (⟨S16x76x76x3x2, .f32⟩ : BufTy).Contents (Elt F)),
    StableHlo.binary main_v16 main_v15 main_v17 (addf : (⟨S16x76x76x3x2, .f32⟩ : BufTy).Contents (Elt F) → (⟨S16x76x76x3x2, .f32⟩ : BufTy).Contents (Elt F) → (⟨S16x76x76x3x2, .f32⟩ : BufTy).Contents (Elt F)),
    StableHlo.nullary main_cst_1 (constant S_ .f32 0x3F800000#32),
    StableHlo.unary main_cst_1 main_v18 (broadcastInDim S16x76x76x3x2 ![] bcast_S_S16x76x76x3x2 : (⟨S_, .f32⟩ : BufTy).Contents (Elt F) → (⟨S16x76x76x3x2, .f32⟩ : BufTy).Contents (Elt F)),
    StableHlo.binary main_v18 main_v17 main_v19 (Host.divf : (⟨S16x76x76x3x2, .f32⟩ : BufTy).Contents (Elt F) → (⟨S16x76x76x3x2, .f32⟩ : BufTy).Contents (Elt F) → (⟨S16x76x76x3x2, .f32⟩ : BufTy).Contents (Elt F)),
    StableHlo.nullary main_cst_2 (constant S_ .f32 0x3F99999A#32),
    StableHlo.unary main_cst_2 main_v20 (broadcastInDim S16x76x76x3x2 ![] bcast_S_S16x76x76x3x2 : (⟨S_, .f32⟩ : BufTy).Contents (Elt F) → (⟨S16x76x76x3x2, .f32⟩ : BufTy).Contents (Elt F)),
    StableHlo.binary main_v19 main_v20 main_v21 (mulf : (⟨S16x76x76x3x2, .f32⟩ : BufTy).Contents (Elt F) → (⟨S16x76x76x3x2, .f32⟩ : BufTy).Contents (Elt F) → (⟨S16x76x76x3x2, .f32⟩ : BufTy).Contents (Elt F)),
    StableHlo.nullary main_cst_3 (constant S_ .f32 0x3DCCCCCD#32),
    StableHlo.unary main_cst_3 main_v22 (broadcastInDim S16x76x76x3x2 ![] bcast_S_S16x76x76x3x2 : (⟨S_, .f32⟩ : BufTy).Contents (Elt F) → (⟨S16x76x76x3x2, .f32⟩ : BufTy).Contents (Elt F)),
    StableHlo.binary main_v21 main_v22 main_v23 (subf : (⟨S16x76x76x3x2, .f32⟩ : BufTy).Contents (Elt F) → (⟨S16x76x76x3x2, .f32⟩ : BufTy).Contents (Elt F) → (⟨S16x76x76x3x2, .f32⟩ : BufTy).Contents (Elt F)),
    StableHlo.unary main_v13 main_v24 (broadcastInDim S16x76x76x3x2 ![0, 1, 2, 3, 4] bcast_S1x76x76x1x2_S16x76x76x3x2_0_1_2_3_4 : (⟨S1x76x76x1x2, .f32⟩ : BufTy).Contents (Elt F) → (⟨S16x76x76x3x2, .f32⟩ : BufTy).Contents (Elt F)),
    StableHlo.binary main_v23 main_v24 main_v25 (addf : (⟨S16x76x76x3x2, .f32⟩ : BufTy).Contents (Elt F) → (⟨S16x76x76x3x2, .f32⟩ : BufTy).Contents (Elt F) → (⟨S16x76x76x3x2, .f32⟩ : BufTy).Contents (Elt F)),
    StableHlo.nullary main_cst_4 (constant S_ .f32 0x41000000#32),
    StableHlo.unary main_cst_4 main_v26 (broadcastInDim S16x76x76x3x2 ![] bcast_S_S16x76x76x3x2 : (⟨S_, .f32⟩ : BufTy).Contents (Elt F) → (⟨S16x76x76x3x2, .f32⟩ : BufTy).Contents (Elt F)),
    StableHlo.binary main_v25 main_v26 main_v27 (mulf : (⟨S16x76x76x3x2, .f32⟩ : BufTy).Contents (Elt F) → (⟨S16x76x76x3x2, .f32⟩ : BufTy).Contents (Elt F) → (⟨S16x76x76x3x2, .f32⟩ : BufTy).Contents (Elt F)),
    StableHlo.unary main_v2 main_v28 (Host.exp : (⟨S16x76x76x3x2, .f32⟩ : BufTy).Contents (Elt F) → (⟨S16x76x76x3x2, .f32⟩ : BufTy).Contents (Elt F)),
    StableHlo.unary main_cst main_v29 (broadcastInDim S1x1x1x3x2 ![3, 4] bcast_S3x2_S1x1x1x3x2_3_4 : (⟨S3x2, .f32⟩ : BufTy).Contents (Elt F) → (⟨S1x1x1x3x2, .f32⟩ : BufTy).Contents (Elt F)),
    StableHlo.unary main_v29 main_v30 (broadcastInDim S16x76x76x3x2 ![0, 1, 2, 3, 4] bcast_S1x1x1x3x2_S16x76x76x3x2_0_1_2_3_4 : (⟨S1x1x1x3x2, .f32⟩ : BufTy).Contents (Elt F) → (⟨S16x76x76x3x2, .f32⟩ : BufTy).Contents (Elt F)),
    StableHlo.binary main_v28 main_v30 main_v31 (mulf : (⟨S16x76x76x3x2, .f32⟩ : BufTy).Contents (Elt F) → (⟨S16x76x76x3x2, .f32⟩ : BufTy).Contents (Elt F) → (⟨S16x76x76x3x2, .f32⟩ : BufTy).Contents (Elt F)),
    StableHlo.unary main_v3 main_v32 (Host.negf : (⟨S16x76x76x3x1, .f32⟩ : BufTy).Contents (Elt F) → (⟨S16x76x76x3x1, .f32⟩ : BufTy).Contents (Elt F)),
    StableHlo.unary main_v32 main_v33 (Host.exp : (⟨S16x76x76x3x1, .f32⟩ : BufTy).Contents (Elt F) → (⟨S16x76x76x3x1, .f32⟩ : BufTy).Contents (Elt F)),
    StableHlo.nullary main_cst_5 (constant S_ .f32 0x3F800000#32),
    StableHlo.unary main_cst_5 main_v34 (broadcastInDim S16x76x76x3x1 ![] bcast_S_S16x76x76x3x1 : (⟨S_, .f32⟩ : BufTy).Contents (Elt F) → (⟨S16x76x76x3x1, .f32⟩ : BufTy).Contents (Elt F)),
    StableHlo.binary main_v34 main_v33 main_v35 (addf : (⟨S16x76x76x3x1, .f32⟩ : BufTy).Contents (Elt F) → (⟨S16x76x76x3x1, .f32⟩ : BufTy).Contents (Elt F) → (⟨S16x76x76x3x1, .f32⟩ : BufTy).Contents (Elt F)),
    StableHlo.nullary main_cst_6 (constant S_ .f32 0x3F800000#32),
    StableHlo.unary main_cst_6 main_v36 (broadcastInDim S16x76x76x3x1 ![] bcast_S_S16x76x76x3x1 : (⟨S_, .f32⟩ : BufTy).Contents (Elt F) → (⟨S16x76x76x3x1, .f32⟩ : BufTy).Contents (Elt F)),
    StableHlo.binary main_v36 main_v35 main_v37 (Host.divf : (⟨S16x76x76x3x1, .f32⟩ : BufTy).Contents (Elt F) → (⟨S16x76x76x3x1, .f32⟩ : BufTy).Contents (Elt F) → (⟨S16x76x76x3x1, .f32⟩ : BufTy).Contents (Elt F)),
    StableHlo.unary main_v4 main_v38 (Host.negf : (⟨S16x76x76x3x80, .f32⟩ : BufTy).Contents (Elt F) → (⟨S16x76x76x3x80, .f32⟩ : BufTy).Contents (Elt F)),
    StableHlo.unary main_v38 main_v39 (Host.exp : (⟨S16x76x76x3x80, .f32⟩ : BufTy).Contents (Elt F) → (⟨S16x76x76x3x80, .f32⟩ : BufTy).Contents (Elt F)),
    StableHlo.nullary main_cst_7 (constant S_ .f32 0x3F800000#32),
    StableHlo.unary main_cst_7 main_v40 (broadcastInDim S16x76x76x3x80 ![] bcast_S_S16x76x76x3x80 : (⟨S_, .f32⟩ : BufTy).Contents (Elt F) → (⟨S16x76x76x3x80, .f32⟩ : BufTy).Contents (Elt F)),
    StableHlo.binary main_v40 main_v39 main_v41 (addf : (⟨S16x76x76x3x80, .f32⟩ : BufTy).Contents (Elt F) → (⟨S16x76x76x3x80, .f32⟩ : BufTy).Contents (Elt F) → (⟨S16x76x76x3x80, .f32⟩ : BufTy).Contents (Elt F)),
    StableHlo.nullary main_cst_8 (constant S_ .f32 0x3F800000#32),
    StableHlo.unary main_cst_8 main_v42 (broadcastInDim S16x76x76x3x80 ![] bcast_S_S16x76x76x3x80 : (⟨S_, .f32⟩ : BufTy).Contents (Elt F) → (⟨S16x76x76x3x80, .f32⟩ : BufTy).Contents (Elt F)),
    StableHlo.binary main_v42 main_v41 main_v43 (Host.divf : (⟨S16x76x76x3x80, .f32⟩ : BufTy).Contents (Elt F) → (⟨S16x76x76x3x80, .f32⟩ : BufTy).Contents (Elt F) → (⟨S16x76x76x3x80, .f32⟩ : BufTy).Contents (Elt F)),
    StableHlo.nary ![main_v27, main_v31, main_v37, main_v43] main_v44 (fun u => concatenate S16x76x76x3x85 4 [⟨S16x76x76x3x2, u 0⟩, ⟨S16x76x76x3x2, u 1⟩, ⟨S16x76x76x3x1, u 2⟩, ⟨S16x76x76x3x80, u 3⟩] concatenates_S16x76x76x3x2_S16x76x76x3x2_S16x76x76x3x1_S16x76x76x3x80_S16x76x76x3x85_d4),
    StableHlo.reshape main_arg0 main_v45 rfl shapeCasts_S16x76x76x255_S16x76x76x3x85,
    StableHlo.unary main_v45 main_v46 ((extractStridedSlice S16x76x76x3x1 ![0, 0, 0, 0, 4] · slices_S16x76x76x3x85_S16x76x76x3x1_0_0_0_0_4) : (⟨S16x76x76x3x85, .f32⟩ : BufTy).Contents (Elt F) → (⟨S16x76x76x3x1, .f32⟩ : BufTy).Contents (Elt F)),
    StableHlo.unary main_v45 main_v47 ((extractStridedSlice S16x76x76x3x80 ![0, 0, 0, 0, 5] · slices_S16x76x76x3x85_S16x76x76x3x80_0_0_0_0_5) : (⟨S16x76x76x3x85, .f32⟩ : BufTy).Contents (Elt F) → (⟨S16x76x76x3x80, .f32⟩ : BufTy).Contents (Elt F)),
    StableHlo.unary main_v44 main_v48 ((extractStridedSlice S16x76x76x3x4 ![0, 0, 0, 0, 0] · slices_S16x76x76x3x85_S16x76x76x3x4_0_0_0_0_0) : (⟨S16x76x76x3x85, .f32⟩ : BufTy).Contents (Elt F) → (⟨S16x76x76x3x4, .f32⟩ : BufTy).Contents (Elt F)),
    StableHlo.unary main_v44 main_v49 ((extractStridedSlice S16x76x76x3x1 ![0, 0, 0, 0, 4] · slices_S16x76x76x3x85_S16x76x76x3x1_0_0_0_0_4) : (⟨S16x76x76x3x85, .f32⟩ : BufTy).Contents (Elt F) → (⟨S16x76x76x3x1, .f32⟩ : BufTy).Contents (Elt F)) ]

/-- Operations 61 … 120 of the reference, in order. -/
abbrev ops1 : List (HloOp τ sig (Elt F)) :=
  [ StableHlo.unary main_arg1 main_v50 ((extractStridedSlice S16x76x76x3x4 ![0, 0, 0, 0, 0] · slices_S16x76x76x3x85_S16x76x76x3x4_0_0_0_0_0) : (⟨S16x76x76x3x85, .f32⟩ : BufTy).Contents (Elt F) → (⟨S16x76x76x3x4, .f32⟩ : BufTy).Contents (Elt F)),
    StableHlo.unary main_arg1 main_v51 ((extractStridedSlice S16x76x76x3x1 ![0, 0, 0, 0, 4] · slices_S16x76x76x3x85_S16x76x76x3x1_0_0_0_0_4) : (⟨S16x76x76x3x85, .f32⟩ : BufTy).Contents (Elt F) → (⟨S16x76x76x3x1, .f32⟩ : BufTy).Contents (Elt F)),
    StableHlo.unary main_arg1 main_v52 ((extractStridedSlice S16x76x76x3x80 ![0, 0, 0, 0, 5] · slices_S16x76x76x3x85_S16x76x76x3x80_0_0_0_0_5) : (⟨S16x76x76x3x85, .f32⟩ : BufTy).Contents (Elt F) → (⟨S16x76x76x3x80, .f32⟩ : BufTy).Contents (Elt F)),
    StableHlo.unary main_v48 main_v53 ((extractStridedSlice S16x76x76x3x1 ![0, 0, 0, 0, 2] · slices_S16x76x76x3x4_S16x76x76x3x1_0_0_0_0_2) : (⟨S16x76x76x3x4, .f32⟩ : BufTy).Contents (Elt F) → (⟨S16x76x76x3x1, .f32⟩ : BufTy).Contents (Elt F)),
    StableHlo.reshape main_v53 main_v54 rfl shapeCasts_S16x76x76x3x1_S16x76x76x3,
    StableHlo.unary main_v48 main_v55 ((extractStridedSlice S16x76x76x3x1 ![0, 0, 0, 0, 3] · slices_S16x76x76x3x4_S16x76x76x3x1_0_0_0_0_3) : (⟨S16x76x76x3x4, .f32⟩ : BufTy).Contents (Elt F) → (⟨S16x76x76x3x1, .f32⟩ : BufTy).Contents (Elt F)),
    StableHlo.reshape main_v55 main_v56 rfl shapeCasts_S16x76x76x3x1_S16x76x76x3,
    StableHlo.binary main_v54 main_v56 main_v57 (mulf : (⟨S16x76x76x3, .f32⟩ : BufTy).Contents (Elt F) → (⟨S16x76x76x3, .f32⟩ : BufTy).Contents (Elt F) → (⟨S16x76x76x3, .f32⟩ : BufTy).Contents (Elt F)),
    StableHlo.unary main_v50 main_v58 ((extractStridedSlice S16x76x76x3x1 ![0, 0, 0, 0, 2] · slices_S16x76x76x3x4_S16x76x76x3x1_0_0_0_0_2) : (⟨S16x76x76x3x4, .f32⟩ : BufTy).Contents (Elt F) → (⟨S16x76x76x3x1, .f32⟩ : BufTy).Contents (Elt F)),
    StableHlo.reshape main_v58 main_v59 rfl shapeCasts_S16x76x76x3x1_S16x76x76x3,
    StableHlo.unary main_v50 main_v60 ((extractStridedSlice S16x76x76x3x1 ![0, 0, 0, 0, 3] · slices_S16x76x76x3x4_S16x76x76x3x1_0_0_0_0_3) : (⟨S16x76x76x3x4, .f32⟩ : BufTy).Contents (Elt F) → (⟨S16x76x76x3x1, .f32⟩ : BufTy).Contents (Elt F)),
    StableHlo.reshape main_v60 main_v61 rfl shapeCasts_S16x76x76x3x1_S16x76x76x3,
    StableHlo.binary main_v59 main_v61 main_v62 (mulf : (⟨S16x76x76x3, .f32⟩ : BufTy).Contents (Elt F) → (⟨S16x76x76x3, .f32⟩ : BufTy).Contents (Elt F) → (⟨S16x76x76x3, .f32⟩ : BufTy).Contents (Elt F)),
    StableHlo.unary main_v48 main_v63 ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)),
    StableHlo.unary main_v48 main_v64 ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)),
    StableHlo.nullary main_cst_9 (constant S_ .f32 0x3F000000#32),
    StableHlo.unary main_cst_9 main_v65 (broadcastInDim S16x76x76x3x2 ![] bcast_S_S16x76x76x3x2 : (⟨S_, .f32⟩ : BufTy).Contents (Elt F) → (⟨S16x76x76x3x2, .f32⟩ : BufTy).Contents (Elt F)),
    StableHlo.binary main_v64 main_v65 main_v66 (mulf : (⟨S16x76x76x3x2, .f32⟩ : BufTy).Contents (Elt F) → (⟨S16x76x76x3x2, .f32⟩ : BufTy).Contents (Elt F) → (⟨S16x76x76x3x2, .f32⟩ : BufTy).Contents (Elt F)),
    StableHlo.binary main_v63 main_v66 main_v67 (subf : (⟨S16x76x76x3x2, .f32⟩ : BufTy).Contents (Elt F) → (⟨S16x76x76x3x2, .f32⟩ : BufTy).Contents (Elt F) → (⟨S16x76x76x3x2, .f32⟩ : BufTy).Contents (Elt F)),
    StableHlo.unary main_v48 main_v68 ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)),
    StableHlo.unary main_v48 main_v69 ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)),
    StableHlo.nullary main_cst_10 (constant S_ .f32 0x3F000000#32),
    StableHlo.unary main_cst_10 main_v70 (broadcastInDim S16x76x76x3x2 ![] bcast_S_S16x76x76x3x2 : (⟨S_, .f32⟩ : BufTy).Contents (Elt F) → (⟨S16x76x76x3x2, .f32⟩ : BufTy).Contents (Elt F)),
    StableHlo.binary main_v69 main_v70 main_v71 (mulf : (⟨S16x76x76x3x2, .f32⟩ : BufTy).Contents (Elt F) → (⟨S16x76x76x3x2, .f32⟩ : BufTy).Contents (Elt F) → (⟨S16x76x76x3x2, .f32⟩ : BufTy).Contents (Elt F)),
    StableHlo.binary main_v68 main_v71 main_v72 (addf : (⟨S16x76x76x3x2, .f32⟩ : BufTy).Contents (Elt F) → (⟨S16x76x76x3x2, .f32⟩ : BufTy).Contents (Elt F) → (⟨S16x76x76x3x2, .f32⟩ : BufTy).Contents (Elt F)),
    StableHlo.binary main_v67 main_v72 main_v73 ((fun a b => concatenate S16x76x76x3x4 4 [⟨S16x76x76x3x2, a⟩, ⟨S16x76x76x3x2, b⟩] concatenates_S16x76x76x3x2_S16x76x76x3x2_S16x76x76x3x4_d4) : (⟨S16x76x76x3x2, .f32⟩ : BufTy).Contents (Elt F) → (⟨S16x76x76x3x2, .f32⟩ : BufTy).Contents (Elt F) → (⟨S16x76x76x3x4, .f32⟩ : BufTy).Contents (Elt F)),
    StableHlo.unary main_v50 main_v74 ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)),
    StableHlo.unary main_v50 main_v75 ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)),
    StableHlo.nullary main_cst_11 (constant S_ .f32 0x3F000000#32),
    StableHlo.unary main_cst_11 main_v76 (broadcastInDim S16x76x76x3x2 ![] bcast_S_S16x76x76x3x2 : (⟨S_, .f32⟩ : BufTy).Contents (Elt F) → (⟨S16x76x76x3x2, .f32⟩ : BufTy).Contents (Elt F)),
    StableHlo.binary main_v75 main_v76 main_v77 (mulf : (⟨S16x76x76x3x2, .f32⟩ : BufTy).Contents (Elt F) → (⟨S16x76x76x3x2, .f32⟩ : BufTy).Contents (Elt F) → (⟨S16x76x76x3x2, .f32⟩ : BufTy).Contents (Elt F)),
    StableHlo.binary main_v74 main_v77 main_v78 (subf : (⟨S16x76x76x3x2, .f32⟩ : BufTy).Contents (Elt F) → (⟨S16x76x76x3x2, .f32⟩ : BufTy).Contents (Elt F) → (⟨S16x76x76x3x2, .f32⟩ : BufTy).Contents (Elt F)),
    StableHlo.unary main_v50 main_v79 ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)),
    StableHlo.unary main_v50 main_v80 ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)),
    StableHlo.nullary main_cst_12 (constant S_ .f32 0x3F000000#32),
    StableHlo.unary main_cst_12 main_v81 (broadcastInDim S16x76x76x3x2 ![] bcast_S_S16x76x76x3x2 : (⟨S_, .f32⟩ : BufTy).Contents (Elt F) → (⟨S16x76x76x3x2, .f32⟩ : BufTy).Contents (Elt F)),
    StableHlo.binary main_v80 main_v81 main_v82 (mulf : (⟨S16x76x76x3x2, .f32⟩ : BufTy).Contents (Elt F) → (⟨S16x76x76x3x2, .f32⟩ : BufTy).Contents (Elt F) → (⟨S16x76x76x3x2, .f32⟩ : BufTy).Contents (Elt F)),
    StableHlo.binary main_v79 main_v82 main_v83 (addf : (⟨S16x76x76x3x2, .f32⟩ : BufTy).Contents (Elt F) → (⟨S16x76x76x3x2, .f32⟩ : BufTy).Contents (Elt F) → (⟨S16x76x76x3x2, .f32⟩ : BufTy).Contents (Elt F)),
    StableHlo.binary main_v78 main_v83 main_v84 ((fun a b => concatenate S16x76x76x3x4 4 [⟨S16x76x76x3x2, a⟩, ⟨S16x76x76x3x2, b⟩] concatenates_S16x76x76x3x2_S16x76x76x3x2_S16x76x76x3x4_d4) : (⟨S16x76x76x3x2, .f32⟩ : BufTy).Contents (Elt F) → (⟨S16x76x76x3x2, .f32⟩ : BufTy).Contents (Elt F) → (⟨S16x76x76x3x4, .f32⟩ : BufTy).Contents (Elt F)),
    StableHlo.unary main_v73 main_v85 ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)),
    StableHlo.unary main_v84 main_v86 ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)),
    StableHlo.binary main_v85 main_v86 main_v87 (maximumf : (⟨S16x76x76x3x2, .f32⟩ : BufTy).Contents (Elt F) → (⟨S16x76x76x3x2, .f32⟩ : BufTy).Contents (Elt F) → (⟨S16x76x76x3x2, .f32⟩ : BufTy).Contents (Elt F)),
    StableHlo.unary main_v73 main_v88 ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)),
    StableHlo.unary main_v84 main_v89 ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)),
    StableHlo.binary main_v88 main_v89 main_v90 (minimumf : (⟨S16x76x76x3x2, .f32⟩ : BufTy).Contents (Elt F) → (⟨S16x76x76x3x2, .f32⟩ : BufTy).Contents (Elt F) → (⟨S16x76x76x3x2, .f32⟩ : BufTy).Contents (Elt F)),
    StableHlo.binary main_v90 main_v87 main_v91 (subf : (⟨S16x76x76x3x2, .f32⟩ : BufTy).Contents (Elt F) → (⟨S16x76x76x3x2, .f32⟩ : BufTy).Contents (Elt F) → (⟨S16x76x76x3x2, .f32⟩ : BufTy).Contents (Elt F)),
    StableHlo.nullary main_cst_13 (constant S_ .f32 0x00000000#32),
    StableHlo.unary main_cst_13 main_v92 (broadcastInDim S16x76x76x3x2 ![] bcast_S_S16x76x76x3x2 : (⟨S_, .f32⟩ : BufTy).Contents (Elt F) → (⟨S16x76x76x3x2, .f32⟩ : BufTy).Contents (Elt F)),
    StableHlo.binary main_v91 main_v92 main_v93 (maximumf : (⟨S16x76x76x3x2, .f32⟩ : BufTy).Contents (Elt F) → (⟨S16x76x76x3x2, .f32⟩ : BufTy).Contents (Elt F) → (⟨S16x76x76x3x2, .f32⟩ : BufTy).Contents (Elt F)),
    StableHlo.unary main_v93 main_v94 ((extractStridedSlice S16x76x76x3x1 ![0, 0, 0, 0, 0] · slices_S16x76x76x3x2_S16x76x76x3x1_0_0_0_0_0) : (⟨S16x76x76x3x2, .f32⟩ : BufTy).Contents (Elt F) → (⟨S16x76x76x3x1, .f32⟩ : BufTy).Contents (Elt F)),
    StableHlo.reshape main_v94 main_v95 rfl shapeCasts_S16x76x76x3x1_S16x76x76x3,
    StableHlo.unary main_v93 main_v96 ((extractStridedSlice S16x76x76x3x1 ![0, 0, 0, 0, 1] · slices_S16x76x76x3x2_S16x76x76x3x1_0_0_0_0_1) : (⟨S16x76x76x3x2, .f32⟩ : BufTy).Contents (Elt F) → (⟨S16x76x76x3x1, .f32⟩ : BufTy).Contents (Elt F)),
    StableHlo.reshape main_v96 main_v97 rfl shapeCasts_S16x76x76x3x1_S16x76x76x3,
    StableHlo.binary main_v95 main_v97 main_v98 (mulf : (⟨S16x76x76x3, .f32⟩ : BufTy).Contents (Elt F) → (⟨S16x76x76x3, .f32⟩ : BufTy).Contents (Elt F) → (⟨S16x76x76x3, .f32⟩ : BufTy).Contents (Elt F)),
    StableHlo.binary main_v57 main_v62 main_v99 (addf : (⟨S16x76x76x3, .f32⟩ : BufTy).Contents (Elt F) → (⟨S16x76x76x3, .f32⟩ : BufTy).Contents (Elt F) → (⟨S16x76x76x3, .f32⟩ : BufTy).Contents (Elt F)),
    StableHlo.binary main_v99 main_v98 main_v100 (subf : (⟨S16x76x76x3, .f32⟩ : BufTy).Contents (Elt F) → (⟨S16x76x76x3, .f32⟩ : BufTy).Contents (Elt F) → (⟨S16x76x76x3, .f32⟩ : BufTy).Contents (Elt F)),
    StableHlo.binary main_v98 main_v100 main_v101 (Host.divf : (⟨S16x76x76x3, .f32⟩ : BufTy).Contents (Elt F) → (⟨S16x76x76x3, .f32⟩ : BufTy).Contents (Elt F) → (⟨S16x76x76x3, .f32⟩ : BufTy).Contents (Elt F)),
    StableHlo.unary main_v73 main_v102 ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)),
    StableHlo.unary main_v84 main_v103 ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)),
    StableHlo.binary main_v102 main_v103 main_v104 (minimumf : (⟨S16x76x76x3x2, .f32⟩ : BufTy).Contents (Elt F) → (⟨S16x76x76x3x2, .f32⟩ : BufTy).Contents (Elt F) → (⟨S16x76x76x3x2, .f32⟩ : BufTy).Contents (Elt F)) ]

/-- Operations 121 … 180 of the reference, in order. -/
abbrev ops2 : List (HloOp τ sig (Elt F)) :=
  [ StableHlo.unary main_v73 main_v105 ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)),
    StableHlo.unary main_v84 main_v106 ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)),
    StableHlo.binary main_v105 main_v106 main_v107 (maximumf : (⟨S16x76x76x3x2, .f32⟩ : BufTy).Contents (Elt F) → (⟨S16x76x76x3x2, .f32⟩ : BufTy).Contents (Elt F) → (⟨S16x76x76x3x2, .f32⟩ : BufTy).Contents (Elt F)),
    StableHlo.binary main_v107 main_v104 main_v108 (subf : (⟨S16x76x76x3x2, .f32⟩ : BufTy).Contents (Elt F) → (⟨S16x76x76x3x2, .f32⟩ : BufTy).Contents (Elt F) → (⟨S16x76x76x3x2, .f32⟩ : BufTy).Contents (Elt F)),
    StableHlo.nullary main_cst_14 (constant S_ .f32 0x00000000#32),
    StableHlo.unary main_cst_14 main_v109 (broadcastInDim S16x76x76x3x2 ![] bcast_S_S16x76x76x3x2 : (⟨S_, .f32⟩ : BufTy).Contents (Elt F) → (⟨S16x76x76x3x2, .f32⟩ : BufTy).Contents (Elt F)),
    StableHlo.binary main_v108 main_v109 main_v110 (maximumf : (⟨S16x76x76x3x2, .f32⟩ : BufTy).Contents (Elt F) → (⟨S16x76x76x3x2, .f32⟩ : BufTy).Contents (Elt F) → (⟨S16x76x76x3x2, .f32⟩ : BufTy).Contents (Elt F)),
    StableHlo.unary main_v110 main_v111 ((extractStridedSlice S16x76x76x3x1 ![0, 0, 0, 0, 0] · slices_S16x76x76x3x2_S16x76x76x3x1_0_0_0_0_0) : (⟨S16x76x76x3x2, .f32⟩ : BufTy).Contents (Elt F) → (⟨S16x76x76x3x1, .f32⟩ : BufTy).Contents (Elt F)),
    StableHlo.reshape main_v111 main_v112 rfl shapeCasts_S16x76x76x3x1_S16x76x76x3,
    StableHlo.unary main_v110 main_v113 ((extractStridedSlice S16x76x76x3x1 ![0, 0, 0, 0, 1] · slices_S16x76x76x3x2_S16x76x76x3x1_0_0_0_0_1) : (⟨S16x76x76x3x2, .f32⟩ : BufTy).Contents (Elt F) → (⟨S16x76x76x3x1, .f32⟩ : BufTy).Contents (Elt F)),
    StableHlo.reshape main_v113 main_v114 rfl shapeCasts_S16x76x76x3x1_S16x76x76x3,
    StableHlo.binary main_v112 main_v114 main_v115 (mulf : (⟨S16x76x76x3, .f32⟩ : BufTy).Contents (Elt F) → (⟨S16x76x76x3, .f32⟩ : BufTy).Contents (Elt F) → (⟨S16x76x76x3, .f32⟩ : BufTy).Contents (Elt F)),
    StableHlo.binary main_v115 main_v100 main_v116 (subf : (⟨S16x76x76x3, .f32⟩ : BufTy).Contents (Elt F) → (⟨S16x76x76x3, .f32⟩ : BufTy).Contents (Elt F) → (⟨S16x76x76x3, .f32⟩ : BufTy).Contents (Elt F)),
    StableHlo.binary main_v116 main_v115 main_v117 (Host.divf : (⟨S16x76x76x3, .f32⟩ : BufTy).Contents (Elt F) → (⟨S16x76x76x3, .f32⟩ : BufTy).Contents (Elt F) → (⟨S16x76x76x3, .f32⟩ : BufTy).Contents (Elt F)),
    StableHlo.binary main_v101 main_v117 main_v118 (subf : (⟨S16x76x76x3, .f32⟩ : BufTy).Contents (Elt F) → (⟨S16x76x76x3, .f32⟩ : BufTy).Contents (Elt F) → (⟨S16x76x76x3, .f32⟩ : BufTy).Contents (Elt F)),
    StableHlo.unary main_v118 main_v119 (broadcastInDim S16x76x76x3x1 ![0, 1, 2, 3] bcast_S16x76x76x3_S16x76x76x3x1_0_1_2_3 : (⟨S16x76x76x3, .f32⟩ : BufTy).Contents (Elt F) → (⟨S16x76x76x3x1, .f32⟩ : BufTy).Contents (Elt F)),
    StableHlo.unary main_v50 main_v120 ((extractStridedSlice S16x76x76x3x1 ![0, 0, 0, 0, 2] · slices_S16x76x76x3x4_S16x76x76x3x1_0_0_0_0_2) : (⟨S16x76x76x3x4, .f32⟩ : BufTy).Contents (Elt F) → (⟨S16x76x76x3x1, .f32⟩ : BufTy).Contents (Elt F)),
    StableHlo.unary main_v50 main_v121 ((extractStridedSlice S16x76x76x3x1 ![0, 0, 0, 0, 3] · slices_S16x76x76x3x4_S16x76x76x3x1_0_0_0_0_3) : (⟨S16x76x76x3x4, .f32⟩ : BufTy).Contents (Elt F) → (⟨S16x76x76x3x1, .f32⟩ : BufTy).Contents (Elt F)),
    StableHlo.binary main_v120 main_v121 main_v122 (mulf : (⟨S16x76x76x3x1, .f32⟩ : BufTy).Contents (Elt F) → (⟨S16x76x76x3x1, .f32⟩ : BufTy).Contents (Elt F) → (⟨S16x76x76x3x1, .f32⟩ : BufTy).Contents (Elt F)),
    StableHlo.nullary main_cst_15 (constant S_ .f32 0x48B48000#32),
    StableHlo.unary main_cst_15 main_v123 (broadcastInDim S16x76x76x3x1 ![] bcast_S_S16x76x76x3x1 : (⟨S_, .f32⟩ : BufTy).Contents (Elt F) → (⟨S16x76x76x3x1, .f32⟩ : BufTy).Contents (Elt F)),
    StableHlo.binary main_v122 main_v123 main_v124 (Host.divf : (⟨S16x76x76x3x1, .f32⟩ : BufTy).Contents (Elt F) → (⟨S16x76x76x3x1, .f32⟩ : BufTy).Contents (Elt F) → (⟨S16x76x76x3x1, .f32⟩ : BufTy).Contents (Elt F)),
    StableHlo.nullary main_cst_16 (constant S_ .f32 0x40000000#32),
    StableHlo.unary main_cst_16 main_v125 (broadcastInDim S16x76x76x3x1 ![] bcast_S_S16x76x76x3x1 : (⟨S_, .f32⟩ : BufTy).Contents (Elt F) → (⟨S16x76x76x3x1, .f32⟩ : BufTy).Contents (Elt F)),
    StableHlo.binary main_v125 main_v124 main_v126 (subf : (⟨S16x76x76x3x1, .f32⟩ : BufTy).Contents (Elt F) → (⟨S16x76x76x3x1, .f32⟩ : BufTy).Contents (Elt F) → (⟨S16x76x76x3x1, .f32⟩ : BufTy).Contents (Elt F)),
    StableHlo.binary main_v51 main_v126 main_v127 (mulf : (⟨S16x76x76x3x1, .f32⟩ : BufTy).Contents (Elt F) → (⟨S16x76x76x3x1, .f32⟩ : BufTy).Contents (Elt F) → (⟨S16x76x76x3x1, .f32⟩ : BufTy).Contents (Elt F)),
    StableHlo.nullary main_cst_17 (constant S_ .f32 0x3F800000#32),
    StableHlo.unary main_cst_17 main_v128 (broadcastInDim S16x76x76x3x1 ![] bcast_S_S16x76x76x3x1 : (⟨S_, .f32⟩ : BufTy).Contents (Elt F) → (⟨S16x76x76x3x1, .f32⟩ : BufTy).Contents (Elt F)),
    StableHlo.binary main_v128 main_v119 main_v129 (subf : (⟨S16x76x76x3x1, .f32⟩ : BufTy).Contents (Elt F) → (⟨S16x76x76x3x1, .f32⟩ : BufTy).Contents (Elt F) → (⟨S16x76x76x3x1, .f32⟩ : BufTy).Contents (Elt F)),
    StableHlo.binary main_v127 main_v129 main_v130 (mulf : (⟨S16x76x76x3x1, .f32⟩ : BufTy).Contents (Elt F) → (⟨S16x76x76x3x1, .f32⟩ : BufTy).Contents (Elt F) → (⟨S16x76x76x3x1, .f32⟩ : BufTy).Contents (Elt F)),
    StableHlo.unary main_v48 main_v131 (broadcastInDim S16x76x76x3x1x4 ![0, 1, 2, 3, 5] bcast_S16x76x76x3x4_S16x76x76x3x1x4_0_1_2_3_5 : (⟨S16x76x76x3x4, .f32⟩ : BufTy).Contents (Elt F) → (⟨S16x76x76x3x1x4, .f32⟩ : BufTy).Contents (Elt F)),
    StableHlo.unary main_arg2 main_v132 (broadcastInDim S16x1x1x1x150x4 ![0, 4, 5] bcast_S16x150x4_S16x1x1x1x150x4_0_4_5 : (⟨S16x150x4, .f32⟩ : BufTy).Contents (Elt F) → (⟨S16x1x1x1x150x4, .f32⟩ : BufTy).Contents (Elt F)),
    StableHlo.unary main_v131 main_v133 ((extractStridedSlice S16x76x76x3x1x1 ![0, 0, 0, 0, 0, 2] · slices_S16x76x76x3x1x4_S16x76x76x3x1x1_0_0_0_0_0_2) : (⟨S16x76x76x3x1x4, .f32⟩ : BufTy).Contents (Elt F) → (⟨S16x76x76x3x1x1, .f32⟩ : BufTy).Contents (Elt F)),
    StableHlo.reshape main_v133 main_v134 rfl shapeCasts_S16x76x76x3x1x1_S16x76x76x3x1,
    StableHlo.unary main_v131 main_v135 ((extractStridedSlice S16x76x76x3x1x1 ![0, 0, 0, 0, 0, 3] · slices_S16x76x76x3x1x4_S16x76x76x3x1x1_0_0_0_0_0_3) : (⟨S16x76x76x3x1x4, .f32⟩ : BufTy).Contents (Elt F) → (⟨S16x76x76x3x1x1, .f32⟩ : BufTy).Contents (Elt F)),
    StableHlo.reshape main_v135 main_v136 rfl shapeCasts_S16x76x76x3x1x1_S16x76x76x3x1,
    StableHlo.binary main_v134 main_v136 main_v137 (mulf : (⟨S16x76x76x3x1, .f32⟩ : BufTy).Contents (Elt F) → (⟨S16x76x76x3x1, .f32⟩ : BufTy).Contents (Elt F) → (⟨S16x76x76x3x1, .f32⟩ : BufTy).Contents (Elt F)),
    StableHlo.unary main_v132 main_v138 ((extractStridedSlice S16x1x1x1x150x1 ![0, 0, 0, 0, 0, 2] · slices_S16x1x1x1x150x4_S16x1x1x1x150x1_0_0_0_0_0_2) : (⟨S16x1x1x1x150x4, .f32⟩ : BufTy).Contents (Elt F) → (⟨S16x1x1x1x150x1, .f32⟩ : BufTy).Contents (Elt F)),
    StableHlo.reshape main_v138 main_v139 rfl shapeCasts_S16x1x1x1x150x1_S16x1x1x1x150,
    StableHlo.unary main_v132 main_v140 ((extractStridedSlice S16x1x1x1x150x1 ![0, 0, 0, 0, 0, 3] · slices_S16x1x1x1x150x4_S16x1x1x1x150x1_0_0_0_0_0_3) : (⟨S16x1x1x1x150x4, .f32⟩ : BufTy).Contents (Elt F) → (⟨S16x1x1x1x150x1, .f32⟩ : BufTy).Contents (Elt F)),
    StableHlo.reshape main_v140 main_v141 rfl shapeCasts_S16x1x1x1x150x1_S16x1x1x1x150,
    StableHlo.binary main_v139 main_v141 main_v142 (mulf : (⟨S16x1x1x1x150, .f32⟩ : BufTy).Contents (Elt F) → (⟨S16x1x1x1x150, .f32⟩ : BufTy).Contents (Elt F) → (⟨S16x1x1x1x150, .f32⟩ : BufTy).Contents (Elt F)),
    StableHlo.unary main_v131 main_v143 ((extractStridedSlice S16x76x76x3x1x2 ![0, 0, 0, 0, 0, 0] · slices_S16x76x76x3x1x4_S16x76x76x3x1x2_0_0_0_0_0_0) : (⟨S16x76x76x3x1x4, .f32⟩ : BufTy).Contents (Elt F) → (⟨S16x76x76x3x1x2, .f32⟩ : BufTy).Contents (Elt F)),
    StableHlo.unary main_v131 main_v144 ((extractStridedSlice S16x76x76x3x1x2 ![0, 0, 0, 0, 0, 2] · slices_S16x76x76x3x1x4_S16x76x76x3x1x2_0_0_0_0_0_2) : (⟨S16x76x76x3x1x4, .f32⟩ : BufTy).Contents (Elt F) → (⟨S16x76x76x3x1x2, .f32⟩ : BufTy).Contents (Elt F)),
    StableHlo.nullary main_cst_18 (constant S_ .f32 0x3F000000#32),
    StableHlo.unary main_cst_18 main_v145 (broadcastInDim S16x76x76x3x1x2 ![] bcast_S_S16x76x76x3x1x2 : (⟨S_, .f32⟩ : BufTy).Contents (Elt F) → (⟨S16x76x76x3x1x2, .f32⟩ : BufTy).Contents (Elt F)),
    StableHlo.binary main_v144 main_v145 main_v146 (mulf : (⟨S16x76x76x3x1x2, .f32⟩ : BufTy).Contents (Elt F) → (⟨S16x76x76x3x1x2, .f32⟩ : BufTy).Contents (Elt F) → (⟨S16x76x76x3x1x2, .f32⟩ : BufTy).Contents (Elt F)),
    StableHlo.binary main_v143 main_v146 main_v147 (subf : (⟨S16x76x76x3x1x2, .f32⟩ : BufTy).Contents (Elt F) → (⟨S16x76x76x3x1x2, .f32⟩ : BufTy).Contents (Elt F) → (⟨S16x76x76x3x1x2, .f32⟩ : BufTy).Contents (Elt F)),
    StableHlo.unary main_v131 main_v148 ((extractStridedSlice S16x76x76x3x1x2 ![0, 0, 0, 0, 0, 0] · slices_S16x76x76x3x1x4_S16x76x76x3x1x2_0_0_0_0_0_0) : (⟨S16x76x76x3x1x4, .f32⟩ : BufTy).Contents (Elt F) → (⟨S16x76x76x3x1x2, .f32⟩ : BufTy).Contents (Elt F)),
    StableHlo.unary main_v131 main_v149 ((extractStridedSlice S16x76x76x3x1x2 ![0, 0, 0, 0, 0, 2] · slices_S16x76x76x3x1x4_S16x76x76x3x1x2_0_0_0_0_0_2) : (⟨S16x76x76x3x1x4, .f32⟩ : BufTy).Contents (Elt F) → (⟨S16x76x76x3x1x2, .f32⟩ : BufTy).Contents (Elt F)),
    StableHlo.nullary main_cst_19 (constant S_ .f32 0x3F000000#32),
    StableHlo.unary main_cst_19 main_v150 (broadcastInDim S16x76x76x3x1x2 ![] bcast_S_S16x76x76x3x1x2 : (⟨S_, .f32⟩ : BufTy).Contents (Elt F) → (⟨S16x76x76x3x1x2, .f32⟩ : BufTy).Contents (Elt F)),
    StableHlo.binary main_v149 main_v150 main_v151 (mulf : (⟨S16x76x76x3x1x2, .f32⟩ : BufTy).Contents (Elt F) → (⟨S16x76x76x3x1x2, .f32⟩ : BufTy).Contents (Elt F) → (⟨S16x76x76x3x1x2, .f32⟩ : BufTy).Contents (Elt F)),
    StableHlo.binary main_v148 main_v151 main_v152 (addf : (⟨S16x76x76x3x1x2, .f32⟩ : BufTy).Contents (Elt F) → (⟨S16x76x76x3x1x2, .f32⟩ : BufTy).Contents (Elt F) → (⟨S16x76x76x3x1x2, .f32⟩ : BufTy).Contents (Elt F)),
    StableHlo.binary main_v147 main_v152 main_v153 ((fun a b => concatenate S16x76x76x3x1x4 5 [⟨S16x76x76x3x1x2, a⟩, ⟨S16x76x76x3x1x2, b⟩] concatenates_S16x76x76x3x1x2_S16x76x76x3x1x2_S16x76x76x3x1x4_d5) : (⟨S16x76x76x3x1x2, .f32⟩ : BufTy).Contents (Elt F) → (⟨S16x76x76x3x1x2, .f32⟩ : BufTy).Contents (Elt F) → (⟨S16x76x76x3x1x4, .f32⟩ : BufTy).Contents (Elt F)),
    StableHlo.unary main_v132 main_v154 ((extractStridedSlice S16x1x1x1x150x2 ![0, 0, 0, 0, 0, 0] · slices_S16x1x1x1x150x4_S16x1x1x1x150x2_0_0_0_0_0_0) : (⟨S16x1x1x1x150x4, .f32⟩ : BufTy).Contents (Elt F) → (⟨S16x1x1x1x150x2, .f32⟩ : BufTy).Contents (Elt F)),
    StableHlo.unary main_v132 main_v155 ((extractStridedSlice S16x1x1x1x150x2 ![0, 0, 0, 0, 0, 2] · slices_S16x1x1x1x150x4_S16x1x1x1x150x2_0_0_0_0_0_2) : (⟨S16x1x1x1x150x4, .f32⟩ : BufTy).Contents (Elt F) → (⟨S16x1x1x1x150x2, .f32⟩ : BufTy).Contents (Elt F)),
    StableHlo.nullary main_cst_20 (constant S_ .f32 0x3F000000#32),
    StableHlo.unary main_cst_20 main_v156 (broadcastInDim S16x1x1x1x150x2 ![] bcast_S_S16x1x1x1x150x2 : (⟨S_, .f32⟩ : BufTy).Contents (Elt F) → (⟨S16x1x1x1x150x2, .f32⟩ : BufTy).Contents (Elt F)),
    StableHlo.binary main_v155 main_v156 main_v157 (mulf : (⟨S16x1x1x1x150x2, .f32⟩ : BufTy).Contents (Elt F) → (⟨S16x1x1x1x150x2, .f32⟩ : BufTy).Contents (Elt F) → (⟨S16x1x1x1x150x2, .f32⟩ : BufTy).Contents (Elt F)) ]

/-- Operations 181 … 240 of the reference, in order. -/
abbrev ops3 : List (HloOp τ sig (Elt F)) :=
  [ StableHlo.binary main_v154 main_v157 main_v158 (subf : (⟨S16x1x1x1x150x2, .f32⟩ : BufTy).Contents (Elt F) → (⟨S16x1x1x1x150x2, .f32⟩ : BufTy).Contents (Elt F) → (⟨S16x1x1x1x150x2, .f32⟩ : BufTy).Contents (Elt F)),
    StableHlo.unary main_v132 main_v159 ((extractStridedSlice S16x1x1x1x150x2 ![0, 0, 0, 0, 0, 0] · slices_S16x1x1x1x150x4_S16x1x1x1x150x2_0_0_0_0_0_0) : (⟨S16x1x1x1x150x4, .f32⟩ : BufTy).Contents (Elt F) → (⟨S16x1x1x1x150x2, .f32⟩ : BufTy).Contents (Elt F)),
    StableHlo.unary main_v132 main_v160 ((extractStridedSlice S16x1x1x1x150x2 ![0, 0, 0, 0, 0, 2] · slices_S16x1x1x1x150x4_S16x1x1x1x150x2_0_0_0_0_0_2) : (⟨S16x1x1x1x150x4, .f32⟩ : BufTy).Contents (Elt F) → (⟨S16x1x1x1x150x2, .f32⟩ : BufTy).Contents (Elt F)),
    StableHlo.nullary main_cst_21 (constant S_ .f32 0x3F000000#32),
    StableHlo.unary main_cst_21 main_v161 (broadcastInDim S16x1x1x1x150x2 ![] bcast_S_S16x1x1x1x150x2 : (⟨S_, .f32⟩ : BufTy).Contents (Elt F) → (⟨S16x1x1x1x150x2, .f32⟩ : BufTy).Contents (Elt F)),
    StableHlo.binary main_v160 main_v161 main_v162 (mulf : (⟨S16x1x1x1x150x2, .f32⟩ : BufTy).Contents (Elt F) → (⟨S16x1x1x1x150x2, .f32⟩ : BufTy).Contents (Elt F) → (⟨S16x1x1x1x150x2, .f32⟩ : BufTy).Contents (Elt F)),
    StableHlo.binary main_v159 main_v162 main_v163 (addf : (⟨S16x1x1x1x150x2, .f32⟩ : BufTy).Contents (Elt F) → (⟨S16x1x1x1x150x2, .f32⟩ : BufTy).Contents (Elt F) → (⟨S16x1x1x1x150x2, .f32⟩ : BufTy).Contents (Elt F)),
    StableHlo.binary main_v158 main_v163 main_v164 ((fun a b => concatenate S16x1x1x1x150x4 5 [⟨S16x1x1x1x150x2, a⟩, ⟨S16x1x1x1x150x2, b⟩] concatenates_S16x1x1x1x150x2_S16x1x1x1x150x2_S16x1x1x1x150x4_d5) : (⟨S16x1x1x1x150x2, .f32⟩ : BufTy).Contents (Elt F) → (⟨S16x1x1x1x150x2, .f32⟩ : BufTy).Contents (Elt F) → (⟨S16x1x1x1x150x4, .f32⟩ : BufTy).Contents (Elt F)),
    StableHlo.unary main_v153 main_v165 ((extractStridedSlice S16x76x76x3x1x2 ![0, 0, 0, 0, 0, 0] · slices_S16x76x76x3x1x4_S16x76x76x3x1x2_0_0_0_0_0_0) : (⟨S16x76x76x3x1x4, .f32⟩ : BufTy).Contents (Elt F) → (⟨S16x76x76x3x1x2, .f32⟩ : BufTy).Contents (Elt F)),
    StableHlo.unary main_v164 main_v166 ((extractStridedSlice S16x1x1x1x150x2 ![0, 0, 0, 0, 0, 0] · slices_S16x1x1x1x150x4_S16x1x1x1x150x2_0_0_0_0_0_0) : (⟨S16x1x1x1x150x4, .f32⟩ : BufTy).Contents (Elt F) → (⟨S16x1x1x1x150x2, .f32⟩ : BufTy).Contents (Elt F)),
    StableHlo.unary main_v165 main_v167 (broadcastInDim S16x76x76x3x150x2 ![0, 1, 2, 3, 4, 5] bcast_S16x76x76x3x1x2_S16x76x76x3x150x2_0_1_2_3_4_5 : (⟨S16x76x76x3x1x2, .f32⟩ : BufTy).Contents (Elt F) → (⟨S16x76x76x3x150x2, .f32⟩ : BufTy).Contents (Elt F)),
    StableHlo.unary main_v166 main_v168 (broadcastInDim S16x76x76x3x150x2 ![0, 1, 2, 3, 4, 5] bcast_S16x1x1x1x150x2_S16x76x76x3x150x2_0_1_2_3_4_5 : (⟨S16x1x1x1x150x2, .f32⟩ : BufTy).Contents (Elt F) → (⟨S16x76x76x3x150x2, .f32⟩ : BufTy).Contents (Elt F)),
    StableHlo.binary main_v167 main_v168 main_v169 (maximumf : (⟨S16x76x76x3x150x2, .f32⟩ : BufTy).Contents (Elt F) → (⟨S16x76x76x3x150x2, .f32⟩ : BufTy).Contents (Elt F) → (⟨S16x76x76x3x150x2, .f32⟩ : BufTy).Contents (Elt F)),
    StableHlo.unary main_v153 main_v170 ((extractStridedSlice S16x76x76x3x1x2 ![0, 0, 0, 0, 0, 2] · slices_S16x76x76x3x1x4_S16x76x76x3x1x2_0_0_0_0_0_2) : (⟨S16x76x76x3x1x4, .f32⟩ : BufTy).Contents (Elt F) → (⟨S16x76x76x3x1x2, .f32⟩ : BufTy).Contents (Elt F)),
    StableHlo.unary main_v164 main_v171 ((extractStridedSlice S16x1x1x1x150x2 ![0, 0, 0, 0, 0, 2] · slices_S16x1x1x1x150x4_S16x1x1x1x150x2_0_0_0_0_0_2) : (⟨S16x1x1x1x150x4, .f32⟩ : BufTy).Contents (Elt F) → (⟨S16x1x1x1x150x2, .f32⟩ : BufTy).Contents (Elt F)),
    StableHlo.unary main_v170 main_v172 (broadcastInDim S16x76x76x3x150x2 ![0, 1, 2, 3, 4, 5] bcast_S16x76x76x3x1x2_S16x76x76x3x150x2_0_1_2_3_4_5 : (⟨S16x76x76x3x1x2, .f32⟩ : BufTy).Contents (Elt F) → (⟨S16x76x76x3x150x2, .f32⟩ : BufTy).Contents (Elt F)),
    StableHlo.unary main_v171 main_v173 (broadcastInDim S16x76x76x3x150x2 ![0, 1, 2, 3, 4, 5] bcast_S16x1x1x1x150x2_S16x76x76x3x150x2_0_1_2_3_4_5 : (⟨S16x1x1x1x150x2, .f32⟩ : BufTy).Contents (Elt F) → (⟨S16x76x76x3x150x2, .f32⟩ : BufTy).Contents (Elt F)),
    StableHlo.binary main_v172 main_v173 main_v174 (minimumf : (⟨S16x76x76x3x150x2, .f32⟩ : BufTy).Contents (Elt F) → (⟨S16x76x76x3x150x2, .f32⟩ : BufTy).Contents (Elt F) → (⟨S16x76x76x3x150x2, .f32⟩ : BufTy).Contents (Elt F)),
    StableHlo.binary main_v174 main_v169 main_v175 (subf : (⟨S16x76x76x3x150x2, .f32⟩ : BufTy).Contents (Elt F) → (⟨S16x76x76x3x150x2, .f32⟩ : BufTy).Contents (Elt F) → (⟨S16x76x76x3x150x2, .f32⟩ : BufTy).Contents (Elt F)),
    StableHlo.nullary main_cst_22 (constant S_ .f32 0x00000000#32),
    StableHlo.unary main_cst_22 main_v176 (broadcastInDim S16x76x76x3x150x2 ![] bcast_S_S16x76x76x3x150x2 : (⟨S_, .f32⟩ : BufTy).Contents (Elt F) → (⟨S16x76x76x3x150x2, .f32⟩ : BufTy).Contents (Elt F)),
    StableHlo.binary main_v175 main_v176 main_v177 (maximumf : (⟨S16x76x76x3x150x2, .f32⟩ : BufTy).Contents (Elt F) → (⟨S16x76x76x3x150x2, .f32⟩ : BufTy).Contents (Elt F) → (⟨S16x76x76x3x150x2, .f32⟩ : BufTy).Contents (Elt F)),
    StableHlo.unary main_v177 main_v178 ((extractStridedSlice S16x76x76x3x150x1 ![0, 0, 0, 0, 0, 0] · slices_S16x76x76x3x150x2_S16x76x76x3x150x1_0_0_0_0_0_0) : (⟨S16x76x76x3x150x2, .f32⟩ : BufTy).Contents (Elt F) → (⟨S16x76x76x3x150x1, .f32⟩ : BufTy).Contents (Elt F)),
    StableHlo.reshape main_v178 main_v179 rfl shapeCasts_S16x76x76x3x150x1_S16x76x76x3x150,
    StableHlo.unary main_v177 main_v180 ((extractStridedSlice S16x76x76x3x150x1 ![0, 0, 0, 0, 0, 1] · slices_S16x76x76x3x150x2_S16x76x76x3x150x1_0_0_0_0_0_1) : (⟨S16x76x76x3x150x2, .f32⟩ : BufTy).Contents (Elt F) → (⟨S16x76x76x3x150x1, .f32⟩ : BufTy).Contents (Elt F)),
    StableHlo.reshape main_v180 main_v181 rfl shapeCasts_S16x76x76x3x150x1_S16x76x76x3x150,
    StableHlo.binary main_v179 main_v181 main_v182 (mulf : (⟨S16x76x76x3x150, .f32⟩ : BufTy).Contents (Elt F) → (⟨S16x76x76x3x150, .f32⟩ : BufTy).Contents (Elt F) → (⟨S16x76x76x3x150, .f32⟩ : BufTy).Contents (Elt F)),
    StableHlo.unary main_v137 main_v183 (broadcastInDim S16x76x76x3x150 ![0, 1, 2, 3, 4] bcast_S16x76x76x3x1_S16x76x76x3x150_0_1_2_3_4 : (⟨S16x76x76x3x1, .f32⟩ : BufTy).Contents (Elt F) → (⟨S16x76x76x3x150, .f32⟩ : BufTy).Contents (Elt F)),
    StableHlo.unary main_v142 main_v184 (broadcastInDim S16x76x76x3x150 ![0, 1, 2, 3, 4] bcast_S16x1x1x1x150_S16x76x76x3x150_0_1_2_3_4 : (⟨S16x1x1x1x150, .f32⟩ : BufTy).Contents (Elt F) → (⟨S16x76x76x3x150, .f32⟩ : BufTy).Contents (Elt F)),
    StableHlo.binary main_v183 main_v184 main_v185 (addf : (⟨S16x76x76x3x150, .f32⟩ : BufTy).Contents (Elt F) → (⟨S16x76x76x3x150, .f32⟩ : BufTy).Contents (Elt F) → (⟨S16x76x76x3x150, .f32⟩ : BufTy).Contents (Elt F)),
    StableHlo.binary main_v185 main_v182 main_v186 (subf : (⟨S16x76x76x3x150, .f32⟩ : BufTy).Contents (Elt F) → (⟨S16x76x76x3x150, .f32⟩ : BufTy).Contents (Elt F) → (⟨S16x76x76x3x150, .f32⟩ : BufTy).Contents (Elt F)),
    StableHlo.binary main_v182 main_v186 main_v187 (Host.divf : (⟨S16x76x76x3x150, .f32⟩ : BufTy).Contents (Elt F) → (⟨S16x76x76x3x150, .f32⟩ : BufTy).Contents (Elt F) → (⟨S16x76x76x3x150, .f32⟩ : BufTy).Contents (Elt F)),
    StableHlo.nullary main_cst_23 (constant S_ .f32 0xFF800000#32),
    StableHlo.binary main_v187 main_cst_23 main_v188 ((fun x v => Host.reduce FloatOps.maximumf x v reducesTo_S16x76x76x3x150_S16x76x76x3_d4 h_S_) : (⟨S16x76x76x3x150, .f32⟩ : BufTy).Contents (Elt F) → (⟨S_, .f32⟩ : BufTy).Contents (Elt F) → (⟨S16x76x76x3, .f32⟩ : BufTy).Contents (Elt F)),
    StableHlo.unary main_v188 main_v189 (broadcastInDim S16x76x76x3x1 ![0, 1, 2, 3] bcast_S16x76x76x3_S16x76x76x3x1_0_1_2_3 : (⟨S16x76x76x3, .f32⟩ : BufTy).Contents (Elt F) → (⟨S16x76x76x3x1, .f32⟩ : BufTy).Contents (Elt F)),
    StableHlo.nullary main_cst_24 (constant S_ .f32 0x3F800000#32),
    StableHlo.unary main_cst_24 main_v190 (broadcastInDim S16x76x76x3x1 ![] bcast_S_S16x76x76x3x1 : (⟨S_, .f32⟩ : BufTy).Contents (Elt F) → (⟨S16x76x76x3x1, .f32⟩ : BufTy).Contents (Elt F)),
    StableHlo.binary main_v190 main_v51 main_v191 (subf : (⟨S16x76x76x3x1, .f32⟩ : BufTy).Contents (Elt F) → (⟨S16x76x76x3x1, .f32⟩ : BufTy).Contents (Elt F) → (⟨S16x76x76x3x1, .f32⟩ : BufTy).Contents (Elt F)),
    StableHlo.nullary main_cst_25 (constant S_ .f32 0x3F000000#32),
    StableHlo.unary main_cst_25 main_v192 (broadcastInDim S16x76x76x3x1 ![] bcast_S_S16x76x76x3x1 : (⟨S_, .f32⟩ : BufTy).Contents (Elt F) → (⟨S16x76x76x3x1, .f32⟩ : BufTy).Contents (Elt F)),
    StableHlo.binary main_v189 main_v192 main_v193 (cmpf .olt : (⟨S16x76x76x3x1, .f32⟩ : BufTy).Contents (Elt F) → (⟨S16x76x76x3x1, .f32⟩ : BufTy).Contents (Elt F) → (⟨S16x76x76x3x1, .i1⟩ : BufTy).Contents (Elt F)),
    StableHlo.unary main_v193 main_v194 (uitofp .f32 : (⟨S16x76x76x3x1, .i1⟩ : BufTy).Contents (Elt F) → (⟨S16x76x76x3x1, .f32⟩ : BufTy).Contents (Elt F)),
    StableHlo.binary main_v191 main_v194 main_v195 (mulf : (⟨S16x76x76x3x1, .f32⟩ : BufTy).Contents (Elt F) → (⟨S16x76x76x3x1, .f32⟩ : BufTy).Contents (Elt F) → (⟨S16x76x76x3x1, .f32⟩ : BufTy).Contents (Elt F)),
    StableHlo.binary main_v51 main_v49 main_v196 (subf : (⟨S16x76x76x3x1, .f32⟩ : BufTy).Contents (Elt F) → (⟨S16x76x76x3x1, .f32⟩ : BufTy).Contents (Elt F) → (⟨S16x76x76x3x1, .f32⟩ : BufTy).Contents (Elt F)),
    StableHlo.binary main_v196 main_v196 main_v197 (mulf : (⟨S16x76x76x3x1, .f32⟩ : BufTy).Contents (Elt F) → (⟨S16x76x76x3x1, .f32⟩ : BufTy).Contents (Elt F) → (⟨S16x76x76x3x1, .f32⟩ : BufTy).Contents (Elt F)),
    StableHlo.nullary main_cst_26 (constant S_ .f32 0x00000000#32),
    StableHlo.unary main_cst_26 main_v198 (broadcastInDim S16x76x76x3x1 ![] bcast_S_S16x76x76x3x1 : (⟨S_, .f32⟩ : BufTy).Contents (Elt F) → (⟨S16x76x76x3x1, .f32⟩ : BufTy).Contents (Elt F)),
    StableHlo.binary main_v46 main_v198 main_v199 (maximumf : (⟨S16x76x76x3x1, .f32⟩ : BufTy).Contents (Elt F) → (⟨S16x76x76x3x1, .f32⟩ : BufTy).Contents (Elt F) → (⟨S16x76x76x3x1, .f32⟩ : BufTy).Contents (Elt F)),
    StableHlo.binary main_v46 main_v51 main_v200 (mulf : (⟨S16x76x76x3x1, .f32⟩ : BufTy).Contents (Elt F) → (⟨S16x76x76x3x1, .f32⟩ : BufTy).Contents (Elt F) → (⟨S16x76x76x3x1, .f32⟩ : BufTy).Contents (Elt F)),
    StableHlo.binary main_v199 main_v200 main_v201 (subf : (⟨S16x76x76x3x1, .f32⟩ : BufTy).Contents (Elt F) → (⟨S16x76x76x3x1, .f32⟩ : BufTy).Contents (Elt F) → (⟨S16x76x76x3x1, .f32⟩ : BufTy).Contents (Elt F)),
    StableHlo.unary main_v46 main_v202 (Host.absf : (⟨S16x76x76x3x1, .f32⟩ : BufTy).Contents (Elt F) → (⟨S16x76x76x3x1, .f32⟩ : BufTy).Contents (Elt F)),
    StableHlo.unary main_v202 main_v203 (Host.negf : (⟨S16x76x76x3x1, .f32⟩ : BufTy).Contents (Elt F) → (⟨S16x76x76x3x1, .f32⟩ : BufTy).Contents (Elt F)),
    StableHlo.unary main_v203 main_v204 (Host.exp : (⟨S16x76x76x3x1, .f32⟩ : BufTy).Contents (Elt F) → (⟨S16x76x76x3x1, .f32⟩ : BufTy).Contents (Elt F)),
    StableHlo.unary main_v204 main_v205 (Host.log1p : (⟨S16x76x76x3x1, .f32⟩ : BufTy).Contents (Elt F) → (⟨S16x76x76x3x1, .f32⟩ : BufTy).Contents (Elt F)),
    StableHlo.binary main_v201 main_v205 main_v206 (addf : (⟨S16x76x76x3x1, .f32⟩ : BufTy).Contents (Elt F) → (⟨S16x76x76x3x1, .f32⟩ : BufTy).Contents (Elt F) → (⟨S16x76x76x3x1, .f32⟩ : BufTy).Contents (Elt F)),
    StableHlo.binary main_v51 main_v206 main_v207 (mulf : (⟨S16x76x76x3x1, .f32⟩ : BufTy).Contents (Elt F) → (⟨S16x76x76x3x1, .f32⟩ : BufTy).Contents (Elt F) → (⟨S16x76x76x3x1, .f32⟩ : BufTy).Contents (Elt F)),
    StableHlo.binary main_v195 main_v206 main_v208 (mulf : (⟨S16x76x76x3x1, .f32⟩ : BufTy).Contents (Elt F) → (⟨S16x76x76x3x1, .f32⟩ : BufTy).Contents (Elt F) → (⟨S16x76x76x3x1, .f32⟩ : BufTy).Contents (Elt F)),
    StableHlo.binary main_v207 main_v208 main_v209 (addf : (⟨S16x76x76x3x1, .f32⟩ : BufTy).Contents (Elt F) → (⟨S16x76x76x3x1, .f32⟩ : BufTy).Contents (Elt F) → (⟨S16x76x76x3x1, .f32⟩ : BufTy).Contents (Elt F)),
    StableHlo.binary main_v197 main_v209 main_v210 (mulf : (⟨S16x76x76x3x1, .f32⟩ : BufTy).Contents (Elt F) → (⟨S16x76x76x3x1, .f32⟩ : BufTy).Contents (Elt F) → (⟨S16x76x76x3x1, .f32⟩ : BufTy).Contents (Elt F)),
    StableHlo.nullary main_cst_27 (constant S_ .f32 0x00000000#32) ]

/-- Operations 241 … 273 of the reference, in order. -/
abbrev ops4 : List (HloOp τ sig (Elt F)) :=
  [ StableHlo.unary main_cst_27 main_v211 (broadcastInDim S16x76x76x3x80 ![] bcast_S_S16x76x76x3x80 : (⟨S_, .f32⟩ : BufTy).Contents (Elt F) → (⟨S16x76x76x3x80, .f32⟩ : BufTy).Contents (Elt F)),
    StableHlo.binary main_v47 main_v211 main_v212 (maximumf : (⟨S16x76x76x3x80, .f32⟩ : BufTy).Contents (Elt F) → (⟨S16x76x76x3x80, .f32⟩ : BufTy).Contents (Elt F) → (⟨S16x76x76x3x80, .f32⟩ : BufTy).Contents (Elt F)),
    StableHlo.binary main_v47 main_v52 main_v213 (mulf : (⟨S16x76x76x3x80, .f32⟩ : BufTy).Contents (Elt F) → (⟨S16x76x76x3x80, .f32⟩ : BufTy).Contents (Elt F) → (⟨S16x76x76x3x80, .f32⟩ : BufTy).Contents (Elt F)),
    StableHlo.binary main_v212 main_v213 main_v214 (subf : (⟨S16x76x76x3x80, .f32⟩ : BufTy).Contents (Elt F) → (⟨S16x76x76x3x80, .f32⟩ : BufTy).Contents (Elt F) → (⟨S16x76x76x3x80, .f32⟩ : BufTy).Contents (Elt F)),
    StableHlo.unary main_v47 main_v215 (Host.absf : (⟨S16x76x76x3x80, .f32⟩ : BufTy).Contents (Elt F) → (⟨S16x76x76x3x80, .f32⟩ : BufTy).Contents (Elt F)),
    StableHlo.unary main_v215 main_v216 (Host.negf : (⟨S16x76x76x3x80, .f32⟩ : BufTy).Contents (Elt F) → (⟨S16x76x76x3x80, .f32⟩ : BufTy).Contents (Elt F)),
    StableHlo.unary main_v216 main_v217 (Host.exp : (⟨S16x76x76x3x80, .f32⟩ : BufTy).Contents (Elt F) → (⟨S16x76x76x3x80, .f32⟩ : BufTy).Contents (Elt F)),
    StableHlo.unary main_v217 main_v218 (Host.log1p : (⟨S16x76x76x3x80, .f32⟩ : BufTy).Contents (Elt F) → (⟨S16x76x76x3x80, .f32⟩ : BufTy).Contents (Elt F)),
    StableHlo.binary main_v214 main_v218 main_v219 (addf : (⟨S16x76x76x3x80, .f32⟩ : BufTy).Contents (Elt F) → (⟨S16x76x76x3x80, .f32⟩ : BufTy).Contents (Elt F) → (⟨S16x76x76x3x80, .f32⟩ : BufTy).Contents (Elt F)),
    StableHlo.unary main_v51 main_v220 (broadcastInDim S16x76x76x3x80 ![0, 1, 2, 3, 4] bcast_S16x76x76x3x1_S16x76x76x3x80_0_1_2_3_4 : (⟨S16x76x76x3x1, .f32⟩ : BufTy).Contents (Elt F) → (⟨S16x76x76x3x80, .f32⟩ : BufTy).Contents (Elt F)),
    StableHlo.binary main_v220 main_v219 main_v221 (mulf : (⟨S16x76x76x3x80, .f32⟩ : BufTy).Contents (Elt F) → (⟨S16x76x76x3x80, .f32⟩ : BufTy).Contents (Elt F) → (⟨S16x76x76x3x80, .f32⟩ : BufTy).Contents (Elt F)),
    StableHlo.nullary main_cst_28 (constant S_ .f32 0x00000000#32),
    StableHlo.binary main_v130 main_cst_28 main_v222 ((fun x v => Host.reduceAdd x v reducesTo_S16x76x76x3x1_S16_d1_2_3_4 h_S_) : (⟨S16x76x76x3x1, .f32⟩ : BufTy).Contents (Elt F) → (⟨S_, .f32⟩ : BufTy).Contents (Elt F) → (⟨S16, .f32⟩ : BufTy).Contents (Elt F)),
    StableHlo.nullary main_cst_29 (constant S_ .f32 0x00000000#32),
    StableHlo.binary main_v222 main_cst_29 main_v223 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    StableHlo.nullary main_cst_30 (constant S_ .f32 0x41800000#32),
    StableHlo.binary main_v223 main_cst_30 main_v224 (Host.divf : (⟨S_, .f32⟩ : BufTy).Contents (Elt F) → (⟨S_, .f32⟩ : BufTy).Contents (Elt F) → (⟨S_, .f32⟩ : BufTy).Contents (Elt F)),
    StableHlo.nullary main_cst_31 (constant S_ .f32 0x00000000#32),
    StableHlo.binary main_v210 main_cst_31 main_v225 ((fun x v => Host.reduceAdd x v reducesTo_S16x76x76x3x1_S16_d1_2_3_4 h_S_) : (⟨S16x76x76x3x1, .f32⟩ : BufTy).Contents (Elt F) → (⟨S_, .f32⟩ : BufTy).Contents (Elt F) → (⟨S16, .f32⟩ : BufTy).Contents (Elt F)),
    StableHlo.nullary main_cst_32 (constant S_ .f32 0x00000000#32),
    StableHlo.binary main_v225 main_cst_32 main_v226 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    StableHlo.nullary main_cst_33 (constant S_ .f32 0x41800000#32),
    StableHlo.binary main_v226 main_cst_33 main_v227 (Host.divf : (⟨S_, .f32⟩ : BufTy).Contents (Elt F) → (⟨S_, .f32⟩ : BufTy).Contents (Elt F) → (⟨S_, .f32⟩ : BufTy).Contents (Elt F)),
    StableHlo.nullary main_cst_34 (constant S_ .f32 0x00000000#32),
    StableHlo.binary main_v221 main_cst_34 main_v228 ((fun x v => Host.reduceAdd x v reducesTo_S16x76x76x3x80_S16_d1_2_3_4 h_S_) : (⟨S16x76x76x3x80, .f32⟩ : BufTy).Contents (Elt F) → (⟨S_, .f32⟩ : BufTy).Contents (Elt F) → (⟨S16, .f32⟩ : BufTy).Contents (Elt F)),
    StableHlo.nullary main_cst_35 (constant S_ .f32 0x00000000#32),
    StableHlo.binary main_v228 main_cst_35 main_v229 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    StableHlo.nullary main_cst_36 (constant S_ .f32 0x41800000#32),
    StableHlo.binary main_v229 main_cst_36 main_v230 (Host.divf : (⟨S_, .f32⟩ : BufTy).Contents (Elt F) → (⟨S_, .f32⟩ : BufTy).Contents (Elt F) → (⟨S_, .f32⟩ : BufTy).Contents (Elt F)),
    StableHlo.unary main_v224 main_v231 (broadcastInDim S1 ![] bcast_S_S1 : (⟨S_, .f32⟩ : BufTy).Contents (Elt F) → (⟨S1, .f32⟩ : BufTy).Contents (Elt F)),
    StableHlo.unary main_v227 main_v232 (broadcastInDim S1 ![] bcast_S_S1 : (⟨S_, .f32⟩ : BufTy).Contents (Elt F) → (⟨S1, .f32⟩ : BufTy).Contents (Elt F)),
    StableHlo.unary main_v230 main_v233 (broadcastInDim S1 ![] bcast_S_S1 : (⟨S_, .f32⟩ : BufTy).Contents (Elt F) → (⟨S1, .f32⟩ : BufTy).Contents (Elt F)),
    StableHlo.nary ![main_v231, main_v232, main_v233] main_v234 (fun u => concatenate S3 0 [⟨S1, u 0⟩, ⟨S1, u 1⟩, ⟨S1, u 2⟩] concatenates_S1_S1_S1_S3_d0) ]

/-- All the reference's operations, in order. -/
abbrev ops : List (HloOp τ sig (Elt F)) := ops0 ++ (ops1 ++ (ops2 ++ (ops3 ++ (ops4))))

set_option maxHeartbeats 40000000 in
/-- Window 0 of the entry function is its operations run in order. -/
theorem part0_eq (d : Dev nD) : main_part0 (F := F) d = seq ops0 := rfl

set_option maxHeartbeats 40000000 in
/-- Window 1 of the entry function is its operations run in order. -/
theorem part1_eq (d : Dev nD) : main_part1 (F := F) d = seq ops1 := rfl

set_option maxHeartbeats 40000000 in
/-- Window 2 of the entry function is its operations run in order. -/
theorem part2_eq (d : Dev nD) : main_part2 (F := F) d = seq ops2 := rfl

set_option maxHeartbeats 40000000 in
/-- Window 3 of the entry function is its operations run in order. -/
theorem part3_eq (d : Dev nD) : main_part3 (F := F) d = seq ops3 := rfl

set_option maxHeartbeats 40000000 in
/-- Window 4 of the entry function is its operations run in order. -/
theorem part4_eq (d : Dev nD) : main_part4 (F := F) d = seq ops4 := rfl

end Cert.ReferenceIdeal.RefRun

end
-- ==== Proof.RefRun.lean ====
import proofs.«179941_j67783173865496_2_alg».proof.Proof.RefOps
import proofs.«179941_j67783173865496_2_alg».proof.Proof.LibLine

noncomputable section

namespace Cert.ReferenceIdeal.RefRun

open Cert.ReferenceIdeal Cert.ReferenceIdeal.Gen Idealize.ShloMosaic Idealize.ShloMosaic.TcCoe Idealize.SL.Sem Idealize.ShloMosaic.StableHlo Cert.LibLine

variable {F : FTy → Type} [FloatOps F]

/-- The entry function runs its windows in order, and each window is its operations in order. -/
theorem main_eq (d : Dev nD) : main (F := F) d = seq ops := by
  show _ = seq (ops0 ++ (ops1 ++ (ops2 ++ (ops3 ++ (ops4)))))
  rw [seq_append, seq_append, seq_append, seq_append, ← part0_eq d, ← part1_eq d, ← part2_eq d, ← part3_eq d, ← part4_eq d]
  rfl

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only, and determines its results. -/

theorem ops0_sub : (ops0 : List (HloOp τ sig (Elt F))).Forall fun op => op.bufs ⊆ tcRefs τ sig :=
  ⟨nullary_bufs_sub .., reshape_bufs_sub .., unary_bufs_sub .., unary_bufs_sub .., unary_bufs_sub .., unary_bufs_sub .., nullary_bufs_sub .., nullary_bufs_sub .., unary_bufs_sub .., unary_bufs_sub .., unary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nary_bufs_sub .., reshape_bufs_sub .., unary_bufs_sub .., unary_bufs_sub .., unary_bufs_sub .., unary_bufs_sub ..⟩
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops1_sub : (ops1 : List (HloOp τ sig (Elt F))).Forall fun op => op.bufs ⊆ tcRefs τ sig :=
  ⟨unary_bufs_sub .., unary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., binary_bufs_sub .., binary_bufs_sub .., binary_bufs_sub .., unary_bufs_sub .., unary_bufs_sub .., binary_bufs_sub ..⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops2_sub : (ops2 : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., binary_bufs_sub .., binary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., binary_bufs_sub .., unary_bufs_sub .., unary_bufs_sub .., nullary_bufs_sub .., unary_bufs_sub .., binary_bufs_sub ..⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops3_sub : (ops3 : List (HloOp τ sig (Elt F))).Forall fun op => op.bufs ⊆ tcRefs τ sig :=
  ⟨binary_bufs_sub .., unary_bufs_sub .., unary_bufs_sub .., nullary_bufs_sub .., unary_bufs_sub .., binary_bufs_sub .., binary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., binary_bufs_sub .., binary_bufs_sub .., binary_bufs_sub .., nullary_bufs_sub ..⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops4_sub : (ops4 : List (HloOp τ sig (Elt F))).Forall fun op => op.bufs ⊆ tcRefs τ sig :=
  ⟨unary_bufs_sub .., binary_bufs_sub .., binary_bufs_sub .., binary_bufs_sub .., unary_bufs_sub .., unary_bufs_sub .., unary_bufs_sub .., unary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., unary_bufs_sub .., unary_bufs_sub .., unary_bufs_sub .., nary_bufs_sub ..⟩
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub, ops4_sub⟩⟩⟩⟩
theorem ops_fresh : (ops : List (HloOp τ sig (Elt F))).Forall fun op => op.fresh = ∅ :=
  List.forall_append.2 ⟨ops0_fresh, List.forall_append.2 ⟨ops1_fresh, List.forall_append.2 ⟨ops2_fresh, List.forall_append.2 ⟨ops3_fresh, ops4_fresh⟩⟩⟩⟩

/-! The references the operations write, in order: the line is in single-assignment form. -/

/-- The references window 0's operations write, in order. -/
abbrev outs0 : List (Ref sig .tc) :=
  [main_cst, main_v0, main_v1, main_v2, main_v3, main_v4, main_v5, main_v6, main_v7, main_v8, main_v9, main_v10, main_v11, main_v12, main_v13, main_v14, main_v15, main_cst_0, main_v16, main_v17, main_cst_1, main_v18, main_v19, main_cst_2, main_v20, main_v21, main_cst_3, main_v22, main_v23, main_v24, main_v25, main_cst_4, main_v26, main_v27, main_v28, main_v29, main_v30, main_v31, main_v32, main_v33, main_cst_5, main_v34, main_v35, main_cst_6, main_v36, main_v37, main_v38, main_v39, main_cst_7, main_v40, main_v41, main_cst_8, main_v42, main_v43, main_v44, main_v45, main_v46, main_v47, main_v48, main_v49]
theorem writes0 : WritesAre (τ := τ) (ops0 : List (HloOp τ sig (Elt F))) outs0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))

/-- The references window 1's operations write, in order. -/
abbrev outs1 : List (Ref sig .tc) :=
  [main_v50, main_v51, main_v52, main_v53, main_v54, main_v55, main_v56, main_v57, main_v58, main_v59, main_v60, main_v61, main_v62, main_v63, main_v64, main_cst_9, main_v65, main_v66, main_v67, main_v68, main_v69, main_cst_10, main_v70, main_v71, main_v72, main_v73, main_v74, main_v75, main_cst_11, main_v76, main_v77, main_v78, main_v79, main_v80, main_cst_12, main_v81, main_v82, main_v83, main_v84, main_v85, main_v86, main_v87, main_v88, main_v89, main_v90, main_v91, main_cst_13, main_v92, main_v93, main_v94, main_v95, main_v96, main_v97, main_v98, main_v99, main_v100, main_v101, main_v102, main_v103, main_v104]
theorem writes1 : WritesAre (τ := τ) (ops1 : List (HloOp τ sig (Elt F))) outs1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))

/-- The references window 2's operations write, in order. -/
abbrev outs2 : List (Ref sig .tc) :=
  [main_v105, main_v106, main_v107, main_v108, main_cst_14, main_v109, main_v110, main_v111, main_v112, main_v113, main_v114, main_v115, main_v116, main_v117, main_v118, main_v119, main_v120, main_v121, main_v122, main_cst_15, main_v123, main_v124, main_cst_16, main_v125, main_v126, main_v127, main_cst_17, main_v128, main_v129, main_v130, main_v131, main_v132, main_v133, main_v134, main_v135, main_v136, main_v137, main_v138, main_v139, main_v140, main_v141, main_v142, main_v143, main_v144, main_cst_18, main_v145, main_v146, main_v147, main_v148, main_v149, main_cst_19, main_v150, main_v151, main_v152, main_v153, main_v154, main_v155, main_cst_20, main_v156, main_v157]
theorem writes2 : WritesAre (τ := τ) (ops2 : List (HloOp τ sig (Elt F))) outs2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))

/-- The references window 3's operations write, in order. -/
abbrev outs3 : List (Ref sig .tc) :=
  [main_v158, main_v159, main_v160, main_cst_21, main_v161, main_v162, main_v163, main_v164, main_v165, main_v166, main_v167, main_v168, main_v169, main_v170, main_v171, main_v172, main_v173, main_v174, main_v175, main_cst_22, main_v176, main_v177, main_v178, main_v179, main_v180, main_v181, main_v182, main_v183, main_v184, main_v185, main_v186, main_v187, main_cst_23, main_v188, main_v189, main_cst_24, main_v190, main_v191, main_cst_25, main_v192, main_v193, main_v194, main_v195, main_v196, main_v197, main_cst_26, main_v198, main_v199, main_v200, main_v201, main_v202, main_v203, main_v204, main_v205, main_v206, main_v207, main_v208, main_v209, main_v210, main_cst_27]
theorem writes3 : WritesAre (τ := τ) (ops3 : List (HloOp τ sig (Elt F))) outs3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))

/-- The references window 4's operations write, in order. -/
abbrev outs4 : List (Ref sig .tc) :=
  [main_v211, main_v212, main_v213, main_v214, main_v215, main_v216, main_v217, main_v218, main_v219, main_v220, main_v221, main_cst_28, main_v222, main_cst_29, main_v223, main_cst_30, main_v224, main_cst_31, main_v225, main_cst_32, main_v226, main_cst_33, main_v227, main_cst_34, main_v228, main_cst_35, main_v229, main_cst_36, main_v230, main_v231, main_v232, main_v233, main_v234]
theorem writes4 : WritesAre (τ := τ) (ops4 : List (HloOp τ sig (Elt F))) outs4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))

/-- The references the operations write, in order. -/
abbrev outs : List (Ref sig .tc) := outs0 ++ (outs1 ++ (outs2 ++ (outs3 ++ (outs4))))
theorem writes : WritesAre (τ := τ) (ops : List (HloOp τ sig (Elt F))) outs :=
  List.rel_append writes0 (List.rel_append writes1 (List.rel_append writes2 (List.rel_append writes3 (writes4))))

/-- On every device, for any float values, from any memory with zero counters: every weakly fair execution of the
    entry function terminates with each buffer at the fold of the operations over the device's launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ
    (fun _ => List.forall_iff_forall_mem.1 ops_fresh)

/-! No operation writes an argument. -/

theorem after_arg0 (V : Valuation τ sig (Elt F)) : after (ops (F := F)) V (Proc.devRef .tc main_arg0) = V (Proc.devRef .tc main_arg0) :=
  after_of_writesAre writes V (by decide)
theorem after_arg1 (V : Valuation τ sig (Elt F)) : after (ops (F := F)) V (Proc.devRef .tc main_arg1) = V (Proc.devRef .tc main_arg1) :=
  after_of_writesAre writes V (by decide)
theorem after_arg2 (V : Valuation τ sig (Elt F)) : after (ops (F := F)) V (Proc.devRef .tc main_arg2) = V (Proc.devRef .tc main_arg2) :=
  after_of_writesAre writes V (by decide)

/-- Every weakly fair execution of the entry function terminates, and the arguments end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0).trans (after_arg0 _), (h c main_arg1).trans (after_arg1 _), (h c main_arg2).trans (after_arg2 _)⟩) (run m ρ)

end Cert.ReferenceIdeal.RefRun

end
-- ==== Proof.RefW.lean ====
/- The contents every buffer holds after the reference's whole line, as a function of the contents the line starts from. -/
import proofs.«179941_j67783173865496_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo Cert.LibLine

variable {F : FTy → Type} [FloatOps F]

/-- What each buffer holds after the whole line run from the contents V. -/
abbrev W (V : Valuation τ sig (Elt F)) : Valuation τ sig (Elt F) := after (ops (F := F)) V

end Cert.ReferenceIdeal.RefRun

end
-- ==== Proof.RefStages0.lean ====
import proofs.«179941_j67783173865496_2_alg».proof.Proof.RefW

noncomputable section

namespace Cert.ReferenceIdeal.RefRun

open Cert.ReferenceIdeal Cert.ReferenceIdeal.Gen Idealize.ShloMosaic Idealize.ShloMosaic.TcCoe Idealize.SL.Sem Idealize.ShloMosaic.StableHlo Cert.LibLine

variable {F : FTy → Type} [FloatOps F]

theorem st_main_cst (V : Valuation τ sig (Elt F)) :
    W V (Proc.devRef .tc main_cst) = ((fun i => FloatOps.ofBits .f32 (lit0 (S3x2.rowMajor i))) : main_cst.ty.Contents (Elt F)) :=
  (stage_nullary writes 0 main_cst (fun i => FloatOps.ofBits .f32 (lit0 (S3x2.rowMajor i))) rfl (by decide) V :)

theorem st_main_v0 (V : Valuation τ sig (Elt F)) :
    W V (Proc.devRef .tc main_v0) = shapeCast _ (W V (Proc.devRef .tc main_arg0)) shapeCasts_S16x76x76x255_S16x76x76x3x85 :=
  (stage_reshape writes 1 main_arg0 main_v0 rfl shapeCasts_S16x76x76x255_S16x76x76x3x85 rfl (by decide) (by decide) V :)

theorem st_main_v1 (V : Valuation τ sig (Elt F)) :
    W V (Proc.devRef .tc main_v1) = ((extractStridedSlice S16x76x76x3x2 ![0, 0, 0, 0, 0] · slices_S16x76x76x3x85_S16x76x76x3x2_0_0_0_0_0) : (⟨S16x76x76x3x85, .f32⟩ : BufTy).Contents (Elt F) → (⟨S16x76x76x3x2, .f32⟩ : BufTy).Contents (Elt F)) (W V (Proc.devRef .tc main_v0)) :=
  (stage_unary writes 2 main_v0 main_v1 ((extractStridedSlice S16x76x76x3x2 ![0, 0, 0, 0, 0] · slices_S16x76x76x3x85_S16x76x76x3x2_0_0_0_0_0) : (⟨S16x76x76x3x85, .f32⟩ : BufTy).Contents (Elt F) → (⟨S16x76x76x3x2, .f32⟩ : BufTy).Contents (Elt F)) rfl (by decide) (by decide) V :)

theorem st_main_v2 (V : Valuation τ sig (Elt F)) :
    W V (Proc.devRef .tc main_v2) = ((extractStridedSlice S16x76x76x3x2 ![0, 0, 0, 0, 2] · slices_S16x76x76x3x85_S16x76x76x3x2_0_0_0_0_2) : (⟨S16x76x76x3x85, .f32⟩ : BufTy).Contents (Elt F) → (⟨S16x76x76x3x2, .f32⟩ : BufTy).Contents (Elt F)) (W V (Proc.devRef .tc main_v0)) :=
  (stage_unary writes 3 main_v0 main_v2 ((extractStridedSlice S16x76x76x3x2 ![0, 0, 0, 0, 2] · slices_S16x76x76x3x85_S16x76x76x3x2_0_0_0_0_2) : (⟨S16x76x76x3x85, .f32⟩ : BufTy).Contents (Elt F) → (⟨S16x76x76x3x2, .f32⟩ : BufTy).Contents (Elt F)) rfl (by decide) (by decide) V :)

theorem st_main_v3 (V : Valuation τ sig (Elt F)) :
    W V (Proc.devRef .tc main_v3) = ((extractStridedSlice S16x76x76x3x1 ![0, 0, 0, 0, 4] · slices_S16x76x76x3x85_S16x76x76x3x1_0_0_0_0_4) : (⟨S16x76x76x3x85, .f32⟩ : BufTy).Contents (Elt F) → (⟨S16x76x76x3x1, .f32⟩ : BufTy).Contents (Elt F)) (W V (Proc.devRef .tc main_v0)) :=
  (stage_unary writes 4 main_v0 main_v3 ((extractStridedSlice S16x76x76x3x1 ![0, 0, 0, 0, 4] · slices_S16x76x76x3x85_S16x76x76x3x1_0_0_0_0_4) : (⟨S16x76x76x3x85, .f32⟩ : BufTy).Contents (Elt F) → (⟨S16x76x76x3x1, .f32⟩ : BufTy).Contents (Elt F)) rfl (by decide) (by decide) V :)

theorem st_main_v4 (V : Valuation τ sig (Elt F)) :
    W V (Proc.devRef .tc main_v4) = ((extractStridedSlice S16x76x76x3x80 ![0, 0, 0, 0, 5] · slices_S16x76x76x3x85_S16x76x76x3x80_0_0_0_0_5) : (⟨S16x76x76x3x85, .f32⟩ : BufTy).Contents (Elt F) → (⟨S16x76x76x3x80, .f32⟩ : BufTy).Contents (Elt F)) (W V (Proc.devRef .tc main_v0)) :=
  (stage_unary writes 5 main_v0 main_v4 ((extractStridedSlice S16x76x76x3x80 ![0, 0, 0, 0, 5] · slices_S16x76x76x3x85_S16x76x76x3x80_0_0_0_0_5) : (⟨S16x76x76x3x85, .f32⟩ : BufTy).Contents (Elt F) → (⟨S16x76x76x3x80, .f32⟩ : BufTy).Contents (Elt F)) rfl (by decide) (by decide) V :)

theorem st_main_v5 (V : Valuation τ sig (Elt F)) :
    W V (Proc.devRef .tc main_v5) = ((iotaInDim S76 32 0) : main_v5.ty.Contents (Elt F)) :=
  (stage_nullary writes 6 main_v5 (iotaInDim S76 32 0) rfl (by decide) V :)

theorem st_main_v6 (V : Valuation τ sig (Elt F)) :
    W V (Proc.devRef .tc main_v6) = ((iotaInDim S76 32 0) : main_v6.ty.Contents (Elt F)) :=
  (stage_nullary writes 7 main_v6 (iotaInDim S76 32 0) rfl (by decide) V :)

theorem st_main_v7 (V : Valuation τ sig (Elt F)) :
    W V (Proc.devRef .tc main_v7) = (broadcastInDim S76x76 ![0] bcast_S76_S76x76_0 : (⟨S76, .i32⟩ : BufTy).Contents (Elt F) → (⟨S76x76, .i32⟩ : BufTy).Contents (Elt F)) (W V (Proc.devRef .tc main_v6)) :=
  (stage_unary writes 8 main_v6 main_v7 (broadcastInDim S76x76 ![0] bcast_S76_S76x76_0 : (⟨S76, .i32⟩ : BufTy).Contents (Elt F) → (⟨S76x76, .i32⟩ : BufTy).Contents (Elt F)) rfl (by decide) (by decide) V :)

theorem st_main_v8 (V : Valuation τ sig (Elt F)) :
    W V (Proc.devRef .tc main_v8) = (broadcastInDim S76x76 ![1] bcast_S76_S76x76_1 : (⟨S76, .i32⟩ : BufTy).Contents (Elt F) → (⟨S76x76, .i32⟩ : BufTy).Contents (Elt F)) (W V (Proc.devRef .tc main_v5)) :=
  (stage_unary writes 9 main_v5 main_v8 (broadcastInDim S76x76 ![1] bcast_S76_S76x76_1 : (⟨S76, .i32⟩ : BufTy).Contents (Elt F) → (⟨S76x76, .i32⟩ : BufTy).Contents (Elt F)) rfl (by decide) (by decide) V :)

theorem st_main_v9 (V : Valuation τ sig (Elt F)) :
    W V (Proc.devRef .tc main_v9) = (broadcastInDim S76x76x1 ![0, 1] bcast_S76x76_S76x76x1_0_1 : (⟨S76x76, .i32⟩ : BufTy).Contents (Elt F) → (⟨S76x76x1, .i32⟩ : BufTy).Contents (Elt F)) (W V (Proc.devRef .tc main_v8)) :=
  (stage_unary writes 10 main_v8 main_v9 (broadcastInDim S76x76x1 ![0, 1] bcast_S76x76_S76x76x1_0_1 : (⟨S76x76, .i32⟩ : BufTy).Contents (Elt F) → (⟨S76x76x1, .i32⟩ : BufTy).Contents (Elt F)) rfl (by decide) (by decide) V :)

theorem st_main_v10 (V : Valuation τ sig (Elt F)) :
    W V (Proc.devRef .tc main_v10) = (broadcastInDim S76x76x1 ![0, 1] bcast_S76x76_S76x76x1_0_1 : (⟨S76x76, .i32⟩ : BufTy).Contents (Elt F) → (⟨S76x76x1, .i32⟩ : BufTy).Contents (Elt F)) (W V (Proc.devRef .tc main_v7)) :=
  (stage_unary writes 11 main_v7 main_v10 (broadcastInDim S76x76x1 ![0, 1] bcast_S76x76_S76x76x1_0_1 : (⟨S76x76, .i32⟩ : BufTy).Contents (Elt F) → (⟨S76x76x1, .i32⟩ : BufTy).Contents (Elt F)) rfl (by decide) (by decide) V :)

theorem st_main_v11 (V : Valuation τ sig (Elt F)) :
    W V (Proc.devRef .tc main_v11) = ((fun a b => concatenate S76x76x2 2 [⟨S76x76x1, a⟩, ⟨S76x76x1, b⟩] concatenates_S76x76x1_S76x76x1_S76x76x2_d2) : (⟨S76x76x1, .i32⟩ : BufTy).Contents (Elt F) → (⟨S76x76x1, .i32⟩ : BufTy).Contents (Elt F) → (⟨S76x76x2, .i32⟩ : BufTy).Contents (Elt F)) (W V (Proc.devRef .tc main_v9)) (W V (Proc.devRef .tc main_v10)) :=
  (stage_binary writes 12 main_v9 main_v10 main_v11 ((fun a b => concatenate S76x76x2 2 [⟨S76x76x1, a⟩, ⟨S76x76x1, b⟩] concatenates_S76x76x1_S76x76x1_S76x76x2_d2) : (⟨S76x76x1, .i32⟩ : BufTy).Contents (Elt F) → (⟨S76x76x1, .i32⟩ : BufTy).Contents (Elt F) → (⟨S76x76x2, .i32⟩ : BufTy).Contents (Elt F)) rfl (by decide) (by decide) (by decide) V :)

theorem st_main_v12 (V : Valuation τ sig (Elt F)) :
    W V (Proc.devRef .tc main_v12) = (broadcastInDim S1x76x76x1x2 ![1, 2, 4] bcast_S76x76x2_S1x76x76x1x2_1_2_4 : (⟨S76x76x2, .i32⟩ : BufTy).Contents (Elt F) → (⟨S1x76x76x1x2, .i32⟩ : BufTy).Contents (Elt F)) (W V (Proc.devRef .tc main_v11)) :=
  (stage_unary writes 13 main_v11 main_v12 (broadcastInDim S1x76x76x1x2 ![1, 2, 4] bcast_S76x76x2_S1x76x76x1x2_1_2_4 : (⟨S76x76x2, .i32⟩ : BufTy).Contents (Elt F) → (⟨S1x76x76x1x2, .i32⟩ : BufTy).Contents (Elt F)) rfl (by decide) (by decide) V :)

theorem st_main_v13 (V : Valuation τ sig (Elt F)) :
    W V (Proc.devRef .tc main_v13) = (sitofp .f32 : (⟨S1x76x76x1x2, .i32⟩ : BufTy).Contents (Elt F) → (⟨S1x76x76x1x2, .f32⟩ : BufTy).Contents (Elt F)) (W V (Proc.devRef .tc main_v12)) :=
  (stage_unary writes 14 main_v12 main_v13 (sitofp .f32 : (⟨S1x76x76x1x2, .i32⟩ : BufTy).Contents (Elt F) → (⟨S1x76x76x1x2, .f32⟩ : BufTy).Contents (Elt F)) rfl (by decide) (by decide) V :)

theorem st_main_v14 (V : Valuation τ sig (Elt F)) :
    W V (Proc.devRef .tc main_v14) = (Host.negf : (⟨S16x76x76x3x2, .f32⟩ : BufTy).Contents (Elt F) → (⟨S16x76x76x3x2, .f32⟩ : BufTy).Contents (Elt F)) (W V (Proc.devRef .tc main_v1)) :=
  (stage_unary writes 15 main_v1 main_v14 (Host.negf : (⟨S16x76x76x3x2, .f32⟩ : BufTy).Contents (Elt F) → (⟨S16x76x76x3x2, .f32⟩ : BufTy).Contents (Elt F)) rfl (by decide) (by decide) V :)

theorem st_main_v15 (V : Valuation τ sig (Elt F)) :
    W V (Proc.devRef .tc main_v15) = (Host.exp : (⟨S16x76x76x3x2, .f32⟩ : BufTy).Contents (Elt F) → (⟨S16x76x76x3x2, .f32⟩ : BufTy).Contents (Elt F)) (W V (Proc.devRef .tc main_v14)) :=
  (stage_unary writes 16 main_v14 main_v15 (Host.exp : (⟨S16x76x76x3x2, .f32⟩ : BufTy).Contents (Elt F) → (⟨S16x76x76x3x2, .f32⟩ : BufTy).Contents (Elt F)) rfl (by decide) (by decide) V :)

theorem st_main_cst_0 (V : Valuation τ sig (Elt F)) :
    W V (Proc.devRef .tc main_cst_0) = ((constant S_ .f32 0x3F800000#32) : main_cst_0.ty.Contents (Elt F)) :=
  (stage_nullary writes 17 main_cst_0 (constant S_ .f32 0x3F800000#32) rfl (by decide) V :)

theorem st_main_v16 (V : Valuation τ sig (Elt F)) :
    W V (Proc.devRef .tc main_v16) = (broadcastInDim S16x76x76x3x2 ![] bcast_S_S16x76x76x3x2 : (⟨S_, .f32⟩ : BufTy).Contents (Elt F) → (⟨S16x76x76x3x2, .f32⟩ : BufTy).Contents (Elt F)) (W V (Proc.devRef .tc main_cst_0)) :=
  (stage_unary writes 18 main_cst_0 main_v16 (broadcastInDim S16x76x76x3x2 ![] bcast_S_S16x76x76x3x2 : (⟨S_, .f32⟩ : BufTy).Contents (Elt F) → (⟨S16x76x76x3x2, .f32⟩ : BufTy).Contents (Elt F)) rfl (by decide) (by decide) V :)

theorem st_main_v17 (V : Valuation τ sig (Elt F)) :
    W V (Proc.devRef .tc main_v17) = (addf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v16)) (W V (Proc.devRef .tc main_v15)) :=
  (stage_binary writes 19 main_v16 main_v15 main_v17 (addf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_cst_1 (V : Valuation τ sig (Elt F)) :
    W V (Proc.devRef .tc main_cst_1) = ((constant S_ .f32 0x3F800000#32) : main_cst_1.ty.Contents (Elt F)) :=
  (stage_nullary writes 20 main_cst_1 (constant S_ .f32 0x3F800000#32) rfl (by decide) V :)

theorem st_main_v18 (V : Valuation τ sig (Elt F)) :
    W V (Proc.devRef .tc main_v18) = (broadcastInDim S16x76x76x3x2 ![] bcast_S_S16x76x76x3x2 : (⟨S_, .f32⟩ : BufTy).Contents (Elt F) → (⟨S16x76x76x3x2, .f32⟩ : BufTy).Contents (Elt F)) (W V (Proc.devRef .tc main_cst_1)) :=
  (stage_unary writes 21 main_cst_1 main_v18 (broadcastInDim S16x76x76x3x2 ![] bcast_S_S16x76x76x3x2 : (⟨S_, .f32⟩ : BufTy).Contents (Elt F) → (⟨S16x76x76x3x2, .f32⟩ : BufTy).Contents (Elt F)) rfl (by decide) (by decide) V :)

theorem st_main_v19 (V : Valuation τ sig (Elt F)) :
    W V (Proc.devRef .tc main_v19) = (Host.divf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v18)) (W V (Proc.devRef .tc main_v17)) :=
  (stage_binary writes 22 main_v18 main_v17 main_v19 (Host.divf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_cst_2 (V : Valuation τ sig (Elt F)) :
    W V (Proc.devRef .tc main_cst_2) = ((constant S_ .f32 0x3F99999A#32) : main_cst_2.ty.Contents (Elt F)) :=
  (stage_nullary writes 23 main_cst_2 (constant S_ .f32 0x3F99999A#32) rfl (by decide) V :)

theorem st_main_v20 (V : Valuation τ sig (Elt F)) :
    W V (Proc.devRef .tc main_v20) = (broadcastInDim S16x76x76x3x2 ![] bcast_S_S16x76x76x3x2 : (⟨S_, .f32⟩ : BufTy).Contents (Elt F) → (⟨S16x76x76x3x2, .f32⟩ : BufTy).Contents (Elt F)) (W V (Proc.devRef .tc main_cst_2)) :=
  (stage_unary writes 24 main_cst_2 main_v20 (broadcastInDim S16x76x76x3x2 ![] bcast_S_S16x76x76x3x2 : (⟨S_, .f32⟩ : BufTy).Contents (Elt F) → (⟨S16x76x76x3x2, .f32⟩ : BufTy).Contents (Elt F)) rfl (by decide) (by decide) V :)

theorem st_main_v21 (V : Valuation τ sig (Elt F)) :
    W V (Proc.devRef .tc main_v21) = (mulf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v19)) (W V (Proc.devRef .tc main_v20)) :=
  (stage_binary writes 25 main_v19 main_v20 main_v21 (mulf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_cst_3 (V : Valuation τ sig (Elt F)) :
    W V (Proc.devRef .tc main_cst_3) = ((constant S_ .f32 0x3DCCCCCD#32) : main_cst_3.ty.Contents (Elt F)) :=
  (stage_nullary writes 26 main_cst_3 (constant S_ .f32 0x3DCCCCCD#32) rfl (by decide) V :)

theorem st_main_v22 (V : Valuation τ sig (Elt F)) :
    W V (Proc.devRef .tc main_v22) = (broadcastInDim S16x76x76x3x2 ![] bcast_S_S16x76x76x3x2 : (⟨S_, .f32⟩ : BufTy).Contents (Elt F) → (⟨S16x76x76x3x2, .f32⟩ : BufTy).Contents (Elt F)) (W V (Proc.devRef .tc main_cst_3)) :=
  (stage_unary writes 27 main_cst_3 main_v22 (broadcastInDim S16x76x76x3x2 ![] bcast_S_S16x76x76x3x2 : (⟨S_, .f32⟩ : BufTy).Contents (Elt F) → (⟨S16x76x76x3x2, .f32⟩ : BufTy).Contents (Elt F)) rfl (by decide) (by decide) V :)

theorem st_main_v23 (V : Valuation τ sig (Elt F)) :
    W V (Proc.devRef .tc main_v23) = (subf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v21)) (W V (Proc.devRef .tc main_v22)) :=
  (stage_binary writes 28 main_v21 main_v22 main_v23 (subf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_v24 (V : Valuation τ sig (Elt F)) :
    W V (Proc.devRef .tc main_v24) = (broadcastInDim S16x76x76x3x2 ![0, 1, 2, 3, 4] bcast_S1x76x76x1x2_S16x76x76x3x2_0_1_2_3_4 : (⟨S1x76x76x1x2, .f32⟩ : BufTy).Contents (Elt F) → (⟨S16x76x76x3x2, .f32⟩ : BufTy).Contents (Elt F)) (W V (Proc.devRef .tc main_v13)) :=
  (stage_unary writes 29 main_v13 main_v24 (broadcastInDim S16x76x76x3x2 ![0, 1, 2, 3, 4] bcast_S1x76x76x1x2_S16x76x76x3x2_0_1_2_3_4 : (⟨S1x76x76x1x2, .f32⟩ : BufTy).Contents (Elt F) → (⟨S16x76x76x3x2, .f32⟩ : BufTy).Contents (Elt F)) rfl (by decide) (by decide) V :)

theorem st_main_v25 (V : Valuation τ sig (Elt F)) :
    W V (Proc.devRef .tc main_v25) = (addf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v23)) (W V (Proc.devRef .tc main_v24)) :=
  (stage_binary writes 30 main_v23 main_v24 main_v25 (addf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_cst_4 (V : Valuation τ sig (Elt F)) :
    W V (Proc.devRef .tc main_cst_4) = ((constant S_ .f32 0x41000000#32) : main_cst_4.ty.Contents (Elt F)) :=
  (stage_nullary writes 31 main_cst_4 (constant S_ .f32 0x41000000#32) rfl (by decide) V :)

theorem st_main_v26 (V : Valuation τ sig (Elt F)) :
    W V (Proc.devRef .tc main_v26) = (broadcastInDim S16x76x76x3x2 ![] bcast_S_S16x76x76x3x2 : (⟨S_, .f32⟩ : BufTy).Contents (Elt F) → (⟨S16x76x76x3x2, .f32⟩ : BufTy).Contents (Elt F)) (W V (Proc.devRef .tc main_cst_4)) :=
  (stage_unary writes 32 main_cst_4 main_v26 (broadcastInDim S16x76x76x3x2 ![] bcast_S_S16x76x76x3x2 : (⟨S_, .f32⟩ : BufTy).Contents (Elt F) → (⟨S16x76x76x3x2, .f32⟩ : BufTy).Contents (Elt F)) rfl (by decide) (by decide) V :)

theorem st_main_v27 (V : Valuation τ sig (Elt F)) :
    W V (Proc.devRef .tc main_v27) = (mulf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v25)) (W V (Proc.devRef .tc main_v26)) :=
  (stage_binary writes 33 main_v25 main_v26 main_v27 (mulf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_v28 (V : Valuation τ sig (Elt F)) :
    W V (Proc.devRef .tc main_v28) = (Host.exp : (⟨S16x76x76x3x2, .f32⟩ : BufTy).Contents (Elt F) → (⟨S16x76x76x3x2, .f32⟩ : BufTy).Contents (Elt F)) (W V (Proc.devRef .tc main_v2)) :=
  (stage_unary writes 34 main_v2 main_v28 (Host.exp : (⟨S16x76x76x3x2, .f32⟩ : BufTy).Contents (Elt F) → (⟨S16x76x76x3x2, .f32⟩ : BufTy).Contents (Elt F)) rfl (by decide) (by decide) V :)

theorem st_main_v29 (V : Valuation τ sig (Elt F)) :
    W V (Proc.devRef .tc main_v29) = (broadcastInDim S1x1x1x3x2 ![3, 4] bcast_S3x2_S1x1x1x3x2_3_4 : (⟨S3x2, .f32⟩ : BufTy).Contents (Elt F) → (⟨S1x1x1x3x2, .f32⟩ : BufTy).Contents (Elt F)) (W V (Proc.devRef .tc main_cst)) :=
  (stage_unary writes 35 main_cst main_v29 (broadcastInDim S1x1x1x3x2 ![3, 4] bcast_S3x2_S1x1x1x3x2_3_4 : (⟨S3x2, .f32⟩ : BufTy).Contents (Elt F) → (⟨S1x1x1x3x2, .f32⟩ : BufTy).Contents (Elt F)) rfl (by decide) (by decide) V :)

theorem st_main_v30 (V : Valuation τ sig (Elt F)) :
    W V (Proc.devRef .tc main_v30) = (broadcastInDim S16x76x76x3x2 ![0, 1, 2, 3, 4] bcast_S1x1x1x3x2_S16x76x76x3x2_0_1_2_3_4 : (⟨S1x1x1x3x2, .f32⟩ : BufTy).Contents (Elt F) → (⟨S16x76x76x3x2, .f32⟩ : BufTy).Contents (Elt F)) (W V (Proc.devRef .tc main_v29)) :=
  (stage_unary writes 36 main_v29 main_v30 (broadcastInDim S16x76x76x3x2 ![0, 1, 2, 3, 4] bcast_S1x1x1x3x2_S16x76x76x3x2_0_1_2_3_4 : (⟨S1x1x1x3x2, .f32⟩ : BufTy).Contents (Elt F) → (⟨S16x76x76x3x2, .f32⟩ : BufTy).Contents (Elt F)) rfl (by decide) (by decide) V :)

theorem st_main_v31 (V : Valuation τ sig (Elt F)) :
    W V (Proc.devRef .tc main_v31) = (mulf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v28)) (W V (Proc.devRef .tc main_v30)) :=
  (stage_binary writes 37 main_v28 main_v30 main_v31 (mulf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_v32 (V : Valuation τ sig (Elt F)) :
    W V (Proc.devRef .tc main_v32) = (Host.negf : (⟨S16x76x76x3x1, .f32⟩ : BufTy).Contents (Elt F) → (⟨S16x76x76x3x1, .f32⟩ : BufTy).Contents (Elt F)) (W V (Proc.devRef .tc main_v3)) :=
  (stage_unary writes 38 main_v3 main_v32 (Host.negf : (⟨S16x76x76x3x1, .f32⟩ : BufTy).Contents (Elt F) → (⟨S16x76x76x3x1, .f32⟩ : BufTy).Contents (Elt F)) rfl (by decide) (by decide) V :)

theorem st_main_v33 (V : Valuation τ sig (Elt F)) :
    W V (Proc.devRef .tc main_v33) = (Host.exp : (⟨S16x76x76x3x1, .f32⟩ : BufTy).Contents (Elt F) → (⟨S16x76x76x3x1, .f32⟩ : BufTy).Contents (Elt F)) (W V (Proc.devRef .tc main_v32)) :=
  (stage_unary writes 39 main_v32 main_v33 (Host.exp : (⟨S16x76x76x3x1, .f32⟩ : BufTy).Contents (Elt F) → (⟨S16x76x76x3x1, .f32⟩ : BufTy).Contents (Elt F)) rfl (by decide) (by decide) V :)

theorem st_main_cst_5 (V : Valuation τ sig (Elt F)) :
    W V (Proc.devRef .tc main_cst_5) = ((constant S_ .f32 0x3F800000#32) : main_cst_5.ty.Contents (Elt F)) :=
  (stage_nullary writes 40 main_cst_5 (constant S_ .f32 0x3F800000#32) rfl (by decide) V :)

theorem st_main_v34 (V : Valuation τ sig (Elt F)) :
    W V (Proc.devRef .tc main_v34) = (broadcastInDim S16x76x76x3x1 ![] bcast_S_S16x76x76x3x1 : (⟨S_, .f32⟩ : BufTy).Contents (Elt F) → (⟨S16x76x76x3x1, .f32⟩ : BufTy).Contents (Elt F)) (W V (Proc.devRef .tc main_cst_5)) :=
  (stage_unary writes 41 main_cst_5 main_v34 (broadcastInDim S16x76x76x3x1 ![] bcast_S_S16x76x76x3x1 : (⟨S_, .f32⟩ : BufTy).Contents (Elt F) → (⟨S16x76x76x3x1, .f32⟩ : BufTy).Contents (Elt F)) rfl (by decide) (by decide) V :)

theorem st_main_v35 (V : Valuation τ sig (Elt F)) :
    W V (Proc.devRef .tc main_v35) = (addf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v34)) (W V (Proc.devRef .tc main_v33)) :=
  (stage_binary writes 42 main_v34 main_v33 main_v35 (addf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_cst_6 (V : Valuation τ sig (Elt F)) :
    W V (Proc.devRef .tc main_cst_6) = ((constant S_ .f32 0x3F800000#32) : main_cst_6.ty.Contents (Elt F)) :=
  (stage_nullary writes 43 main_cst_6 (constant S_ .f32 0x3F800000#32) rfl (by decide) V :)

theorem st_main_v36 (V : Valuation τ sig (Elt F)) :
    W V (Proc.devRef .tc main_v36) = (broadcastInDim S16x76x76x3x1 ![] bcast_S_S16x76x76x3x1 : (⟨S_, .f32⟩ : BufTy).Contents (Elt F) → (⟨S16x76x76x3x1, .f32⟩ : BufTy).Contents (Elt F)) (W V (Proc.devRef .tc main_cst_6)) :=
  (stage_unary writes 44 main_cst_6 main_v36 (broadcastInDim S16x76x76x3x1 ![] bcast_S_S16x76x76x3x1 : (⟨S_, .f32⟩ : BufTy).Contents (Elt F) → (⟨S16x76x76x3x1, .f32⟩ : BufTy).Contents (Elt F)) rfl (by decide) (by decide) V :)

theorem st_main_v37 (V : Valuation τ sig (Elt F)) :
    W V (Proc.devRef .tc main_v37) = (Host.divf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v36)) (W V (Proc.devRef .tc main_v35)) :=
  (stage_binary writes 45 main_v36 main_v35 main_v37 (Host.divf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

end Cert.ReferenceIdeal.RefRun

end
-- ==== Proof.RefStages1.lean ====
import proofs.«179941_j67783173865496_2_alg».proof.Proof.RefW

noncomputable section

namespace Cert.ReferenceIdeal.RefRun

open Cert.ReferenceIdeal Cert.ReferenceIdeal.Gen Idealize.ShloMosaic Idealize.ShloMosaic.TcCoe Idealize.SL.Sem Idealize.ShloMosaic.StableHlo Cert.LibLine

variable {F : FTy → Type} [FloatOps F]

theorem st_main_v38 (V : Valuation τ sig (Elt F)) :
    W V (Proc.devRef .tc main_v38) = (Host.negf : (⟨S16x76x76x3x80, .f32⟩ : BufTy).Contents (Elt F) → (⟨S16x76x76x3x80, .f32⟩ : BufTy).Contents (Elt F)) (W V (Proc.devRef .tc main_v4)) :=
  (stage_unary writes 46 main_v4 main_v38 (Host.negf : (⟨S16x76x76x3x80, .f32⟩ : BufTy).Contents (Elt F) → (⟨S16x76x76x3x80, .f32⟩ : BufTy).Contents (Elt F)) rfl (by decide) (by decide) V :)

theorem st_main_v39 (V : Valuation τ sig (Elt F)) :
    W V (Proc.devRef .tc main_v39) = (Host.exp : (⟨S16x76x76x3x80, .f32⟩ : BufTy).Contents (Elt F) → (⟨S16x76x76x3x80, .f32⟩ : BufTy).Contents (Elt F)) (W V (Proc.devRef .tc main_v38)) :=
  (stage_unary writes 47 main_v38 main_v39 (Host.exp : (⟨S16x76x76x3x80, .f32⟩ : BufTy).Contents (Elt F) → (⟨S16x76x76x3x80, .f32⟩ : BufTy).Contents (Elt F)) rfl (by decide) (by decide) V :)

theorem st_main_cst_7 (V : Valuation τ sig (Elt F)) :
    W V (Proc.devRef .tc main_cst_7) = ((constant S_ .f32 0x3F800000#32) : main_cst_7.ty.Contents (Elt F)) :=
  (stage_nullary writes 48 main_cst_7 (constant S_ .f32 0x3F800000#32) rfl (by decide) V :)

theorem st_main_v40 (V : Valuation τ sig (Elt F)) :
    W V (Proc.devRef .tc main_v40) = (broadcastInDim S16x76x76x3x80 ![] bcast_S_S16x76x76x3x80 : (⟨S_, .f32⟩ : BufTy).Contents (Elt F) → (⟨S16x76x76x3x80, .f32⟩ : BufTy).Contents (Elt F)) (W V (Proc.devRef .tc main_cst_7)) :=
  (stage_unary writes 49 main_cst_7 main_v40 (broadcastInDim S16x76x76x3x80 ![] bcast_S_S16x76x76x3x80 : (⟨S_, .f32⟩ : BufTy).Contents (Elt F) → (⟨S16x76x76x3x80, .f32⟩ : BufTy).Contents (Elt F)) rfl (by decide) (by decide) V :)

theorem st_main_v41 (V : Valuation τ sig (Elt F)) :
    W V (Proc.devRef .tc main_v41) = (addf : (⟨S16x76x76x3x80, .f32⟩ : BufTy).Contents (Elt F) → (⟨S16x76x76x3x80, .f32⟩ : BufTy).Contents (Elt F) → (⟨S16x76x76x3x80, .f32⟩ : BufTy).Contents (Elt F)) (W V (Proc.devRef .tc main_v40)) (W V (Proc.devRef .tc main_v39)) :=
  (stage_binary writes 50 main_v40 main_v39 main_v41 (addf : (⟨S16x76x76x3x80, .f32⟩ : BufTy).Contents (Elt F) → (⟨S16x76x76x3x80, .f32⟩ : BufTy).Contents (Elt F) → (⟨S16x76x76x3x80, .f32⟩ : BufTy).Contents (Elt F)) rfl (by decide) (by decide) (by decide) V :)

theorem st_main_cst_8 (V : Valuation τ sig (Elt F)) :
    W V (Proc.devRef .tc main_cst_8) = ((constant S_ .f32 0x3F800000#32) : main_cst_8.ty.Contents (Elt F)) :=
  (stage_nullary writes 51 main_cst_8 (constant S_ .f32 0x3F800000#32) rfl (by decide) V :)

theorem st_main_v42 (V : Valuation τ sig (Elt F)) :
    W V (Proc.devRef .tc main_v42) = (broadcastInDim S16x76x76x3x80 ![] bcast_S_S16x76x76x3x80 : (⟨S_, .f32⟩ : BufTy).Contents (Elt F) → (⟨S16x76x76x3x80, .f32⟩ : BufTy).Contents (Elt F)) (W V (Proc.devRef .tc main_cst_8)) :=
  (stage_unary writes 52 main_cst_8 main_v42 (broadcastInDim S16x76x76x3x80 ![] bcast_S_S16x76x76x3x80 : (⟨S_, .f32⟩ : BufTy).Contents (Elt F) → (⟨S16x76x76x3x80, .f32⟩ : BufTy).Contents (Elt F)) rfl (by decide) (by decide) V :)

theorem st_main_v43 (V : Valuation τ sig (Elt F)) :
    W V (Proc.devRef .tc main_v43) = (Host.divf : (⟨S16x76x76x3x80, .f32⟩ : BufTy).Contents (Elt F) → (⟨S16x76x76x3x80, .f32⟩ : BufTy).Contents (Elt F) → (⟨S16x76x76x3x80, .f32⟩ : BufTy).Contents (Elt F)) (W V (Proc.devRef .tc main_v42)) (W V (Proc.devRef .tc main_v41)) :=
  (stage_binary writes 53 main_v42 main_v41 main_v43 (Host.divf : (⟨S16x76x76x3x80, .f32⟩ : BufTy).Contents (Elt F) → (⟨S16x76x76x3x80, .f32⟩ : BufTy).Contents (Elt F) → (⟨S16x76x76x3x80, .f32⟩ : BufTy).Contents (Elt F)) rfl (by decide) (by decide) (by decide) V :)

theorem st_main_v44 (V : Valuation τ sig (Elt F)) :
    W V (Proc.devRef .tc main_v44) = concatenate S16x76x76x3x85 4 [⟨S16x76x76x3x2, W V (Proc.devRef .tc main_v27)⟩, ⟨S16x76x76x3x2, W V (Proc.devRef .tc main_v31)⟩, ⟨S16x76x76x3x1, W V (Proc.devRef .tc main_v37)⟩, ⟨S16x76x76x3x80, W V (Proc.devRef .tc main_v43)⟩] concatenates_S16x76x76x3x2_S16x76x76x3x2_S16x76x76x3x1_S16x76x76x3x80_S16x76x76x3x85_d4 :=
  (stage_nary writes 54 ![main_v27, main_v31, main_v37, main_v43] main_v44 (fun u => concatenate S16x76x76x3x85 4 [⟨S16x76x76x3x2, u 0⟩, ⟨S16x76x76x3x2, u 1⟩, ⟨S16x76x76x3x1, u 2⟩, ⟨S16x76x76x3x80, u 3⟩] concatenates_S16x76x76x3x2_S16x76x76x3x2_S16x76x76x3x1_S16x76x76x3x80_S16x76x76x3x85_d4) rfl (by decide) (by decide) V :)

theorem st_main_v45 (V : Valuation τ sig (Elt F)) :
    W V (Proc.devRef .tc main_v45) = shapeCast _ (W V (Proc.devRef .tc main_arg0)) shapeCasts_S16x76x76x255_S16x76x76x3x85 :=
  (stage_reshape writes 55 main_arg0 main_v45 rfl shapeCasts_S16x76x76x255_S16x76x76x3x85 rfl (by decide) (by decide) V :)

theorem st_main_v46 (V : Valuation τ sig (Elt F)) :
    W V (Proc.devRef .tc main_v46) = ((extractStridedSlice S16x76x76x3x1 ![0, 0, 0, 0, 4] · slices_S16x76x76x3x85_S16x76x76x3x1_0_0_0_0_4) : (⟨S16x76x76x3x85, .f32⟩ : BufTy).Contents (Elt F) → (⟨S16x76x76x3x1, .f32⟩ : BufTy).Contents (Elt F)) (W V (Proc.devRef .tc main_v45)) :=
  (stage_unary writes 56 main_v45 main_v46 ((extractStridedSlice S16x76x76x3x1 ![0, 0, 0, 0, 4] · slices_S16x76x76x3x85_S16x76x76x3x1_0_0_0_0_4) : (⟨S16x76x76x3x85, .f32⟩ : BufTy).Contents (Elt F) → (⟨S16x76x76x3x1, .f32⟩ : BufTy).Contents (Elt F)) rfl (by decide) (by decide) V :)

theorem st_main_v47 (V : Valuation τ sig (Elt F)) :
    W V (Proc.devRef .tc main_v47) = ((extractStridedSlice S16x76x76x3x80 ![0, 0, 0, 0, 5] · slices_S16x76x76x3x85_S16x76x76x3x80_0_0_0_0_5) : (⟨S16x76x76x3x85, .f32⟩ : BufTy).Contents (Elt F) → (⟨S16x76x76x3x80, .f32⟩ : BufTy).Contents (Elt F)) (W V (Proc.devRef .tc main_v45)) :=
  (stage_unary writes 57 main_v45 main_v47 ((extractStridedSlice S16x76x76x3x80 ![0, 0, 0, 0, 5] · slices_S16x76x76x3x85_S16x76x76x3x80_0_0_0_0_5) : (⟨S16x76x76x3x85, .f32⟩ : BufTy).Contents (Elt F) → (⟨S16x76x76x3x80, .f32⟩ : BufTy).Contents (Elt F)) rfl (by decide) (by decide) V :)

theorem st_main_v48 (V : Valuation τ sig (Elt F)) :
    W V (Proc.devRef .tc main_v48) = ((extractStridedSlice S16x76x76x3x4 ![0, 0, 0, 0, 0] · slices_S16x76x76x3x85_S16x76x76x3x4_0_0_0_0_0) : (⟨S16x76x76x3x85, .f32⟩ : BufTy).Contents (Elt F) → (⟨S16x76x76x3x4, .f32⟩ : BufTy).Contents (Elt F)) (W V (Proc.devRef .tc main_v44)) :=
  (stage_unary writes 58 main_v44 main_v48 ((extractStridedSlice S16x76x76x3x4 ![0, 0, 0, 0, 0] · slices_S16x76x76x3x85_S16x76x76x3x4_0_0_0_0_0) : (⟨S16x76x76x3x85, .f32⟩ : BufTy).Contents (Elt F) → (⟨S16x76x76x3x4, .f32⟩ : BufTy).Contents (Elt F)) rfl (by decide) (by decide) V :)

theorem st_main_v49 (V : Valuation τ sig (Elt F)) :
    W V (Proc.devRef .tc main_v49) = ((extractStridedSlice S16x76x76x3x1 ![0, 0, 0, 0, 4] · slices_S16x76x76x3x85_S16x76x76x3x1_0_0_0_0_4) : (⟨S16x76x76x3x85, .f32⟩ : BufTy).Contents (Elt F) → (⟨S16x76x76x3x1, .f32⟩ : BufTy).Contents (Elt F)) (W V (Proc.devRef .tc main_v44)) :=
  (stage_unary writes 59 main_v44 main_v49 ((extractStridedSlice S16x76x76x3x1 ![0, 0, 0, 0, 4] · slices_S16x76x76x3x85_S16x76x76x3x1_0_0_0_0_4) : (⟨S16x76x76x3x85, .f32⟩ : BufTy).Contents (Elt F) → (⟨S16x76x76x3x1, .f32⟩ : BufTy).Contents (Elt F)) rfl (by decide) (by decide) V :)

theorem st_main_v50 (V : Valuation τ sig (Elt F)) :
    W V (Proc.devRef .tc main_v50) = ((extractStridedSlice S16x76x76x3x4 ![0, 0, 0, 0, 0] · slices_S16x76x76x3x85_S16x76x76x3x4_0_0_0_0_0) : (⟨S16x76x76x3x85, .f32⟩ : BufTy).Contents (Elt F) → (⟨S16x76x76x3x4, .f32⟩ : BufTy).Contents (Elt F)) (W V (Proc.devRef .tc main_arg1)) :=
  (stage_unary writes 60 main_arg1 main_v50 ((extractStridedSlice S16x76x76x3x4 ![0, 0, 0, 0, 0] · slices_S16x76x76x3x85_S16x76x76x3x4_0_0_0_0_0) : (⟨S16x76x76x3x85, .f32⟩ : BufTy).Contents (Elt F) → (⟨S16x76x76x3x4, .f32⟩ : BufTy).Contents (Elt F)) rfl (by decide) (by decide) V :)

theorem st_main_v51 (V : Valuation τ sig (Elt F)) :
    W V (Proc.devRef .tc main_v51) = ((extractStridedSlice S16x76x76x3x1 ![0, 0, 0, 0, 4] · slices_S16x76x76x3x85_S16x76x76x3x1_0_0_0_0_4) : (⟨S16x76x76x3x85, .f32⟩ : BufTy).Contents (Elt F) → (⟨S16x76x76x3x1, .f32⟩ : BufTy).Contents (Elt F)) (W V (Proc.devRef .tc main_arg1)) :=
  (stage_unary writes 61 main_arg1 main_v51 ((extractStridedSlice S16x76x76x3x1 ![0, 0, 0, 0, 4] · slices_S16x76x76x3x85_S16x76x76x3x1_0_0_0_0_4) : (⟨S16x76x76x3x85, .f32⟩ : BufTy).Contents (Elt F) → (⟨S16x76x76x3x1, .f32⟩ : BufTy).Contents (Elt F)) rfl (by decide) (by decide) V :)

theorem st_main_v52 (V : Valuation τ sig (Elt F)) :
    W V (Proc.devRef .tc main_v52) = ((extractStridedSlice S16x76x76x3x80 ![0, 0, 0, 0, 5] · slices_S16x76x76x3x85_S16x76x76x3x80_0_0_0_0_5) : (⟨S16x76x76x3x85, .f32⟩ : BufTy).Contents (Elt F) → (⟨S16x76x76x3x80, .f32⟩ : BufTy).Contents (Elt F)) (W V (Proc.devRef .tc main_arg1)) :=
  (stage_unary writes 62 main_arg1 main_v52 ((extractStridedSlice S16x76x76x3x80 ![0, 0, 0, 0, 5] · slices_S16x76x76x3x85_S16x76x76x3x80_0_0_0_0_5) : (⟨S16x76x76x3x85, .f32⟩ : BufTy).Contents (Elt F) → (⟨S16x76x76x3x80, .f32⟩ : BufTy).Contents (Elt F)) rfl (by decide) (by decide) V :)

theorem st_main_v53 (V : Valuation τ sig (Elt F)) :
    W V (Proc.devRef .tc main_v53) = ((extractStridedSlice S16x76x76x3x1 ![0, 0, 0, 0, 2] · slices_S16x76x76x3x4_S16x76x76x3x1_0_0_0_0_2) : (⟨S16x76x76x3x4, .f32⟩ : BufTy).Contents (Elt F) → (⟨S16x76x76x3x1, .f32⟩ : BufTy).Contents (Elt F)) (W V (Proc.devRef .tc main_v48)) :=
  (stage_unary writes 63 main_v48 main_v53 ((extractStridedSlice S16x76x76x3x1 ![0, 0, 0, 0, 2] · slices_S16x76x76x3x4_S16x76x76x3x1_0_0_0_0_2) : (⟨S16x76x76x3x4, .f32⟩ : BufTy).Contents (Elt F) → (⟨S16x76x76x3x1, .f32⟩ : BufTy).Contents (Elt F)) rfl (by decide) (by decide) V :)

theorem st_main_v54 (V : Valuation τ sig (Elt F)) :
    W V (Proc.devRef .tc main_v54) = shapeCast _ (W V (Proc.devRef .tc main_v53)) shapeCasts_S16x76x76x3x1_S16x76x76x3 :=
  (stage_reshape writes 64 main_v53 main_v54 rfl shapeCasts_S16x76x76x3x1_S16x76x76x3 rfl (by decide) (by decide) V :)

theorem st_main_v55 (V : Valuation τ sig (Elt F)) :
    W V (Proc.devRef .tc main_v55) = ((extractStridedSlice S16x76x76x3x1 ![0, 0, 0, 0, 3] · slices_S16x76x76x3x4_S16x76x76x3x1_0_0_0_0_3) : (⟨S16x76x76x3x4, .f32⟩ : BufTy).Contents (Elt F) → (⟨S16x76x76x3x1, .f32⟩ : BufTy).Contents (Elt F)) (W V (Proc.devRef .tc main_v48)) :=
  (stage_unary writes 65 main_v48 main_v55 ((extractStridedSlice S16x76x76x3x1 ![0, 0, 0, 0, 3] · slices_S16x76x76x3x4_S16x76x76x3x1_0_0_0_0_3) : (⟨S16x76x76x3x4, .f32⟩ : BufTy).Contents (Elt F) → (⟨S16x76x76x3x1, .f32⟩ : BufTy).Contents (Elt F)) rfl (by decide) (by decide) V :)

theorem st_main_v56 (V : Valuation τ sig (Elt F)) :
    W V (Proc.devRef .tc main_v56) = shapeCast _ (W V (Proc.devRef .tc main_v55)) shapeCasts_S16x76x76x3x1_S16x76x76x3 :=
  (stage_reshape writes 66 main_v55 main_v56 rfl shapeCasts_S16x76x76x3x1_S16x76x76x3 rfl (by decide) (by decide) V :)

theorem st_main_v57 (V : Valuation τ sig (Elt F)) :
    W V (Proc.devRef .tc main_v57) = (mulf : (⟨S16x76x76x3, .f32⟩ : BufTy).Contents (Elt F) → (⟨S16x76x76x3, .f32⟩ : BufTy).Contents (Elt F) → (⟨S16x76x76x3, .f32⟩ : BufTy).Contents (Elt F)) (W V (Proc.devRef .tc main_v54)) (W V (Proc.devRef .tc main_v56)) :=
  (stage_binary writes 67 main_v54 main_v56 main_v57 (mulf : (⟨S16x76x76x3, .f32⟩ : BufTy).Contents (Elt F) → (⟨S16x76x76x3, .f32⟩ : BufTy).Contents (Elt F) → (⟨S16x76x76x3, .f32⟩ : BufTy).Contents (Elt F)) rfl (by decide) (by decide) (by decide) V :)

theorem st_main_v58 (V : Valuation τ sig (Elt F)) :
    W V (Proc.devRef .tc main_v58) = ((extractStridedSlice S16x76x76x3x1 ![0, 0, 0, 0, 2] · slices_S16x76x76x3x4_S16x76x76x3x1_0_0_0_0_2) : (⟨S16x76x76x3x4, .f32⟩ : BufTy).Contents (Elt F) → (⟨S16x76x76x3x1, .f32⟩ : BufTy).Contents (Elt F)) (W V (Proc.devRef .tc main_v50)) :=
  (stage_unary writes 68 main_v50 main_v58 ((extractStridedSlice S16x76x76x3x1 ![0, 0, 0, 0, 2] · slices_S16x76x76x3x4_S16x76x76x3x1_0_0_0_0_2) : (⟨S16x76x76x3x4, .f32⟩ : BufTy).Contents (Elt F) → (⟨S16x76x76x3x1, .f32⟩ : BufTy).Contents (Elt F)) rfl (by decide) (by decide) V :)

theorem st_main_v59 (V : Valuation τ sig (Elt F)) :
    W V (Proc.devRef .tc main_v59) = shapeCast _ (W V (Proc.devRef .tc main_v58)) shapeCasts_S16x76x76x3x1_S16x76x76x3 :=
  (stage_reshape writes 69 main_v58 main_v59 rfl shapeCasts_S16x76x76x3x1_S16x76x76x3 rfl (by decide) (by decide) V :)

theorem st_main_v60 (V : Valuation τ sig (Elt F)) :
    W V (Proc.devRef .tc main_v60) = ((extractStridedSlice S16x76x76x3x1 ![0, 0, 0, 0, 3] · slices_S16x76x76x3x4_S16x76x76x3x1_0_0_0_0_3) : (⟨S16x76x76x3x4, .f32⟩ : BufTy).Contents (Elt F) → (⟨S16x76x76x3x1, .f32⟩ : BufTy).Contents (Elt F)) (W V (Proc.devRef .tc main_v50)) :=
  (stage_unary writes 70 main_v50 main_v60 ((extractStridedSlice S16x76x76x3x1 ![0, 0, 0, 0, 3] · slices_S16x76x76x3x4_S16x76x76x3x1_0_0_0_0_3) : (⟨S16x76x76x3x4, .f32⟩ : BufTy).Contents (Elt F) → (⟨S16x76x76x3x1, .f32⟩ : BufTy).Contents (Elt F)) rfl (by decide) (by decide) V :)

theorem st_main_v61 (V : Valuation τ sig (Elt F)) :
    W V (Proc.devRef .tc main_v61) = shapeCast _ (W V (Proc.devRef .tc main_v60)) shapeCasts_S16x76x76x3x1_S16x76x76x3 :=
  (stage_reshape writes 71 main_v60 main_v61 rfl shapeCasts_S16x76x76x3x1_S16x76x76x3 rfl (by decide) (by decide) V :)

theorem st_main_v62 (V : Valuation τ sig (Elt F)) :
    W V (Proc.devRef .tc main_v62) = (mulf : (⟨S16x76x76x3, .f32⟩ : BufTy).Contents (Elt F) → (⟨S16x76x76x3, .f32⟩ : BufTy).Contents (Elt F) → (⟨S16x76x76x3, .f32⟩ : BufTy).Contents (Elt F)) (W V (Proc.devRef .tc main_v59)) (W V (Proc.devRef .tc main_v61)) :=
  (stage_binary writes 72 main_v59 main_v61 main_v62 (mulf : (⟨S16x76x76x3, .f32⟩ : BufTy).Contents (Elt F) → (⟨S16x76x76x3, .f32⟩ : BufTy).Contents (Elt F) → (⟨S16x76x76x3, .f32⟩ : BufTy).Contents (Elt F)) rfl (by decide) (by decide) (by decide) V :)

theorem st_main_v63 (V : Valuation τ sig (Elt F)) :
    W V (Proc.devRef .tc main_v63) = ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)) (W V (Proc.devRef .tc main_v48)) :=
  (stage_unary writes 73 main_v48 main_v63 ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)) rfl (by decide) (by decide) V :)

theorem st_main_v64 (V : Valuation τ sig (Elt F)) :
    W V (Proc.devRef .tc main_v64) = ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)) (W V (Proc.devRef .tc main_v48)) :=
  (stage_unary writes 74 main_v48 main_v64 ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)) rfl (by decide) (by decide) V :)

theorem st_main_cst_9 (V : Valuation τ sig (Elt F)) :
    W V (Proc.devRef .tc main_cst_9) = ((constant S_ .f32 0x3F000000#32) : main_cst_9.ty.Contents (Elt F)) :=
  (stage_nullary writes 75 main_cst_9 (constant S_ .f32 0x3F000000#32) rfl (by decide) V :)

theorem st_main_v65 (V : Valuation τ sig (Elt F)) :
    W V (Proc.devRef .tc main_v65) = (broadcastInDim S16x76x76x3x2 ![] bcast_S_S16x76x76x3x2 : (⟨S_, .f32⟩ : BufTy).Contents (Elt F) → (⟨S16x76x76x3x2, .f32⟩ : BufTy).Contents (Elt F)) (W V (Proc.devRef .tc main_cst_9)) :=
  (stage_unary writes 76 main_cst_9 main_v65 (broadcastInDim S16x76x76x3x2 ![] bcast_S_S16x76x76x3x2 : (⟨S_, .f32⟩ : BufTy).Contents (Elt F) → (⟨S16x76x76x3x2, .f32⟩ : BufTy).Contents (Elt F)) rfl (by decide) (by decide) V :)

theorem st_main_v66 (V : Valuation τ sig (Elt F)) :
    W V (Proc.devRef .tc main_v66) = (mulf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v64)) (W V (Proc.devRef .tc main_v65)) :=
  (stage_binary writes 77 main_v64 main_v65 main_v66 (mulf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_v67 (V : Valuation τ sig (Elt F)) :
    W V (Proc.devRef .tc main_v67) = (subf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v63)) (W V (Proc.devRef .tc main_v66)) :=
  (stage_binary writes 78 main_v63 main_v66 main_v67 (subf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_v68 (V : Valuation τ sig (Elt F)) :
    W V (Proc.devRef .tc main_v68) = ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)) (W V (Proc.devRef .tc main_v48)) :=
  (stage_unary writes 79 main_v48 main_v68 ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)) rfl (by decide) (by decide) V :)

theorem st_main_v69 (V : Valuation τ sig (Elt F)) :
    W V (Proc.devRef .tc main_v69) = ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)) (W V (Proc.devRef .tc main_v48)) :=
  (stage_unary writes 80 main_v48 main_v69 ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)) rfl (by decide) (by decide) V :)

theorem st_main_cst_10 (V : Valuation τ sig (Elt F)) :
    W V (Proc.devRef .tc main_cst_10) = ((constant S_ .f32 0x3F000000#32) : main_cst_10.ty.Contents (Elt F)) :=
  (stage_nullary writes 81 main_cst_10 (constant S_ .f32 0x3F000000#32) rfl (by decide) V :)

theorem st_main_v70 (V : Valuation τ sig (Elt F)) :
    W V (Proc.devRef .tc main_v70) = (broadcastInDim S16x76x76x3x2 ![] bcast_S_S16x76x76x3x2 : (⟨S_, .f32⟩ : BufTy).Contents (Elt F) → (⟨S16x76x76x3x2, .f32⟩ : BufTy).Contents (Elt F)) (W V (Proc.devRef .tc main_cst_10)) :=
  (stage_unary writes 82 main_cst_10 main_v70 (broadcastInDim S16x76x76x3x2 ![] bcast_S_S16x76x76x3x2 : (⟨S_, .f32⟩ : BufTy).Contents (Elt F) → (⟨S16x76x76x3x2, .f32⟩ : BufTy).Contents (Elt F)) rfl (by decide) (by decide) V :)

theorem st_main_v71 (V : Valuation τ sig (Elt F)) :
    W V (Proc.devRef .tc main_v71) = (mulf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v69)) (W V (Proc.devRef .tc main_v70)) :=
  (stage_binary writes 83 main_v69 main_v70 main_v71 (mulf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_v72 (V : Valuation τ sig (Elt F)) :
    W V (Proc.devRef .tc main_v72) = (addf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v68)) (W V (Proc.devRef .tc main_v71)) :=
  (stage_binary writes 84 main_v68 main_v71 main_v72 (addf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_v73 (V : Valuation τ sig (Elt F)) :
    W V (Proc.devRef .tc main_v73) = ((fun a b => concatenate S16x76x76x3x4 4 [⟨S16x76x76x3x2, a⟩, ⟨S16x76x76x3x2, b⟩] concatenates_S16x76x76x3x2_S16x76x76x3x2_S16x76x76x3x4_d4) : (⟨S16x76x76x3x2, .f32⟩ : BufTy).Contents (Elt F) → (⟨S16x76x76x3x2, .f32⟩ : BufTy).Contents (Elt F) → (⟨S16x76x76x3x4, .f32⟩ : BufTy).Contents (Elt F)) (W V (Proc.devRef .tc main_v67)) (W V (Proc.devRef .tc main_v72)) :=
  (stage_binary writes 85 main_v67 main_v72 main_v73 ((fun a b => concatenate S16x76x76x3x4 4 [⟨S16x76x76x3x2, a⟩, ⟨S16x76x76x3x2, b⟩] concatenates_S16x76x76x3x2_S16x76x76x3x2_S16x76x76x3x4_d4) : (⟨S16x76x76x3x2, .f32⟩ : BufTy).Contents (Elt F) → (⟨S16x76x76x3x2, .f32⟩ : BufTy).Contents (Elt F) → (⟨S16x76x76x3x4, .f32⟩ : BufTy).Contents (Elt F)) rfl (by decide) (by decide) (by decide) V :)

theorem st_main_v74 (V : Valuation τ sig (Elt F)) :
    W V (Proc.devRef .tc main_v74) = ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)) (W V (Proc.devRef .tc main_v50)) :=
  (stage_unary writes 86 main_v50 main_v74 ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)) rfl (by decide) (by decide) V :)

theorem st_main_v75 (V : Valuation τ sig (Elt F)) :
    W V (Proc.devRef .tc main_v75) = ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)) (W V (Proc.devRef .tc main_v50)) :=
  (stage_unary writes 87 main_v50 main_v75 ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)) rfl (by decide) (by decide) V :)

theorem st_main_cst_11 (V : Valuation τ sig (Elt F)) :
    W V (Proc.devRef .tc main_cst_11) = ((constant S_ .f32 0x3F000000#32) : main_cst_11.ty.Contents (Elt F)) :=
  (stage_nullary writes 88 main_cst_11 (constant S_ .f32 0x3F000000#32) rfl (by decide) V :)

theorem st_main_v76 (V : Valuation τ sig (Elt F)) :
    W V (Proc.devRef .tc main_v76) = (broadcastInDim S16x76x76x3x2 ![] bcast_S_S16x76x76x3x2 : (⟨S_, .f32⟩ : BufTy).Contents (Elt F) → (⟨S16x76x76x3x2, .f32⟩ : BufTy).Contents (Elt F)) (W V (Proc.devRef .tc main_cst_11)) :=
  (stage_unary writes 89 main_cst_11 main_v76 (broadcastInDim S16x76x76x3x2 ![] bcast_S_S16x76x76x3x2 : (⟨S_, .f32⟩ : BufTy).Contents (Elt F) → (⟨S16x76x76x3x2, .f32⟩ : BufTy).Contents (Elt F)) rfl (by decide) (by decide) V :)

theorem st_main_v77 (V : Valuation τ sig (Elt F)) :
    W V (Proc.devRef .tc main_v77) = (mulf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v75)) (W V (Proc.devRef .tc main_v76)) :=
  (stage_binary writes 90 main_v75 main_v76 main_v77 (mulf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_v78 (V : Valuation τ sig (Elt F)) :
    W V (Proc.devRef .tc main_v78) = (subf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v74)) (W V (Proc.devRef .tc main_v77)) :=
  (stage_binary writes 91 main_v74 main_v77 main_v78 (subf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

end Cert.ReferenceIdeal.RefRun

end
-- ==== Proof.RefStages2.lean ====
import proofs.«179941_j67783173865496_2_alg».proof.Proof.RefW

noncomputable section

namespace Cert.ReferenceIdeal.RefRun

open Cert.ReferenceIdeal Cert.ReferenceIdeal.Gen Idealize.ShloMosaic Idealize.ShloMosaic.TcCoe Idealize.SL.Sem Idealize.ShloMosaic.StableHlo Cert.LibLine

variable {F : FTy → Type} [FloatOps F]

theorem st_main_v79 (V : Valuation τ sig (Elt F)) :
    W V (Proc.devRef .tc main_v79) = ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)) (W V (Proc.devRef .tc main_v50)) :=
  (stage_unary writes 92 main_v50 main_v79 ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)) rfl (by decide) (by decide) V :)

theorem st_main_v80 (V : Valuation τ sig (Elt F)) :
    W V (Proc.devRef .tc main_v80) = ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)) (W V (Proc.devRef .tc main_v50)) :=
  (stage_unary writes 93 main_v50 main_v80 ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)) rfl (by decide) (by decide) V :)

theorem st_main_cst_12 (V : Valuation τ sig (Elt F)) :
    W V (Proc.devRef .tc main_cst_12) = ((constant S_ .f32 0x3F000000#32) : main_cst_12.ty.Contents (Elt F)) :=
  (stage_nullary writes 94 main_cst_12 (constant S_ .f32 0x3F000000#32) rfl (by decide) V :)

theorem st_main_v81 (V : Valuation τ sig (Elt F)) :
    W V (Proc.devRef .tc main_v81) = (broadcastInDim S16x76x76x3x2 ![] bcast_S_S16x76x76x3x2 : (⟨S_, .f32⟩ : BufTy).Contents (Elt F) → (⟨S16x76x76x3x2, .f32⟩ : BufTy).Contents (Elt F)) (W V (Proc.devRef .tc main_cst_12)) :=
  (stage_unary writes 95 main_cst_12 main_v81 (broadcastInDim S16x76x76x3x2 ![] bcast_S_S16x76x76x3x2 : (⟨S_, .f32⟩ : BufTy).Contents (Elt F) → (⟨S16x76x76x3x2, .f32⟩ : BufTy).Contents (Elt F)) rfl (by decide) (by decide) V :)

theorem st_main_v82 (V : Valuation τ sig (Elt F)) :
    W V (Proc.devRef .tc main_v82) = (mulf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v80)) (W V (Proc.devRef .tc main_v81)) :=
  (stage_binary writes 96 main_v80 main_v81 main_v82 (mulf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_v83 (V : Valuation τ sig (Elt F)) :
    W V (Proc.devRef .tc main_v83) = (addf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v79)) (W V (Proc.devRef .tc main_v82)) :=
  (stage_binary writes 97 main_v79 main_v82 main_v83 (addf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_v84 (V : Valuation τ sig (Elt F)) :
    W V (Proc.devRef .tc main_v84) = ((fun a b => concatenate S16x76x76x3x4 4 [⟨S16x76x76x3x2, a⟩, ⟨S16x76x76x3x2, b⟩] concatenates_S16x76x76x3x2_S16x76x76x3x2_S16x76x76x3x4_d4) : (⟨S16x76x76x3x2, .f32⟩ : BufTy).Contents (Elt F) → (⟨S16x76x76x3x2, .f32⟩ : BufTy).Contents (Elt F) → (⟨S16x76x76x3x4, .f32⟩ : BufTy).Contents (Elt F)) (W V (Proc.devRef .tc main_v78)) (W V (Proc.devRef .tc main_v83)) :=
  (stage_binary writes 98 main_v78 main_v83 main_v84 ((fun a b => concatenate S16x76x76x3x4 4 [⟨S16x76x76x3x2, a⟩, ⟨S16x76x76x3x2, b⟩] concatenates_S16x76x76x3x2_S16x76x76x3x2_S16x76x76x3x4_d4) : (⟨S16x76x76x3x2, .f32⟩ : BufTy).Contents (Elt F) → (⟨S16x76x76x3x2, .f32⟩ : BufTy).Contents (Elt F) → (⟨S16x76x76x3x4, .f32⟩ : BufTy).Contents (Elt F)) rfl (by decide) (by decide) (by decide) V :)

theorem st_main_v85 (V : Valuation τ sig (Elt F)) :
    W V (Proc.devRef .tc main_v85) = ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)) (W V (Proc.devRef .tc main_v73)) :=
  (stage_unary writes 99 main_v73 main_v85 ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)) rfl (by decide) (by decide) V :)

theorem st_main_v86 (V : Valuation τ sig (Elt F)) :
    W V (Proc.devRef .tc main_v86) = ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)) (W V (Proc.devRef .tc main_v84)) :=
  (stage_unary writes 100 main_v84 main_v86 ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)) rfl (by decide) (by decide) V :)

theorem st_main_v87 (V : Valuation τ sig (Elt F)) :
    W V (Proc.devRef .tc main_v87) = (maximumf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v85)) (W V (Proc.devRef .tc main_v86)) :=
  (stage_binary writes 101 main_v85 main_v86 main_v87 (maximumf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_v88 (V : Valuation τ sig (Elt F)) :
    W V (Proc.devRef .tc main_v88) = ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)) (W V (Proc.devRef .tc main_v73)) :=
  (stage_unary writes 102 main_v73 main_v88 ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)) rfl (by decide) (by decide) V :)

theorem st_main_v89 (V : Valuation τ sig (Elt F)) :
    W V (Proc.devRef .tc main_v89) = ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)) (W V (Proc.devRef .tc main_v84)) :=
  (stage_unary writes 103 main_v84 main_v89 ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)) rfl (by decide) (by decide) V :)

theorem st_main_v90 (V : Valuation τ sig (Elt F)) :
    W V (Proc.devRef .tc main_v90) = (minimumf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v88)) (W V (Proc.devRef .tc main_v89)) :=
  (stage_binary writes 104 main_v88 main_v89 main_v90 (minimumf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_v91 (V : Valuation τ sig (Elt F)) :
    W V (Proc.devRef .tc main_v91) = (subf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v90)) (W V (Proc.devRef .tc main_v87)) :=
  (stage_binary writes 105 main_v90 main_v87 main_v91 (subf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_cst_13 (V : Valuation τ sig (Elt F)) :
    W V (Proc.devRef .tc main_cst_13) = ((constant S_ .f32 0x00000000#32) : main_cst_13.ty.Contents (Elt F)) :=
  (stage_nullary writes 106 main_cst_13 (constant S_ .f32 0x00000000#32) rfl (by decide) V :)

theorem st_main_v92 (V : Valuation τ sig (Elt F)) :
    W V (Proc.devRef .tc main_v92) = (broadcastInDim S16x76x76x3x2 ![] bcast_S_S16x76x76x3x2 : (⟨S_, .f32⟩ : BufTy).Contents (Elt F) → (⟨S16x76x76x3x2, .f32⟩ : BufTy).Contents (Elt F)) (W V (Proc.devRef .tc main_cst_13)) :=
  (stage_unary writes 107 main_cst_13 main_v92 (broadcastInDim S16x76x76x3x2 ![] bcast_S_S16x76x76x3x2 : (⟨S_, .f32⟩ : BufTy).Contents (Elt F) → (⟨S16x76x76x3x2, .f32⟩ : BufTy).Contents (Elt F)) rfl (by decide) (by decide) V :)

theorem st_main_v93 (V : Valuation τ sig (Elt F)) :
    W V (Proc.devRef .tc main_v93) = (maximumf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v91)) (W V (Proc.devRef .tc main_v92)) :=
  (stage_binary writes 108 main_v91 main_v92 main_v93 (maximumf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_v94 (V : Valuation τ sig (Elt F)) :
    W V (Proc.devRef .tc main_v94) = ((extractStridedSlice S16x76x76x3x1 ![0, 0, 0, 0, 0] · slices_S16x76x76x3x2_S16x76x76x3x1_0_0_0_0_0) : (⟨S16x76x76x3x2, .f32⟩ : BufTy).Contents (Elt F) → (⟨S16x76x76x3x1, .f32⟩ : BufTy).Contents (Elt F)) (W V (Proc.devRef .tc main_v93)) :=
  (stage_unary writes 109 main_v93 main_v94 ((extractStridedSlice S16x76x76x3x1 ![0, 0, 0, 0, 0] · slices_S16x76x76x3x2_S16x76x76x3x1_0_0_0_0_0) : (⟨S16x76x76x3x2, .f32⟩ : BufTy).Contents (Elt F) → (⟨S16x76x76x3x1, .f32⟩ : BufTy).Contents (Elt F)) rfl (by decide) (by decide) V :)

theorem st_main_v95 (V : Valuation τ sig (Elt F)) :
    W V (Proc.devRef .tc main_v95) = shapeCast _ (W V (Proc.devRef .tc main_v94)) shapeCasts_S16x76x76x3x1_S16x76x76x3 :=
  (stage_reshape writes 110 main_v94 main_v95 rfl shapeCasts_S16x76x76x3x1_S16x76x76x3 rfl (by decide) (by decide) V :)

theorem st_main_v96 (V : Valuation τ sig (Elt F)) :
    W V (Proc.devRef .tc main_v96) = ((extractStridedSlice S16x76x76x3x1 ![0, 0, 0, 0, 1] · slices_S16x76x76x3x2_S16x76x76x3x1_0_0_0_0_1) : (⟨S16x76x76x3x2, .f32⟩ : BufTy).Contents (Elt F) → (⟨S16x76x76x3x1, .f32⟩ : BufTy).Contents (Elt F)) (W V (Proc.devRef .tc main_v93)) :=
  (stage_unary writes 111 main_v93 main_v96 ((extractStridedSlice S16x76x76x3x1 ![0, 0, 0, 0, 1] · slices_S16x76x76x3x2_S16x76x76x3x1_0_0_0_0_1) : (⟨S16x76x76x3x2, .f32⟩ : BufTy).Contents (Elt F) → (⟨S16x76x76x3x1, .f32⟩ : BufTy).Contents (Elt F)) rfl (by decide) (by decide) V :)

theorem st_main_v97 (V : Valuation τ sig (Elt F)) :
    W V (Proc.devRef .tc main_v97) = shapeCast _ (W V (Proc.devRef .tc main_v96)) shapeCasts_S16x76x76x3x1_S16x76x76x3 :=
  (stage_reshape writes 112 main_v96 main_v97 rfl shapeCasts_S16x76x76x3x1_S16x76x76x3 rfl (by decide) (by decide) V :)

theorem st_main_v98 (V : Valuation τ sig (Elt F)) :
    W V (Proc.devRef .tc main_v98) = (mulf : (⟨S16x76x76x3, .f32⟩ : BufTy).Contents (Elt F) → (⟨S16x76x76x3, .f32⟩ : BufTy).Contents (Elt F) → (⟨S16x76x76x3, .f32⟩ : BufTy).Contents (Elt F)) (W V (Proc.devRef .tc main_v95)) (W V (Proc.devRef .tc main_v97)) :=
  (stage_binary writes 113 main_v95 main_v97 main_v98 (mulf : (⟨S16x76x76x3, .f32⟩ : BufTy).Contents (Elt F) → (⟨S16x76x76x3, .f32⟩ : BufTy).Contents (Elt F) → (⟨S16x76x76x3, .f32⟩ : BufTy).Contents (Elt F)) rfl (by decide) (by decide) (by decide) V :)

theorem st_main_v99 (V : Valuation τ sig (Elt F)) :
    W V (Proc.devRef .tc main_v99) = (addf : (⟨S16x76x76x3, .f32⟩ : BufTy).Contents (Elt F) → (⟨S16x76x76x3, .f32⟩ : BufTy).Contents (Elt F) → (⟨S16x76x76x3, .f32⟩ : BufTy).Contents (Elt F)) (W V (Proc.devRef .tc main_v57)) (W V (Proc.devRef .tc main_v62)) :=
  (stage_binary writes 114 main_v57 main_v62 main_v99 (addf : (⟨S16x76x76x3, .f32⟩ : BufTy).Contents (Elt F) → (⟨S16x76x76x3, .f32⟩ : BufTy).Contents (Elt F) → (⟨S16x76x76x3, .f32⟩ : BufTy).Contents (Elt F)) rfl (by decide) (by decide) (by decide) V :)

theorem st_main_v100 (V : Valuation τ sig (Elt F)) :
    W V (Proc.devRef .tc main_v100) = (subf : (⟨S16x76x76x3, .f32⟩ : BufTy).Contents (Elt F) → (⟨S16x76x76x3, .f32⟩ : BufTy).Contents (Elt F) → (⟨S16x76x76x3, .f32⟩ : BufTy).Contents (Elt F)) (W V (Proc.devRef .tc main_v99)) (W V (Proc.devRef .tc main_v98)) :=
  (stage_binary writes 115 main_v99 main_v98 main_v100 (subf : (⟨S16x76x76x3, .f32⟩ : BufTy).Contents (Elt F) → (⟨S16x76x76x3, .f32⟩ : BufTy).Contents (Elt F) → (⟨S16x76x76x3, .f32⟩ : BufTy).Contents (Elt F)) rfl (by decide) (by decide) (by decide) V :)

theorem st_main_v101 (V : Valuation τ sig (Elt F)) :
    W V (Proc.devRef .tc main_v101) = (Host.divf : (⟨S16x76x76x3, .f32⟩ : BufTy).Contents (Elt F) → (⟨S16x76x76x3, .f32⟩ : BufTy).Contents (Elt F) → (⟨S16x76x76x3, .f32⟩ : BufTy).Contents (Elt F)) (W V (Proc.devRef .tc main_v98)) (W V (Proc.devRef .tc main_v100)) :=
  (stage_binary writes 116 main_v98 main_v100 main_v101 (Host.divf : (⟨S16x76x76x3, .f32⟩ : BufTy).Contents (Elt F) → (⟨S16x76x76x3, .f32⟩ : BufTy).Contents (Elt F) → (⟨S16x76x76x3, .f32⟩ : BufTy).Contents (Elt F)) rfl (by decide) (by decide) (by decide) V :)

theorem st_main_v102 (V : Valuation τ sig (Elt F)) :
    W V (Proc.devRef .tc main_v102) = ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)) (W V (Proc.devRef .tc main_v73)) :=
  (stage_unary writes 117 main_v73 main_v102 ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)) rfl (by decide) (by decide) V :)

theorem st_main_v103 (V : Valuation τ sig (Elt F)) :
    W V (Proc.devRef .tc main_v103) = ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)) (W V (Proc.devRef .tc main_v84)) :=
  (stage_unary writes 118 main_v84 main_v103 ((extractStridedSlice S16x76x76x3x2 ![0, 0, 0, 0, 0] · slices_S16x76x76x3x4_S16x76x76x3x2_0_0_0_0_0) : (⟨S16x76x76x3x4, .f32⟩ : BufTy).Contents (Elt F) → (⟨S16x76x76x3x2, .f32⟩ : BufTy).Contents (Elt F)) rfl (by decide) (by decide) V :)

theorem st_main_v104 (V : Valuation τ sig (Elt F)) :
    W V (Proc.devRef .tc main_v104) = (minimumf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v102)) (W V (Proc.devRef .tc main_v103)) :=
  (stage_binary writes 119 main_v102 main_v103 main_v104 (minimumf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_v105 (V : Valuation τ sig (Elt F)) :
    W V (Proc.devRef .tc main_v105) = ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)) (W V (Proc.devRef .tc main_v73)) :=
  (stage_unary writes 120 main_v73 main_v105 ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)) rfl (by decide) (by decide) V :)

theorem st_main_v106 (V : Valuation τ sig (Elt F)) :
    W V (Proc.devRef .tc main_v106) = ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)) (W V (Proc.devRef .tc main_v84)) :=
  (stage_unary writes 121 main_v84 main_v106 ((extractStridedSlice S16x76x76x3x2 ![0, 0, 0, 0, 2] · slices_S16x76x76x3x4_S16x76x76x3x2_0_0_0_0_2) : (⟨S16x76x76x3x4, .f32⟩ : BufTy).Contents (Elt F) → (⟨S16x76x76x3x2, .f32⟩ : BufTy).Contents (Elt F)) rfl (by decide) (by decide) V :)

theorem st_main_v107 (V : Valuation τ sig (Elt F)) :
    W V (Proc.devRef .tc main_v107) = (maximumf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v105)) (W V (Proc.devRef .tc main_v106)) :=
  (stage_binary writes 122 main_v105 main_v106 main_v107 (maximumf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_v108 (V : Valuation τ sig (Elt F)) :
    W V (Proc.devRef .tc main_v108) = (subf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v107)) (W V (Proc.devRef .tc main_v104)) :=
  (stage_binary writes 123 main_v107 main_v104 main_v108 (subf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_cst_14 (V : Valuation τ sig (Elt F)) :
    W V (Proc.devRef .tc main_cst_14) = ((constant S_ .f32 0x00000000#32) : main_cst_14.ty.Contents (Elt F)) :=
  (stage_nullary writes 124 main_cst_14 (constant S_ .f32 0x00000000#32) rfl (by decide) V :)

theorem st_main_v109 (V : Valuation τ sig (Elt F)) :
    W V (Proc.devRef .tc main_v109) = (broadcastInDim S16x76x76x3x2 ![] bcast_S_S16x76x76x3x2 : (⟨S_, .f32⟩ : BufTy).Contents (Elt F) → (⟨S16x76x76x3x2, .f32⟩ : BufTy).Contents (Elt F)) (W V (Proc.devRef .tc main_cst_14)) :=
  (stage_unary writes 125 main_cst_14 main_v109 (broadcastInDim S16x76x76x3x2 ![] bcast_S_S16x76x76x3x2 : (⟨S_, .f32⟩ : BufTy).Contents (Elt F) → (⟨S16x76x76x3x2, .f32⟩ : BufTy).Contents (Elt F)) rfl (by decide) (by decide) V :)

theorem st_main_v110 (V : Valuation τ sig (Elt F)) :
    W V (Proc.devRef .tc main_v110) = (maximumf : (⟨S16x76x76x3x2, .f32⟩ : BufTy).Contents (Elt F) → (⟨S16x76x76x3x2, .f32⟩ : BufTy).Contents (Elt F) → (⟨S16x76x76x3x2, .f32⟩ : BufTy).Contents (Elt F)) (W V (Proc.devRef .tc main_v108)) (W V (Proc.devRef .tc main_v109)) :=
  (stage_binary writes 126 main_v108 main_v109 main_v110 (maximumf : (⟨S16x76x76x3x2, .f32⟩ : BufTy).Contents (Elt F) → (⟨S16x76x76x3x2, .f32⟩ : BufTy).Contents (Elt F) → (⟨S16x76x76x3x2, .f32⟩ : BufTy).Contents (Elt F)) rfl (by decide) (by decide) (by decide) V :)

theorem st_main_v111 (V : Valuation τ sig (Elt F)) :
    W V (Proc.devRef .tc main_v111) = ((extractStridedSlice S16x76x76x3x1 ![0, 0, 0, 0, 0] · slices_S16x76x76x3x2_S16x76x76x3x1_0_0_0_0_0) : (⟨S16x76x76x3x2, .f32⟩ : BufTy).Contents (Elt F) → (⟨S16x76x76x3x1, .f32⟩ : BufTy).Contents (Elt F)) (W V (Proc.devRef .tc main_v110)) :=
  (stage_unary writes 127 main_v110 main_v111 ((extractStridedSlice S16x76x76x3x1 ![0, 0, 0, 0, 0] · slices_S16x76x76x3x2_S16x76x76x3x1_0_0_0_0_0) : (⟨S16x76x76x3x2, .f32⟩ : BufTy).Contents (Elt F) → (⟨S16x76x76x3x1, .f32⟩ : BufTy).Contents (Elt F)) rfl (by decide) (by decide) V :)

theorem st_main_v112 (V : Valuation τ sig (Elt F)) :
    W V (Proc.devRef .tc main_v112) = shapeCast _ (W V (Proc.devRef .tc main_v111)) shapeCasts_S16x76x76x3x1_S16x76x76x3 :=
  (stage_reshape writes 128 main_v111 main_v112 rfl shapeCasts_S16x76x76x3x1_S16x76x76x3 rfl (by decide) (by decide) V :)

theorem st_main_v113 (V : Valuation τ sig (Elt F)) :
    W V (Proc.devRef .tc main_v113) = ((extractStridedSlice S16x76x76x3x1 ![0, 0, 0, 0, 1] · slices_S16x76x76x3x2_S16x76x76x3x1_0_0_0_0_1) : (⟨S16x76x76x3x2, .f32⟩ : BufTy).Contents (Elt F) → (⟨S16x76x76x3x1, .f32⟩ : BufTy).Contents (Elt F)) (W V (Proc.devRef .tc main_v110)) :=
  (stage_unary writes 129 main_v110 main_v113 ((extractStridedSlice S16x76x76x3x1 ![0, 0, 0, 0, 1] · slices_S16x76x76x3x2_S16x76x76x3x1_0_0_0_0_1) : (⟨S16x76x76x3x2, .f32⟩ : BufTy).Contents (Elt F) → (⟨S16x76x76x3x1, .f32⟩ : BufTy).Contents (Elt F)) rfl (by decide) (by decide) V :)

theorem st_main_v114 (V : Valuation τ sig (Elt F)) :
    W V (Proc.devRef .tc main_v114) = shapeCast _ (W V (Proc.devRef .tc main_v113)) shapeCasts_S16x76x76x3x1_S16x76x76x3 :=
  (stage_reshape writes 130 main_v113 main_v114 rfl shapeCasts_S16x76x76x3x1_S16x76x76x3 rfl (by decide) (by decide) V :)

theorem st_main_v115 (V : Valuation τ sig (Elt F)) :
    W V (Proc.devRef .tc main_v115) = (mulf : (⟨S16x76x76x3, .f32⟩ : BufTy).Contents (Elt F) → (⟨S16x76x76x3, .f32⟩ : BufTy).Contents (Elt F) → (⟨S16x76x76x3, .f32⟩ : BufTy).Contents (Elt F)) (W V (Proc.devRef .tc main_v112)) (W V (Proc.devRef .tc main_v114)) :=
  (stage_binary writes 131 main_v112 main_v114 main_v115 (mulf : (⟨S16x76x76x3, .f32⟩ : BufTy).Contents (Elt F) → (⟨S16x76x76x3, .f32⟩ : BufTy).Contents (Elt F) → (⟨S16x76x76x3, .f32⟩ : BufTy).Contents (Elt F)) rfl (by decide) (by decide) (by decide) V :)

theorem st_main_v116 (V : Valuation τ sig (Elt F)) :
    W V (Proc.devRef .tc main_v116) = (subf : (⟨S16x76x76x3, .f32⟩ : BufTy).Contents (Elt F) → (⟨S16x76x76x3, .f32⟩ : BufTy).Contents (Elt F) → (⟨S16x76x76x3, .f32⟩ : BufTy).Contents (Elt F)) (W V (Proc.devRef .tc main_v115)) (W V (Proc.devRef .tc main_v100)) :=
  (stage_binary writes 132 main_v115 main_v100 main_v116 (subf : (⟨S16x76x76x3, .f32⟩ : BufTy).Contents (Elt F) → (⟨S16x76x76x3, .f32⟩ : BufTy).Contents (Elt F) → (⟨S16x76x76x3, .f32⟩ : BufTy).Contents (Elt F)) rfl (by decide) (by decide) (by decide) V :)

theorem st_main_v117 (V : Valuation τ sig (Elt F)) :
    W V (Proc.devRef .tc main_v117) = (Host.divf : (⟨S16x76x76x3, .f32⟩ : BufTy).Contents (Elt F) → (⟨S16x76x76x3, .f32⟩ : BufTy).Contents (Elt F) → (⟨S16x76x76x3, .f32⟩ : BufTy).Contents (Elt F)) (W V (Proc.devRef .tc main_v116)) (W V (Proc.devRef .tc main_v115)) :=
  (stage_binary writes 133 main_v116 main_v115 main_v117 (Host.divf : (⟨S16x76x76x3, .f32⟩ : BufTy).Contents (Elt F) → (⟨S16x76x76x3, .f32⟩ : BufTy).Contents (Elt F) → (⟨S16x76x76x3, .f32⟩ : BufTy).Contents (Elt F)) rfl (by decide) (by decide) (by decide) V :)

theorem st_main_v118 (V : Valuation τ sig (Elt F)) :
    W V (Proc.devRef .tc main_v118) = (subf : (⟨S16x76x76x3, .f32⟩ : BufTy).Contents (Elt F) → (⟨S16x76x76x3, .f32⟩ : BufTy).Contents (Elt F) → (⟨S16x76x76x3, .f32⟩ : BufTy).Contents (Elt F)) (W V (Proc.devRef .tc main_v101)) (W V (Proc.devRef .tc main_v117)) :=
  (stage_binary writes 134 main_v101 main_v117 main_v118 (subf : (⟨S16x76x76x3, .f32⟩ : BufTy).Contents (Elt F) → (⟨S16x76x76x3, .f32⟩ : BufTy).Contents (Elt F) → (⟨S16x76x76x3, .f32⟩ : BufTy).Contents (Elt F)) rfl (by decide) (by decide) (by decide) V :)

theorem st_main_v119 (V : Valuation τ sig (Elt F)) :
    W V (Proc.devRef .tc main_v119) = (broadcastInDim S16x76x76x3x1 ![0, 1, 2, 3] bcast_S16x76x76x3_S16x76x76x3x1_0_1_2_3 : (⟨S16x76x76x3, .f32⟩ : BufTy).Contents (Elt F) → (⟨S16x76x76x3x1, .f32⟩ : BufTy).Contents (Elt F)) (W V (Proc.devRef .tc main_v118)) :=
  (stage_unary writes 135 main_v118 main_v119 (broadcastInDim S16x76x76x3x1 ![0, 1, 2, 3] bcast_S16x76x76x3_S16x76x76x3x1_0_1_2_3 : (⟨S16x76x76x3, .f32⟩ : BufTy).Contents (Elt F) → (⟨S16x76x76x3x1, .f32⟩ : BufTy).Contents (Elt F)) rfl (by decide) (by decide) V :)

theorem st_main_v120 (V : Valuation τ sig (Elt F)) :
    W V (Proc.devRef .tc main_v120) = ((extractStridedSlice S16x76x76x3x1 ![0, 0, 0, 0, 2] · slices_S16x76x76x3x4_S16x76x76x3x1_0_0_0_0_2) : (⟨S16x76x76x3x4, .f32⟩ : BufTy).Contents (Elt F) → (⟨S16x76x76x3x1, .f32⟩ : BufTy).Contents (Elt F)) (W V (Proc.devRef .tc main_v50)) :=
  (stage_unary writes 136 main_v50 main_v120 ((extractStridedSlice S16x76x76x3x1 ![0, 0, 0, 0, 2] · slices_S16x76x76x3x4_S16x76x76x3x1_0_0_0_0_2) : (⟨S16x76x76x3x4, .f32⟩ : BufTy).Contents (Elt F) → (⟨S16x76x76x3x1, .f32⟩ : BufTy).Contents (Elt F)) rfl (by decide) (by decide) V :)

theorem st_main_v121 (V : Valuation τ sig (Elt F)) :
    W V (Proc.devRef .tc main_v121) = ((extractStridedSlice S16x76x76x3x1 ![0, 0, 0, 0, 3] · slices_S16x76x76x3x4_S16x76x76x3x1_0_0_0_0_3) : (⟨S16x76x76x3x4, .f32⟩ : BufTy).Contents (Elt F) → (⟨S16x76x76x3x1, .f32⟩ : BufTy).Contents (Elt F)) (W V (Proc.devRef .tc main_v50)) :=
  (stage_unary writes 137 main_v50 main_v121 ((extractStridedSlice S16x76x76x3x1 ![0, 0, 0, 0, 3] · slices_S16x76x76x3x4_S16x76x76x3x1_0_0_0_0_3) : (⟨S16x76x76x3x4, .f32⟩ : BufTy).Contents (Elt F) → (⟨S16x76x76x3x1, .f32⟩ : BufTy).Contents (Elt F)) rfl (by decide) (by decide) V :)

end Cert.ReferenceIdeal.RefRun

end
-- ==== Proof.RefStages3.lean ====
import proofs.«179941_j67783173865496_2_alg».proof.Proof.RefW

noncomputable section

namespace Cert.ReferenceIdeal.RefRun

open Cert.ReferenceIdeal Cert.ReferenceIdeal.Gen Idealize.ShloMosaic Idealize.ShloMosaic.TcCoe Idealize.SL.Sem Idealize.ShloMosaic.StableHlo Cert.LibLine

variable {F : FTy → Type} [FloatOps F]

theorem st_main_v122 (V : Valuation τ sig (Elt F)) :
    W V (Proc.devRef .tc main_v122) = (mulf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v120)) (W V (Proc.devRef .tc main_v121)) :=
  (stage_binary writes 138 main_v120 main_v121 main_v122 (mulf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_cst_15 (V : Valuation τ sig (Elt F)) :
    W V (Proc.devRef .tc main_cst_15) = ((constant S_ .f32 0x48B48000#32) : main_cst_15.ty.Contents (Elt F)) :=
  (stage_nullary writes 139 main_cst_15 (constant S_ .f32 0x48B48000#32) rfl (by decide) V :)

theorem st_main_v123 (V : Valuation τ sig (Elt F)) :
    W V (Proc.devRef .tc main_v123) = (broadcastInDim S16x76x76x3x1 ![] bcast_S_S16x76x76x3x1 : (⟨S_, .f32⟩ : BufTy).Contents (Elt F) → (⟨S16x76x76x3x1, .f32⟩ : BufTy).Contents (Elt F)) (W V (Proc.devRef .tc main_cst_15)) :=
  (stage_unary writes 140 main_cst_15 main_v123 (broadcastInDim S16x76x76x3x1 ![] bcast_S_S16x76x76x3x1 : (⟨S_, .f32⟩ : BufTy).Contents (Elt F) → (⟨S16x76x76x3x1, .f32⟩ : BufTy).Contents (Elt F)) rfl (by decide) (by decide) V :)

theorem st_main_v124 (V : Valuation τ sig (Elt F)) :
    W V (Proc.devRef .tc main_v124) = (Host.divf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v122)) (W V (Proc.devRef .tc main_v123)) :=
  (stage_binary writes 141 main_v122 main_v123 main_v124 (Host.divf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_cst_16 (V : Valuation τ sig (Elt F)) :
    W V (Proc.devRef .tc main_cst_16) = ((constant S_ .f32 0x40000000#32) : main_cst_16.ty.Contents (Elt F)) :=
  (stage_nullary writes 142 main_cst_16 (constant S_ .f32 0x40000000#32) rfl (by decide) V :)

theorem st_main_v125 (V : Valuation τ sig (Elt F)) :
    W V (Proc.devRef .tc main_v125) = (broadcastInDim S16x76x76x3x1 ![] bcast_S_S16x76x76x3x1 : (⟨S_, .f32⟩ : BufTy).Contents (Elt F) → (⟨S16x76x76x3x1, .f32⟩ : BufTy).Contents (Elt F)) (W V (Proc.devRef .tc main_cst_16)) :=
  (stage_unary writes 143 main_cst_16 main_v125 (broadcastInDim S16x76x76x3x1 ![] bcast_S_S16x76x76x3x1 : (⟨S_, .f32⟩ : BufTy).Contents (Elt F) → (⟨S16x76x76x3x1, .f32⟩ : BufTy).Contents (Elt F)) rfl (by decide) (by decide) V :)

theorem st_main_v126 (V : Valuation τ sig (Elt F)) :
    W V (Proc.devRef .tc main_v126) = (subf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v125)) (W V (Proc.devRef .tc main_v124)) :=
  (stage_binary writes 144 main_v125 main_v124 main_v126 (subf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_v127 (V : Valuation τ sig (Elt F)) :
    W V (Proc.devRef .tc main_v127) = (mulf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v51)) (W V (Proc.devRef .tc main_v126)) :=
  (stage_binary writes 145 main_v51 main_v126 main_v127 (mulf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_cst_17 (V : Valuation τ sig (Elt F)) :
    W V (Proc.devRef .tc main_cst_17) = ((constant S_ .f32 0x3F800000#32) : main_cst_17.ty.Contents (Elt F)) :=
  (stage_nullary writes 146 main_cst_17 (constant S_ .f32 0x3F800000#32) rfl (by decide) V :)

theorem st_main_v128 (V : Valuation τ sig (Elt F)) :
    W V (Proc.devRef .tc main_v128) = (broadcastInDim S16x76x76x3x1 ![] bcast_S_S16x76x76x3x1 : (⟨S_, .f32⟩ : BufTy).Contents (Elt F) → (⟨S16x76x76x3x1, .f32⟩ : BufTy).Contents (Elt F)) (W V (Proc.devRef .tc main_cst_17)) :=
  (stage_unary writes 147 main_cst_17 main_v128 (broadcastInDim S16x76x76x3x1 ![] bcast_S_S16x76x76x3x1 : (⟨S_, .f32⟩ : BufTy).Contents (Elt F) → (⟨S16x76x76x3x1, .f32⟩ : BufTy).Contents (Elt F)) rfl (by decide) (by decide) V :)

theorem st_main_v129 (V : Valuation τ sig (Elt F)) :
    W V (Proc.devRef .tc main_v129) = (subf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v128)) (W V (Proc.devRef .tc main_v119)) :=
  (stage_binary writes 148 main_v128 main_v119 main_v129 (subf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_v130 (V : Valuation τ sig (Elt F)) :
    W V (Proc.devRef .tc main_v130) = (mulf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v127)) (W V (Proc.devRef .tc main_v129)) :=
  (stage_binary writes 149 main_v127 main_v129 main_v130 (mulf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_v131 (V : Valuation τ sig (Elt F)) :
    W V (Proc.devRef .tc main_v131) = (broadcastInDim S16x76x76x3x1x4 ![0, 1, 2, 3, 5] bcast_S16x76x76x3x4_S16x76x76x3x1x4_0_1_2_3_5 : (⟨S16x76x76x3x4, .f32⟩ : BufTy).Contents (Elt F) → (⟨S16x76x76x3x1x4, .f32⟩ : BufTy).Contents (Elt F)) (W V (Proc.devRef .tc main_v48)) :=
  (stage_unary writes 150 main_v48 main_v131 (broadcastInDim S16x76x76x3x1x4 ![0, 1, 2, 3, 5] bcast_S16x76x76x3x4_S16x76x76x3x1x4_0_1_2_3_5 : (⟨S16x76x76x3x4, .f32⟩ : BufTy).Contents (Elt F) → (⟨S16x76x76x3x1x4, .f32⟩ : BufTy).Contents (Elt F)) rfl (by decide) (by decide) V :)

theorem st_main_v132 (V : Valuation τ sig (Elt F)) :
    W V (Proc.devRef .tc main_v132) = (broadcastInDim S16x1x1x1x150x4 ![0, 4, 5] bcast_S16x150x4_S16x1x1x1x150x4_0_4_5 : (⟨S16x150x4, .f32⟩ : BufTy).Contents (Elt F) → (⟨S16x1x1x1x150x4, .f32⟩ : BufTy).Contents (Elt F)) (W V (Proc.devRef .tc main_arg2)) :=
  (stage_unary writes 151 main_arg2 main_v132 (broadcastInDim S16x1x1x1x150x4 ![0, 4, 5] bcast_S16x150x4_S16x1x1x1x150x4_0_4_5 : (⟨S16x150x4, .f32⟩ : BufTy).Contents (Elt F) → (⟨S16x1x1x1x150x4, .f32⟩ : BufTy).Contents (Elt F)) rfl (by decide) (by decide) V :)

theorem st_main_v133 (V : Valuation τ sig (Elt F)) :
    W V (Proc.devRef .tc main_v133) = ((extractStridedSlice S16x76x76x3x1x1 ![0, 0, 0, 0, 0, 2] · slices_S16x76x76x3x1x4_S16x76x76x3x1x1_0_0_0_0_0_2) : (⟨S16x76x76x3x1x4, .f32⟩ : BufTy).Contents (Elt F) → (⟨S16x76x76x3x1x1, .f32⟩ : BufTy).Contents (Elt F)) (W V (Proc.devRef .tc main_v131)) :=
  (stage_unary writes 152 main_v131 main_v133 ((extractStridedSlice S16x76x76x3x1x1 ![0, 0, 0, 0, 0, 2] · slices_S16x76x76x3x1x4_S16x76x76x3x1x1_0_0_0_0_0_2) : (⟨S16x76x76x3x1x4, .f32⟩ : BufTy).Contents (Elt F) → (⟨S16x76x76x3x1x1, .f32⟩ : BufTy).Contents (Elt F)) rfl (by decide) (by decide) V :)

theorem st_main_v134 (V : Valuation τ sig (Elt F)) :
    W V (Proc.devRef .tc main_v134) = shapeCast _ (W V (Proc.devRef .tc main_v133)) shapeCasts_S16x76x76x3x1x1_S16x76x76x3x1 :=
  (stage_reshape writes 153 main_v133 main_v134 rfl shapeCasts_S16x76x76x3x1x1_S16x76x76x3x1 rfl (by decide) (by decide) V :)

theorem st_main_v135 (V : Valuation τ sig (Elt F)) :
    W V (Proc.devRef .tc main_v135) = ((extractStridedSlice S16x76x76x3x1x1 ![0, 0, 0, 0, 0, 3] · slices_S16x76x76x3x1x4_S16x76x76x3x1x1_0_0_0_0_0_3) : (⟨S16x76x76x3x1x4, .f32⟩ : BufTy).Contents (Elt F) → (⟨S16x76x76x3x1x1, .f32⟩ : BufTy).Contents (Elt F)) (W V (Proc.devRef .tc main_v131)) :=
  (stage_unary writes 154 main_v131 main_v135 ((extractStridedSlice S16x76x76x3x1x1 ![0, 0, 0, 0, 0, 3] · slices_S16x76x76x3x1x4_S16x76x76x3x1x1_0_0_0_0_0_3) : (⟨S16x76x76x3x1x4, .f32⟩ : BufTy).Contents (Elt F) → (⟨S16x76x76x3x1x1, .f32⟩ : BufTy).Contents (Elt F)) rfl (by decide) (by decide) V :)

theorem st_main_v136 (V : Valuation τ sig (Elt F)) :
    W V (Proc.devRef .tc main_v136) = shapeCast _ (W V (Proc.devRef .tc main_v135)) shapeCasts_S16x76x76x3x1x1_S16x76x76x3x1 :=
  (stage_reshape writes 155 main_v135 main_v136 rfl shapeCasts_S16x76x76x3x1x1_S16x76x76x3x1 rfl (by decide) (by decide) V :)

theorem st_main_v137 (V : Valuation τ sig (Elt F)) :
    W V (Proc.devRef .tc main_v137) = (mulf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v134)) (W V (Proc.devRef .tc main_v136)) :=
  (stage_binary writes 156 main_v134 main_v136 main_v137 (mulf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_v138 (V : Valuation τ sig (Elt F)) :
    W V (Proc.devRef .tc main_v138) = ((extractStridedSlice S16x1x1x1x150x1 ![0, 0, 0, 0, 0, 2] · slices_S16x1x1x1x150x4_S16x1x1x1x150x1_0_0_0_0_0_2) : (⟨S16x1x1x1x150x4, .f32⟩ : BufTy).Contents (Elt F) → (⟨S16x1x1x1x150x1, .f32⟩ : BufTy).Contents (Elt F)) (W V (Proc.devRef .tc main_v132)) :=
  (stage_unary writes 157 main_v132 main_v138 ((extractStridedSlice S16x1x1x1x150x1 ![0, 0, 0, 0, 0, 2] · slices_S16x1x1x1x150x4_S16x1x1x1x150x1_0_0_0_0_0_2) : (⟨S16x1x1x1x150x4, .f32⟩ : BufTy).Contents (Elt F) → (⟨S16x1x1x1x150x1, .f32⟩ : BufTy).Contents (Elt F)) rfl (by decide) (by decide) V :)

theorem st_main_v139 (V : Valuation τ sig (Elt F)) :
    W V (Proc.devRef .tc main_v139) = shapeCast _ (W V (Proc.devRef .tc main_v138)) shapeCasts_S16x1x1x1x150x1_S16x1x1x1x150 :=
  (stage_reshape writes 158 main_v138 main_v139 rfl shapeCasts_S16x1x1x1x150x1_S16x1x1x1x150 rfl (by decide) (by decide) V :)

theorem st_main_v140 (V : Valuation τ sig (Elt F)) :
    W V (Proc.devRef .tc main_v140) = ((extractStridedSlice S16x1x1x1x150x1 ![0, 0, 0, 0, 0, 3] · slices_S16x1x1x1x150x4_S16x1x1x1x150x1_0_0_0_0_0_3) : (⟨S16x1x1x1x150x4, .f32⟩ : BufTy).Contents (Elt F) → (⟨S16x1x1x1x150x1, .f32⟩ : BufTy).Contents (Elt F)) (W V (Proc.devRef .tc main_v132)) :=
  (stage_unary writes 159 main_v132 main_v140 ((extractStridedSlice S16x1x1x1x150x1 ![0, 0, 0, 0, 0, 3] · slices_S16x1x1x1x150x4_S16x1x1x1x150x1_0_0_0_0_0_3) : (⟨S16x1x1x1x150x4, .f32⟩ : BufTy).Contents (Elt F) → (⟨S16x1x1x1x150x1, .f32⟩ : BufTy).Contents (Elt F)) rfl (by decide) (by decide) V :)

theorem st_main_v141 (V : Valuation τ sig (Elt F)) :
    W V (Proc.devRef .tc main_v141) = shapeCast _ (W V (Proc.devRef .tc main_v140)) shapeCasts_S16x1x1x1x150x1_S16x1x1x1x150 :=
  (stage_reshape writes 160 main_v140 main_v141 rfl shapeCasts_S16x1x1x1x150x1_S16x1x1x1x150 rfl (by decide) (by decide) V :)

theorem st_main_v142 (V : Valuation τ sig (Elt F)) :
    W V (Proc.devRef .tc main_v142) = (mulf : (⟨S16x1x1x1x150, .f32⟩ : BufTy).Contents (Elt F) → (⟨S16x1x1x1x150, .f32⟩ : BufTy).Contents (Elt F) → (⟨S16x1x1x1x150, .f32⟩ : BufTy).Contents (Elt F)) (W V (Proc.devRef .tc main_v139)) (W V (Proc.devRef .tc main_v141)) :=
  (stage_binary writes 161 main_v139 main_v141 main_v142 (mulf : (⟨S16x1x1x1x150, .f32⟩ : BufTy).Contents (Elt F) → (⟨S16x1x1x1x150, .f32⟩ : BufTy).Contents (Elt F) → (⟨S16x1x1x1x150, .f32⟩ : BufTy).Contents (Elt F)) rfl (by decide) (by decide) (by decide) V :)

theorem st_main_v143 (V : Valuation τ sig (Elt F)) :
    W V (Proc.devRef .tc main_v143) = ((extractStridedSlice S16x76x76x3x1x2 ![0, 0, 0, 0, 0, 0] · slices_S16x76x76x3x1x4_S16x76x76x3x1x2_0_0_0_0_0_0) : (⟨S16x76x76x3x1x4, .f32⟩ : BufTy).Contents (Elt F) → (⟨S16x76x76x3x1x2, .f32⟩ : BufTy).Contents (Elt F)) (W V (Proc.devRef .tc main_v131)) :=
  (stage_unary writes 162 main_v131 main_v143 ((extractStridedSlice S16x76x76x3x1x2 ![0, 0, 0, 0, 0, 0] · slices_S16x76x76x3x1x4_S16x76x76x3x1x2_0_0_0_0_0_0) : (⟨S16x76x76x3x1x4, .f32⟩ : BufTy).Contents (Elt F) → (⟨S16x76x76x3x1x2, .f32⟩ : BufTy).Contents (Elt F)) rfl (by decide) (by decide) V :)

theorem st_main_v144 (V : Valuation τ sig (Elt F)) :
    W V (Proc.devRef .tc main_v144) = ((extractStridedSlice S16x76x76x3x1x2 ![0, 0, 0, 0, 0, 2] · slices_S16x76x76x3x1x4_S16x76x76x3x1x2_0_0_0_0_0_2) : (⟨S16x76x76x3x1x4, .f32⟩ : BufTy).Contents (Elt F) → (⟨S16x76x76x3x1x2, .f32⟩ : BufTy).Contents (Elt F)) (W V (Proc.devRef .tc main_v131)) :=
  (stage_unary writes 163 main_v131 main_v144 ((extractStridedSlice S16x76x76x3x1x2 ![0, 0, 0, 0, 0, 2] · slices_S16x76x76x3x1x4_S16x76x76x3x1x2_0_0_0_0_0_2) : (⟨S16x76x76x3x1x4, .f32⟩ : BufTy).Contents (Elt F) → (⟨S16x76x76x3x1x2, .f32⟩ : BufTy).Contents (Elt F)) rfl (by decide) (by decide) V :)

theorem st_main_cst_18 (V : Valuation τ sig (Elt F)) :
    W V (Proc.devRef .tc main_cst_18) = ((constant S_ .f32 0x3F000000#32) : main_cst_18.ty.Contents (Elt F)) :=
  (stage_nullary writes 164 main_cst_18 (constant S_ .f32 0x3F000000#32) rfl (by decide) V :)

theorem st_main_v145 (V : Valuation τ sig (Elt F)) :
    W V (Proc.devRef .tc main_v145) = (broadcastInDim S16x76x76x3x1x2 ![] bcast_S_S16x76x76x3x1x2 : (⟨S_, .f32⟩ : BufTy).Contents (Elt F) → (⟨S16x76x76x3x1x2, .f32⟩ : BufTy).Contents (Elt F)) (W V (Proc.devRef .tc main_cst_18)) :=
  (stage_unary writes 165 main_cst_18 main_v145 (broadcastInDim S16x76x76x3x1x2 ![] bcast_S_S16x76x76x3x1x2 : (⟨S_, .f32⟩ : BufTy).Contents (Elt F) → (⟨S16x76x76x3x1x2, .f32⟩ : BufTy).Contents (Elt F)) rfl (by decide) (by decide) V :)

theorem st_main_v146 (V : Valuation τ sig (Elt F)) :
    W V (Proc.devRef .tc main_v146) = (mulf : (⟨S16x76x76x3x1x2, .f32⟩ : BufTy).Contents (Elt F) → (⟨S16x76x76x3x1x2, .f32⟩ : BufTy).Contents (Elt F) → (⟨S16x76x76x3x1x2, .f32⟩ : BufTy).Contents (Elt F)) (W V (Proc.devRef .tc main_v144)) (W V (Proc.devRef .tc main_v145)) :=
  (stage_binary writes 166 main_v144 main_v145 main_v146 (mulf : (⟨S16x76x76x3x1x2, .f32⟩ : BufTy).Contents (Elt F) → (⟨S16x76x76x3x1x2, .f32⟩ : BufTy).Contents (Elt F) → (⟨S16x76x76x3x1x2, .f32⟩ : BufTy).Contents (Elt F)) rfl (by decide) (by decide) (by decide) V :)

theorem st_main_v147 (V : Valuation τ sig (Elt F)) :
    W V (Proc.devRef .tc main_v147) = (subf : (⟨S16x76x76x3x1x2, .f32⟩ : BufTy).Contents (Elt F) → (⟨S16x76x76x3x1x2, .f32⟩ : BufTy).Contents (Elt F) → (⟨S16x76x76x3x1x2, .f32⟩ : BufTy).Contents (Elt F)) (W V (Proc.devRef .tc main_v143)) (W V (Proc.devRef .tc main_v146)) :=
  (stage_binary writes 167 main_v143 main_v146 main_v147 (subf : (⟨S16x76x76x3x1x2, .f32⟩ : BufTy).Contents (Elt F) → (⟨S16x76x76x3x1x2, .f32⟩ : BufTy).Contents (Elt F) → (⟨S16x76x76x3x1x2, .f32⟩ : BufTy).Contents (Elt F)) rfl (by decide) (by decide) (by decide) V :)

theorem st_main_v148 (V : Valuation τ sig (Elt F)) :
    W V (Proc.devRef .tc main_v148) = ((extractStridedSlice S16x76x76x3x1x2 ![0, 0, 0, 0, 0, 0] · slices_S16x76x76x3x1x4_S16x76x76x3x1x2_0_0_0_0_0_0) : (⟨S16x76x76x3x1x4, .f32⟩ : BufTy).Contents (Elt F) → (⟨S16x76x76x3x1x2, .f32⟩ : BufTy).Contents (Elt F)) (W V (Proc.devRef .tc main_v131)) :=
  (stage_unary writes 168 main_v131 main_v148 ((extractStridedSlice S16x76x76x3x1x2 ![0, 0, 0, 0, 0, 0] · slices_S16x76x76x3x1x4_S16x76x76x3x1x2_0_0_0_0_0_0) : (⟨S16x76x76x3x1x4, .f32⟩ : BufTy).Contents (Elt F) → (⟨S16x76x76x3x1x2, .f32⟩ : BufTy).Contents (Elt F)) rfl (by decide) (by decide) V :)

theorem st_main_v149 (V : Valuation τ sig (Elt F)) :
    W V (Proc.devRef .tc main_v149) = ((extractStridedSlice S16x76x76x3x1x2 ![0, 0, 0, 0, 0, 2] · slices_S16x76x76x3x1x4_S16x76x76x3x1x2_0_0_0_0_0_2) : (⟨S16x76x76x3x1x4, .f32⟩ : BufTy).Contents (Elt F) → (⟨S16x76x76x3x1x2, .f32⟩ : BufTy).Contents (Elt F)) (W V (Proc.devRef .tc main_v131)) :=
  (stage_unary writes 169 main_v131 main_v149 ((extractStridedSlice S16x76x76x3x1x2 ![0, 0, 0, 0, 0, 2] · slices_S16x76x76x3x1x4_S16x76x76x3x1x2_0_0_0_0_0_2) : (⟨S16x76x76x3x1x4, .f32⟩ : BufTy).Contents (Elt F) → (⟨S16x76x76x3x1x2, .f32⟩ : BufTy).Contents (Elt F)) rfl (by decide) (by decide) V :)

theorem st_main_cst_19 (V : Valuation τ sig (Elt F)) :
    W V (Proc.devRef .tc main_cst_19) = ((constant S_ .f32 0x3F000000#32) : main_cst_19.ty.Contents (Elt F)) :=
  (stage_nullary writes 170 main_cst_19 (constant S_ .f32 0x3F000000#32) rfl (by decide) V :)

theorem st_main_v150 (V : Valuation τ sig (Elt F)) :
    W V (Proc.devRef .tc main_v150) = (broadcastInDim S16x76x76x3x1x2 ![] bcast_S_S16x76x76x3x1x2 : (⟨S_, .f32⟩ : BufTy).Contents (Elt F) → (⟨S16x76x76x3x1x2, .f32⟩ : BufTy).Contents (Elt F)) (W V (Proc.devRef .tc main_cst_19)) :=
  (stage_unary writes 171 main_cst_19 main_v150 (broadcastInDim S16x76x76x3x1x2 ![] bcast_S_S16x76x76x3x1x2 : (⟨S_, .f32⟩ : BufTy).Contents (Elt F) → (⟨S16x76x76x3x1x2, .f32⟩ : BufTy).Contents (Elt F)) rfl (by decide) (by decide) V :)

theorem st_main_v151 (V : Valuation τ sig (Elt F)) :
    W V (Proc.devRef .tc main_v151) = (mulf : (⟨S16x76x76x3x1x2, .f32⟩ : BufTy).Contents (Elt F) → (⟨S16x76x76x3x1x2, .f32⟩ : BufTy).Contents (Elt F) → (⟨S16x76x76x3x1x2, .f32⟩ : BufTy).Contents (Elt F)) (W V (Proc.devRef .tc main_v149)) (W V (Proc.devRef .tc main_v150)) :=
  (stage_binary writes 172 main_v149 main_v150 main_v151 (mulf : (⟨S16x76x76x3x1x2, .f32⟩ : BufTy).Contents (Elt F) → (⟨S16x76x76x3x1x2, .f32⟩ : BufTy).Contents (Elt F) → (⟨S16x76x76x3x1x2, .f32⟩ : BufTy).Contents (Elt F)) rfl (by decide) (by decide) (by decide) V :)

theorem st_main_v152 (V : Valuation τ sig (Elt F)) :
    W V (Proc.devRef .tc main_v152) = (addf : (⟨S16x76x76x3x1x2, .f32⟩ : BufTy).Contents (Elt F) → (⟨S16x76x76x3x1x2, .f32⟩ : BufTy).Contents (Elt F) → (⟨S16x76x76x3x1x2, .f32⟩ : BufTy).Contents (Elt F)) (W V (Proc.devRef .tc main_v148)) (W V (Proc.devRef .tc main_v151)) :=
  (stage_binary writes 173 main_v148 main_v151 main_v152 (addf : (⟨S16x76x76x3x1x2, .f32⟩ : BufTy).Contents (Elt F) → (⟨S16x76x76x3x1x2, .f32⟩ : BufTy).Contents (Elt F) → (⟨S16x76x76x3x1x2, .f32⟩ : BufTy).Contents (Elt F)) rfl (by decide) (by decide) (by decide) V :)

theorem st_main_v153 (V : Valuation τ sig (Elt F)) :
    W V (Proc.devRef .tc main_v153) = ((fun a b => concatenate S16x76x76x3x1x4 5 [⟨S16x76x76x3x1x2, a⟩, ⟨S16x76x76x3x1x2, b⟩] concatenates_S16x76x76x3x1x2_S16x76x76x3x1x2_S16x76x76x3x1x4_d5) : (⟨S16x76x76x3x1x2, .f32⟩ : BufTy).Contents (Elt F) → (⟨S16x76x76x3x1x2, .f32⟩ : BufTy).Contents (Elt F) → (⟨S16x76x76x3x1x4, .f32⟩ : BufTy).Contents (Elt F)) (W V (Proc.devRef .tc main_v147)) (W V (Proc.devRef .tc main_v152)) :=
  (stage_binary writes 174 main_v147 main_v152 main_v153 ((fun a b => concatenate S16x76x76x3x1x4 5 [⟨S16x76x76x3x1x2, a⟩, ⟨S16x76x76x3x1x2, b⟩] concatenates_S16x76x76x3x1x2_S16x76x76x3x1x2_S16x76x76x3x1x4_d5) : (⟨S16x76x76x3x1x2, .f32⟩ : BufTy).Contents (Elt F) → (⟨S16x76x76x3x1x2, .f32⟩ : BufTy).Contents (Elt F) → (⟨S16x76x76x3x1x4, .f32⟩ : BufTy).Contents (Elt F)) rfl (by decide) (by decide) (by decide) V :)

theorem st_main_v154 (V : Valuation τ sig (Elt F)) :
    W V (Proc.devRef .tc main_v154) = ((extractStridedSlice S16x1x1x1x150x2 ![0, 0, 0, 0, 0, 0] · slices_S16x1x1x1x150x4_S16x1x1x1x150x2_0_0_0_0_0_0) : (⟨S16x1x1x1x150x4, .f32⟩ : BufTy).Contents (Elt F) → (⟨S16x1x1x1x150x2, .f32⟩ : BufTy).Contents (Elt F)) (W V (Proc.devRef .tc main_v132)) :=
  (stage_unary writes 175 main_v132 main_v154 ((extractStridedSlice S16x1x1x1x150x2 ![0, 0, 0, 0, 0, 0] · slices_S16x1x1x1x150x4_S16x1x1x1x150x2_0_0_0_0_0_0) : (⟨S16x1x1x1x150x4, .f32⟩ : BufTy).Contents (Elt F) → (⟨S16x1x1x1x150x2, .f32⟩ : BufTy).Contents (Elt F)) rfl (by decide) (by decide) V :)

theorem st_main_v155 (V : Valuation τ sig (Elt F)) :
    W V (Proc.devRef .tc main_v155) = ((extractStridedSlice S16x1x1x1x150x2 ![0, 0, 0, 0, 0, 2] · slices_S16x1x1x1x150x4_S16x1x1x1x150x2_0_0_0_0_0_2) : (⟨S16x1x1x1x150x4, .f32⟩ : BufTy).Contents (Elt F) → (⟨S16x1x1x1x150x2, .f32⟩ : BufTy).Contents (Elt F)) (W V (Proc.devRef .tc main_v132)) :=
  (stage_unary writes 176 main_v132 main_v155 ((extractStridedSlice S16x1x1x1x150x2 ![0, 0, 0, 0, 0, 2] · slices_S16x1x1x1x150x4_S16x1x1x1x150x2_0_0_0_0_0_2) : (⟨S16x1x1x1x150x4, .f32⟩ : BufTy).Contents (Elt F) → (⟨S16x1x1x1x150x2, .f32⟩ : BufTy).Contents (Elt F)) rfl (by decide) (by decide) V :)

theorem st_main_cst_20 (V : Valuation τ sig (Elt F)) :
    W V (Proc.devRef .tc main_cst_20) = ((constant S_ .f32 0x3F000000#32) : main_cst_20.ty.Contents (Elt F)) :=
  (stage_nullary writes 177 main_cst_20 (constant S_ .f32 0x3F000000#32) rfl (by decide) V :)

theorem st_main_v156 (V : Valuation τ sig (Elt F)) :
    W V (Proc.devRef .tc main_v156) = (broadcastInDim S16x1x1x1x150x2 ![] bcast_S_S16x1x1x1x150x2 : (⟨S_, .f32⟩ : BufTy).Contents (Elt F) → (⟨S16x1x1x1x150x2, .f32⟩ : BufTy).Contents (Elt F)) (W V (Proc.devRef .tc main_cst_20)) :=
  (stage_unary writes 178 main_cst_20 main_v156 (broadcastInDim S16x1x1x1x150x2 ![] bcast_S_S16x1x1x1x150x2 : (⟨S_, .f32⟩ : BufTy).Contents (Elt F) → (⟨S16x1x1x1x150x2, .f32⟩ : BufTy).Contents (Elt F)) rfl (by decide) (by decide) V :)

theorem st_main_v157 (V : Valuation τ sig (Elt F)) :
    W V (Proc.devRef .tc main_v157) = (mulf : (⟨S16x1x1x1x150x2, .f32⟩ : BufTy).Contents (Elt F) → (⟨S16x1x1x1x150x2, .f32⟩ : BufTy).Contents (Elt F) → (⟨S16x1x1x1x150x2, .f32⟩ : BufTy).Contents (Elt F)) (W V (Proc.devRef .tc main_v155)) (W V (Proc.devRef .tc main_v156)) :=
  (stage_binary writes 179 main_v155 main_v156 main_v157 (mulf : (⟨S16x1x1x1x150x2, .f32⟩ : BufTy).Contents (Elt F) → (⟨S16x1x1x1x150x2, .f32⟩ : BufTy).Contents (Elt F) → (⟨S16x1x1x1x150x2, .f32⟩ : BufTy).Contents (Elt F)) rfl (by decide) (by decide) (by decide) V :)

theorem st_main_v158 (V : Valuation τ sig (Elt F)) :
    W V (Proc.devRef .tc main_v158) = (subf : (⟨S16x1x1x1x150x2, .f32⟩ : BufTy).Contents (Elt F) → (⟨S16x1x1x1x150x2, .f32⟩ : BufTy).Contents (Elt F) → (⟨S16x1x1x1x150x2, .f32⟩ : BufTy).Contents (Elt F)) (W V (Proc.devRef .tc main_v154)) (W V (Proc.devRef .tc main_v157)) :=
  (stage_binary writes 180 main_v154 main_v157 main_v158 (subf : (⟨S16x1x1x1x150x2, .f32⟩ : BufTy).Contents (Elt F) → (⟨S16x1x1x1x150x2, .f32⟩ : BufTy).Contents (Elt F) → (⟨S16x1x1x1x150x2, .f32⟩ : BufTy).Contents (Elt F)) rfl (by decide) (by decide) (by decide) V :)

theorem st_main_v159 (V : Valuation τ sig (Elt F)) :
    W V (Proc.devRef .tc main_v159) = ((extractStridedSlice S16x1x1x1x150x2 ![0, 0, 0, 0, 0, 0] · slices_S16x1x1x1x150x4_S16x1x1x1x150x2_0_0_0_0_0_0) : (⟨S16x1x1x1x150x4, .f32⟩ : BufTy).Contents (Elt F) → (⟨S16x1x1x1x150x2, .f32⟩ : BufTy).Contents (Elt F)) (W V (Proc.devRef .tc main_v132)) :=
  (stage_unary writes 181 main_v132 main_v159 ((extractStridedSlice S16x1x1x1x150x2 ![0, 0, 0, 0, 0, 0] · slices_S16x1x1x1x150x4_S16x1x1x1x150x2_0_0_0_0_0_0) : (⟨S16x1x1x1x150x4, .f32⟩ : BufTy).Contents (Elt F) → (⟨S16x1x1x1x150x2, .f32⟩ : BufTy).Contents (Elt F)) rfl (by decide) (by decide) V :)

theorem st_main_v160 (V : Valuation τ sig (Elt F)) :
    W V (Proc.devRef .tc main_v160) = ((extractStridedSlice S16x1x1x1x150x2 ![0, 0, 0, 0, 0, 2] · slices_S16x1x1x1x150x4_S16x1x1x1x150x2_0_0_0_0_0_2) : (⟨S16x1x1x1x150x4, .f32⟩ : BufTy).Contents (Elt F) → (⟨S16x1x1x1x150x2, .f32⟩ : BufTy).Contents (Elt F)) (W V (Proc.devRef .tc main_v132)) :=
  (stage_unary writes 182 main_v132 main_v160 ((extractStridedSlice S16x1x1x1x150x2 ![0, 0, 0, 0, 0, 2] · slices_S16x1x1x1x150x4_S16x1x1x1x150x2_0_0_0_0_0_2) : (⟨S16x1x1x1x150x4, .f32⟩ : BufTy).Contents (Elt F) → (⟨S16x1x1x1x150x2, .f32⟩ : BufTy).Contents (Elt F)) rfl (by decide) (by decide) V :)

theorem st_main_cst_21 (V : Valuation τ sig (Elt F)) :
    W V (Proc.devRef .tc main_cst_21) = ((constant S_ .f32 0x3F000000#32) : main_cst_21.ty.Contents (Elt F)) :=
  (stage_nullary writes 183 main_cst_21 (constant S_ .f32 0x3F000000#32) rfl (by decide) V :)

end Cert.ReferenceIdeal.RefRun

end
-- ==== Proof.RefStages4.lean ====
import proofs.«179941_j67783173865496_2_alg».proof.Proof.RefW

noncomputable section

namespace Cert.ReferenceIdeal.RefRun

open Cert.ReferenceIdeal Cert.ReferenceIdeal.Gen Idealize.ShloMosaic Idealize.ShloMosaic.TcCoe Idealize.SL.Sem Idealize.ShloMosaic.StableHlo Cert.LibLine

variable {F : FTy → Type} [FloatOps F]

theorem st_main_v161 (V : Valuation τ sig (Elt F)) :
    W V (Proc.devRef .tc main_v161) = (broadcastInDim S16x1x1x1x150x2 ![] bcast_S_S16x1x1x1x150x2 : (⟨S_, .f32⟩ : BufTy).Contents (Elt F) → (⟨S16x1x1x1x150x2, .f32⟩ : BufTy).Contents (Elt F)) (W V (Proc.devRef .tc main_cst_21)) :=
  (stage_unary writes 184 main_cst_21 main_v161 (broadcastInDim S16x1x1x1x150x2 ![] bcast_S_S16x1x1x1x150x2 : (⟨S_, .f32⟩ : BufTy).Contents (Elt F) → (⟨S16x1x1x1x150x2, .f32⟩ : BufTy).Contents (Elt F)) rfl (by decide) (by decide) V :)

theorem st_main_v162 (V : Valuation τ sig (Elt F)) :
    W V (Proc.devRef .tc main_v162) = (mulf : (⟨S16x1x1x1x150x2, .f32⟩ : BufTy).Contents (Elt F) → (⟨S16x1x1x1x150x2, .f32⟩ : BufTy).Contents (Elt F) → (⟨S16x1x1x1x150x2, .f32⟩ : BufTy).Contents (Elt F)) (W V (Proc.devRef .tc main_v160)) (W V (Proc.devRef .tc main_v161)) :=
  (stage_binary writes 185 main_v160 main_v161 main_v162 (mulf : (⟨S16x1x1x1x150x2, .f32⟩ : BufTy).Contents (Elt F) → (⟨S16x1x1x1x150x2, .f32⟩ : BufTy).Contents (Elt F) → (⟨S16x1x1x1x150x2, .f32⟩ : BufTy).Contents (Elt F)) rfl (by decide) (by decide) (by decide) V :)

theorem st_main_v163 (V : Valuation τ sig (Elt F)) :
    W V (Proc.devRef .tc main_v163) = (addf : (⟨S16x1x1x1x150x2, .f32⟩ : BufTy).Contents (Elt F) → (⟨S16x1x1x1x150x2, .f32⟩ : BufTy).Contents (Elt F) → (⟨S16x1x1x1x150x2, .f32⟩ : BufTy).Contents (Elt F)) (W V (Proc.devRef .tc main_v159)) (W V (Proc.devRef .tc main_v162)) :=
  (stage_binary writes 186 main_v159 main_v162 main_v163 (addf : (⟨S16x1x1x1x150x2, .f32⟩ : BufTy).Contents (Elt F) → (⟨S16x1x1x1x150x2, .f32⟩ : BufTy).Contents (Elt F) → (⟨S16x1x1x1x150x2, .f32⟩ : BufTy).Contents (Elt F)) rfl (by decide) (by decide) (by decide) V :)

theorem st_main_v164 (V : Valuation τ sig (Elt F)) :
    W V (Proc.devRef .tc main_v164) = ((fun a b => concatenate S16x1x1x1x150x4 5 [⟨S16x1x1x1x150x2, a⟩, ⟨S16x1x1x1x150x2, b⟩] concatenates_S16x1x1x1x150x2_S16x1x1x1x150x2_S16x1x1x1x150x4_d5) : (⟨S16x1x1x1x150x2, .f32⟩ : BufTy).Contents (Elt F) → (⟨S16x1x1x1x150x2, .f32⟩ : BufTy).Contents (Elt F) → (⟨S16x1x1x1x150x4, .f32⟩ : BufTy).Contents (Elt F)) (W V (Proc.devRef .tc main_v158)) (W V (Proc.devRef .tc main_v163)) :=
  (stage_binary writes 187 main_v158 main_v163 main_v164 ((fun a b => concatenate S16x1x1x1x150x4 5 [⟨S16x1x1x1x150x2, a⟩, ⟨S16x1x1x1x150x2, b⟩] concatenates_S16x1x1x1x150x2_S16x1x1x1x150x2_S16x1x1x1x150x4_d5) : (⟨S16x1x1x1x150x2, .f32⟩ : BufTy).Contents (Elt F) → (⟨S16x1x1x1x150x2, .f32⟩ : BufTy).Contents (Elt F) → (⟨S16x1x1x1x150x4, .f32⟩ : BufTy).Contents (Elt F)) rfl (by decide) (by decide) (by decide) V :)

theorem st_main_v165 (V : Valuation τ sig (Elt F)) :
    W V (Proc.devRef .tc main_v165) = ((extractStridedSlice S16x76x76x3x1x2 ![0, 0, 0, 0, 0, 0] · slices_S16x76x76x3x1x4_S16x76x76x3x1x2_0_0_0_0_0_0) : (⟨S16x76x76x3x1x4, .f32⟩ : BufTy).Contents (Elt F) → (⟨S16x76x76x3x1x2, .f32⟩ : BufTy).Contents (Elt F)) (W V (Proc.devRef .tc main_v153)) :=
  (stage_unary writes 188 main_v153 main_v165 ((extractStridedSlice S16x76x76x3x1x2 ![0, 0, 0, 0, 0, 0] · slices_S16x76x76x3x1x4_S16x76x76x3x1x2_0_0_0_0_0_0) : (⟨S16x76x76x3x1x4, .f32⟩ : BufTy).Contents (Elt F) → (⟨S16x76x76x3x1x2, .f32⟩ : BufTy).Contents (Elt F)) rfl (by decide) (by decide) V :)

theorem st_main_v166 (V : Valuation τ sig (Elt F)) :
    W V (Proc.devRef .tc main_v166) = ((extractStridedSlice S16x1x1x1x150x2 ![0, 0, 0, 0, 0, 0] · slices_S16x1x1x1x150x4_S16x1x1x1x150x2_0_0_0_0_0_0) : (⟨S16x1x1x1x150x4, .f32⟩ : BufTy).Contents (Elt F) → (⟨S16x1x1x1x150x2, .f32⟩ : BufTy).Contents (Elt F)) (W V (Proc.devRef .tc main_v164)) :=
  (stage_unary writes 189 main_v164 main_v166 ((extractStridedSlice S16x1x1x1x150x2 ![0, 0, 0, 0, 0, 0] · slices_S16x1x1x1x150x4_S16x1x1x1x150x2_0_0_0_0_0_0) : (⟨S16x1x1x1x150x4, .f32⟩ : BufTy).Contents (Elt F) → (⟨S16x1x1x1x150x2, .f32⟩ : BufTy).Contents (Elt F)) rfl (by decide) (by decide) V :)

theorem st_main_v167 (V : Valuation τ sig (Elt F)) :
    W V (Proc.devRef .tc main_v167) = (broadcastInDim S16x76x76x3x150x2 ![0, 1, 2, 3, 4, 5] bcast_S16x76x76x3x1x2_S16x76x76x3x150x2_0_1_2_3_4_5 : (⟨S16x76x76x3x1x2, .f32⟩ : BufTy).Contents (Elt F) → (⟨S16x76x76x3x150x2, .f32⟩ : BufTy).Contents (Elt F)) (W V (Proc.devRef .tc main_v165)) :=
  (stage_unary writes 190 main_v165 main_v167 (broadcastInDim S16x76x76x3x150x2 ![0, 1, 2, 3, 4, 5] bcast_S16x76x76x3x1x2_S16x76x76x3x150x2_0_1_2_3_4_5 : (⟨S16x76x76x3x1x2, .f32⟩ : BufTy).Contents (Elt F) → (⟨S16x76x76x3x150x2, .f32⟩ : BufTy).Contents (Elt F)) rfl (by decide) (by decide) V :)

theorem st_main_v168 (V : Valuation τ sig (Elt F)) :
    W V (Proc.devRef .tc main_v168) = (broadcastInDim S16x76x76x3x150x2 ![0, 1, 2, 3, 4, 5] bcast_S16x1x1x1x150x2_S16x76x76x3x150x2_0_1_2_3_4_5 : (⟨S16x1x1x1x150x2, .f32⟩ : BufTy).Contents (Elt F) → (⟨S16x76x76x3x150x2, .f32⟩ : BufTy).Contents (Elt F)) (W V (Proc.devRef .tc main_v166)) :=
  (stage_unary writes 191 main_v166 main_v168 (broadcastInDim S16x76x76x3x150x2 ![0, 1, 2, 3, 4, 5] bcast_S16x1x1x1x150x2_S16x76x76x3x150x2_0_1_2_3_4_5 : (⟨S16x1x1x1x150x2, .f32⟩ : BufTy).Contents (Elt F) → (⟨S16x76x76x3x150x2, .f32⟩ : BufTy).Contents (Elt F)) rfl (by decide) (by decide) V :)

theorem st_main_v169 (V : Valuation τ sig (Elt F)) :
    W V (Proc.devRef .tc main_v169) = (maximumf : (⟨S16x76x76x3x150x2, .f32⟩ : BufTy).Contents (Elt F) → (⟨S16x76x76x3x150x2, .f32⟩ : BufTy).Contents (Elt F) → (⟨S16x76x76x3x150x2, .f32⟩ : BufTy).Contents (Elt F)) (W V (Proc.devRef .tc main_v167)) (W V (Proc.devRef .tc main_v168)) :=
  (stage_binary writes 192 main_v167 main_v168 main_v169 (maximumf : (⟨S16x76x76x3x150x2, .f32⟩ : BufTy).Contents (Elt F) → (⟨S16x76x76x3x150x2, .f32⟩ : BufTy).Contents (Elt F) → (⟨S16x76x76x3x150x2, .f32⟩ : BufTy).Contents (Elt F)) rfl (by decide) (by decide) (by decide) V :)

theorem st_main_v170 (V : Valuation τ sig (Elt F)) :
    W V (Proc.devRef .tc main_v170) = ((extractStridedSlice S16x76x76x3x1x2 ![0, 0, 0, 0, 0, 2] · slices_S16x76x76x3x1x4_S16x76x76x3x1x2_0_0_0_0_0_2) : (⟨S16x76x76x3x1x4, .f32⟩ : BufTy).Contents (Elt F) → (⟨S16x76x76x3x1x2, .f32⟩ : BufTy).Contents (Elt F)) (W V (Proc.devRef .tc main_v153)) :=
  (stage_unary writes 193 main_v153 main_v170 ((extractStridedSlice S16x76x76x3x1x2 ![0, 0, 0, 0, 0, 2] · slices_S16x76x76x3x1x4_S16x76x76x3x1x2_0_0_0_0_0_2) : (⟨S16x76x76x3x1x4, .f32⟩ : BufTy).Contents (Elt F) → (⟨S16x76x76x3x1x2, .f32⟩ : BufTy).Contents (Elt F)) rfl (by decide) (by decide) V :)

theorem st_main_v171 (V : Valuation τ sig (Elt F)) :
    W V (Proc.devRef .tc main_v171) = ((extractStridedSlice S16x1x1x1x150x2 ![0, 0, 0, 0, 0, 2] · slices_S16x1x1x1x150x4_S16x1x1x1x150x2_0_0_0_0_0_2) : (⟨S16x1x1x1x150x4, .f32⟩ : BufTy).Contents (Elt F) → (⟨S16x1x1x1x150x2, .f32⟩ : BufTy).Contents (Elt F)) (W V (Proc.devRef .tc main_v164)) :=
  (stage_unary writes 194 main_v164 main_v171 ((extractStridedSlice S16x1x1x1x150x2 ![0, 0, 0, 0, 0, 2] · slices_S16x1x1x1x150x4_S16x1x1x1x150x2_0_0_0_0_0_2) : (⟨S16x1x1x1x150x4, .f32⟩ : BufTy).Contents (Elt F) → (⟨S16x1x1x1x150x2, .f32⟩ : BufTy).Contents (Elt F)) rfl (by decide) (by decide) V :)

theorem st_main_v172 (V : Valuation τ sig (Elt F)) :
    W V (Proc.devRef .tc main_v172) = (broadcastInDim S16x76x76x3x150x2 ![0, 1, 2, 3, 4, 5] bcast_S16x76x76x3x1x2_S16x76x76x3x150x2_0_1_2_3_4_5 : (⟨S16x76x76x3x1x2, .f32⟩ : BufTy).Contents (Elt F) → (⟨S16x76x76x3x150x2, .f32⟩ : BufTy).Contents (Elt F)) (W V (Proc.devRef .tc main_v170)) :=
  (stage_unary writes 195 main_v170 main_v172 (broadcastInDim S16x76x76x3x150x2 ![0, 1, 2, 3, 4, 5] bcast_S16x76x76x3x1x2_S16x76x76x3x150x2_0_1_2_3_4_5 : (⟨S16x76x76x3x1x2, .f32⟩ : BufTy).Contents (Elt F) → (⟨S16x76x76x3x150x2, .f32⟩ : BufTy).Contents (Elt F)) rfl (by decide) (by decide) V :)

theorem st_main_v173 (V : Valuation τ sig (Elt F)) :
    W V (Proc.devRef .tc main_v173) = (broadcastInDim S16x76x76x3x150x2 ![0, 1, 2, 3, 4, 5] bcast_S16x1x1x1x150x2_S16x76x76x3x150x2_0_1_2_3_4_5 : (⟨S16x1x1x1x150x2, .f32⟩ : BufTy).Contents (Elt F) → (⟨S16x76x76x3x150x2, .f32⟩ : BufTy).Contents (Elt F)) (W V (Proc.devRef .tc main_v171)) :=
  (stage_unary writes 196 main_v171 main_v173 (broadcastInDim S16x76x76x3x150x2 ![0, 1, 2, 3, 4, 5] bcast_S16x1x1x1x150x2_S16x76x76x3x150x2_0_1_2_3_4_5 : (⟨S16x1x1x1x150x2, .f32⟩ : BufTy).Contents (Elt F) → (⟨S16x76x76x3x150x2, .f32⟩ : BufTy).Contents (Elt F)) rfl (by decide) (by decide) V :)

theorem st_main_v174 (V : Valuation τ sig (Elt F)) :
    W V (Proc.devRef .tc main_v174) = (minimumf : (⟨S16x76x76x3x150x2, .f32⟩ : BufTy).Contents (Elt F) → (⟨S16x76x76x3x150x2, .f32⟩ : BufTy).Contents (Elt F) → (⟨S16x76x76x3x150x2, .f32⟩ : BufTy).Contents (Elt F)) (W V (Proc.devRef .tc main_v172)) (W V (Proc.devRef .tc main_v173)) :=
  (stage_binary writes 197 main_v172 main_v173 main_v174 (minimumf : (⟨S16x76x76x3x150x2, .f32⟩ : BufTy).Contents (Elt F) → (⟨S16x76x76x3x150x2, .f32⟩ : BufTy).Contents (Elt F) → (⟨S16x76x76x3x150x2, .f32⟩ : BufTy).Contents (Elt F)) rfl (by decide) (by decide) (by decide) V :)

theorem st_main_v175 (V : Valuation τ sig (Elt F)) :
    W V (Proc.devRef .tc main_v175) = (subf : (⟨S16x76x76x3x150x2, .f32⟩ : BufTy).Contents (Elt F) → (⟨S16x76x76x3x150x2, .f32⟩ : BufTy).Contents (Elt F) → (⟨S16x76x76x3x150x2, .f32⟩ : BufTy).Contents (Elt F)) (W V (Proc.devRef .tc main_v174)) (W V (Proc.devRef .tc main_v169)) :=
  (stage_binary writes 198 main_v174 main_v169 main_v175 (subf : (⟨S16x76x76x3x150x2, .f32⟩ : BufTy).Contents (Elt F) → (⟨S16x76x76x3x150x2, .f32⟩ : BufTy).Contents (Elt F) → (⟨S16x76x76x3x150x2, .f32⟩ : BufTy).Contents (Elt F)) rfl (by decide) (by decide) (by decide) V :)

theorem st_main_cst_22 (V : Valuation τ sig (Elt F)) :
    W V (Proc.devRef .tc main_cst_22) = ((constant S_ .f32 0x00000000#32) : main_cst_22.ty.Contents (Elt F)) :=
  (stage_nullary writes 199 main_cst_22 (constant S_ .f32 0x00000000#32) rfl (by decide) V :)

theorem st_main_v176 (V : Valuation τ sig (Elt F)) :
    W V (Proc.devRef .tc main_v176) = (broadcastInDim S16x76x76x3x150x2 ![] bcast_S_S16x76x76x3x150x2 : (⟨S_, .f32⟩ : BufTy).Contents (Elt F) → (⟨S16x76x76x3x150x2, .f32⟩ : BufTy).Contents (Elt F)) (W V (Proc.devRef .tc main_cst_22)) :=
  (stage_unary writes 200 main_cst_22 main_v176 (broadcastInDim S16x76x76x3x150x2 ![] bcast_S_S16x76x76x3x150x2 : (⟨S_, .f32⟩ : BufTy).Contents (Elt F) → (⟨S16x76x76x3x150x2, .f32⟩ : BufTy).Contents (Elt F)) rfl (by decide) (by decide) V :)

theorem st_main_v177 (V : Valuation τ sig (Elt F)) :
    W V (Proc.devRef .tc main_v177) = (maximumf : (⟨S16x76x76x3x150x2, .f32⟩ : BufTy).Contents (Elt F) → (⟨S16x76x76x3x150x2, .f32⟩ : BufTy).Contents (Elt F) → (⟨S16x76x76x3x150x2, .f32⟩ : BufTy).Contents (Elt F)) (W V (Proc.devRef .tc main_v175)) (W V (Proc.devRef .tc main_v176)) :=
  (stage_binary writes 201 main_v175 main_v176 main_v177 (maximumf : (⟨S16x76x76x3x150x2, .f32⟩ : BufTy).Contents (Elt F) → (⟨S16x76x76x3x150x2, .f32⟩ : BufTy).Contents (Elt F) → (⟨S16x76x76x3x150x2, .f32⟩ : BufTy).Contents (Elt F)) rfl (by decide) (by decide) (by decide) V :)

theorem st_main_v178 (V : Valuation τ sig (Elt F)) :
    W V (Proc.devRef .tc main_v178) = ((extractStridedSlice S16x76x76x3x150x1 ![0, 0, 0, 0, 0, 0] · slices_S16x76x76x3x150x2_S16x76x76x3x150x1_0_0_0_0_0_0) : (⟨S16x76x76x3x150x2, .f32⟩ : BufTy).Contents (Elt F) → (⟨S16x76x76x3x150x1, .f32⟩ : BufTy).Contents (Elt F)) (W V (Proc.devRef .tc main_v177)) :=
  (stage_unary writes 202 main_v177 main_v178 ((extractStridedSlice S16x76x76x3x150x1 ![0, 0, 0, 0, 0, 0] · slices_S16x76x76x3x150x2_S16x76x76x3x150x1_0_0_0_0_0_0) : (⟨S16x76x76x3x150x2, .f32⟩ : BufTy).Contents (Elt F) → (⟨S16x76x76x3x150x1, .f32⟩ : BufTy).Contents (Elt F)) rfl (by decide) (by decide) V :)

theorem st_main_v179 (V : Valuation τ sig (Elt F)) :
    W V (Proc.devRef .tc main_v179) = shapeCast _ (W V (Proc.devRef .tc main_v178)) shapeCasts_S16x76x76x3x150x1_S16x76x76x3x150 :=
  (stage_reshape writes 203 main_v178 main_v179 rfl shapeCasts_S16x76x76x3x150x1_S16x76x76x3x150 rfl (by decide) (by decide) V :)

theorem st_main_v180 (V : Valuation τ sig (Elt F)) :
    W V (Proc.devRef .tc main_v180) = ((extractStridedSlice S16x76x76x3x150x1 ![0, 0, 0, 0, 0, 1] · slices_S16x76x76x3x150x2_S16x76x76x3x150x1_0_0_0_0_0_1) : (⟨S16x76x76x3x150x2, .f32⟩ : BufTy).Contents (Elt F) → (⟨S16x76x76x3x150x1, .f32⟩ : BufTy).Contents (Elt F)) (W V (Proc.devRef .tc main_v177)) :=
  (stage_unary writes 204 main_v177 main_v180 ((extractStridedSlice S16x76x76x3x150x1 ![0, 0, 0, 0, 0, 1] · slices_S16x76x76x3x150x2_S16x76x76x3x150x1_0_0_0_0_0_1) : (⟨S16x76x76x3x150x2, .f32⟩ : BufTy).Contents (Elt F) → (⟨S16x76x76x3x150x1, .f32⟩ : BufTy).Contents (Elt F)) rfl (by decide) (by decide) V :)

theorem st_main_v181 (V : Valuation τ sig (Elt F)) :
    W V (Proc.devRef .tc main_v181) = shapeCast _ (W V (Proc.devRef .tc main_v180)) shapeCasts_S16x76x76x3x150x1_S16x76x76x3x150 :=
  (stage_reshape writes 205 main_v180 main_v181 rfl shapeCasts_S16x76x76x3x150x1_S16x76x76x3x150 rfl (by decide) (by decide) V :)

theorem st_main_v182 (V : Valuation τ sig (Elt F)) :
    W V (Proc.devRef .tc main_v182) = (mulf : (⟨S16x76x76x3x150, .f32⟩ : BufTy).Contents (Elt F) → (⟨S16x76x76x3x150, .f32⟩ : BufTy).Contents (Elt F) → (⟨S16x76x76x3x150, .f32⟩ : BufTy).Contents (Elt F)) (W V (Proc.devRef .tc main_v179)) (W V (Proc.devRef .tc main_v181)) :=
  (stage_binary writes 206 main_v179 main_v181 main_v182 (mulf : (⟨S16x76x76x3x150, .f32⟩ : BufTy).Contents (Elt F) → (⟨S16x76x76x3x150, .f32⟩ : BufTy).Contents (Elt F) → (⟨S16x76x76x3x150, .f32⟩ : BufTy).Contents (Elt F)) rfl (by decide) (by decide) (by decide) V :)

theorem st_main_v183 (V : Valuation τ sig (Elt F)) :
    W V (Proc.devRef .tc main_v183) = (broadcastInDim S16x76x76x3x150 ![0, 1, 2, 3, 4] bcast_S16x76x76x3x1_S16x76x76x3x150_0_1_2_3_4 : (⟨S16x76x76x3x1, .f32⟩ : BufTy).Contents (Elt F) → (⟨S16x76x76x3x150, .f32⟩ : BufTy).Contents (Elt F)) (W V (Proc.devRef .tc main_v137)) :=
  (stage_unary writes 207 main_v137 main_v183 (broadcastInDim S16x76x76x3x150 ![0, 1, 2, 3, 4] bcast_S16x76x76x3x1_S16x76x76x3x150_0_1_2_3_4 : (⟨S16x76x76x3x1, .f32⟩ : BufTy).Contents (Elt F) → (⟨S16x76x76x3x150, .f32⟩ : BufTy).Contents (Elt F)) rfl (by decide) (by decide) V :)

theorem st_main_v184 (V : Valuation τ sig (Elt F)) :
    W V (Proc.devRef .tc main_v184) = (broadcastInDim S16x76x76x3x150 ![0, 1, 2, 3, 4] bcast_S16x1x1x1x150_S16x76x76x3x150_0_1_2_3_4 : (⟨S16x1x1x1x150, .f32⟩ : BufTy).Contents (Elt F) → (⟨S16x76x76x3x150, .f32⟩ : BufTy).Contents (Elt F)) (W V (Proc.devRef .tc main_v142)) :=
  (stage_unary writes 208 main_v142 main_v184 (broadcastInDim S16x76x76x3x150 ![0, 1, 2, 3, 4] bcast_S16x1x1x1x150_S16x76x76x3x150_0_1_2_3_4 : (⟨S16x1x1x1x150, .f32⟩ : BufTy).Contents (Elt F) → (⟨S16x76x76x3x150, .f32⟩ : BufTy).Contents (Elt F)) rfl (by decide) (by decide) V :)

theorem st_main_v185 (V : Valuation τ sig (Elt F)) :
    W V (Proc.devRef .tc main_v185) = (addf : (⟨S16x76x76x3x150, .f32⟩ : BufTy).Contents (Elt F) → (⟨S16x76x76x3x150, .f32⟩ : BufTy).Contents (Elt F) → (⟨S16x76x76x3x150, .f32⟩ : BufTy).Contents (Elt F)) (W V (Proc.devRef .tc main_v183)) (W V (Proc.devRef .tc main_v184)) :=
  (stage_binary writes 209 main_v183 main_v184 main_v185 (addf : (⟨S16x76x76x3x150, .f32⟩ : BufTy).Contents (Elt F) → (⟨S16x76x76x3x150, .f32⟩ : BufTy).Contents (Elt F) → (⟨S16x76x76x3x150, .f32⟩ : BufTy).Contents (Elt F)) rfl (by decide) (by decide) (by decide) V :)

theorem st_main_v186 (V : Valuation τ sig (Elt F)) :
    W V (Proc.devRef .tc main_v186) = (subf : (⟨S16x76x76x3x150, .f32⟩ : BufTy).Contents (Elt F) → (⟨S16x76x76x3x150, .f32⟩ : BufTy).Contents (Elt F) → (⟨S16x76x76x3x150, .f32⟩ : BufTy).Contents (Elt F)) (W V (Proc.devRef .tc main_v185)) (W V (Proc.devRef .tc main_v182)) :=
  (stage_binary writes 210 main_v185 main_v182 main_v186 (subf : (⟨S16x76x76x3x150, .f32⟩ : BufTy).Contents (Elt F) → (⟨S16x76x76x3x150, .f32⟩ : BufTy).Contents (Elt F) → (⟨S16x76x76x3x150, .f32⟩ : BufTy).Contents (Elt F)) rfl (by decide) (by decide) (by decide) V :)

theorem st_main_v187 (V : Valuation τ sig (Elt F)) :
    W V (Proc.devRef .tc main_v187) = (Host.divf : (⟨S16x76x76x3x150, .f32⟩ : BufTy).Contents (Elt F) → (⟨S16x76x76x3x150, .f32⟩ : BufTy).Contents (Elt F) → (⟨S16x76x76x3x150, .f32⟩ : BufTy).Contents (Elt F)) (W V (Proc.devRef .tc main_v182)) (W V (Proc.devRef .tc main_v186)) :=
  (stage_binary writes 211 main_v182 main_v186 main_v187 (Host.divf : (⟨S16x76x76x3x150, .f32⟩ : BufTy).Contents (Elt F) → (⟨S16x76x76x3x150, .f32⟩ : BufTy).Contents (Elt F) → (⟨S16x76x76x3x150, .f32⟩ : BufTy).Contents (Elt F)) rfl (by decide) (by decide) (by decide) V :)

theorem st_main_cst_23 (V : Valuation τ sig (Elt F)) :
    W V (Proc.devRef .tc main_cst_23) = ((constant S_ .f32 0xFF800000#32) : main_cst_23.ty.Contents (Elt F)) :=
  (stage_nullary writes 212 main_cst_23 (constant S_ .f32 0xFF800000#32) rfl (by decide) V :)

theorem st_main_v188 (V : Valuation τ sig (Elt F)) :
    W V (Proc.devRef .tc main_v188) = ((fun x v => Host.reduce FloatOps.maximumf x v reducesTo_S16x76x76x3x150_S16x76x76x3_d4 h_S_) : (⟨S16x76x76x3x150, .f32⟩ : BufTy).Contents (Elt F) → (⟨S_, .f32⟩ : BufTy).Contents (Elt F) → (⟨S16x76x76x3, .f32⟩ : BufTy).Contents (Elt F)) (W V (Proc.devRef .tc main_v187)) (W V (Proc.devRef .tc main_cst_23)) :=
  (stage_binary writes 213 main_v187 main_cst_23 main_v188 ((fun x v => Host.reduce FloatOps.maximumf x v reducesTo_S16x76x76x3x150_S16x76x76x3_d4 h_S_) : (⟨S16x76x76x3x150, .f32⟩ : BufTy).Contents (Elt F) → (⟨S_, .f32⟩ : BufTy).Contents (Elt F) → (⟨S16x76x76x3, .f32⟩ : BufTy).Contents (Elt F)) rfl (by decide) (by decide) (by decide) V :)

theorem st_main_v189 (V : Valuation τ sig (Elt F)) :
    W V (Proc.devRef .tc main_v189) = (broadcastInDim S16x76x76x3x1 ![0, 1, 2, 3] bcast_S16x76x76x3_S16x76x76x3x1_0_1_2_3 : (⟨S16x76x76x3, .f32⟩ : BufTy).Contents (Elt F) → (⟨S16x76x76x3x1, .f32⟩ : BufTy).Contents (Elt F)) (W V (Proc.devRef .tc main_v188)) :=
  (stage_unary writes 214 main_v188 main_v189 (broadcastInDim S16x76x76x3x1 ![0, 1, 2, 3] bcast_S16x76x76x3_S16x76x76x3x1_0_1_2_3 : (⟨S16x76x76x3, .f32⟩ : BufTy).Contents (Elt F) → (⟨S16x76x76x3x1, .f32⟩ : BufTy).Contents (Elt F)) rfl (by decide) (by decide) V :)

theorem st_main_cst_24 (V : Valuation τ sig (Elt F)) :
    W V (Proc.devRef .tc main_cst_24) = ((constant S_ .f32 0x3F800000#32) : main_cst_24.ty.Contents (Elt F)) :=
  (stage_nullary writes 215 main_cst_24 (constant S_ .f32 0x3F800000#32) rfl (by decide) V :)

theorem st_main_v190 (V : Valuation τ sig (Elt F)) :
    W V (Proc.devRef .tc main_v190) = (broadcastInDim S16x76x76x3x1 ![] bcast_S_S16x76x76x3x1 : (⟨S_, .f32⟩ : BufTy).Contents (Elt F) → (⟨S16x76x76x3x1, .f32⟩ : BufTy).Contents (Elt F)) (W V (Proc.devRef .tc main_cst_24)) :=
  (stage_unary writes 216 main_cst_24 main_v190 (broadcastInDim S16x76x76x3x1 ![] bcast_S_S16x76x76x3x1 : (⟨S_, .f32⟩ : BufTy).Contents (Elt F) → (⟨S16x76x76x3x1, .f32⟩ : BufTy).Contents (Elt F)) rfl (by decide) (by decide) V :)

theorem st_main_v191 (V : Valuation τ sig (Elt F)) :
    W V (Proc.devRef .tc main_v191) = (subf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v190)) (W V (Proc.devRef .tc main_v51)) :=
  (stage_binary writes 217 main_v190 main_v51 main_v191 (subf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_cst_25 (V : Valuation τ sig (Elt F)) :
    W V (Proc.devRef .tc main_cst_25) = ((constant S_ .f32 0x3F000000#32) : main_cst_25.ty.Contents (Elt F)) :=
  (stage_nullary writes 218 main_cst_25 (constant S_ .f32 0x3F000000#32) rfl (by decide) V :)

theorem st_main_v192 (V : Valuation τ sig (Elt F)) :
    W V (Proc.devRef .tc main_v192) = (broadcastInDim S16x76x76x3x1 ![] bcast_S_S16x76x76x3x1 : (⟨S_, .f32⟩ : BufTy).Contents (Elt F) → (⟨S16x76x76x3x1, .f32⟩ : BufTy).Contents (Elt F)) (W V (Proc.devRef .tc main_cst_25)) :=
  (stage_unary writes 219 main_cst_25 main_v192 (broadcastInDim S16x76x76x3x1 ![] bcast_S_S16x76x76x3x1 : (⟨S_, .f32⟩ : BufTy).Contents (Elt F) → (⟨S16x76x76x3x1, .f32⟩ : BufTy).Contents (Elt F)) rfl (by decide) (by decide) V :)

theorem st_main_v193 (V : Valuation τ sig (Elt F)) :
    W V (Proc.devRef .tc main_v193) = (cmpf .olt : (⟨S16x76x76x3x1, .f32⟩ : BufTy).Contents (Elt F) → (⟨S16x76x76x3x1, .f32⟩ : BufTy).Contents (Elt F) → (⟨S16x76x76x3x1, .i1⟩ : BufTy).Contents (Elt F)) (W V (Proc.devRef .tc main_v189)) (W V (Proc.devRef .tc main_v192)) :=
  (stage_binary writes 220 main_v189 main_v192 main_v193 (cmpf .olt : (⟨S16x76x76x3x1, .f32⟩ : BufTy).Contents (Elt F) → (⟨S16x76x76x3x1, .f32⟩ : BufTy).Contents (Elt F) → (⟨S16x76x76x3x1, .i1⟩ : BufTy).Contents (Elt F)) rfl (by decide) (by decide) (by decide) V :)

theorem st_main_v194 (V : Valuation τ sig (Elt F)) :
    W V (Proc.devRef .tc main_v194) = (uitofp .f32 : (⟨S16x76x76x3x1, .i1⟩ : BufTy).Contents (Elt F) → (⟨S16x76x76x3x1, .f32⟩ : BufTy).Contents (Elt F)) (W V (Proc.devRef .tc main_v193)) :=
  (stage_unary writes 221 main_v193 main_v194 (uitofp .f32 : (⟨S16x76x76x3x1, .i1⟩ : BufTy).Contents (Elt F) → (⟨S16x76x76x3x1, .f32⟩ : BufTy).Contents (Elt F)) rfl (by decide) (by decide) V :)

theorem st_main_v195 (V : Valuation τ sig (Elt F)) :
    W V (Proc.devRef .tc main_v195) = (mulf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v191)) (W V (Proc.devRef .tc main_v194)) :=
  (stage_binary writes 222 main_v191 main_v194 main_v195 (mulf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_v196 (V : Valuation τ sig (Elt F)) :
    W V (Proc.devRef .tc main_v196) = (subf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v51)) (W V (Proc.devRef .tc main_v49)) :=
  (stage_binary writes 223 main_v51 main_v49 main_v196 (subf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_v197 (V : Valuation τ sig (Elt F)) :
    W V (Proc.devRef .tc main_v197) = (mulf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v196)) (W V (Proc.devRef .tc main_v196)) :=
  (stage_binary writes 224 main_v196 main_v196 main_v197 (mulf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_cst_26 (V : Valuation τ sig (Elt F)) :
    W V (Proc.devRef .tc main_cst_26) = ((constant S_ .f32 0x00000000#32) : main_cst_26.ty.Contents (Elt F)) :=
  (stage_nullary writes 225 main_cst_26 (constant S_ .f32 0x00000000#32) rfl (by decide) V :)

theorem st_main_v198 (V : Valuation τ sig (Elt F)) :
    W V (Proc.devRef .tc main_v198) = (broadcastInDim S16x76x76x3x1 ![] bcast_S_S16x76x76x3x1 : (⟨S_, .f32⟩ : BufTy).Contents (Elt F) → (⟨S16x76x76x3x1, .f32⟩ : BufTy).Contents (Elt F)) (W V (Proc.devRef .tc main_cst_26)) :=
  (stage_unary writes 226 main_cst_26 main_v198 (broadcastInDim S16x76x76x3x1 ![] bcast_S_S16x76x76x3x1 : (⟨S_, .f32⟩ : BufTy).Contents (Elt F) → (⟨S16x76x76x3x1, .f32⟩ : BufTy).Contents (Elt F)) rfl (by decide) (by decide) V :)

theorem st_main_v199 (V : Valuation τ sig (Elt F)) :
    W V (Proc.devRef .tc main_v199) = (maximumf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v46)) (W V (Proc.devRef .tc main_v198)) :=
  (stage_binary writes 227 main_v46 main_v198 main_v199 (maximumf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_v200 (V : Valuation τ sig (Elt F)) :
    W V (Proc.devRef .tc main_v200) = (mulf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v46)) (W V (Proc.devRef .tc main_v51)) :=
  (stage_binary writes 228 main_v46 main_v51 main_v200 (mulf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_v201 (V : Valuation τ sig (Elt F)) :
    W V (Proc.devRef .tc main_v201) = (subf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v199)) (W V (Proc.devRef .tc main_v200)) :=
  (stage_binary writes 229 main_v199 main_v200 main_v201 (subf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

end Cert.ReferenceIdeal.RefRun

end
-- ==== Proof.RefStages5.lean ====
import proofs.«179941_j67783173865496_2_alg».proof.Proof.RefW

noncomputable section

namespace Cert.ReferenceIdeal.RefRun

open Cert.ReferenceIdeal Cert.ReferenceIdeal.Gen Idealize.ShloMosaic Idealize.ShloMosaic.TcCoe Idealize.SL.Sem Idealize.ShloMosaic.StableHlo Cert.LibLine

variable {F : FTy → Type} [FloatOps F]

theorem st_main_v202 (V : Valuation τ sig (Elt F)) :
    W V (Proc.devRef .tc main_v202) = (Host.absf : (⟨S16x76x76x3x1, .f32⟩ : BufTy).Contents (Elt F) → (⟨S16x76x76x3x1, .f32⟩ : BufTy).Contents (Elt F)) (W V (Proc.devRef .tc main_v46)) :=
  (stage_unary writes 230 main_v46 main_v202 (Host.absf : (⟨S16x76x76x3x1, .f32⟩ : BufTy).Contents (Elt F) → (⟨S16x76x76x3x1, .f32⟩ : BufTy).Contents (Elt F)) rfl (by decide) (by decide) V :)

theorem st_main_v203 (V : Valuation τ sig (Elt F)) :
    W V (Proc.devRef .tc main_v203) = (Host.negf : (⟨S16x76x76x3x1, .f32⟩ : BufTy).Contents (Elt F) → (⟨S16x76x76x3x1, .f32⟩ : BufTy).Contents (Elt F)) (W V (Proc.devRef .tc main_v202)) :=
  (stage_unary writes 231 main_v202 main_v203 (Host.negf : (⟨S16x76x76x3x1, .f32⟩ : BufTy).Contents (Elt F) → (⟨S16x76x76x3x1, .f32⟩ : BufTy).Contents (Elt F)) rfl (by decide) (by decide) V :)

theorem st_main_v204 (V : Valuation τ sig (Elt F)) :
    W V (Proc.devRef .tc main_v204) = (Host.exp : (⟨S16x76x76x3x1, .f32⟩ : BufTy).Contents (Elt F) → (⟨S16x76x76x3x1, .f32⟩ : BufTy).Contents (Elt F)) (W V (Proc.devRef .tc main_v203)) :=
  (stage_unary writes 232 main_v203 main_v204 (Host.exp : (⟨S16x76x76x3x1, .f32⟩ : BufTy).Contents (Elt F) → (⟨S16x76x76x3x1, .f32⟩ : BufTy).Contents (Elt F)) rfl (by decide) (by decide) V :)

theorem st_main_v205 (V : Valuation τ sig (Elt F)) :
    W V (Proc.devRef .tc main_v205) = (Host.log1p : (⟨S16x76x76x3x1, .f32⟩ : BufTy).Contents (Elt F) → (⟨S16x76x76x3x1, .f32⟩ : BufTy).Contents (Elt F)) (W V (Proc.devRef .tc main_v204)) :=
  (stage_unary writes 233 main_v204 main_v205 (Host.log1p : (⟨S16x76x76x3x1, .f32⟩ : BufTy).Contents (Elt F) → (⟨S16x76x76x3x1, .f32⟩ : BufTy).Contents (Elt F)) rfl (by decide) (by decide) V :)

theorem st_main_v206 (V : Valuation τ sig (Elt F)) :
    W V (Proc.devRef .tc main_v206) = (addf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v201)) (W V (Proc.devRef .tc main_v205)) :=
  (stage_binary writes 234 main_v201 main_v205 main_v206 (addf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_v207 (V : Valuation τ sig (Elt F)) :
    W V (Proc.devRef .tc main_v207) = (mulf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v51)) (W V (Proc.devRef .tc main_v206)) :=
  (stage_binary writes 235 main_v51 main_v206 main_v207 (mulf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_v208 (V : Valuation τ sig (Elt F)) :
    W V (Proc.devRef .tc main_v208) = (mulf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v195)) (W V (Proc.devRef .tc main_v206)) :=
  (stage_binary writes 236 main_v195 main_v206 main_v208 (mulf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_v209 (V : Valuation τ sig (Elt F)) :
    W V (Proc.devRef .tc main_v209) = (addf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v207)) (W V (Proc.devRef .tc main_v208)) :=
  (stage_binary writes 237 main_v207 main_v208 main_v209 (addf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_v210 (V : Valuation τ sig (Elt F)) :
    W V (Proc.devRef .tc main_v210) = (mulf : (⟨S16x76x76x3x1, .f32⟩ : BufTy).Contents (Elt F) → (⟨S16x76x76x3x1, .f32⟩ : BufTy).Contents (Elt F) → (⟨S16x76x76x3x1, .f32⟩ : BufTy).Contents (Elt F)) (W V (Proc.devRef .tc main_v197)) (W V (Proc.devRef .tc main_v209)) :=
  (stage_binary writes 238 main_v197 main_v209 main_v210 (mulf : (⟨S16x76x76x3x1, .f32⟩ : BufTy).Contents (Elt F) → (⟨S16x76x76x3x1, .f32⟩ : BufTy).Contents (Elt F) → (⟨S16x76x76x3x1, .f32⟩ : BufTy).Contents (Elt F)) rfl (by decide) (by decide) (by decide) V :)

theorem st_main_cst_27 (V : Valuation τ sig (Elt F)) :
    W V (Proc.devRef .tc main_cst_27) = ((constant S_ .f32 0x00000000#32) : main_cst_27.ty.Contents (Elt F)) :=
  (stage_nullary writes 239 main_cst_27 (constant S_ .f32 0x00000000#32) rfl (by decide) V :)

theorem st_main_v211 (V : Valuation τ sig (Elt F)) :
    W V (Proc.devRef .tc main_v211) = (broadcastInDim S16x76x76x3x80 ![] bcast_S_S16x76x76x3x80 : (⟨S_, .f32⟩ : BufTy).Contents (Elt F) → (⟨S16x76x76x3x80, .f32⟩ : BufTy).Contents (Elt F)) (W V (Proc.devRef .tc main_cst_27)) :=
  (stage_unary writes 240 main_cst_27 main_v211 (broadcastInDim S16x76x76x3x80 ![] bcast_S_S16x76x76x3x80 : (⟨S_, .f32⟩ : BufTy).Contents (Elt F) → (⟨S16x76x76x3x80, .f32⟩ : BufTy).Contents (Elt F)) rfl (by decide) (by decide) V :)

theorem st_main_v212 (V : Valuation τ sig (Elt F)) :
    W V (Proc.devRef .tc main_v212) = (maximumf : (⟨S16x76x76x3x80, .f32⟩ : BufTy).Contents (Elt F) → (⟨S16x76x76x3x80, .f32⟩ : BufTy).Contents (Elt F) → (⟨S16x76x76x3x80, .f32⟩ : BufTy).Contents (Elt F)) (W V (Proc.devRef .tc main_v47)) (W V (Proc.devRef .tc main_v211)) :=
  (stage_binary writes 241 main_v47 main_v211 main_v212 (maximumf : (⟨S16x76x76x3x80, .f32⟩ : BufTy).Contents (Elt F) → (⟨S16x76x76x3x80, .f32⟩ : BufTy).Contents (Elt F) → (⟨S16x76x76x3x80, .f32⟩ : BufTy).Contents (Elt F)) rfl (by decide) (by decide) (by decide) V :)

theorem st_main_v213 (V : Valuation τ sig (Elt F)) :
    W V (Proc.devRef .tc main_v213) = (mulf : (⟨S16x76x76x3x80, .f32⟩ : BufTy).Contents (Elt F) → (⟨S16x76x76x3x80, .f32⟩ : BufTy).Contents (Elt F) → (⟨S16x76x76x3x80, .f32⟩ : BufTy).Contents (Elt F)) (W V (Proc.devRef .tc main_v47)) (W V (Proc.devRef .tc main_v52)) :=
  (stage_binary writes 242 main_v47 main_v52 main_v213 (mulf : (⟨S16x76x76x3x80, .f32⟩ : BufTy).Contents (Elt F) → (⟨S16x76x76x3x80, .f32⟩ : BufTy).Contents (Elt F) → (⟨S16x76x76x3x80, .f32⟩ : BufTy).Contents (Elt F)) rfl (by decide) (by decide) (by decide) V :)

theorem st_main_v214 (V : Valuation τ sig (Elt F)) :
    W V (Proc.devRef .tc main_v214) = (subf : (⟨S16x76x76x3x80, .f32⟩ : BufTy).Contents (Elt F) → (⟨S16x76x76x3x80, .f32⟩ : BufTy).Contents (Elt F) → (⟨S16x76x76x3x80, .f32⟩ : BufTy).Contents (Elt F)) (W V (Proc.devRef .tc main_v212)) (W V (Proc.devRef .tc main_v213)) :=
  (stage_binary writes 243 main_v212 main_v213 main_v214 (subf : (⟨S16x76x76x3x80, .f32⟩ : BufTy).Contents (Elt F) → (⟨S16x76x76x3x80, .f32⟩ : BufTy).Contents (Elt F) → (⟨S16x76x76x3x80, .f32⟩ : BufTy).Contents (Elt F)) rfl (by decide) (by decide) (by decide) V :)

theorem st_main_v215 (V : Valuation τ sig (Elt F)) :
    W V (Proc.devRef .tc main_v215) = (Host.absf : (⟨S16x76x76x3x80, .f32⟩ : BufTy).Contents (Elt F) → (⟨S16x76x76x3x80, .f32⟩ : BufTy).Contents (Elt F)) (W V (Proc.devRef .tc main_v47)) :=
  (stage_unary writes 244 main_v47 main_v215 (Host.absf : (⟨S16x76x76x3x80, .f32⟩ : BufTy).Contents (Elt F) → (⟨S16x76x76x3x80, .f32⟩ : BufTy).Contents (Elt F)) rfl (by decide) (by decide) V :)

theorem st_main_v216 (V : Valuation τ sig (Elt F)) :
    W V (Proc.devRef .tc main_v216) = (Host.negf : (⟨S16x76x76x3x80, .f32⟩ : BufTy).Contents (Elt F) → (⟨S16x76x76x3x80, .f32⟩ : BufTy).Contents (Elt F)) (W V (Proc.devRef .tc main_v215)) :=
  (stage_unary writes 245 main_v215 main_v216 (Host.negf : (⟨S16x76x76x3x80, .f32⟩ : BufTy).Contents (Elt F) → (⟨S16x76x76x3x80, .f32⟩ : BufTy).Contents (Elt F)) rfl (by decide) (by decide) V :)

theorem st_main_v217 (V : Valuation τ sig (Elt F)) :
    W V (Proc.devRef .tc main_v217) = (Host.exp : (⟨S16x76x76x3x80, .f32⟩ : BufTy).Contents (Elt F) → (⟨S16x76x76x3x80, .f32⟩ : BufTy).Contents (Elt F)) (W V (Proc.devRef .tc main_v216)) :=
  (stage_unary writes 246 main_v216 main_v217 (Host.exp : (⟨S16x76x76x3x80, .f32⟩ : BufTy).Contents (Elt F) → (⟨S16x76x76x3x80, .f32⟩ : BufTy).Contents (Elt F)) rfl (by decide) (by decide) V :)

theorem st_main_v218 (V : Valuation τ sig (Elt F)) :
    W V (Proc.devRef .tc main_v218) = (Host.log1p : (⟨S16x76x76x3x80, .f32⟩ : BufTy).Contents (Elt F) → (⟨S16x76x76x3x80, .f32⟩ : BufTy).Contents (Elt F)) (W V (Proc.devRef .tc main_v217)) :=
  (stage_unary writes 247 main_v217 main_v218 (Host.log1p : (⟨S16x76x76x3x80, .f32⟩ : BufTy).Contents (Elt F) → (⟨S16x76x76x3x80, .f32⟩ : BufTy).Contents (Elt F)) rfl (by decide) (by decide) V :)

theorem st_main_v219 (V : Valuation τ sig (Elt F)) :
    W V (Proc.devRef .tc main_v219) = (addf : (⟨S16x76x76x3x80, .f32⟩ : BufTy).Contents (Elt F) → (⟨S16x76x76x3x80, .f32⟩ : BufTy).Contents (Elt F) → (⟨S16x76x76x3x80, .f32⟩ : BufTy).Contents (Elt F)) (W V (Proc.devRef .tc main_v214)) (W V (Proc.devRef .tc main_v218)) :=
  (stage_binary writes 248 main_v214 main_v218 main_v219 (addf : (⟨S16x76x76x3x80, .f32⟩ : BufTy).Contents (Elt F) → (⟨S16x76x76x3x80, .f32⟩ : BufTy).Contents (Elt F) → (⟨S16x76x76x3x80, .f32⟩ : BufTy).Contents (Elt F)) rfl (by decide) (by decide) (by decide) V :)

theorem st_main_v220 (V : Valuation τ sig (Elt F)) :
    W V (Proc.devRef .tc main_v220) = (broadcastInDim S16x76x76x3x80 ![0, 1, 2, 3, 4] bcast_S16x76x76x3x1_S16x76x76x3x80_0_1_2_3_4 : (⟨S16x76x76x3x1, .f32⟩ : BufTy).Contents (Elt F) → (⟨S16x76x76x3x80, .f32⟩ : BufTy).Contents (Elt F)) (W V (Proc.devRef .tc main_v51)) :=
  (stage_unary writes 249 main_v51 main_v220 (broadcastInDim S16x76x76x3x80 ![0, 1, 2, 3, 4] bcast_S16x76x76x3x1_S16x76x76x3x80_0_1_2_3_4 : (⟨S16x76x76x3x1, .f32⟩ : BufTy).Contents (Elt F) → (⟨S16x76x76x3x80, .f32⟩ : BufTy).Contents (Elt F)) rfl (by decide) (by decide) V :)

theorem st_main_v221 (V : Valuation τ sig (Elt F)) :
    W V (Proc.devRef .tc main_v221) = (mulf : (⟨S16x76x76x3x80, .f32⟩ : BufTy).Contents (Elt F) → (⟨S16x76x76x3x80, .f32⟩ : BufTy).Contents (Elt F) → (⟨S16x76x76x3x80, .f32⟩ : BufTy).Contents (Elt F)) (W V (Proc.devRef .tc main_v220)) (W V (Proc.devRef .tc main_v219)) :=
  (stage_binary writes 250 main_v220 main_v219 main_v221 (mulf : (⟨S16x76x76x3x80, .f32⟩ : BufTy).Contents (Elt F) → (⟨S16x76x76x3x80, .f32⟩ : BufTy).Contents (Elt F) → (⟨S16x76x76x3x80, .f32⟩ : BufTy).Contents (Elt F)) rfl (by decide) (by decide) (by decide) V :)

theorem st_main_cst_28 (V : Valuation τ sig (Elt F)) :
    W V (Proc.devRef .tc main_cst_28) = ((constant S_ .f32 0x00000000#32) : main_cst_28.ty.Contents (Elt F)) :=
  (stage_nullary writes 251 main_cst_28 (constant S_ .f32 0x00000000#32) rfl (by decide) V :)

theorem st_main_v222 (V : Valuation τ sig (Elt F)) :
    W V (Proc.devRef .tc main_v222) = ((fun x v => Host.reduceAdd x v reducesTo_S16x76x76x3x1_S16_d1_2_3_4 h_S_) : (⟨S16x76x76x3x1, .f32⟩ : BufTy).Contents (Elt F) → (⟨S_, .f32⟩ : BufTy).Contents (Elt F) → (⟨S16, .f32⟩ : BufTy).Contents (Elt F)) (W V (Proc.devRef .tc main_v130)) (W V (Proc.devRef .tc main_cst_28)) :=
  (stage_binary writes 252 main_v130 main_cst_28 main_v222 ((fun x v => Host.reduceAdd x v reducesTo_S16x76x76x3x1_S16_d1_2_3_4 h_S_) : (⟨S16x76x76x3x1, .f32⟩ : BufTy).Contents (Elt F) → (⟨S_, .f32⟩ : BufTy).Contents (Elt F) → (⟨S16, .f32⟩ : BufTy).Contents (Elt F)) rfl (by decide) (by decide) (by decide) V :)

theorem st_main_cst_29 (V : Valuation τ sig (Elt F)) :
    W V (Proc.devRef .tc main_cst_29) = ((constant S_ .f32 0x00000000#32) : main_cst_29.ty.Contents (Elt F)) :=
  (stage_nullary writes 253 main_cst_29 (constant S_ .f32 0x00000000#32) rfl (by decide) V :)

theorem st_main_v223 (V : Valuation τ sig (Elt F)) :
    W V (Proc.devRef .tc main_v223) = ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)) (W V (Proc.devRef .tc main_v222)) (W V (Proc.devRef .tc main_cst_29)) :=
  (stage_binary writes 254 main_v222 main_cst_29 main_v223 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)) rfl (by decide) (by decide) (by decide) V :)

theorem st_main_cst_30 (V : Valuation τ sig (Elt F)) :
    W V (Proc.devRef .tc main_cst_30) = ((constant S_ .f32 0x41800000#32) : main_cst_30.ty.Contents (Elt F)) :=
  (stage_nullary writes 255 main_cst_30 (constant S_ .f32 0x41800000#32) rfl (by decide) V :)

theorem st_main_v224 (V : Valuation τ sig (Elt F)) :
    W V (Proc.devRef .tc main_v224) = (Host.divf : (⟨S_, .f32⟩ : BufTy).Contents (Elt F) → (⟨S_, .f32⟩ : BufTy).Contents (Elt F) → (⟨S_, .f32⟩ : BufTy).Contents (Elt F)) (W V (Proc.devRef .tc main_v223)) (W V (Proc.devRef .tc main_cst_30)) :=
  (stage_binary writes 256 main_v223 main_cst_30 main_v224 (Host.divf : (⟨S_, .f32⟩ : BufTy).Contents (Elt F) → (⟨S_, .f32⟩ : BufTy).Contents (Elt F) → (⟨S_, .f32⟩ : BufTy).Contents (Elt F)) rfl (by decide) (by decide) (by decide) V :)

theorem st_main_cst_31 (V : Valuation τ sig (Elt F)) :
    W V (Proc.devRef .tc main_cst_31) = ((constant S_ .f32 0x00000000#32) : main_cst_31.ty.Contents (Elt F)) :=
  (stage_nullary writes 257 main_cst_31 (constant S_ .f32 0x00000000#32) rfl (by decide) V :)

theorem st_main_v225 (V : Valuation τ sig (Elt F)) :
    W V (Proc.devRef .tc main_v225) = ((fun x v => Host.reduceAdd x v reducesTo_S16x76x76x3x1_S16_d1_2_3_4 h_S_) : (⟨S16x76x76x3x1, .f32⟩ : BufTy).Contents (Elt F) → (⟨S_, .f32⟩ : BufTy).Contents (Elt F) → (⟨S16, .f32⟩ : BufTy).Contents (Elt F)) (W V (Proc.devRef .tc main_v210)) (W V (Proc.devRef .tc main_cst_31)) :=
  (stage_binary writes 258 main_v210 main_cst_31 main_v225 ((fun x v => Host.reduceAdd x v reducesTo_S16x76x76x3x1_S16_d1_2_3_4 h_S_) : (⟨S16x76x76x3x1, .f32⟩ : BufTy).Contents (Elt F) → (⟨S_, .f32⟩ : BufTy).Contents (Elt F) → (⟨S16, .f32⟩ : BufTy).Contents (Elt F)) rfl (by decide) (by decide) (by decide) V :)

theorem st_main_cst_32 (V : Valuation τ sig (Elt F)) :
    W V (Proc.devRef .tc main_cst_32) = ((constant S_ .f32 0x00000000#32) : main_cst_32.ty.Contents (Elt F)) :=
  (stage_nullary writes 259 main_cst_32 (constant S_ .f32 0x00000000#32) rfl (by decide) V :)

theorem st_main_v226 (V : Valuation τ sig (Elt F)) :
    W V (Proc.devRef .tc main_v226) = ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)) (W V (Proc.devRef .tc main_v225)) (W V (Proc.devRef .tc main_cst_32)) :=
  (stage_binary writes 260 main_v225 main_cst_32 main_v226 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)) rfl (by decide) (by decide) (by decide) V :)

theorem st_main_cst_33 (V : Valuation τ sig (Elt F)) :
    W V (Proc.devRef .tc main_cst_33) = ((constant S_ .f32 0x41800000#32) : main_cst_33.ty.Contents (Elt F)) :=
  (stage_nullary writes 261 main_cst_33 (constant S_ .f32 0x41800000#32) rfl (by decide) V :)

theorem st_main_v227 (V : Valuation τ sig (Elt F)) :
    W V (Proc.devRef .tc main_v227) = (Host.divf : (⟨S_, .f32⟩ : BufTy).Contents (Elt F) → (⟨S_, .f32⟩ : BufTy).Contents (Elt F) → (⟨S_, .f32⟩ : BufTy).Contents (Elt F)) (W V (Proc.devRef .tc main_v226)) (W V (Proc.devRef .tc main_cst_33)) :=
  (stage_binary writes 262 main_v226 main_cst_33 main_v227 (Host.divf : (⟨S_, .f32⟩ : BufTy).Contents (Elt F) → (⟨S_, .f32⟩ : BufTy).Contents (Elt F) → (⟨S_, .f32⟩ : BufTy).Contents (Elt F)) rfl (by decide) (by decide) (by decide) V :)

theorem st_main_cst_34 (V : Valuation τ sig (Elt F)) :
    W V (Proc.devRef .tc main_cst_34) = ((constant S_ .f32 0x00000000#32) : main_cst_34.ty.Contents (Elt F)) :=
  (stage_nullary writes 263 main_cst_34 (constant S_ .f32 0x00000000#32) rfl (by decide) V :)

theorem st_main_v228 (V : Valuation τ sig (Elt F)) :
    W V (Proc.devRef .tc main_v228) = ((fun x v => Host.reduceAdd x v reducesTo_S16x76x76x3x80_S16_d1_2_3_4 h_S_) : (⟨S16x76x76x3x80, .f32⟩ : BufTy).Contents (Elt F) → (⟨S_, .f32⟩ : BufTy).Contents (Elt F) → (⟨S16, .f32⟩ : BufTy).Contents (Elt F)) (W V (Proc.devRef .tc main_v221)) (W V (Proc.devRef .tc main_cst_34)) :=
  (stage_binary writes 264 main_v221 main_cst_34 main_v228 ((fun x v => Host.reduceAdd x v reducesTo_S16x76x76x3x80_S16_d1_2_3_4 h_S_) : (⟨S16x76x76x3x80, .f32⟩ : BufTy).Contents (Elt F) → (⟨S_, .f32⟩ : BufTy).Contents (Elt F) → (⟨S16, .f32⟩ : BufTy).Contents (Elt F)) rfl (by decide) (by decide) (by decide) V :)

theorem st_main_cst_35 (V : Valuation τ sig (Elt F)) :
    W V (Proc.devRef .tc main_cst_35) = ((constant S_ .f32 0x00000000#32) : main_cst_35.ty.Contents (Elt F)) :=
  (stage_nullary writes 265 main_cst_35 (constant S_ .f32 0x00000000#32) rfl (by decide) V :)

theorem st_main_v229 (V : Valuation τ sig (Elt F)) :
    W V (Proc.devRef .tc main_v229) = ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)) (W V (Proc.devRef .tc main_v228)) (W V (Proc.devRef .tc main_cst_35)) :=
  (stage_binary writes 266 main_v228 main_cst_35 main_v229 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)) rfl (by decide) (by decide) (by decide) V :)

theorem st_main_cst_36 (V : Valuation τ sig (Elt F)) :
    W V (Proc.devRef .tc main_cst_36) = ((constant S_ .f32 0x41800000#32) : main_cst_36.ty.Contents (Elt F)) :=
  (stage_nullary writes 267 main_cst_36 (constant S_ .f32 0x41800000#32) rfl (by decide) V :)

theorem st_main_v230 (V : Valuation τ sig (Elt F)) :
    W V (Proc.devRef .tc main_v230) = (Host.divf : (⟨S_, .f32⟩ : BufTy).Contents (Elt F) → (⟨S_, .f32⟩ : BufTy).Contents (Elt F) → (⟨S_, .f32⟩ : BufTy).Contents (Elt F)) (W V (Proc.devRef .tc main_v229)) (W V (Proc.devRef .tc main_cst_36)) :=
  (stage_binary writes 268 main_v229 main_cst_36 main_v230 (Host.divf : (⟨S_, .f32⟩ : BufTy).Contents (Elt F) → (⟨S_, .f32⟩ : BufTy).Contents (Elt F) → (⟨S_, .f32⟩ : BufTy).Contents (Elt F)) rfl (by decide) (by decide) (by decide) V :)

theorem st_main_v231 (V : Valuation τ sig (Elt F)) :
    W V (Proc.devRef .tc main_v231) = (broadcastInDim S1 ![] bcast_S_S1 : (⟨S_, .f32⟩ : BufTy).Contents (Elt F) → (⟨S1, .f32⟩ : BufTy).Contents (Elt F)) (W V (Proc.devRef .tc main_v224)) :=
  (stage_unary writes 269 main_v224 main_v231 (broadcastInDim S1 ![] bcast_S_S1 : (⟨S_, .f32⟩ : BufTy).Contents (Elt F) → (⟨S1, .f32⟩ : BufTy).Contents (Elt F)) rfl (by decide) (by decide) V :)

theorem st_main_v232 (V : Valuation τ sig (Elt F)) :
    W V (Proc.devRef .tc main_v232) = (broadcastInDim S1 ![] bcast_S_S1 : (⟨S_, .f32⟩ : BufTy).Contents (Elt F) → (⟨S1, .f32⟩ : BufTy).Contents (Elt F)) (W V (Proc.devRef .tc main_v227)) :=
  (stage_unary writes 270 main_v227 main_v232 (broadcastInDim S1 ![] bcast_S_S1 : (⟨S_, .f32⟩ : BufTy).Contents (Elt F) → (⟨S1, .f32⟩ : BufTy).Contents (Elt F)) rfl (by decide) (by decide) V :)

theorem st_main_v233 (V : Valuation τ sig (Elt F)) :
    W V (Proc.devRef .tc main_v233) = (broadcastInDim S1 ![] bcast_S_S1 : (⟨S_, .f32⟩ : BufTy).Contents (Elt F) → (⟨S1, .f32⟩ : BufTy).Contents (Elt F)) (W V (Proc.devRef .tc main_v230)) :=
  (stage_unary writes 271 main_v230 main_v233 (broadcastInDim S1 ![] bcast_S_S1 : (⟨S_, .f32⟩ : BufTy).Contents (Elt F) → (⟨S1, .f32⟩ : BufTy).Contents (Elt F)) rfl (by decide) (by decide) V :)

theorem st_main_v234 (V : Valuation τ sig (Elt F)) :
    W V (Proc.devRef .tc main_v234) = concatenate S3 0 [⟨S1, W V (Proc.devRef .tc main_v231)⟩, ⟨S1, W V (Proc.devRef .tc main_v232)⟩, ⟨S1, W V (Proc.devRef .tc main_v233)⟩] concatenates_S1_S1_S1_S3_d0 :=
  (stage_nary writes 272 ![main_v231, main_v232, main_v233] main_v234 (fun u => concatenate S3 0 [⟨S1, u 0⟩, ⟨S1, u 1⟩, ⟨S1, u 2⟩] concatenates_S1_S1_S1_S3_d0) rfl (by decide) (by decide) V :)

end Cert.ReferenceIdeal.RefRun

end
-- ==== Proof.RefStages.lean ====
import proofs.«179941_j67783173865496_2_alg».proof.Proof.RefStages0
import proofs.«179941_j67783173865496_2_alg».proof.Proof.RefStages1
import proofs.«179941_j67783173865496_2_alg».proof.Proof.RefStages2
import proofs.«179941_j67783173865496_2_alg».proof.Proof.RefStages3
import proofs.«179941_j67783173865496_2_alg».proof.Proof.RefStages4
import proofs.«179941_j67783173865496_2_alg».proof.Proof.RefStages5
-- ==== Proof.RefPred.lean ====
/-
  The reference's decode of the raw array, read at an index.

  The raw array x [16,76,76,3,85] is cut along its last axis into the centres' logits (2), the extents' logits (2), the
  confidence logit (1) and the class logits (80).  The centres are ((σ(x)·1.2 − 0.1) + grid)·8, where the grid
  [1,76,76,1,2] holds at (0,i,j,0,0) the column j and at (0,i,j,0,1) the row i, each the 32-bit word of the index read
  signed; the extents are e^x · anchor; confidence and classes go through σ = 1/(1 + e^{−x}).  The four pieces are laid
  side by side again along the last axis and the first four columns are the predicted boxes (x, y, w, h), the fifth the
  predicted confidence.  Each array below is the composition of the operations in the order the reference applies
  them, and each lemma reads it at the cell (b, i, j, a).
-/
import proofs.«179941_j67783173865496_2_alg».proof.Proof.Gen.ReferenceIdeal
import proofs.«179941_j67783173865496_2_alg».proof.Proof.Loss
import Idealize.ShloMosaic.Lib.ValueLayout
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx

/-- The scalar constant of word `w` broadcast to the shape `S`. -/
abbrev cst (S : Shape) (h : S_.BroadcastsInDim S (![] : Fin 0 → Fin S.rank)) (w : BitVec 32) : S.Idx → EReal :=
  broadcastInDim S ![] h (constant (F := Ideal) S_ .f32 w)

theorem cst_apply (S : Shape) (h : S_.BroadcastsInDim S (![] : Fin 0 → Fin S.rank)) (w : BitVec 32) (q : S.Idx) :
    cst S h w q = Cert.Loss.lit w := rfl

/-- The logistic function as the reference spells it: 1 / (1 + e^{-x}), the two ones broadcast constants. -/
def sigArr (S : Shape) (h : S_.BroadcastsInDim S (![] : Fin 0 → Fin S.rank)) (x : S.Idx → EReal) : S.Idx → EReal :=
  Host.divf (F := Ideal) (φ := .f32) (cst S h 0x3F800000#32)
    (addf (F := Ideal) (φ := .f32) (cst S h 0x3F800000#32) (Host.exp (F := Ideal) (φ := .f32) (Host.negf (F := Ideal) (φ := .f32) x)))

theorem sigArr_apply (S : Shape) (h : S_.BroadcastsInDim S (![] : Fin 0 → Fin S.rank)) (x : S.Idx → EReal) (q : S.Idx) :
    sigArr S h x q = Ideal.logistic (x q) := by
  show Ideal.div (Ideal.ofBits .f32 0x3F800000#32) (Ideal.ofBits .f32 0x3F800000#32 + Ideal.exp (-(x q))) = _
  rw [Ideal.ofBits_one_f32]; rfl

/-- The two coordinate planes [76,76,1] of the grid, as 32-bit words: the column index, and the row index. -/
def colPlane : S76x76x1.Idx → BitVec 32 :=
  broadcastInDim S76x76x1 ![0, 1] bcast_S76x76_S76x76x1_0_1 (broadcastInDim S76x76 ![1] bcast_S76_S76x76_1 (iotaInDim S76 32 0))
def rowPlane : S76x76x1.Idx → BitVec 32 :=
  broadcastInDim S76x76x1 ![0, 1] bcast_S76x76_S76x76x1_0_1 (broadcastInDim S76x76 ![0] bcast_S76_S76x76_0 (iotaInDim S76 32 0))

theorem colPlane_apply (i j : Fin 76) : colPlane (ix3 i j (0 : Fin 1)) = BitVec.ofNat 32 j.val := by
  unfold colPlane
  refine (broadcastInDim_apply _ _ _ (ix3 i j (0 : Fin 1)) (ix2 i j) (fun ax => by
    match ax with
    | ⟨0, _⟩ => rfl
    | ⟨1, _⟩ => rfl)).trans ?_
  refine (broadcastInDim_apply _ _ _ (ix2 i j) (ix1 j) (fun ax => by
    match ax with
    | ⟨0, _⟩ => rfl)).trans ?_
  rfl

theorem rowPlane_apply (i j : Fin 76) : rowPlane (ix3 i j (0 : Fin 1)) = BitVec.ofNat 32 i.val := by
  unfold rowPlane
  refine (broadcastInDim_apply _ _ _ (ix3 i j (0 : Fin 1)) (ix2 i j) (fun ax => by
    match ax with
    | ⟨0, _⟩ => rfl
    | ⟨1, _⟩ => rfl)).trans ?_
  refine (broadcastInDim_apply _ _ _ (ix2 i j) (ix1 i) (fun ax => by
    match ax with
    | ⟨0, _⟩ => rfl)).trans ?_
  rfl

/-- The grid of cell coordinates [1,76,76,1,2] as numbers: entry (0,i,j,0,0) the column, (0,i,j,0,1) the row. -/
def gridArr : S1x76x76x1x2.Idx → EReal :=
  sitofp (F := Ideal) .f32 (broadcastInDim S1x76x76x1x2 ![1, 2, 4] bcast_S76x76x2_S1x76x76x1x2_1_2_4
    (concatenate S76x76x2 2 [⟨S76x76x1, colPlane⟩, ⟨S76x76x1, rowPlane⟩] concatenates_S76x76x1_S76x76x1_S76x76x2_d2))

theorem gridArr_col (i j : Fin 76) : gridArr (ix5 (0 : Fin 1) i j (0 : Fin 1) (0 : Fin 2)) = Cert.Loss.coord j.val := by
  unfold gridArr
  rw [sitofp_apply]
  refine congrArg _ ?_
  refine (broadcastInDim_apply _ _ _ (ix5 (0 : Fin 1) i j (0 : Fin 1) (0 : Fin 2)) (ix3 i j (0 : Fin 2)) (fun ax => by
    match ax with
    | ⟨0, _⟩ => rfl
    | ⟨1, _⟩ => rfl
    | ⟨2, _⟩ => rfl)).trans ?_
  refine (concatenate_pair_apply_left (t := S76x76x2) 2 colPlane rowPlane _ (ix3 i j (0 : Fin 2)) rfl (ix3 i j (0 : Fin 1)) (fun ax => by
    match ax with
    | ⟨0, _⟩ => rfl
    | ⟨1, _⟩ => rfl
    | ⟨2, _⟩ => rfl)).trans ?_
  exact colPlane_apply i j

theorem gridArr_row (i j : Fin 76) : gridArr (ix5 (0 : Fin 1) i j (0 : Fin 1) (1 : Fin 2)) = Cert.Loss.coord i.val := by
  unfold gridArr
  rw [sitofp_apply]
  refine congrArg _ ?_
  refine (broadcastInDim_apply _ _ _ (ix5 (0 : Fin 1) i j (0 : Fin 1) (1 : Fin 2)) (ix3 i j (1 : Fin 2)) (fun ax => by
    match ax with
    | ⟨0, _⟩ => rfl
    | ⟨1, _⟩ => rfl
    | ⟨2, _⟩ => rfl)).trans ?_
  refine (concatenate_pair_apply_right (t := S76x76x2) 2 colPlane rowPlane _ (ix3 i j (1 : Fin 2)) rfl rfl (ix3 i j (0 : Fin 1)) (fun ax hax => by
    match ax with
    | ⟨0, _⟩ => rfl
    | ⟨1, _⟩ => rfl
    | ⟨2, _⟩ => exact absurd rfl hax) rfl).trans ?_
  exact rowPlane_apply i j

section Decode

variable (x : S16x76x76x3x85.Idx → EReal) (anc : S3x2.Idx → EReal)

/-- The four slices of the raw array along its last axis: centres' logits, extents' logits, confidence logit, class logits. -/
def rawXY : S16x76x76x3x2.Idx → EReal :=
  extractStridedSlice S16x76x76x3x2 ![0, 0, 0, 0, 0] x slices_S16x76x76x3x85_S16x76x76x3x2_0_0_0_0_0
def rawWH : S16x76x76x3x2.Idx → EReal :=
  extractStridedSlice S16x76x76x3x2 ![0, 0, 0, 0, 2] x slices_S16x76x76x3x85_S16x76x76x3x2_0_0_0_0_2
def rawConfArr : S16x76x76x3x1.Idx → EReal :=
  extractStridedSlice S16x76x76x3x1 ![0, 0, 0, 0, 4] x slices_S16x76x76x3x85_S16x76x76x3x1_0_0_0_0_4
def rawClassArr : S16x76x76x3x80.Idx → EReal :=
  extractStridedSlice S16x76x76x3x80 ![0, 0, 0, 0, 5] x slices_S16x76x76x3x85_S16x76x76x3x80_0_0_0_0_5

theorem rawXY_apply (b : Fin 16) (i j : Fin 76) (a : Fin 3) (k : Fin 2) (k' : Fin 85) (hk : k'.val = 0 + k.val) :
    rawXY x (ix5 b i j a k) = x (ix5 b i j a k') :=
  slice5_axis4_apply 0 x _ b i j a k k' hk
theorem rawWH_apply (b : Fin 16) (i j : Fin 76) (a : Fin 3) (k : Fin 2) (k' : Fin 85) (hk : k'.val = 2 + k.val) :
    rawWH x (ix5 b i j a k) = x (ix5 b i j a k') :=
  slice5_axis4_apply 2 x _ b i j a k k' hk
theorem rawConfArr_apply (b : Fin 16) (i j : Fin 76) (a : Fin 3) :
    rawConfArr x (ix5 b i j a (0 : Fin 1)) = x (ix5 b i j a (4 : Fin 85)) :=
  slice5_axis4_apply 4 x _ b i j a (0 : Fin 1) (4 : Fin 85) rfl
theorem rawClassArr_apply (b : Fin 16) (i j : Fin 76) (a : Fin 3) (k : Fin 80) :
    rawClassArr x (ix5 b i j a k) = x (ix5 b i j a (⟨5 + k.val, by omega⟩ : Fin 85)) :=
  slice5_axis4_apply 5 x _ b i j a k _ rfl

/-- The predicted centres [..,2]: ((σ(x)·1.2 − 0.1) + grid)·8, the grid broadcast over images and anchors. -/
def centresArr : S16x76x76x3x2.Idx → EReal :=
  mulf (F := Ideal) (φ := .f32)
    (addf (F := Ideal) (φ := .f32)
      (subf (F := Ideal) (φ := .f32)
        (mulf (F := Ideal) (φ := .f32) (sigArr S16x76x76x3x2 bcast_S_S16x76x76x3x2 (rawXY x))
          (cst S16x76x76x3x2 bcast_S_S16x76x76x3x2 0x3F99999A#32))
        (cst S16x76x76x3x2 bcast_S_S16x76x76x3x2 0x3DCCCCCD#32))
      (broadcastInDim S16x76x76x3x2 ![0, 1, 2, 3, 4] bcast_S1x76x76x1x2_S16x76x76x3x2_0_1_2_3_4 gridArr))
    (cst S16x76x76x3x2 bcast_S_S16x76x76x3x2 0x41000000#32)

theorem gridB_apply (b : Fin 16) (i j : Fin 76) (a : Fin 3) (k : Fin 2) :
    broadcastInDim S16x76x76x3x2 ![0, 1, 2, 3, 4] bcast_S1x76x76x1x2_S16x76x76x3x2_0_1_2_3_4 gridArr (ix5 b i j a k)
      = gridArr (ix5 (0 : Fin 1) i j (0 : Fin 1) k) :=
  broadcastInDim_apply _ _ _ (ix5 b i j a k) (ix5 (0 : Fin 1) i j (0 : Fin 1) k) (fun ax => by
    match ax with
    | ⟨0, _⟩ => rfl
    | ⟨1, _⟩ => rfl
    | ⟨2, _⟩ => rfl
    | ⟨3, _⟩ => rfl
    | ⟨4, _⟩ => rfl)

theorem centresArr_apply (b : Fin 16) (i j : Fin 76) (a : Fin 3) (k : Fin 2) (k' : Fin 85) (hk : k'.val = 0 + k.val) :
    centresArr x (ix5 b i j a k)
      = Cert.Loss.centre (x (ix5 b i j a k')) (gridArr (ix5 (0 : Fin 1) i j (0 : Fin 1) k)) := by
  show ((sigArr S16x76x76x3x2 bcast_S_S16x76x76x3x2 (rawXY x) (ix5 b i j a k) * Cert.Loss.lit 0x3F99999A#32 - Cert.Loss.lit 0x3DCCCCCD#32)
      + broadcastInDim S16x76x76x3x2 ![0, 1, 2, 3, 4] bcast_S1x76x76x1x2_S16x76x76x3x2_0_1_2_3_4 gridArr (ix5 b i j a k))
      * Cert.Loss.lit 0x41000000#32 = _
  rw [sigArr_apply, rawXY_apply x b i j a k k' hk, gridB_apply]
  rfl

/-- The anchor table broadcast to every cell. -/
def ancB : S16x76x76x3x2.Idx → EReal :=
  broadcastInDim S16x76x76x3x2 ![0, 1, 2, 3, 4] bcast_S1x1x1x3x2_S16x76x76x3x2_0_1_2_3_4
    (broadcastInDim S1x1x1x3x2 ![3, 4] bcast_S3x2_S1x1x1x3x2_3_4 anc)

theorem ancB_apply (b : Fin 16) (i j : Fin 76) (a : Fin 3) (k : Fin 2) :
    ancB anc (ix5 b i j a k) = anc (ix2 a k) := by
  unfold ancB
  refine (broadcastInDim_apply _ _ _ (ix5 b i j a k) (ix5 (0 : Fin 1) (0 : Fin 1) (0 : Fin 1) a k) (fun ax => by
    match ax with
    | ⟨0, _⟩ => rfl
    | ⟨1, _⟩ => rfl
    | ⟨2, _⟩ => rfl
    | ⟨3, _⟩ => rfl
    | ⟨4, _⟩ => rfl)).trans ?_
  exact broadcastInDim_apply _ _ _ (ix5 (0 : Fin 1) (0 : Fin 1) (0 : Fin 1) a k) (ix2 a k) (fun ax => by
    match ax with
    | ⟨0, _⟩ => rfl
    | ⟨1, _⟩ => rfl)

/-- The predicted extents [..,2]: e^x · anchor. -/
def extentsArr : S16x76x76x3x2.Idx → EReal :=
  mulf (F := Ideal) (φ := .f32) (Host.exp (F := Ideal) (φ := .f32) (rawWH x)) (ancB anc)

theorem extentsArr_apply (b : Fin 16) (i j : Fin 76) (a : Fin 3) (k : Fin 2) (k' : Fin 85) (hk : k'.val = 2 + k.val) :
    extentsArr x anc (ix5 b i j a k) = Cert.Loss.extent (x (ix5 b i j a k')) (anc (ix2 a k)) := by
  show Ideal.exp (rawWH x (ix5 b i j a k)) * ancB anc (ix5 b i j a k) = _
  rw [rawWH_apply x b i j a k k' hk, ancB_apply]
  rfl

/-- The decoded array [..,85]: centres, extents, σ(confidence), σ(classes) side by side along the last axis. -/
def decodedArr : S16x76x76x3x85.Idx → EReal :=
  concatenate S16x76x76x3x85 4
    [⟨S16x76x76x3x2, centresArr x⟩, ⟨S16x76x76x3x2, extentsArr x anc⟩,
     ⟨S16x76x76x3x1, sigArr S16x76x76x3x1 bcast_S_S16x76x76x3x1 (rawConfArr x)⟩,
     ⟨S16x76x76x3x80, sigArr S16x76x76x3x80 bcast_S_S16x76x76x3x80 (rawClassArr x)⟩]
    concatenates_S16x76x76x3x2_S16x76x76x3x2_S16x76x76x3x1_S16x76x76x3x80_S16x76x76x3x85_d4

theorem decodedArr_centres (b : Fin 16) (i j : Fin 76) (a : Fin 3) (k : Fin 2) (k' : Fin 85) (hk : k'.val = 0 + k.val) :
    decodedArr x anc (ix5 b i j a k') = centresArr x (ix5 b i j a k) := by
  unfold decodedArr
  exact concatenate_apply_piece (t := S16x76x76x3x85) 4 _ _ (ix5 b i j a k') 0 (by show (0 : Nat) < 4; omega) S16x76x76x3x2 (centresArr x) rfl rfl 0 rfl
    (ix5 b i j a k) (fun ax hax => by
      match ax with
      | ⟨0, _⟩ => rfl
      | ⟨1, _⟩ => rfl
      | ⟨2, _⟩ => rfl
      | ⟨3, _⟩ => rfl
      | ⟨4, _⟩ => exact absurd rfl hax) hk.symm

theorem decodedArr_extents (b : Fin 16) (i j : Fin 76) (a : Fin 3) (k : Fin 2) (k' : Fin 85) (hk : k'.val = 2 + k.val) :
    decodedArr x anc (ix5 b i j a k') = extentsArr x anc (ix5 b i j a k) := by
  unfold decodedArr
  exact concatenate_apply_piece (t := S16x76x76x3x85) 4 _ _ (ix5 b i j a k') 1 (by show (1 : Nat) < 4; omega) S16x76x76x3x2 (extentsArr x anc) rfl rfl 2 rfl
    (ix5 b i j a k) (fun ax hax => by
      match ax with
      | ⟨0, _⟩ => rfl
      | ⟨1, _⟩ => rfl
      | ⟨2, _⟩ => rfl
      | ⟨3, _⟩ => rfl
      | ⟨4, _⟩ => exact absurd rfl hax) hk.symm

theorem decodedArr_conf (b : Fin 16) (i j : Fin 76) (a : Fin 3) :
    decodedArr x anc (ix5 b i j a (4 : Fin 85)) = sigArr S16x76x76x3x1 bcast_S_S16x76x76x3x1 (rawConfArr x) (ix5 b i j a (0 : Fin 1)) := by
  unfold decodedArr
  exact concatenate_apply_piece (t := S16x76x76x3x85) 4 _ _ (ix5 b i j a (4 : Fin 85)) 2 (by show (2 : Nat) < 4; omega) S16x76x76x3x1 _ rfl rfl 4 rfl
    (ix5 b i j a (0 : Fin 1)) (fun ax hax => by
      match ax with
      | ⟨0, _⟩ => rfl
      | ⟨1, _⟩ => rfl
      | ⟨2, _⟩ => rfl
      | ⟨3, _⟩ => rfl
      | ⟨4, _⟩ => exact absurd rfl hax) rfl

/-- The predicted boxes [..,4] and the predicted confidence [..,1]: slices of the decoded array. -/
def predArr : S16x76x76x3x4.Idx → EReal :=
  extractStridedSlice S16x76x76x3x4 ![0, 0, 0, 0, 0] (decodedArr x anc) slices_S16x76x76x3x85_S16x76x76x3x4_0_0_0_0_0
def sigConfArr : S16x76x76x3x1.Idx → EReal :=
  extractStridedSlice S16x76x76x3x1 ![0, 0, 0, 0, 4] (decodedArr x anc) slices_S16x76x76x3x85_S16x76x76x3x1_0_0_0_0_4

theorem predArr_apply (b : Fin 16) (i j : Fin 76) (a : Fin 3) :
    predArr x anc (ix5 b i j a (0 : Fin 4)) = Cert.Loss.px (Cert.Loss.cellOf x b i j a) j.val
  ∧ predArr x anc (ix5 b i j a (1 : Fin 4)) = Cert.Loss.py (Cert.Loss.cellOf x b i j a) i.val
  ∧ predArr x anc (ix5 b i j a (2 : Fin 4)) = Cert.Loss.pw (Cert.Loss.cellOf x b i j a) anc a
  ∧ predArr x anc (ix5 b i j a (3 : Fin 4)) = Cert.Loss.ph (Cert.Loss.cellOf x b i j a) anc a := by
  refine ⟨?_, ?_, ?_, ?_⟩
  · refine (slice5_axis4_apply 0 (decodedArr x anc) _ b i j a (0 : Fin 4) (0 : Fin 85) rfl).trans ?_
    rw [decodedArr_centres x anc b i j a (0 : Fin 2) (0 : Fin 85) rfl, centresArr_apply x b i j a (0 : Fin 2) (0 : Fin 85) rfl, gridArr_col]
    rfl
  · refine (slice5_axis4_apply 0 (decodedArr x anc) _ b i j a (1 : Fin 4) (1 : Fin 85) rfl).trans ?_
    rw [decodedArr_centres x anc b i j a (1 : Fin 2) (1 : Fin 85) rfl, centresArr_apply x b i j a (1 : Fin 2) (1 : Fin 85) rfl, gridArr_row]
    rfl
  · refine (slice5_axis4_apply 0 (decodedArr x anc) _ b i j a (2 : Fin 4) (2 : Fin 85) rfl).trans ?_
    rw [decodedArr_extents x anc b i j a (0 : Fin 2) (2 : Fin 85) rfl, extentsArr_apply x anc b i j a (0 : Fin 2) (2 : Fin 85) rfl]
    rfl
  · refine (slice5_axis4_apply 0 (decodedArr x anc) _ b i j a (3 : Fin 4) (3 : Fin 85) rfl).trans ?_
    rw [decodedArr_extents x anc b i j a (1 : Fin 2) (3 : Fin 85) rfl, extentsArr_apply x anc b i j a (1 : Fin 2) (3 : Fin 85) rfl]
    rfl

theorem sigConfArr_apply (b : Fin 16) (i j : Fin 76) (a : Fin 3) :
    sigConfArr x anc (ix5 b i j a (0 : Fin 1)) = Ideal.logistic (x (ix5 b i j a (4 : Fin 85))) := by
  refine (slice5_axis4_apply 4 (decodedArr x anc) _ b i j a (0 : Fin 1) (4 : Fin 85) rfl).trans ?_
  rw [decodedArr_conf, sigArr_apply, rawConfArr_apply]

end Decode

end Cert.ReferenceIdeal.RefValue
-- ==== Proof.RefLinkPred.lean ====
/-
  What the reference's run leaves in the buffers of the decode — the predicted boxes, the predicted confidence and the
  raw confidence and class numbers — as the decode's array functions applied to what it leaves in the reshaped first
  argument and in the anchor table.

  Each buffer written by the reference's line holds, after the whole line, its own operation's function of what its
  operands hold after the whole line.  Substituting these equations from an array's last operation back to the arrays
  that enter it gives the composition of operations by which the array function is defined.
-/
import proofs.«179941_j67783173865496_2_alg».proof.Proof.RefStages
import proofs.«179941_j67783173865496_2_alg».proof.Proof.RefPred

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable (V : Valuation τ sig (Elt Ideal))

/-! ## The decode -/

theorem link_rawConf0 : W V (Proc.devRef .tc main_v3) = rawConfArr (W V (Proc.devRef .tc main_v0)) := st_main_v3 V
theorem link_rawClass0 : W V (Proc.devRef .tc main_v4) = rawClassArr (W V (Proc.devRef .tc main_v0)) := st_main_v4 V

theorem link_grid : W V (Proc.devRef .tc main_v13) = gridArr := by
  rw [st_main_v13, st_main_v12, st_main_v11, st_main_v10, st_main_v9, st_main_v8, st_main_v7, st_main_v6, st_main_v5]
  rfl

theorem link_centres : W V (Proc.devRef .tc main_v27) = centresArr (W V (Proc.devRef .tc main_v0)) := by
  rw [st_main_v27, st_main_v26, st_main_cst_4, st_main_v25, st_main_v24, st_main_v23, st_main_v22, st_main_cst_3, st_main_v21, st_main_v20, st_main_cst_2, st_main_v19, st_main_v18, st_main_cst_1, st_main_v17, st_main_v16, st_main_cst_0, st_main_v15, st_main_v14, st_main_v1, link_grid]
  rfl

theorem link_extents : W V (Proc.devRef .tc main_v31)
    = extentsArr (W V (Proc.devRef .tc main_v0)) (W V (Proc.devRef .tc main_cst)) := by
  rw [st_main_v31, st_main_v30, st_main_v29, st_main_v28, st_main_v2]
  rfl

theorem link_sigConfPiece : W V (Proc.devRef .tc main_v37)
    = sigArr S16x76x76x3x1 bcast_S_S16x76x76x3x1 (rawConfArr (W V (Proc.devRef .tc main_v0))) := by
  rw [st_main_v37, st_main_v36, st_main_cst_6, st_main_v35, st_main_v34, st_main_cst_5, st_main_v33, st_main_v32, link_rawConf0]
  rfl

theorem link_sigClassPiece : W V (Proc.devRef .tc main_v43)
    = sigArr S16x76x76x3x80 bcast_S_S16x76x76x3x80 (rawClassArr (W V (Proc.devRef .tc main_v0))) := by
  rw [st_main_v43, st_main_v42, st_main_cst_8, st_main_v41, st_main_v40, st_main_cst_7, st_main_v39, st_main_v38, link_rawClass0]
  rfl

/-- The stage equation of the four-piece concatenation with its operands named. -/
theorem st_v44 : W V (Proc.devRef .tc main_v44)
    = concatenate S16x76x76x3x85 4
        [⟨S16x76x76x3x2, W V (Proc.devRef .tc main_v27)⟩, ⟨S16x76x76x3x2, W V (Proc.devRef .tc main_v31)⟩,
         ⟨S16x76x76x3x1, W V (Proc.devRef .tc main_v37)⟩, ⟨S16x76x76x3x80, W V (Proc.devRef .tc main_v43)⟩]
        concatenates_S16x76x76x3x2_S16x76x76x3x2_S16x76x76x3x1_S16x76x76x3x80_S16x76x76x3x85_d4 :=
  st_main_v44 V

theorem link_decoded : W V (Proc.devRef .tc main_v44)
    = decodedArr (W V (Proc.devRef .tc main_v0)) (W V (Proc.devRef .tc main_cst)) := by
  rw [st_v44, link_centres, link_extents, link_sigConfPiece, link_sigClassPiece]
  rfl

/-- The buffer of the predicted boxes holds the predicted-box array of the reshaped raw array and the anchor table. -/
theorem link_pred : W V (Proc.devRef .tc main_v48)
    = predArr (W V (Proc.devRef .tc main_v0)) (W V (Proc.devRef .tc main_cst)) := by
  rw [st_main_v48, link_decoded]
  rfl

theorem link_sigConf : W V (Proc.devRef .tc main_v49)
    = sigConfArr (W V (Proc.devRef .tc main_v0)) (W V (Proc.devRef .tc main_cst)) := by
  rw [st_main_v49, link_decoded]
  rfl

/-- The second reshape of the first argument holds what the first one holds. -/
theorem link_v45 : W V (Proc.devRef .tc main_v45) = W V (Proc.devRef .tc main_v0) :=
  (st_main_v45 V).trans (st_main_v0 V).symm

theorem link_rawConf : W V (Proc.devRef .tc main_v46) = rawConfArr (W V (Proc.devRef .tc main_v0)) := by
  rw [st_main_v46, link_v45]
  rfl
theorem link_rawClass : W V (Proc.devRef .tc main_v47) = rawClassArr (W V (Proc.devRef .tc main_v0)) := by
  rw [st_main_v47, link_v45]
  rfl

end Cert.ReferenceIdeal.RefValue
-- ==== Proof.RefBox.lean ====
/-
  The reference's box term, read at an index.

  A box is (x, y, w, h): centre and extents.  For the predicted boxes P and the label's boxes Q (both [16,76,76,3,4]) the
  reference forms the corners lower = centre − extent·½ and upper = centre + extent·½ for both axes at once (arrays
  [..,2]), lays them side by side as [..,4] and cuts them apart again; the overlap on each axis is
  max(min(upper) − max(lower), 0), the hull max(max(upper) − min(lower), 0); the shared area and the hull's area are
  the products over the two axes, the union's area is the two areas less the shared one, and the generalized
  intersection over union is shared/union − (hull − union)/hull.  The box term is
  objectness · (2 − w·h/608²) · (1 − GIoU) with w, h the label's extents.  Each lemma reads one of these arrays at the
  cell (b, i, j, a) as the scalar formula of the same name.
-/
import proofs.«179941_j67783173865496_2_alg».proof.Proof.RefPred

noncomputable section

namespace Cert.ReferenceIdeal.RefValue

open Cert.ReferenceIdeal Cert.ReferenceIdeal.Gen Idealize.ShloMosaic Idealize.ShloMosaic.ValueIdx

/-- Dropping the unit last axis of [16,76,76,3,1]: the entry (b,i,j,a) is the entry (b,i,j,a,0). -/
theorem dropLast_apply {α : Type} (X : S16x76x76x3x1.Idx → α) (b : Fin 16) (i j : Fin 76) (a : Fin 3) :
    shapeCast S16x76x76x3 X shapeCasts_S16x76x76x3x1_S16x76x76x3 (ix4 b i j a) = X (ix5 b i j a (0 : Fin 1)) :=
  shapeCast_apply X _ (ix4 b i j a) (ix5 b i j a (0 : Fin 1)) (by
    rw [Shape.rowMajor_val_five, Shape.rowMajor_val_four]
    show (((b.val * 76 + i.val) * 76 + j.val) * 3 + a.val) * 1 + 0 = ((b.val * 76 + i.val) * 76 + j.val) * 3 + a.val
    omega)

/-- Adding a unit last axis to [16,76,76,3] by a broadcast. -/
theorem addLast_apply {α : Type} (X : S16x76x76x3.Idx → α) (b : Fin 16) (i j : Fin 76) (a : Fin 3) :
    broadcastInDim S16x76x76x3x1 ![0, 1, 2, 3] bcast_S16x76x76x3_S16x76x76x3x1_0_1_2_3 X (ix5 b i j a (0 : Fin 1)) = X (ix4 b i j a) :=
  broadcastInDim_apply _ _ X (ix5 b i j a (0 : Fin 1)) (ix4 b i j a) (fun ax => by
    match ax with
    | ⟨0, _⟩ => rfl
    | ⟨1, _⟩ => rfl
    | ⟨2, _⟩ => rfl
    | ⟨3, _⟩ => rfl)

section Boxes

/-- The area w·h of each box of an array of boxes [..,4], as an array [16,76,76,3]. -/
def areaArr (P : S16x76x76x3x4.Idx → EReal) : S16x76x76x3.Idx → EReal :=
  mulf (F := Ideal) (φ := .f32)
    (shapeCast S16x76x76x3 (extractStridedSlice S16x76x76x3x1 ![0, 0, 0, 0, 2] P slices_S16x76x76x3x4_S16x76x76x3x1_0_0_0_0_2) shapeCasts_S16x76x76x3x1_S16x76x76x3)
    (shapeCast S16x76x76x3 (extractStridedSlice S16x76x76x3x1 ![0, 0, 0, 0, 3] P slices_S16x76x76x3x4_S16x76x76x3x1_0_0_0_0_3) shapeCasts_S16x76x76x3x1_S16x76x76x3)

theorem areaArr_apply (P : S16x76x76x3x4.Idx → EReal) (b : Fin 16) (i j : Fin 76) (a : Fin 3) :
    areaArr P (ix4 b i j a) = P (ix5 b i j a (2 : Fin 4)) * P (ix5 b i j a (3 : Fin 4)) := by
  show shapeCast S16x76x76x3 _ _ (ix4 b i j a) * shapeCast S16x76x76x3 _ _ (ix4 b i j a) = _
  rw [dropLast_apply, dropLast_apply,
    slice5_axis4_apply 2 P _ b i j a (0 : Fin 1) (2 : Fin 4) rfl, slice5_axis4_apply 3 P _ b i j a (0 : Fin 1) (3 : Fin 4) rfl]

/-- The lower corner [..,2] (centre − extent·½) and the upper corner (centre + extent·½) of each box. -/
def loArr (P : S16x76x76x3x4.Idx → EReal) : S16x76x76x3x2.Idx → EReal :=
  subf (F := Ideal) (φ := .f32) (extractStridedSlice S16x76x76x3x2 ![0, 0, 0, 0, 0] P slices_S16x76x76x3x4_S16x76x76x3x2_0_0_0_0_0)
    (mulf (F := Ideal) (φ := .f32) (extractStridedSlice S16x76x76x3x2 ![0, 0, 0, 0, 2] P slices_S16x76x76x3x4_S16x76x76x3x2_0_0_0_0_2)
      (cst S16x76x76x3x2 bcast_S_S16x76x76x3x2 0x3F000000#32))
def hiArr (P : S16x76x76x3x4.Idx → EReal) : S16x76x76x3x2.Idx → EReal :=
  addf (F := Ideal) (φ := .f32) (extractStridedSlice S16x76x76x3x2 ![0, 0, 0, 0, 0] P slices_S16x76x76x3x4_S16x76x76x3x2_0_0_0_0_0)
    (mulf (F := Ideal) (φ := .f32) (extractStridedSlice S16x76x76x3x2 ![0, 0, 0, 0, 2] P slices_S16x76x76x3x4_S16x76x76x3x2_0_0_0_0_2)
      (cst S16x76x76x3x2 bcast_S_S16x76x76x3x2 0x3F000000#32))

theorem loArr_apply (P : S16x76x76x3x4.Idx → EReal) (b : Fin 16) (i j : Fin 76) (a : Fin 3) (k : Fin 2) (k0 k2 : Fin 4)
    (h0 : k0.val = 0 + k.val) (h2 : k2.val = 2 + k.val) :
    loArr P (ix5 b i j a k) = Cert.Loss.lo (P (ix5 b i j a k0)) (P (ix5 b i j a k2)) := by
  show extractStridedSlice S16x76x76x3x2 ![0, 0, 0, 0, 0] P _ (ix5 b i j a k)
      - extractStridedSlice S16x76x76x3x2 ![0, 0, 0, 0, 2] P _ (ix5 b i j a k) * Cert.Loss.lit 0x3F000000#32 = _
  rw [slice5_axis4_apply 0 P _ b i j a k k0 h0, slice5_axis4_apply 2 P _ b i j a k k2 h2]
  rfl

theorem hiArr_apply (P : S16x76x76x3x4.Idx → EReal) (b : Fin 16) (i j : Fin 76) (a : Fin 3) (k : Fin 2) (k0 k2 : Fin 4)
    (h0 : k0.val = 0 + k.val) (h2 : k2.val = 2 + k.val) :
    hiArr P (ix5 b i j a k) = Cert.Loss.hi (P (ix5 b i j a k0)) (P (ix5 b i j a k2)) := by
  show extractStridedSlice S16x76x76x3x2 ![0, 0, 0, 0, 0] P _ (ix5 b i j a k)
      + extractStridedSlice S16x76x76x3x2 ![0, 0, 0, 0, 2] P _ (ix5 b i j a k) * Cert.Loss.lit 0x3F000000#32 = _
  rw [slice5_axis4_apply 0 P _ b i j a k k0 h0, slice5_axis4_apply 2 P _ b i j a k k2 h2]
  rfl

/-- The corners [..,4]: lower corner then upper corner along the last axis. -/
def cornersArr (P : S16x76x76x3x4.Idx → EReal) : S16x76x76x3x4.Idx → EReal :=
  concatenate S16x76x76x3x4 4 [⟨S16x76x76x3x2, loArr P⟩, ⟨S16x76x76x3x2, hiArr P⟩] concatenates_S16x76x76x3x2_S16x76x76x3x2_S16x76x76x3x4_d4

/-- The lower and the upper corners cut out of the corner array again. -/
theorem cornersLo_apply (P : S16x76x76x3x4.Idx → EReal) (b : Fin 16) (i j : Fin 76) (a : Fin 3) (k : Fin 2) :
    extractStridedSlice S16x76x76x3x2 ![0, 0, 0, 0, 0] (cornersArr P) slices_S16x76x76x3x4_S16x76x76x3x2_0_0_0_0_0 (ix5 b i j a k)
      = loArr P (ix5 b i j a k) := by
  refine (slice5_axis4_apply 0 (cornersArr P) _ b i j a k (⟨k.val, by omega⟩ : Fin 4) (Nat.zero_add _).symm).trans ?_
  unfold cornersArr
  exact concatenate_pair_apply_left (t := S16x76x76x3x4) 4 (loArr P) (hiArr P) _ (ix5 b i j a (⟨k.val, by omega⟩ : Fin 4)) rfl (ix5 b i j a k) (fun ax => by
    match ax with
    | ⟨0, _⟩ => rfl
    | ⟨1, _⟩ => rfl
    | ⟨2, _⟩ => rfl
    | ⟨3, _⟩ => rfl
    | ⟨4, _⟩ => rfl)

theorem cornersHi_apply (P : S16x76x76x3x4.Idx → EReal) (b : Fin 16) (i j : Fin 76) (a : Fin 3) (k : Fin 2) :
    extractStridedSlice S16x76x76x3x2 ![0, 0, 0, 0, 2] (cornersArr P) slices_S16x76x76x3x4_S16x76x76x3x2_0_0_0_0_2 (ix5 b i j a k)
      = hiArr P (ix5 b i j a k) := by
  refine (slice5_axis4_apply 2 (cornersArr P) _ b i j a k (⟨2 + k.val, by omega⟩ : Fin 4) rfl).trans ?_
  unfold cornersArr
  exact concatenate_pair_apply_right (t := S16x76x76x3x4) 4 (loArr P) (hiArr P) _ (ix5 b i j a (⟨2 + k.val, by omega⟩ : Fin 4)) rfl rfl (ix5 b i j a k)
    (fun ax hax => by
      match ax with
      | ⟨0, _⟩ => rfl
      | ⟨1, _⟩ => rfl
      | ⟨2, _⟩ => rfl
      | ⟨3, _⟩ => rfl
      | ⟨4, _⟩ => exact absurd rfl hax) (by show k.val + 2 = 2 + k.val; omega)

end Boxes

section Giou

variable (P Q : S16x76x76x3x4.Idx → EReal)

/-- Overlap lengths [..,2] of the boxes P and Q on the two axes: max(min(upper) − max(lower), 0). -/
def ovArr : S16x76x76x3x2.Idx → EReal :=
  maximumf (F := Ideal) (φ := .f32)
    (subf (F := Ideal) (φ := .f32)
      (minimumf (F := Ideal) (φ := .f32)
        (extractStridedSlice S16x76x76x3x2 ![0, 0, 0, 0, 2] (cornersArr P) slices_S16x76x76x3x4_S16x76x76x3x2_0_0_0_0_2)
        (extractStridedSlice S16x76x76x3x2 ![0, 0, 0, 0, 2] (cornersArr Q) slices_S16x76x76x3x4_S16x76x76x3x2_0_0_0_0_2))
      (maximumf (F := Ideal) (φ := .f32)
        (extractStridedSlice S16x76x76x3x2 ![0, 0, 0, 0, 0] (cornersArr P) slices_S16x76x76x3x4_S16x76x76x3x2_0_0_0_0_0)
        (extractStridedSlice S16x76x76x3x2 ![0, 0, 0, 0, 0] (cornersArr Q) slices_S16x76x76x3x4_S16x76x76x3x2_0_0_0_0_0)))
    (cst S16x76x76x3x2 bcast_S_S16x76x76x3x2 0x00000000#32)

/-- Hull lengths [..,2]: max(max(upper) − min(lower), 0). -/
def hullArr : S16x76x76x3x2.Idx → EReal :=
  maximumf (F := Ideal) (φ := .f32)
    (subf (F := Ideal) (φ := .f32)
      (maximumf (F := Ideal) (φ := .f32)
        (extractStridedSlice S16x76x76x3x2 ![0, 0, 0, 0, 2] (cornersArr P) slices_S16x76x76x3x4_S16x76x76x3x2_0_0_0_0_2)
        (extractStridedSlice S16x76x76x3x2 ![0, 0, 0, 0, 2] (cornersArr Q) slices_S16x76x76x3x4_S16x76x76x3x2_0_0_0_0_2))
      (minimumf (F := Ideal) (φ := .f32)
        (extractStridedSlice S16x76x76x3x2 ![0, 0, 0, 0, 0] (cornersArr P) slices_S16x76x76x3x4_S16x76x76x3x2_0_0_0_0_0)
        (extractStridedSlice S16x76x76x3x2 ![0, 0, 0, 0, 0] (cornersArr Q) slices_S16x76x76x3x4_S16x76x76x3x2_0_0_0_0_0)))
    (cst S16x76x76x3x2 bcast_S_S16x76x76x3x2 0x00000000#32)

theorem ovArr_apply (b : Fin 16) (i j : Fin 76) (a : Fin 3) (k : Fin 2) (k0 k2 : Fin 4)
    (h0 : k0.val = 0 + k.val) (h2 : k2.val = 2 + k.val) :
    ovArr P Q (ix5 b i j a k)
      = Cert.Loss.ov (Cert.Loss.lo (P (ix5 b i j a k0)) (P (ix5 b i j a k2))) (Cert.Loss.hi (P (ix5 b i j a k0)) (P (ix5 b i j a k2)))
          (Cert.Loss.lo (Q (ix5 b i j a k0)) (Q (ix5 b i j a k2))) (Cert.Loss.hi (Q (ix5 b i j a k0)) (Q (ix5 b i j a k2))) := by
  show max (min (extractStridedSlice S16x76x76x3x2 ![0, 0, 0, 0, 2] (cornersArr P) _ (ix5 b i j a k))
        (extractStridedSlice S16x76x76x3x2 ![0, 0, 0, 0, 2] (cornersArr Q) _ (ix5 b i j a k))
      - max (extractStridedSlice S16x76x76x3x2 ![0, 0, 0, 0, 0] (cornersArr P) _ (ix5 b i j a k))
        (extractStridedSlice S16x76x76x3x2 ![0, 0, 0, 0, 0] (cornersArr Q) _ (ix5 b i j a k))) (Cert.Loss.lit 0x00000000#32) = _
  rw [cornersHi_apply, cornersHi_apply, cornersLo_apply, cornersLo_apply,
    hiArr_apply P b i j a k k0 k2 h0 h2, hiArr_apply Q b i j a k k0 k2 h0 h2,
    loArr_apply P b i j a k k0 k2 h0 h2, loArr_apply Q b i j a k k0 k2 h0 h2]
  rfl

theorem hullArr_apply (b : Fin 16) (i j : Fin 76) (a : Fin 3) (k : Fin 2) (k0 k2 : Fin 4)
    (h0 : k0.val = 0 + k.val) (h2 : k2.val = 2 + k.val) :
    hullArr P Q (ix5 b i j a k)
      = Cert.Loss.hull (Cert.Loss.lo (P (ix5 b i j a k0)) (P (ix5 b i j a k2))) (Cert.Loss.hi (P (ix5 b i j a k0)) (P (ix5 b i j a k2)))
          (Cert.Loss.lo (Q (ix5 b i j a k0)) (Q (ix5 b i j a k2))) (Cert.Loss.hi (Q (ix5 b i j a k0)) (Q (ix5 b i j a k2))) := by
  show max (max (extractStridedSlice S16x76x76x3x2 ![0, 0, 0, 0, 2] (cornersArr P) _ (ix5 b i j a k))
        (extractStridedSlice S16x76x76x3x2 ![0, 0, 0, 0, 2] (cornersArr Q) _ (ix5 b i j a k))
      - min (extractStridedSlice S16x76x76x3x2 ![0, 0, 0, 0, 0] (cornersArr P) _ (ix5 b i j a k))
        (extractStridedSlice S16x76x76x3x2 ![0, 0, 0, 0, 0] (cornersArr Q) _ (ix5 b i j a k))) (Cert.Loss.lit 0x00000000#32) = _
  rw [cornersHi_apply, cornersHi_apply, cornersLo_apply, cornersLo_apply,
    hiArr_apply P b i j a k k0 k2 h0 h2, hiArr_apply Q b i j a k k0 k2 h0 h2,
    loArr_apply P b i j a k k0 k2 h0 h2, loArr_apply Q b i j a k k0 k2 h0 h2]
  rfl

/-- The product of the two entries of an array [..,2], as an array [16,76,76,3]. -/
def prod2Arr (V : S16x76x76x3x2.Idx → EReal) : S16x76x76x3.Idx → EReal :=
  mulf (F := Ideal) (φ := .f32)
    (shapeCast S16x76x76x3 (extractStridedSlice S16x76x76x3x1 ![0, 0, 0, 0, 0] V slices_S16x76x76x3x2_S16x76x76x3x1_0_0_0_0_0) shapeCasts_S16x76x76x3x1_S16x76x76x3)
    (shapeCast S16x76x76x3 (extractStridedSlice S16x76x76x3x1 ![0, 0, 0, 0, 1] V slices_S16x76x76x3x2_S16x76x76x3x1_0_0_0_0_1) shapeCasts_S16x76x76x3x1_S16x76x76x3)

theorem prod2Arr_apply (V : S16x76x76x3x2.Idx → EReal) (b : Fin 16) (i j : Fin 76) (a : Fin 3) :
    prod2Arr V (ix4 b i j a) = V (ix5 b i j a (0 : Fin 2)) * V (ix5 b i j a (1 : Fin 2)) := by
  show shapeCast S16x76x76x3 _ _ (ix4 b i j a) * shapeCast S16x76x76x3 _ _ (ix4 b i j a) = _
  rw [dropLast_apply, dropLast_apply,
    slice5_axis4_apply 0 V _ b i j a (0 : Fin 1) (0 : Fin 2) rfl, slice5_axis4_apply 1 V _ b i j a (0 : Fin 1) (1 : Fin 2) rfl]

/-- The shared area, the area of the union, the area of the hull, and the generalized intersection over union [16,76,76,3]. -/
def interAreaArr : S16x76x76x3.Idx → EReal := prod2Arr (ovArr P Q)
def unionArr : S16x76x76x3.Idx → EReal :=
  subf (F := Ideal) (φ := .f32) (addf (F := Ideal) (φ := .f32) (areaArr P) (areaArr Q)) (interAreaArr P Q)
def hullAreaArr : S16x76x76x3.Idx → EReal := prod2Arr (hullArr P Q)
def giouArr : S16x76x76x3.Idx → EReal :=
  subf (F := Ideal) (φ := .f32) (Host.divf (F := Ideal) (φ := .f32) (interAreaArr P Q) (unionArr P Q))
    (Host.divf (F := Ideal) (φ := .f32) (subf (F := Ideal) (φ := .f32) (hullAreaArr P Q) (unionArr P Q)) (hullAreaArr P Q))

theorem interAreaArr_apply (b : Fin 16) (i j : Fin 76) (a : Fin 3) :
    interAreaArr P Q (ix4 b i j a)
      = Cert.Loss.interArea (P (ix5 b i j a (0 : Fin 4))) (P (ix5 b i j a (1 : Fin 4))) (P (ix5 b i j a (2 : Fin 4))) (P (ix5 b i j a (3 : Fin 4)))
          (Q (ix5 b i j a (0 : Fin 4))) (Q (ix5 b i j a (1 : Fin 4))) (Q (ix5 b i j a (2 : Fin 4))) (Q (ix5 b i j a (3 : Fin 4))) := by
  unfold interAreaArr
  rw [prod2Arr_apply, ovArr_apply P Q b i j a (0 : Fin 2) (0 : Fin 4) (2 : Fin 4) rfl rfl,
    ovArr_apply P Q b i j a (1 : Fin 2) (1 : Fin 4) (3 : Fin 4) rfl rfl]
  rfl

theorem hullAreaArr_apply (b : Fin 16) (i j : Fin 76) (a : Fin 3) :
    hullAreaArr P Q (ix4 b i j a)
      = Cert.Loss.hullArea (P (ix5 b i j a (0 : Fin 4))) (P (ix5 b i j a (1 : Fin 4))) (P (ix5 b i j a (2 : Fin 4))) (P (ix5 b i j a (3 : Fin 4)))
          (Q (ix5 b i j a (0 : Fin 4))) (Q (ix5 b i j a (1 : Fin 4))) (Q (ix5 b i j a (2 : Fin 4))) (Q (ix5 b i j a (3 : Fin 4))) := by
  unfold hullAreaArr
  rw [prod2Arr_apply, hullArr_apply P Q b i j a (0 : Fin 2) (0 : Fin 4) (2 : Fin 4) rfl rfl,
    hullArr_apply P Q b i j a (1 : Fin 2) (1 : Fin 4) (3 : Fin 4) rfl rfl]
  rfl

theorem unionArr_apply (b : Fin 16) (i j : Fin 76) (a : Fin 3) :
    unionArr P Q (ix4 b i j a)
      = Cert.Loss.unionArea (P (ix5 b i j a (0 : Fin 4))) (P (ix5 b i j a (1 : Fin 4))) (P (ix5 b i j a (2 : Fin 4))) (P (ix5 b i j a (3 : Fin 4)))
          (Q (ix5 b i j a (0 : Fin 4))) (Q (ix5 b i j a (1 : Fin 4))) (Q (ix5 b i j a (2 : Fin 4))) (Q (ix5 b i j a (3 : Fin 4))) := by
  show (areaArr P (ix4 b i j a) + areaArr Q (ix4 b i j a)) - interAreaArr P Q (ix4 b i j a) = _
  rw [areaArr_apply, areaArr_apply, interAreaArr_apply]
  rfl

theorem giouArr_apply (b : Fin 16) (i j : Fin 76) (a : Fin 3) :
    giouArr P Q (ix4 b i j a)
      = Cert.Loss.giou (P (ix5 b i j a (0 : Fin 4))) (P (ix5 b i j a (1 : Fin 4))) (P (ix5 b i j a (2 : Fin 4))) (P (ix5 b i j a (3 : Fin 4)))
          (Q (ix5 b i j a (0 : Fin 4))) (Q (ix5 b i j a (1 : Fin 4))) (Q (ix5 b i j a (2 : Fin 4))) (Q (ix5 b i j a (3 : Fin 4))) := by
  show Ideal.div (interAreaArr P Q (ix4 b i j a)) (unionArr P Q (ix4 b i j a))
      - Ideal.div (hullAreaArr P Q (ix4 b i j a) - unionArr P Q (ix4 b i j a)) (hullAreaArr P Q (ix4 b i j a)) = _
  rw [interAreaArr_apply, unionArr_apply, hullAreaArr_apply]
  rfl

end Giou

section BoxTerm

variable (x l : S16x76x76x3x85.Idx → EReal) (anc : S3x2.Idx → EReal)

/-- The label's box [..,4] and objectness [..,1]. -/
def lboxArr : S16x76x76x3x4.Idx → EReal :=
  extractStridedSlice S16x76x76x3x4 ![0, 0, 0, 0, 0] l slices_S16x76x76x3x85_S16x76x76x3x4_0_0_0_0_0
def lobjArr : S16x76x76x3x1.Idx → EReal :=
  extractStridedSlice S16x76x76x3x1 ![0, 0, 0, 0, 4] l slices_S16x76x76x3x85_S16x76x76x3x1_0_0_0_0_4

theorem lboxArr_apply (b : Fin 16) (i j : Fin 76) (a : Fin 3) (k : Fin 4) :
    lboxArr l (ix5 b i j a k) = l (ix5 b i j a (⟨k.val, by omega⟩ : Fin 85)) :=
  slice5_axis4_apply 0 l _ b i j a k _ (Nat.zero_add _).symm
theorem lobjArr_apply (b : Fin 16) (i j : Fin 76) (a : Fin 3) :
    lobjArr l (ix5 b i j a (0 : Fin 1)) = l (ix5 b i j a (4 : Fin 85)) :=
  slice5_axis4_apply 4 l _ b i j a (0 : Fin 1) (4 : Fin 85) rfl

/-- The box term [..,1]: objectness · (2 − w·h/608²) · (1 − GIoU(predicted box, label box)). -/
def boxArr : S16x76x76x3x1.Idx → EReal :=
  mulf (F := Ideal) (φ := .f32)
    (mulf (F := Ideal) (φ := .f32) (lobjArr l)
      (subf (F := Ideal) (φ := .f32) (cst S16x76x76x3x1 bcast_S_S16x76x76x3x1 0x40000000#32)
        (Host.divf (F := Ideal) (φ := .f32)
          (mulf (F := Ideal) (φ := .f32)
            (extractStridedSlice S16x76x76x3x1 ![0, 0, 0, 0, 2] (lboxArr l) slices_S16x76x76x3x4_S16x76x76x3x1_0_0_0_0_2)
            (extractStridedSlice S16x76x76x3x1 ![0, 0, 0, 0, 3] (lboxArr l) slices_S16x76x76x3x4_S16x76x76x3x1_0_0_0_0_3))
          (cst S16x76x76x3x1 bcast_S_S16x76x76x3x1 0x48B48000#32))))
    (subf (F := Ideal) (φ := .f32) (cst S16x76x76x3x1 bcast_S_S16x76x76x3x1 0x3F800000#32)
      (broadcastInDim S16x76x76x3x1 ![0, 1, 2, 3] bcast_S16x76x76x3_S16x76x76x3x1_0_1_2_3 (giouArr (predArr x anc) (lboxArr l))))

theorem boxArr_apply (b : Fin 16) (i j : Fin 76) (a : Fin 3) :
    boxArr x l anc (ix5 b i j a (0 : Fin 1))
      = Cert.Loss.boxCell (Cert.Loss.cellOf x b i j a) (Cert.Loss.cellOf l b i j a) anc a i.val j.val := by
  show (lobjArr l (ix5 b i j a (0 : Fin 1))
        * (Cert.Loss.lit 0x40000000#32
            - Ideal.div (extractStridedSlice S16x76x76x3x1 ![0, 0, 0, 0, 2] (lboxArr l) _ (ix5 b i j a (0 : Fin 1))
                * extractStridedSlice S16x76x76x3x1 ![0, 0, 0, 0, 3] (lboxArr l) _ (ix5 b i j a (0 : Fin 1))) (Cert.Loss.lit 0x48B48000#32)))
      * (Cert.Loss.lit 0x3F800000#32
          - broadcastInDim S16x76x76x3x1 ![0, 1, 2, 3] bcast_S16x76x76x3_S16x76x76x3x1_0_1_2_3 (giouArr (predArr x anc) (lboxArr l)) (ix5 b i j a (0 : Fin 1))) = _
  obtain ⟨e0, e1, e2, e3⟩ := predArr_apply x anc b i j a
  rw [addLast_apply, giouArr_apply, e0, e1, e2, e3, lobjArr_apply,
    slice5_axis4_apply 2 (lboxArr l) _ b i j a (0 : Fin 1) (2 : Fin 4) rfl,
    slice5_axis4_apply 3 (lboxArr l) _ b i j a (0 : Fin 1) (3 : Fin 4) rfl,
    lboxArr_apply l b i j a (0 : Fin 4), lboxArr_apply l b i j a (1 : Fin 4), lboxArr_apply l b i j a (2 : Fin 4), lboxArr_apply l b i j a (3 : Fin 4)]
  rfl

end BoxTerm

end Cert.ReferenceIdeal.RefValue
-- ==== Proof.LibSum5.lean ====
/-
  Sums over the index set of a rank-1 and of a rank-5 shape, by coordinates.

  A rank-5 index set is the product of its five coordinate ranges, so a sum over those indices whose leading coordinate is
  a given `b` — what a reduction over the axes 1, 2, 3, 4 collects at the result index `b` — is the fourfold iterated sum
  over the remaining coordinates; a sum over a rank-1 index set is the sum over its one coordinate.
-/
import Idealize.ShloMosaic.Lib.ValueIdx

open scoped BigOperators

namespace Idealize.ShloMosaic.ValueIdx

open Idealize.ShloMosaic

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the fivefold sum over the coordinates. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

/-- The sum over the rank-5 indices selected by a predicate that holds exactly where the leading coordinate is `b` is the
    fourfold sum over the other coordinates at leading coordinate `b`. -/
theorem sum_idx5_filter_fst {M : Type*} [AddCommMonoid M] {n0 n1 n2 n3 n4 : Nat}
    (f : (⟨5, ![n0, n1, n2, n3, n4]⟩ : Shape).Idx → M) (b : Fin n0)
    (p : (⟨5, ![n0, n1, n2, n3, n4]⟩ : Shape).Idx → Prop) [DecidablePred p] (hp : ∀ i, p i ↔ i 0 = b) :
    ∑ i ∈ Finset.univ.filter p, f i = ∑ i1 : Fin n1, ∑ i2 : Fin n2, ∑ i3 : Fin n3, ∑ i4 : Fin n4, f (ix5 b i1 i2 i3 i4) := by
  rw [Finset.sum_filter, sum_idx5]
  have hin : ∀ a : Fin n0,
      (∑ i1 : Fin n1, ∑ i2 : Fin n2, ∑ i3 : Fin n3, ∑ i4 : Fin n4, if p (ix5 a i1 i2 i3 i4) then f (ix5 a i1 i2 i3 i4) else 0)
        = if a = b then ∑ i1 : Fin n1, ∑ i2 : Fin n2, ∑ i3 : Fin n3, ∑ i4 : Fin n4, f (ix5 a i1 i2 i3 i4) else 0 := by
    intro a
    by_cases hab : a = b
    · rw [if_pos hab]
      refine Finset.sum_congr rfl fun i1 _ => Finset.sum_congr rfl fun i2 _ => Finset.sum_congr rfl fun i3 _ =>
        Finset.sum_congr rfl fun i4 _ => if_pos ((hp _).2 hab)
    · rw [if_neg hab]
      refine Finset.sum_eq_zero fun i1 _ => Finset.sum_eq_zero fun i2 _ => Finset.sum_eq_zero fun i3 _ =>
        Finset.sum_eq_zero fun i4 _ => if_neg fun h => hab ((hp _).1 h)
  rw [Finset.sum_congr rfl fun a _ => hin a, Finset.sum_ite_eq' Finset.univ b, if_pos (Finset.mem_univ b)]

end Idealize.ShloMosaic.ValueIdx
-- ==== Proof.RefSums.lean ====
/-
  The reference's three final sums, read at an index.

  Each of the three term arrays (two of shape [16,76,76,3,1], one [16,76,76,3,80]) is summed over the axes 1 to 4 into
  per-image totals [16], those are summed into a scalar, the scalar is divided by 16, and the three quotients are laid
  side by side as the result [3].  Every sum starts from the zero word, which is the extended real 0.  The sum over the
  indices of a rank-5 shape whose leading coordinate is b is the iterated sum over the other four coordinates, so each
  entry of the result is the fivefold (sixfold for the classes) iterated sum of the term array divided by 16.
-/
import proofs.«179941_j67783173865496_2_alg».proof.Proof.Gen.ReferenceIdeal
import proofs.«179941_j67783173865496_2_alg».proof.Proof.Loss
import proofs.«179941_j67783173865496_2_alg».proof.Proof.LibSum5
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx

/-- The scalar (rank-0) constant of word `w`. -/
abbrev scal (w : BitVec 32) : S_.Idx → EReal := constant (F := Ideal) S_ .f32 w

/-- The per-image totals [16] of an array [16,76,76,3,1] (sum over the axes 1 to 4 from zero), and of an array [16,76,76,3,80]. -/
def perImage1 (B : S16x76x76x3x1.Idx → EReal) : S16.Idx → EReal :=
  Host.reduceAdd (F := Ideal) (φ := .f32) B (scal 0x00000000#32) reducesTo_S16x76x76x3x1_S16_d1_2_3_4 h_S_
def perImage80 (P : S16x76x76x3x80.Idx → EReal) : S16.Idx → EReal :=
  Host.reduceAdd (F := Ideal) (φ := .f32) P (scal 0x00000000#32) reducesTo_S16x76x76x3x80_S16_d1_2_3_4 h_S_

theorem perImage1_apply (B : S16x76x76x3x1.Idx → EReal) (b : Fin 16) :
    perImage1 B (ix1 b) = ∑ i : Fin 76, ∑ j : Fin 76, ∑ a : Fin 3, B (ix5 b i j a (0 : Fin 1)) := by
  refine (hostReduceAdd_apply B _ reducesTo_S16x76x76x3x1_S16_d1_2_3_4 h_S_ (ix1 b)).trans ?_
  unfold Ideal.hostReduceAdd
  rw [show scal 0x00000000#32 (Shape.Idx.first h_S_) = Ideal.ofBits .f32 0x00000000#32 from rfl, Ideal.ofBits_zero_f32, zero_add]
  refine (sum_idx5_filter_fst B b _ (fun q => ?_)).trans ?_
  · constructor
    · intro h
      have := congrFun h (0 : Fin 1)
      exact Fin.ext (congrArg Fin.val this)
    · intro h
      funext d
      match d with
      | ⟨0, _⟩ => exact Fin.ext (congrArg Fin.val h)
  · simp only [Fin.sum_univ_one]

theorem perImage80_apply (P : S16x76x76x3x80.Idx → EReal) (b : Fin 16) :
    perImage80 P (ix1 b) = ∑ i : Fin 76, ∑ j : Fin 76, ∑ a : Fin 3, ∑ k : Fin 80, P (ix5 b i j a k) := by
  refine (hostReduceAdd_apply P _ reducesTo_S16x76x76x3x80_S16_d1_2_3_4 h_S_ (ix1 b)).trans ?_
  unfold Ideal.hostReduceAdd
  rw [show scal 0x00000000#32 (Shape.Idx.first h_S_) = Ideal.ofBits .f32 0x00000000#32 from rfl, Ideal.ofBits_zero_f32, zero_add]
  refine sum_idx5_filter_fst P b _ (fun q => ?_)
  constructor
  · intro h
    have := congrFun h (0 : Fin 1)
    exact Fin.ext (congrArg Fin.val this)
  · intro h
    funext d
    match d with
    | ⟨0, _⟩ => exact Fin.ext (congrArg Fin.val h)

/-- The mean over the 16 images of per-image totals [16], as a one-element array: their sum from zero, divided by 16. -/
def meanArr (R : S16.Idx → EReal) : S1.Idx → EReal :=
  broadcastInDim S1 ![] bcast_S_S1
    (Host.divf (F := Ideal) (φ := .f32)
      (Host.reduceAdd (F := Ideal) (φ := .f32) R (scal 0x00000000#32) reducesTo_S16_S_d0 h_S_) (scal 0x41800000#32))

theorem meanArr_apply (R : S16.Idx → EReal) :
    meanArr R (ix1 (0 : Fin 1)) = Ideal.div (∑ b : Fin 16, R (ix1 b)) (Cert.Loss.lit 0x41800000#32) := by
  unfold meanArr
  refine (broadcastInDim_scalar_apply bcast_S_S1 _ (ix1 (0 : Fin 1))).trans ?_
  show Ideal.div (Host.reduceAdd (F := Ideal) (φ := .f32) R (scal 0x00000000#32) reducesTo_S16_S_d0 h_S_ ix0) (Cert.Loss.lit 0x41800000#32) = _
  refine congrArg (fun z => Ideal.div z (Cert.Loss.lit 0x41800000#32)) ?_
  refine (hostReduceAdd_apply R _ reducesTo_S16_S_d0 h_S_ ix0).trans ?_
  rw [Ideal.hostReduceAdd_total reducesTo_S16_S_d0 (fun b => b.elim0) R,
    show scal 0x00000000#32 (Shape.Idx.first h_S_) = Ideal.ofBits .f32 0x00000000#32 from rfl, Ideal.ofBits_zero_f32, zero_add, sum_idx1]

/-- The result [3]: the three means side by side. -/
def tailArr (B C : S16x76x76x3x1.Idx → EReal) (P : S16x76x76x3x80.Idx → EReal) : S3.Idx → EReal :=
  concatenate S3 0 [⟨S1, meanArr (perImage1 B)⟩, ⟨S1, meanArr (perImage1 C)⟩, ⟨S1, meanArr (perImage80 P)⟩] concatenates_S1_S1_S1_S3_d0

theorem tailArr_apply (B C : S16x76x76x3x1.Idx → EReal) (P : S16x76x76x3x80.Idx → EReal) :
    tailArr B C P (ix1 (0 : Fin 3))
        = Ideal.div (∑ b : Fin 16, ∑ i : Fin 76, ∑ j : Fin 76, ∑ a : Fin 3, B (ix5 b i j a (0 : Fin 1))) (Cert.Loss.lit 0x41800000#32)
    ∧ tailArr B C P (ix1 (1 : Fin 3))
        = Ideal.div (∑ b : Fin 16, ∑ i : Fin 76, ∑ j : Fin 76, ∑ a : Fin 3, C (ix5 b i j a (0 : Fin 1))) (Cert.Loss.lit 0x41800000#32)
    ∧ tailArr B C P (ix1 (2 : Fin 3))
        = Ideal.div (∑ b : Fin 16, ∑ i : Fin 76, ∑ j : Fin 76, ∑ a : Fin 3, ∑ k : Fin 80, P (ix5 b i j a k)) (Cert.Loss.lit 0x41800000#32) := by
  unfold tailArr
  refine ⟨?_, ?_, ?_⟩
  · refine (concatenate_apply_piece (t := S3) 0 _ _ (ix1 (0 : Fin 3)) 0 (by show (0 : Nat) < 3; omega) S1 (meanArr (perImage1 B)) rfl rfl 0 rfl
      (ix1 (0 : Fin 1)) (fun ax hax => by
        match ax with
        | ⟨0, _⟩ => exact absurd rfl hax) rfl).trans ?_
    rw [meanArr_apply]
    simp only [perImage1_apply]
  · refine (concatenate_apply_piece (t := S3) 0 _ _ (ix1 (1 : Fin 3)) 1 (by show (1 : Nat) < 3; omega) S1 (meanArr (perImage1 C)) rfl rfl 1 rfl
      (ix1 (0 : Fin 1)) (fun ax hax => by
        match ax with
        | ⟨0, _⟩ => exact absurd rfl hax) rfl).trans ?_
    rw [meanArr_apply]
    simp only [perImage1_apply]
  · refine (concatenate_apply_piece (t := S3) 0 _ _ (ix1 (2 : Fin 3)) 2 (by show (2 : Nat) < 3; omega) S1 (meanArr (perImage80 P)) rfl rfl 2 rfl
      (ix1 (0 : Fin 1)) (fun ax hax => by
        match ax with
        | ⟨0, _⟩ => exact absurd rfl hax) rfl).trans ?_
    rw [meanArr_apply]
    simp only [perImage80_apply]

end Cert.ReferenceIdeal.RefValue
-- ==== Proof.RefLink.lean ====
/-
  What the reference's run leaves in the buffer of the box terms and in the result buffer, as the box-term array function
  of the reshaped first argument, the labels and the anchor table, and as the three means of what the three term buffers
  hold: the stage equations substituted from the last operation of each array back to the arrays that enter it.
-/
import proofs.«179941_j67783173865496_2_alg».proof.Proof.RefLinkPred
import proofs.«179941_j67783173865496_2_alg».proof.Proof.RefBox
import proofs.«179941_j67783173865496_2_alg».proof.Proof.RefSums

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable (V : Valuation τ sig (Elt Ideal))

/-! ## The box term -/

theorem link_lbox : W V (Proc.devRef .tc main_v50) = lboxArr (W V (Proc.devRef .tc main_arg1)) := st_main_v50 V
theorem link_lobj : W V (Proc.devRef .tc main_v51) = lobjArr (W V (Proc.devRef .tc main_arg1)) := st_main_v51 V

theorem link_areaP : W V (Proc.devRef .tc main_v57) = areaArr (W V (Proc.devRef .tc main_v48)) := by
  rw [st_main_v57, st_main_v56, st_main_v55, st_main_v54, st_main_v53]
  rfl
theorem link_areaQ : W V (Proc.devRef .tc main_v62) = areaArr (W V (Proc.devRef .tc main_v50)) := by
  rw [st_main_v62, st_main_v61, st_main_v60, st_main_v59, st_main_v58]
  rfl

theorem link_cornersP : W V (Proc.devRef .tc main_v73) = cornersArr (W V (Proc.devRef .tc main_v48)) := by
  rw [st_main_v73, st_main_v72, st_main_v71, st_main_v70, st_main_cst_10, st_main_v69, st_main_v68, st_main_v67, st_main_v66, st_main_v65, st_main_cst_9, st_main_v64, st_main_v63]
  rfl
theorem link_cornersQ : W V (Proc.devRef .tc main_v84) = cornersArr (W V (Proc.devRef .tc main_v50)) := by
  rw [st_main_v84, st_main_v83, st_main_v82, st_main_v81, st_main_cst_12, st_main_v80, st_main_v79, st_main_v78, st_main_v77, st_main_v76, st_main_cst_11, st_main_v75, st_main_v74]
  rfl

theorem link_ov : W V (Proc.devRef .tc main_v93)
    = ovArr (W V (Proc.devRef .tc main_v48)) (W V (Proc.devRef .tc main_v50)) := by
  rw [st_main_v93, st_main_v92, st_main_cst_13, st_main_v91, st_main_v90, st_main_v89, st_main_v88, st_main_v87, st_main_v86, st_main_v85, link_cornersP, link_cornersQ]
  rfl

theorem link_interArea : W V (Proc.devRef .tc main_v98)
    = interAreaArr (W V (Proc.devRef .tc main_v48)) (W V (Proc.devRef .tc main_v50)) := by
  rw [st_main_v98, st_main_v97, st_main_v96, st_main_v95, st_main_v94, link_ov]
  rfl

theorem link_union : W V (Proc.devRef .tc main_v100)
    = unionArr (W V (Proc.devRef .tc main_v48)) (W V (Proc.devRef .tc main_v50)) := by
  rw [st_main_v100, st_main_v99, link_areaP, link_areaQ, link_interArea]
  rfl

theorem link_hull : W V (Proc.devRef .tc main_v110)
    = hullArr (W V (Proc.devRef .tc main_v48)) (W V (Proc.devRef .tc main_v50)) := by
  rw [st_main_v110, st_main_v109, st_main_cst_14, st_main_v108, st_main_v107, st_main_v106, st_main_v105, st_main_v104, st_main_v103, st_main_v102, link_cornersP, link_cornersQ]
  rfl

theorem link_hullArea : W V (Proc.devRef .tc main_v115)
    = hullAreaArr (W V (Proc.devRef .tc main_v48)) (W V (Proc.devRef .tc main_v50)) := by
  rw [st_main_v115, st_main_v114, st_main_v113, st_main_v112, st_main_v111, link_hull]
  rfl

theorem link_giou : W V (Proc.devRef .tc main_v118)
    = giouArr (W V (Proc.devRef .tc main_v48)) (W V (Proc.devRef .tc main_v50)) := by
  rw [st_main_v118, st_main_v117, st_main_v116, st_main_v101, link_interArea, link_union, link_hullArea]
  rfl

/-- The buffer of the box terms holds the box-term array of the reshaped raw array, the labels and the anchor table. -/
theorem link_box : W V (Proc.devRef .tc main_v130)
    = boxArr (W V (Proc.devRef .tc main_v0)) (W V (Proc.devRef .tc main_arg1)) (W V (Proc.devRef .tc main_cst)) := by
  rw [st_main_v130, st_main_v129, st_main_v128, st_main_cst_17, st_main_v127, st_main_v126, st_main_v125, st_main_cst_16, st_main_v124, st_main_v123, st_main_cst_15, st_main_v122, st_main_v121, st_main_v120, st_main_v119, link_giou, link_lobj, link_lbox, link_pred]
  rfl

/-! ## The three sums -/

/-- The stage equation of the final concatenation with its operands named. -/
theorem st_v234 : W V (Proc.devRef .tc main_v234)
    = concatenate S3 0 [⟨S1, W V (Proc.devRef .tc main_v231)⟩, ⟨S1, W V (Proc.devRef .tc main_v232)⟩, ⟨S1, W V (Proc.devRef .tc main_v233)⟩]
        concatenates_S1_S1_S1_S3_d0 :=
  st_main_v234 V

/-- The result buffer holds the three means of what the three term buffers hold. -/
theorem link_tail : W V (Proc.devRef .tc main_v234)
    = tailArr (W V (Proc.devRef .tc main_v130)) (W V (Proc.devRef .tc main_v210)) (W V (Proc.devRef .tc main_v221)) := by
  rw [st_v234, st_main_v233, st_main_v232, st_main_v231, st_main_v230, st_main_cst_36, st_main_v229, st_main_cst_35, st_main_v228, st_main_cst_34, st_main_v227, st_main_cst_33, st_main_v226, st_main_cst_32, st_main_v225, st_main_cst_31, st_main_v224, st_main_cst_30, st_main_v223, st_main_cst_29, st_main_v222, st_main_cst_28]
  rfl

end Cert.ReferenceIdeal.RefValue
-- ==== Proof.LibRank6.lean ====
/- Layout operations on arrays of rank 6 (and the rank-5 arrays beside them) read at an index given by its
   coordinates: a trailing unit axis dropped by a shape cast, a two-piece concatenation along the last axis, and
   the reduction of one axis of a rank-5 array, whose indices over a rank-4 index are that index with the reduced
   coordinate put back.  General statements over arbitrary extents; no program is mentioned. -/
import Idealize.ShloMosaic.Lib.ValueLayout
import Idealize.ShloMosaic.PureOps.Reduce

namespace Cert.LibRank6

open Idealize.ShloMosaic Idealize.ShloMosaic.ValueIdx

variable {α : Type}

/-- An `[n0, n1, n2, n3, n4, 1]` array cast to `[n0, n1, n2, n3, n4]` reads, at `(a, b, c, d, e)`, the operand at
    `(a, b, c, d, e, 0)`: the two indices have the same row-major position. -/
theorem shapeCast_dropLast6_apply {n0 n1 n2 n3 n4 : ℕ} (x : (⟨6, ![n0, n1, n2, n3, n4, 1]⟩ : Shape).Idx → α)
    (h : (⟨6, ![n0, n1, n2, n3, n4, 1]⟩ : Shape).ShapeCasts ⟨5, ![n0, n1, n2, n3, n4]⟩)
    (a : Fin n0) (b : Fin n1) (c : Fin n2) (d : Fin n3) (e : Fin n4) :
    shapeCast ⟨5, ![n0, n1, n2, n3, n4]⟩ x h (ix5 a b c d e) = x (ix6 a b c d e (0 : Fin 1)) :=
  shapeCast_apply x h _ _ (by
    rw [Shape.rowMajor_val_six, Shape.rowMajor_val_five]
    show ((((a.val * n1 + b.val) * n2 + c.val) * n3 + d.val) * n4 + e.val) * 1 + 0
      = (((a.val * n1 + b.val) * n2 + c.val) * n3 + d.val) * n4 + e.val
    rw [Nat.mul_one, Nat.add_zero])

/-- Two rank-6 arrays joined along the last axis read, at a last coordinate below the first piece's extent, the
    first piece at the same coordinates. -/
theorem concat6_axis5_left {n0 n1 n2 n3 n4 m1 m2 m : ℕ}
    (x₁ : (⟨6, ![n0, n1, n2, n3, n4, m1]⟩ : Shape).Idx → α) (x₂ : (⟨6, ![n0, n1, n2, n3, n4, m2]⟩ : Shape).Idx → α)
    (h : Shape.Concatenates [(⟨6, ![n0, n1, n2, n3, n4, m1]⟩ : Shape), ⟨6, ![n0, n1, n2, n3, n4, m2]⟩]
      ⟨6, ![n0, n1, n2, n3, n4, m]⟩ 5)
    (a : Fin n0) (b : Fin n1) (c : Fin n2) (d : Fin n3) (e : Fin n4) (k : Fin m) (k1 : Fin m1) (hk : k1.val = k.val) :
    concatenate (⟨6, ![n0, n1, n2, n3, n4, m]⟩ : Shape) 5
        [⟨(⟨6, ![n0, n1, n2, n3, n4, m1]⟩ : Shape), x₁⟩, ⟨(⟨6, ![n0, n1, n2, n3, n4, m2]⟩ : Shape), x₂⟩] h (ix6 a b c d e k)
      = x₁ (ix6 a b c d e k1) :=
  concatenate_pair_apply_left (t := ⟨6, ![n0, n1, n2, n3, n4, m]⟩) (s₁ := ⟨6, ![n0, n1, n2, n3, n4, m1]⟩)
      (s₂ := ⟨6, ![n0, n1, n2, n3, n4, m2]⟩) (5 : Fin 6) x₁ x₂ h (ix6 a b c d e k) rfl (ix6 a b c d e k1) (fun ax => by
    match ax with
    | ⟨0, _⟩ => rfl
    | ⟨1, _⟩ => rfl
    | ⟨2, _⟩ => rfl
    | ⟨3, _⟩ => rfl
    | ⟨4, _⟩ => rfl
    | ⟨5, _⟩ => exact hk)

/-- … and, at a last coordinate from the first piece's extent on, the second piece at that coordinate less the
    first extent. -/
theorem concat6_axis5_right {n0 n1 n2 n3 n4 m1 m2 m : ℕ}
    (x₁ : (⟨6, ![n0, n1, n2, n3, n4, m1]⟩ : Shape).Idx → α) (x₂ : (⟨6, ![n0, n1, n2, n3, n4, m2]⟩ : Shape).Idx → α)
    (h : Shape.Concatenates [(⟨6, ![n0, n1, n2, n3, n4, m1]⟩ : Shape), ⟨6, ![n0, n1, n2, n3, n4, m2]⟩]
      ⟨6, ![n0, n1, n2, n3, n4, m]⟩ 5)
    (a : Fin n0) (b : Fin n1) (c : Fin n2) (d : Fin n3) (e : Fin n4) (k : Fin m) (k2 : Fin m2) (hk : k2.val + m1 = k.val) :
    concatenate (⟨6, ![n0, n1, n2, n3, n4, m]⟩ : Shape) 5
        [⟨(⟨6, ![n0, n1, n2, n3, n4, m1]⟩ : Shape), x₁⟩, ⟨(⟨6, ![n0, n1, n2, n3, n4, m2]⟩ : Shape), x₂⟩] h (ix6 a b c d e k)
      = x₂ (ix6 a b c d e k2) :=
  concatenate_pair_apply_right (t := ⟨6, ![n0, n1, n2, n3, n4, m]⟩) (s₁ := ⟨6, ![n0, n1, n2, n3, n4, m1]⟩)
      (s₂ := ⟨6, ![n0, n1, n2, n3, n4, m2]⟩) (5 : Fin 6) x₁ x₂ h (ix6 a b c d e k) rfl rfl (ix6 a b c d e k2) (fun ax hax => by
    match ax, hax with
    | ⟨0, _⟩, _ => rfl
    | ⟨1, _⟩, _ => rfl
    | ⟨2, _⟩, _ => rfl
    | ⟨3, _⟩, _ => rfl
    | ⟨4, _⟩, _ => rfl
    | ⟨5, _⟩, hax => exact absurd rfl hax) hk

/-- Over a rank-4 index `(a, b, c, d)`, the rank-5 index with coordinate `k` on the reduced last axis is
    `(a, b, c, d, k)`. -/
theorem lift5_axis4 {n0 n1 n2 n3 n4 : ℕ}
    (h : (⟨5, ![n0, n1, n2, n3, n4]⟩ : Shape).Reduces [(4 : Fin 5)] ⟨4, ![n0, n1, n2, n3]⟩)
    (a : Fin n0) (b : Fin n1) (c : Fin n2) (d : Fin n3) (k : Fin n4) :
    h.lift (ix4 a b c d) k = ix5 a b c d k := by
  funext ax
  refine Fin.ext ?_
  show h.liftVal (ix4 a b c d) k.val ax = (ix5 a b c d k ax).val
  match ax with
  | ⟨0, _⟩ => rfl
  | ⟨1, _⟩ => rfl
  | ⟨2, _⟩ => rfl
  | ⟨3, _⟩ => rfl
  | ⟨4, _⟩ => rfl

/-- A commutative and associative reduction of the last axis of a rank-5 array is, at `(a, b, c, d)`, the fold from
    the initial element over that axis's coordinates `k` of the array at `(a, b, c, d, k)`. -/
theorem reduce5_axis4_apply {n0 n1 n2 n3 n4 : ℕ} {u : Shape} (f : α → α → α) [Std.Commutative f] [Std.Associative f]
    (x : (⟨5, ![n0, n1, n2, n3, n4]⟩ : Shape).Idx → α) (init : u.Idx → α)
    (h' : (⟨5, ![n0, n1, n2, n3, n4]⟩ : Shape).ReducesTo [(4 : Fin 5)] ⟨4, ![n0, n1, n2, n3]⟩)
    (h : (⟨5, ![n0, n1, n2, n3, n4]⟩ : Shape).Reduces [(4 : Fin 5)] ⟨4, ![n0, n1, n2, n3]⟩) (hu : 0 < u.numel)
    (a : Fin n0) (b : Fin n1) (c : Fin n2) (d : Fin n3) :
    Host.reduce f x init h' hu (ix4 a b c d)
      = (Finset.univ : Finset (Fin n4)).fold f (init (Shape.Idx.first hu)) (fun k => x (ix5 a b c d k)) := by
  refine (Host.reduce_eq_fold_single f x init h' h hu (ix4 a b c d)).trans ?_
  have e : (fun k : Fin n4 => x (h.lift (ix4 a b c d) k)) = fun k : Fin n4 => x (ix5 a b c d k) :=
    funext fun k => congrArg x (lift5_axis4 h a b c d k)
  exact congrArg (fun g : Fin n4 → α => (Finset.univ : Finset (Fin n4)).fold f (init (Shape.Idx.first hu)) g) e

end Cert.LibRank6
-- ==== Proof.RefPairBox.lean ====
/-
  The boxes that enter the pairwise overlap of the reference, read at an index.

  The predicted boxes [16,76,76,3,4] and the ground-truth boxes [16,150,4] are each given a unit axis so that the two
  can be spread against each other, [16,76,76,3,1,4] and [16,1,1,1,150,4]; a box is (x, y, w, h).  From each the
  reference forms the area w·h and the corners (x − w/2, y − h/2, x + w/2, y + h/2).
-/
import proofs.«179941_j67783173865496_2_alg».proof.Proof.Gen.ReferenceIdeal
import proofs.«179941_j67783173865496_2_alg».proof.Proof.Loss
import Idealize.ShloMosaic.Lib.ValueLayout
import Idealize.ShloMosaic.Lib.IdealHost
import proofs.«179941_j67783173865496_2_alg».proof.Proof.LibRank6

noncomputable section

namespace Cert.ReferenceIdeal.RefValue

open Cert.ReferenceIdeal Cert.ReferenceIdeal.Gen Idealize.ShloMosaic Idealize.ShloMosaic.ValueIdx

open Cert.LibRank6

/-! ## The two arrays with their unit axes -/

/-- The predicted boxes with a unit axis for the ground-truth boxes to be spread along. -/
def predSix (p : FVec Ideal S16x76x76x3x4 .f32) : FVec Ideal S16x76x76x3x1x4 .f32 :=
  broadcastInDim S16x76x76x3x1x4 ![0, 1, 2, 3, 5] bcast_S16x76x76x3x4_S16x76x76x3x1x4_0_1_2_3_5 p

/-- The ground-truth boxes with unit axes for the cells and anchors to be spread along. -/
def gtSix (bb : FVec Ideal S16x150x4 .f32) : FVec Ideal S16x1x1x1x150x4 .f32 :=
  broadcastInDim S16x1x1x1x150x4 ![0, 4, 5] bcast_S16x150x4_S16x1x1x1x150x4_0_4_5 bb

theorem predSix_apply (p : S16x76x76x3x4.Idx → EReal) (b : Fin 16) (i j : Fin 76) (a : Fin 3) (c : Fin 4) :
    predSix p (ix6 b i j a (0 : Fin 1) c) = p (ix5 b i j a c) :=
  broadcastInDim_apply _ _ p (ix6 b i j a (0 : Fin 1) c) (ix5 b i j a c) (fun ax => by
    match ax with
    | ⟨0, _⟩ => rfl
    | ⟨1, _⟩ => rfl
    | ⟨2, _⟩ => rfl
    | ⟨3, _⟩ => rfl
    | ⟨4, _⟩ => rfl)

theorem gtSix_apply (bb : S16x150x4.Idx → EReal) (b : Fin 16) (g : Fin 150) (c : Fin 4) :
    gtSix bb (ix6 b (0 : Fin 1) (0 : Fin 1) (0 : Fin 1) g c) = bb (ix3 b g c) :=
  broadcastInDim_apply _ _ bb (ix6 b (0 : Fin 1) (0 : Fin 1) (0 : Fin 1) g c) (ix3 b g c) (fun ax => by
    match ax with
    | ⟨0, _⟩ => rfl
    | ⟨1, _⟩ => rfl
    | ⟨2, _⟩ => rfl)

/-! ## Areas -/

/-- The area w·h of every predicted box. -/
def predArea (P : FVec Ideal S16x76x76x3x1x4 .f32) : FVec Ideal S16x76x76x3x1 .f32 :=
  mulf
    (shapeCast S16x76x76x3x1
      (extractStridedSlice S16x76x76x3x1x1 ![0, 0, 0, 0, 0, 2] P slices_S16x76x76x3x1x4_S16x76x76x3x1x1_0_0_0_0_0_2)
      shapeCasts_S16x76x76x3x1x1_S16x76x76x3x1)
    (shapeCast S16x76x76x3x1
      (extractStridedSlice S16x76x76x3x1x1 ![0, 0, 0, 0, 0, 3] P slices_S16x76x76x3x1x4_S16x76x76x3x1x1_0_0_0_0_0_3)
      shapeCasts_S16x76x76x3x1x1_S16x76x76x3x1)

/-- The area w·h of every ground-truth box. -/
def gtArea (B : FVec Ideal S16x1x1x1x150x4 .f32) : FVec Ideal S16x1x1x1x150 .f32 :=
  mulf
    (shapeCast S16x1x1x1x150
      (extractStridedSlice S16x1x1x1x150x1 ![0, 0, 0, 0, 0, 2] B slices_S16x1x1x1x150x4_S16x1x1x1x150x1_0_0_0_0_0_2)
      shapeCasts_S16x1x1x1x150x1_S16x1x1x1x150)
    (shapeCast S16x1x1x1x150
      (extractStridedSlice S16x1x1x1x150x1 ![0, 0, 0, 0, 0, 3] B slices_S16x1x1x1x150x4_S16x1x1x1x150x1_0_0_0_0_0_3)
      shapeCasts_S16x1x1x1x150x1_S16x1x1x1x150)

theorem predArea_apply (P : S16x76x76x3x1x4.Idx → EReal) (b : Fin 16) (i j : Fin 76) (a : Fin 3) :
    predArea P (ix5 b i j a (0 : Fin 1))
      = P (ix6 b i j a (0 : Fin 1) (2 : Fin 4)) * P (ix6 b i j a (0 : Fin 1) (3 : Fin 4)) := by
  unfold predArea
  rw [mulf_apply, shapeCast_dropLast6_apply, shapeCast_dropLast6_apply,
    slice6_axis5_apply 2 P _ b i j a (0 : Fin 1) (0 : Fin 1) (2 : Fin 4) rfl,
    slice6_axis5_apply 3 P _ b i j a (0 : Fin 1) (0 : Fin 1) (3 : Fin 4) rfl]

theorem gtArea_apply (B : S16x1x1x1x150x4.Idx → EReal) (b : Fin 16) (g : Fin 150) :
    gtArea B (ix5 b (0 : Fin 1) (0 : Fin 1) (0 : Fin 1) g)
      = B (ix6 b (0 : Fin 1) (0 : Fin 1) (0 : Fin 1) g (2 : Fin 4))
        * B (ix6 b (0 : Fin 1) (0 : Fin 1) (0 : Fin 1) g (3 : Fin 4)) := by
  unfold gtArea
  rw [mulf_apply, shapeCast_dropLast6_apply, shapeCast_dropLast6_apply,
    slice6_axis5_apply 2 B _ b (0 : Fin 1) (0 : Fin 1) (0 : Fin 1) g (0 : Fin 1) (2 : Fin 4) rfl,
    slice6_axis5_apply 3 B _ b (0 : Fin 1) (0 : Fin 1) (0 : Fin 1) g (0 : Fin 1) (3 : Fin 4) rfl]

/-! ## Corners -/

/-- The corners (x − w/2, y − h/2, x + w/2, y + h/2) of every predicted box. -/
def predCorners (P : FVec Ideal S16x76x76x3x1x4 .f32) : FVec Ideal S16x76x76x3x1x4 .f32 :=
  concatenate S16x76x76x3x1x4 5
    [⟨S16x76x76x3x1x2,
        subf
          (extractStridedSlice S16x76x76x3x1x2 ![0, 0, 0, 0, 0, 0] P slices_S16x76x76x3x1x4_S16x76x76x3x1x2_0_0_0_0_0_0)
          (mulf
            (extractStridedSlice S16x76x76x3x1x2 ![0, 0, 0, 0, 0, 2] P slices_S16x76x76x3x1x4_S16x76x76x3x1x2_0_0_0_0_0_2)
            (broadcastInDim S16x76x76x3x1x2 ![] bcast_S_S16x76x76x3x1x2 (constant (F := Ideal) S_ .f32 0x3F000000#32)))⟩,
      ⟨S16x76x76x3x1x2,
        addf
          (extractStridedSlice S16x76x76x3x1x2 ![0, 0, 0, 0, 0, 0] P slices_S16x76x76x3x1x4_S16x76x76x3x1x2_0_0_0_0_0_0)
          (mulf
            (extractStridedSlice S16x76x76x3x1x2 ![0, 0, 0, 0, 0, 2] P slices_S16x76x76x3x1x4_S16x76x76x3x1x2_0_0_0_0_0_2)
            (broadcastInDim S16x76x76x3x1x2 ![] bcast_S_S16x76x76x3x1x2 (constant (F := Ideal) S_ .f32 0x3F000000#32)))⟩]
    concatenates_S16x76x76x3x1x2_S16x76x76x3x1x2_S16x76x76x3x1x4_d5

/-- The corners of every ground-truth box. -/
def gtCorners (B : FVec Ideal S16x1x1x1x150x4 .f32) : FVec Ideal S16x1x1x1x150x4 .f32 :=
  concatenate S16x1x1x1x150x4 5
    [⟨S16x1x1x1x150x2,
        subf
          (extractStridedSlice S16x1x1x1x150x2 ![0, 0, 0, 0, 0, 0] B slices_S16x1x1x1x150x4_S16x1x1x1x150x2_0_0_0_0_0_0)
          (mulf
            (extractStridedSlice S16x1x1x1x150x2 ![0, 0, 0, 0, 0, 2] B slices_S16x1x1x1x150x4_S16x1x1x1x150x2_0_0_0_0_0_2)
            (broadcastInDim S16x1x1x1x150x2 ![] bcast_S_S16x1x1x1x150x2 (constant (F := Ideal) S_ .f32 0x3F000000#32)))⟩,
      ⟨S16x1x1x1x150x2,
        addf
          (extractStridedSlice S16x1x1x1x150x2 ![0, 0, 0, 0, 0, 0] B slices_S16x1x1x1x150x4_S16x1x1x1x150x2_0_0_0_0_0_0)
          (mulf
            (extractStridedSlice S16x1x1x1x150x2 ![0, 0, 0, 0, 0, 2] B slices_S16x1x1x1x150x4_S16x1x1x1x150x2_0_0_0_0_0_2)
            (broadcastInDim S16x1x1x1x150x2 ![] bcast_S_S16x1x1x1x150x2 (constant (F := Ideal) S_ .f32 0x3F000000#32)))⟩]
    concatenates_S16x1x1x1x150x2_S16x1x1x1x150x2_S16x1x1x1x150x4_d5

/-- The lower corner on axis `d` (0 the abscissa, 1 the ordinate) of a predicted box: centre less half the extent. -/
theorem predCorners_lo (P : S16x76x76x3x1x4.Idx → EReal) (b : Fin 16) (i j : Fin 76) (a : Fin 3) (d : Fin 2)
    (k c0 c2 : Fin 4) (hk : d.val = k.val) (h0 : c0.val = 0 + d.val) (h2 : c2.val = 2 + d.val) :
    predCorners P (ix6 b i j a (0 : Fin 1) k)
      = P (ix6 b i j a (0 : Fin 1) c0) - P (ix6 b i j a (0 : Fin 1) c2) * Cert.Loss.lit 0x3F000000#32 := by
  unfold predCorners
  rw [concat6_axis5_left _ _ _ b i j a (0 : Fin 1) k d hk, subf_apply, mulf_apply,
    slice6_axis5_apply 0 P _ b i j a (0 : Fin 1) d c0 h0, slice6_axis5_apply 2 P _ b i j a (0 : Fin 1) d c2 h2,
    broadcastInDim_scalar_apply, constant_apply]

/-- The upper corner on axis `d` of a predicted box: centre plus half the extent. -/
theorem predCorners_hi (P : S16x76x76x3x1x4.Idx → EReal) (b : Fin 16) (i j : Fin 76) (a : Fin 3) (d : Fin 2)
    (k c0 c2 : Fin 4) (hk : d.val + 2 = k.val) (h0 : c0.val = 0 + d.val) (h2 : c2.val = 2 + d.val) :
    predCorners P (ix6 b i j a (0 : Fin 1) k)
      = P (ix6 b i j a (0 : Fin 1) c0) + P (ix6 b i j a (0 : Fin 1) c2) * Cert.Loss.lit 0x3F000000#32 := by
  unfold predCorners
  rw [concat6_axis5_right _ _ _ b i j a (0 : Fin 1) k d hk, addf_apply, mulf_apply,
    slice6_axis5_apply 0 P _ b i j a (0 : Fin 1) d c0 h0, slice6_axis5_apply 2 P _ b i j a (0 : Fin 1) d c2 h2,
    broadcastInDim_scalar_apply, constant_apply]

/-- The lower corner on axis `d` of a ground-truth box. -/
theorem gtCorners_lo (B : S16x1x1x1x150x4.Idx → EReal) (b : Fin 16) (g : Fin 150) (d : Fin 2)
    (k c0 c2 : Fin 4) (hk : d.val = k.val) (h0 : c0.val = 0 + d.val) (h2 : c2.val = 2 + d.val) :
    gtCorners B (ix6 b (0 : Fin 1) (0 : Fin 1) (0 : Fin 1) g k)
      = B (ix6 b (0 : Fin 1) (0 : Fin 1) (0 : Fin 1) g c0)
        - B (ix6 b (0 : Fin 1) (0 : Fin 1) (0 : Fin 1) g c2) * Cert.Loss.lit 0x3F000000#32 := by
  unfold gtCorners
  rw [concat6_axis5_left _ _ _ b (0 : Fin 1) (0 : Fin 1) (0 : Fin 1) g k d hk, subf_apply, mulf_apply,
    slice6_axis5_apply 0 B _ b (0 : Fin 1) (0 : Fin 1) (0 : Fin 1) g d c0 h0,
    slice6_axis5_apply 2 B _ b (0 : Fin 1) (0 : Fin 1) (0 : Fin 1) g d c2 h2,
    broadcastInDim_scalar_apply, constant_apply]

/-- The upper corner on axis `d` of a ground-truth box. -/
theorem gtCorners_hi (B : S16x1x1x1x150x4.Idx → EReal) (b : Fin 16) (g : Fin 150) (d : Fin 2)
    (k c0 c2 : Fin 4) (hk : d.val + 2 = k.val) (h0 : c0.val = 0 + d.val) (h2 : c2.val = 2 + d.val) :
    gtCorners B (ix6 b (0 : Fin 1) (0 : Fin 1) (0 : Fin 1) g k)
      = B (ix6 b (0 : Fin 1) (0 : Fin 1) (0 : Fin 1) g c0)
        + B (ix6 b (0 : Fin 1) (0 : Fin 1) (0 : Fin 1) g c2) * Cert.Loss.lit 0x3F000000#32 := by
  unfold gtCorners
  rw [concat6_axis5_right _ _ _ b (0 : Fin 1) (0 : Fin 1) (0 : Fin 1) g k d hk, addf_apply, mulf_apply,
    slice6_axis5_apply 0 B _ b (0 : Fin 1) (0 : Fin 1) (0 : Fin 1) g d c0 h0,
    slice6_axis5_apply 2 B _ b (0 : Fin 1) (0 : Fin 1) (0 : Fin 1) g d c2 h2,
    broadcastInDim_scalar_apply, constant_apply]

end Cert.ReferenceIdeal.RefValue

end
-- ==== Proof.RefPair.lean ====
/-
  The best overlap of the reference: for every cell (b, i, j, a) the largest intersection over union of its
  predicted box with one of the 150 ground-truth boxes of image b.

  With the corners of both families of boxes spread against each other over [16,76,76,3,150,2] (last axis: abscissa,
  ordinate), the overlap length on an axis is max(min(upper corners) − max(lower corners), 0); the intersection is
  the product of the two lengths, the union the sum of the two areas less the intersection, and the quotient of the
  two is maximized over the ground-truth boxes starting from −∞.
-/
import proofs.«179941_j67783173865496_2_alg».proof.Proof.Gen.ReferenceIdeal
import proofs.«179941_j67783173865496_2_alg».proof.Proof.Loss
import Idealize.ShloMosaic.Lib.ValueLayout
import Idealize.ShloMosaic.Lib.IdealHost
import proofs.«179941_j67783173865496_2_alg».proof.Proof.RefPairBox

noncomputable section

namespace Cert.ReferenceIdeal.RefValue

open Cert.ReferenceIdeal Cert.ReferenceIdeal.Gen Idealize.ShloMosaic Idealize.ShloMosaic.ValueIdx

open Cert.LibRank6

/-! ## Overlap lengths, intersection, intersection over union -/

/-- The overlap length of every predicted box with every ground-truth box of its image, on both axes, from the two
    arrays of corners. -/
def overlapArr (C : FVec Ideal S16x76x76x3x1x4 .f32) (D : FVec Ideal S16x1x1x1x150x4 .f32) :
    FVec Ideal S16x76x76x3x150x2 .f32 :=
  maximumf
    (subf
      (minimumf
        (broadcastInDim S16x76x76x3x150x2 ![0, 1, 2, 3, 4, 5] bcast_S16x76x76x3x1x2_S16x76x76x3x150x2_0_1_2_3_4_5
          (extractStridedSlice S16x76x76x3x1x2 ![0, 0, 0, 0, 0, 2] C slices_S16x76x76x3x1x4_S16x76x76x3x1x2_0_0_0_0_0_2))
        (broadcastInDim S16x76x76x3x150x2 ![0, 1, 2, 3, 4, 5] bcast_S16x1x1x1x150x2_S16x76x76x3x150x2_0_1_2_3_4_5
          (extractStridedSlice S16x1x1x1x150x2 ![0, 0, 0, 0, 0, 2] D slices_S16x1x1x1x150x4_S16x1x1x1x150x2_0_0_0_0_0_2)))
      (maximumf
        (broadcastInDim S16x76x76x3x150x2 ![0, 1, 2, 3, 4, 5] bcast_S16x76x76x3x1x2_S16x76x76x3x150x2_0_1_2_3_4_5
          (extractStridedSlice S16x76x76x3x1x2 ![0, 0, 0, 0, 0, 0] C slices_S16x76x76x3x1x4_S16x76x76x3x1x2_0_0_0_0_0_0))
        (broadcastInDim S16x76x76x3x150x2 ![0, 1, 2, 3, 4, 5] bcast_S16x1x1x1x150x2_S16x76x76x3x150x2_0_1_2_3_4_5
          (extractStridedSlice S16x1x1x1x150x2 ![0, 0, 0, 0, 0, 0] D slices_S16x1x1x1x150x4_S16x1x1x1x150x2_0_0_0_0_0_0))))
    (broadcastInDim S16x76x76x3x150x2 ![] bcast_S_S16x76x76x3x150x2 (constant (F := Ideal) S_ .f32 0x00000000#32))

/-- The intersection area: the product of the two overlap lengths. -/
def interArr (O : FVec Ideal S16x76x76x3x150x2 .f32) : FVec Ideal S16x76x76x3x150 .f32 :=
  mulf
    (shapeCast S16x76x76x3x150
      (extractStridedSlice S16x76x76x3x150x1 ![0, 0, 0, 0, 0, 0] O slices_S16x76x76x3x150x2_S16x76x76x3x150x1_0_0_0_0_0_0)
      shapeCasts_S16x76x76x3x150x1_S16x76x76x3x150)
    (shapeCast S16x76x76x3x150
      (extractStridedSlice S16x76x76x3x150x1 ![0, 0, 0, 0, 0, 1] O slices_S16x76x76x3x150x2_S16x76x76x3x150x1_0_0_0_0_0_1)
      shapeCasts_S16x76x76x3x150x1_S16x76x76x3x150)

/-- Intersection over union from the two families of areas and the intersections. -/
def iouArr (pa : FVec Ideal S16x76x76x3x1 .f32) (qa : FVec Ideal S16x1x1x1x150 .f32)
    (I : FVec Ideal S16x76x76x3x150 .f32) : FVec Ideal S16x76x76x3x150 .f32 :=
  Host.divf I
    (subf
      (addf
        (broadcastInDim S16x76x76x3x150 ![0, 1, 2, 3, 4] bcast_S16x76x76x3x1_S16x76x76x3x150_0_1_2_3_4 pa)
        (broadcastInDim S16x76x76x3x150 ![0, 1, 2, 3, 4] bcast_S16x1x1x1x150_S16x76x76x3x150_0_1_2_3_4 qa))
      I)

/-- The predicted corners spread along the ground-truth boxes. -/
theorem spreadPred_apply (X : S16x76x76x3x1x2.Idx → EReal) (b : Fin 16) (i j : Fin 76) (a : Fin 3) (g : Fin 150)
    (d : Fin 2) :
    broadcastInDim S16x76x76x3x150x2 ![0, 1, 2, 3, 4, 5] bcast_S16x76x76x3x1x2_S16x76x76x3x150x2_0_1_2_3_4_5 X
        (ix6 b i j a g d)
      = X (ix6 b i j a (0 : Fin 1) d) :=
  broadcastInDim_apply _ _ X (ix6 b i j a g d) (ix6 b i j a (0 : Fin 1) d) (fun ax => by
    match ax with
    | ⟨0, _⟩ => rfl
    | ⟨1, _⟩ => rfl
    | ⟨2, _⟩ => rfl
    | ⟨3, _⟩ => rfl
    | ⟨4, _⟩ => rfl
    | ⟨5, _⟩ => rfl)

/-- The ground-truth corners spread along the cells and anchors. -/
theorem spreadGt_apply (Y : S16x1x1x1x150x2.Idx → EReal) (b : Fin 16) (i j : Fin 76) (a : Fin 3) (g : Fin 150)
    (d : Fin 2) :
    broadcastInDim S16x76x76x3x150x2 ![0, 1, 2, 3, 4, 5] bcast_S16x1x1x1x150x2_S16x76x76x3x150x2_0_1_2_3_4_5 Y
        (ix6 b i j a g d)
      = Y (ix6 b (0 : Fin 1) (0 : Fin 1) (0 : Fin 1) g d) :=
  broadcastInDim_apply _ _ Y (ix6 b i j a g d) (ix6 b (0 : Fin 1) (0 : Fin 1) (0 : Fin 1) g d) (fun ax => by
    match ax with
    | ⟨0, _⟩ => rfl
    | ⟨1, _⟩ => rfl
    | ⟨2, _⟩ => rfl
    | ⟨3, _⟩ => rfl
    | ⟨4, _⟩ => rfl
    | ⟨5, _⟩ => rfl)

/-- The overlap length on axis `d`: corner entries `c0 = d` are the lower corners, `c2 = 2 + d` the upper ones. -/
theorem overlapArr_apply (C : S16x76x76x3x1x4.Idx → EReal) (D : S16x1x1x1x150x4.Idx → EReal) (b : Fin 16) (i j : Fin 76)
    (a : Fin 3) (g : Fin 150) (d : Fin 2) (c0 c2 : Fin 4) (h0 : c0.val = 0 + d.val) (h2 : c2.val = 2 + d.val) :
    overlapArr C D (ix6 b i j a g d)
      = max
          (min (C (ix6 b i j a (0 : Fin 1) c2)) (D (ix6 b (0 : Fin 1) (0 : Fin 1) (0 : Fin 1) g c2))
            - max (C (ix6 b i j a (0 : Fin 1) c0)) (D (ix6 b (0 : Fin 1) (0 : Fin 1) (0 : Fin 1) g c0)))
          (Cert.Loss.lit 0x00000000#32) := by
  unfold overlapArr
  rw [maximumf_apply, subf_apply, minimumf_apply, maximumf_apply, spreadPred_apply, spreadPred_apply, spreadGt_apply,
    spreadGt_apply,
    slice6_axis5_apply 2 C _ b i j a (0 : Fin 1) d c2 h2, slice6_axis5_apply 0 C _ b i j a (0 : Fin 1) d c0 h0,
    slice6_axis5_apply 2 D _ b (0 : Fin 1) (0 : Fin 1) (0 : Fin 1) g d c2 h2,
    slice6_axis5_apply 0 D _ b (0 : Fin 1) (0 : Fin 1) (0 : Fin 1) g d c0 h0,
    broadcastInDim_scalar_apply, constant_apply]

theorem interArr_apply (O : S16x76x76x3x150x2.Idx → EReal) (b : Fin 16) (i j : Fin 76) (a : Fin 3) (g : Fin 150) :
    interArr O (ix5 b i j a g) = O (ix6 b i j a g (0 : Fin 2)) * O (ix6 b i j a g (1 : Fin 2)) := by
  unfold interArr
  rw [mulf_apply, shapeCast_dropLast6_apply, shapeCast_dropLast6_apply,
    slice6_axis5_apply 0 O _ b i j a g (0 : Fin 1) (0 : Fin 2) rfl,
    slice6_axis5_apply 1 O _ b i j a g (0 : Fin 1) (1 : Fin 2) rfl]

theorem spreadPredArea_apply (pa : S16x76x76x3x1.Idx → EReal) (b : Fin 16) (i j : Fin 76) (a : Fin 3) (g : Fin 150) :
    broadcastInDim S16x76x76x3x150 ![0, 1, 2, 3, 4] bcast_S16x76x76x3x1_S16x76x76x3x150_0_1_2_3_4 pa (ix5 b i j a g)
      = pa (ix5 b i j a (0 : Fin 1)) :=
  broadcastInDim_apply _ _ pa (ix5 b i j a g) (ix5 b i j a (0 : Fin 1)) (fun ax => by
    match ax with
    | ⟨0, _⟩ => rfl
    | ⟨1, _⟩ => rfl
    | ⟨2, _⟩ => rfl
    | ⟨3, _⟩ => rfl
    | ⟨4, _⟩ => rfl)

theorem spreadGtArea_apply (qa : S16x1x1x1x150.Idx → EReal) (b : Fin 16) (i j : Fin 76) (a : Fin 3) (g : Fin 150) :
    broadcastInDim S16x76x76x3x150 ![0, 1, 2, 3, 4] bcast_S16x1x1x1x150_S16x76x76x3x150_0_1_2_3_4 qa (ix5 b i j a g)
      = qa (ix5 b (0 : Fin 1) (0 : Fin 1) (0 : Fin 1) g) :=
  broadcastInDim_apply _ _ qa (ix5 b i j a g) (ix5 b (0 : Fin 1) (0 : Fin 1) (0 : Fin 1) g) (fun ax => by
    match ax with
    | ⟨0, _⟩ => rfl
    | ⟨1, _⟩ => rfl
    | ⟨2, _⟩ => rfl
    | ⟨3, _⟩ => rfl
    | ⟨4, _⟩ => rfl)

theorem iouArr_apply (pa : S16x76x76x3x1.Idx → EReal) (qa : S16x1x1x1x150.Idx → EReal) (I : S16x76x76x3x150.Idx → EReal)
    (b : Fin 16) (i j : Fin 76) (a : Fin 3) (g : Fin 150) :
    iouArr pa qa I (ix5 b i j a g)
      = Ideal.div (I (ix5 b i j a g))
          ((pa (ix5 b i j a (0 : Fin 1)) + qa (ix5 b (0 : Fin 1) (0 : Fin 1) (0 : Fin 1) g)) - I (ix5 b i j a g)) := by
  unfold iouArr
  rw [hostDivf_apply, subf_apply, addf_apply, spreadPredArea_apply, spreadGtArea_apply]

/-! ## Every predicted box against every ground-truth box, and the best -/

/-- The intersection over union of every predicted box with every ground-truth box of its image. -/
def pairIouArr (p : FVec Ideal S16x76x76x3x4 .f32) (bb : FVec Ideal S16x150x4 .f32) : FVec Ideal S16x76x76x3x150 .f32 :=
  iouArr (predArea (predSix p)) (gtArea (gtSix bb))
    (interArr (overlapArr (predCorners (predSix p)) (gtCorners (gtSix bb))))

theorem pairIouArr_apply (p : S16x76x76x3x4.Idx → EReal) (bb : S16x150x4.Idx → EReal) (b : Fin 16) (i j : Fin 76)
    (a : Fin 3) (g : Fin 150) :
    pairIouArr p bb (ix5 b i j a g)
      = Cert.Loss.iou (p (ix5 b i j a (0 : Fin 4))) (p (ix5 b i j a (1 : Fin 4))) (p (ix5 b i j a (2 : Fin 4)))
          (p (ix5 b i j a (3 : Fin 4))) (bb (ix3 b g (0 : Fin 4))) (bb (ix3 b g (1 : Fin 4))) (bb (ix3 b g (2 : Fin 4)))
          (bb (ix3 b g (3 : Fin 4))) := by
  unfold pairIouArr
  rw [iouArr_apply, interArr_apply, predArea_apply, gtArea_apply,
    overlapArr_apply _ _ b i j a g (0 : Fin 2) (0 : Fin 4) (2 : Fin 4) rfl rfl,
    overlapArr_apply _ _ b i j a g (1 : Fin 2) (1 : Fin 4) (3 : Fin 4) rfl rfl,
    predCorners_lo _ b i j a (0 : Fin 2) (0 : Fin 4) (0 : Fin 4) (2 : Fin 4) rfl rfl rfl,
    predCorners_lo _ b i j a (1 : Fin 2) (1 : Fin 4) (1 : Fin 4) (3 : Fin 4) rfl rfl rfl,
    predCorners_hi _ b i j a (0 : Fin 2) (2 : Fin 4) (0 : Fin 4) (2 : Fin 4) rfl rfl rfl,
    predCorners_hi _ b i j a (1 : Fin 2) (3 : Fin 4) (1 : Fin 4) (3 : Fin 4) rfl rfl rfl,
    gtCorners_lo _ b g (0 : Fin 2) (0 : Fin 4) (0 : Fin 4) (2 : Fin 4) rfl rfl rfl,
    gtCorners_lo _ b g (1 : Fin 2) (1 : Fin 4) (1 : Fin 4) (3 : Fin 4) rfl rfl rfl,
    gtCorners_hi _ b g (0 : Fin 2) (2 : Fin 4) (0 : Fin 4) (2 : Fin 4) rfl rfl rfl,
    gtCorners_hi _ b g (1 : Fin 2) (3 : Fin 4) (1 : Fin 4) (3 : Fin 4) rfl rfl rfl,
    predSix_apply, predSix_apply, predSix_apply, predSix_apply, gtSix_apply, gtSix_apply, gtSix_apply, gtSix_apply]
  rfl

/-- The best overlap of every cell's predicted box: the maximum over the ground-truth boxes, from −∞, with a
    trailing unit axis. -/
def bestArr (p : FVec Ideal S16x76x76x3x4 .f32) (bb : FVec Ideal S16x150x4 .f32) : FVec Ideal S16x76x76x3x1 .f32 :=
  broadcastInDim S16x76x76x3x1 ![0, 1, 2, 3] bcast_S16x76x76x3_S16x76x76x3x1_0_1_2_3
    (Host.reduce (FloatOps.maximumf (F := Ideal) (φ := .f32)) (pairIouArr p bb)
      (constant (F := Ideal) S_ .f32 0xFF800000#32) reducesTo_S16x76x76x3x150_S16x76x76x3_d4 h_S_)

/-- The reduced axis is the last of five. -/
theorem reduces_last : S16x76x76x3x150.Reduces [(4 : Fin 5)] S16x76x76x3 := by decide

theorem bestArr_apply (p : S16x76x76x3x4.Idx → EReal) (bb : S16x150x4.Idx → EReal) (b : Fin 16) (i j : Fin 76)
    (a : Fin 3) :
    bestArr p bb (ix5 b i j a (0 : Fin 1))
      = (Finset.univ : Finset (Fin 150)).fold max (Cert.Loss.lit 0xFF800000#32)
          (fun g => Cert.Loss.iou (p (ix5 b i j a (0 : Fin 4))) (p (ix5 b i j a (1 : Fin 4))) (p (ix5 b i j a (2 : Fin 4)))
            (p (ix5 b i j a (3 : Fin 4))) (bb (ix3 b g (0 : Fin 4))) (bb (ix3 b g (1 : Fin 4))) (bb (ix3 b g (2 : Fin 4)))
            (bb (ix3 b g (3 : Fin 4)))) := by
  unfold bestArr
  refine (broadcastInDim_apply _ _ _ (ix5 b i j a (0 : Fin 1)) (ix4 b i j a) (fun ax => by
    match ax with
    | ⟨0, _⟩ => rfl
    | ⟨1, _⟩ => rfl
    | ⟨2, _⟩ => rfl
    | ⟨3, _⟩ => rfl)).trans ?_
  refine (reduce5_axis4_apply (FloatOps.maximumf (F := Ideal) (φ := .f32)) (pairIouArr p bb)
    (constant (F := Ideal) S_ .f32 0xFF800000#32) reducesTo_S16x76x76x3x150_S16x76x76x3_d4 reduces_last h_S_ b i j a).trans ?_
  have e : (fun g : Fin 150 => pairIouArr p bb (ix5 b i j a g))
      = fun g : Fin 150 => Cert.Loss.iou (p (ix5 b i j a (0 : Fin 4))) (p (ix5 b i j a (1 : Fin 4)))
          (p (ix5 b i j a (2 : Fin 4))) (p (ix5 b i j a (3 : Fin 4))) (bb (ix3 b g (0 : Fin 4))) (bb (ix3 b g (1 : Fin 4)))
          (bb (ix3 b g (2 : Fin 4))) (bb (ix3 b g (3 : Fin 4))) :=
    funext fun g => pairIouArr_apply p bb b i j a g
  rw [e]
  rfl

end Cert.ReferenceIdeal.RefValue

end
-- ==== Proof.RefConf.lean ====
/-
  The confidence term of the reference, as one function of the arrays that enter it, read cell by cell.

  At a cell with objectness o, confidence logit x, its logistic s and best overlap m (the largest intersection over
  union of the predicted box with a ground-truth box of the image), the reference forms
    (o − s)² · ( o · bce(x, o) + (1 − o)·[m < ½] · bce(x, o) ),
  bce the logistic cross-entropy max(x, 0) − x·o + log(1 + e^{−|x|}).  The indicator is the comparison's bit read
  as an unsigned integer.
-/
import proofs.«179941_j67783173865496_2_alg».proof.Proof.Gen.ReferenceIdeal
import proofs.«179941_j67783173865496_2_alg».proof.Proof.Loss
import Idealize.ShloMosaic.Lib.ValueLayout
import Idealize.ShloMosaic.Lib.IdealHost

noncomputable section

namespace Cert.ReferenceIdeal.RefValue

open Cert.ReferenceIdeal Cert.ReferenceIdeal.Gen Idealize.ShloMosaic Idealize.ShloMosaic.ValueIdx

/-- The background weight: (1 − objectness) times the indicator of a best overlap below one half. -/
def bgdArr (ob best : FVec Ideal S16x76x76x3x1 .f32) : FVec Ideal S16x76x76x3x1 .f32 :=
  mulf
    (subf (broadcastInDim S16x76x76x3x1 ![] bcast_S_S16x76x76x3x1 (constant (F := Ideal) S_ .f32 0x3F800000#32)) ob)
    (uitofp .f32
      (cmpf .olt best (broadcastInDim S16x76x76x3x1 ![] bcast_S_S16x76x76x3x1 (constant (F := Ideal) S_ .f32 0x3F000000#32))))

/-- The logistic cross-entropy of the confidence logit against the objectness. -/
def confBce (rc ob : FVec Ideal S16x76x76x3x1 .f32) : FVec Ideal S16x76x76x3x1 .f32 :=
  addf
    (subf
      (maximumf rc (broadcastInDim S16x76x76x3x1 ![] bcast_S_S16x76x76x3x1 (constant (F := Ideal) S_ .f32 0x00000000#32)))
      (mulf rc ob))
    (Host.log1p (Host.exp (Host.negf (Host.absf rc))))

/-- The confidence term: the squared gap between objectness and predicted confidence, times the cross-entropy
    weighted by the objectness plus the cross-entropy weighted by the background weight. -/
def confArr (sc rc ob best : FVec Ideal S16x76x76x3x1 .f32) : FVec Ideal S16x76x76x3x1 .f32 :=
  mulf (mulf (subf ob sc) (subf ob sc))
    (addf (mulf ob (confBce rc ob)) (mulf (bgdArr ob best) (confBce rc ob)))

/-- The bit of "m is below one half", read as an unsigned integer, is the indicator. -/
theorem below_bit (m : EReal) :
    FloatOps.uitofp (F := Ideal) .f32 (FloatOps.cmpf (F := Ideal) (φ := .f32) .olt m (Ideal.ofBits .f32 0x3F000000#32))
      = Cert.Loss.below m := by
  unfold Cert.Loss.below
  show (((BitVec.ofBool (decide (m < Ideal.ofBits .f32 0x3F000000#32))).toNat : ℝ) : EReal) = _
  by_cases h : m < Ideal.ofBits .f32 0x3F000000#32
  · rw [if_pos h, decide_eq_true h]; simp
  · rw [if_neg h, decide_eq_false h]; simp

/-- The background weight at an entry. -/
theorem bgdArr_apply (ob best : S16x76x76x3x1.Idx → EReal) (y : S16x76x76x3x1.Idx) :
    bgdArr ob best y = Cert.Loss.bgd (ob y) (best y) := by
  unfold bgdArr Cert.Loss.bgd
  rw [mulf_apply, subf_apply, broadcastInDim_scalar_apply, constant_apply, ← below_bit]
  rfl

/-- The cross-entropy array at an entry is the scalar cross-entropy of the two entries. -/
theorem confBce_apply (rc ob : S16x76x76x3x1.Idx → EReal) (y : S16x76x76x3x1.Idx) :
    confBce rc ob y = Cert.Loss.bce (rc y) (ob y) := by
  unfold confBce Cert.Loss.bce
  rw [addf_apply, subf_apply, maximumf_apply, mulf_apply, broadcastInDim_scalar_apply, constant_apply]
  rfl

/-- The confidence term at an entry. -/
theorem confArr_apply' (sc rc ob best : S16x76x76x3x1.Idx → EReal) (y : S16x76x76x3x1.Idx) :
    confArr sc rc ob best y
      = ((ob y - sc y) * (ob y - sc y))
          * (ob y * Cert.Loss.bce (rc y) (ob y) + Cert.Loss.bgd (ob y) (best y) * Cert.Loss.bce (rc y) (ob y)) := by
  unfold confArr
  rw [mulf_apply, mulf_apply, subf_apply, addf_apply, mulf_apply, mulf_apply, confBce_apply, bgdArr_apply]

/-- The confidence term at cell (b, i, j, a). -/
theorem confArr_apply (sc rc ob best : S16x76x76x3x1.Idx → EReal) (b : Fin 16) (i j : Fin 76) (a : Fin 3) :
    confArr sc rc ob best (ix5 b i j a (0 : Fin 1))
      = ((ob (ix5 b i j a (0 : Fin 1)) - sc (ix5 b i j a (0 : Fin 1)))
            * (ob (ix5 b i j a (0 : Fin 1)) - sc (ix5 b i j a (0 : Fin 1))))
          * (ob (ix5 b i j a (0 : Fin 1)) * Cert.Loss.bce (rc (ix5 b i j a (0 : Fin 1))) (ob (ix5 b i j a (0 : Fin 1)))
              + Cert.Loss.bgd (ob (ix5 b i j a (0 : Fin 1))) (best (ix5 b i j a (0 : Fin 1)))
                  * Cert.Loss.bce (rc (ix5 b i j a (0 : Fin 1))) (ob (ix5 b i j a (0 : Fin 1)))) :=
  confArr_apply' sc rc ob best _

/-- Where the predicted confidence is the logistic of the logit, the confidence term is the loss's. -/
theorem confArr_eq_confSum (sc rc ob best : S16x76x76x3x1.Idx → EReal) (b : Fin 16) (i j : Fin 76) (a : Fin 3)
    (hsc : sc (ix5 b i j a (0 : Fin 1)) = Ideal.logistic (rc (ix5 b i j a (0 : Fin 1)))) :
    confArr sc rc ob best (ix5 b i j a (0 : Fin 1))
      = Cert.Loss.confSum (rc (ix5 b i j a (0 : Fin 1))) (ob (ix5 b i j a (0 : Fin 1))) (best (ix5 b i j a (0 : Fin 1))) := by
  rw [confArr_apply, hsc]
  rfl

end Cert.ReferenceIdeal.RefValue

end
-- ==== Proof.RefClass.lean ====
/-
  The class term of the reference, as one function of the arrays that enter it, read cell by cell.

  For every cell (b, i, j, a) and class k the reference forms the logistic cross-entropy of the raw class number
  against the class label, max(x, 0) − x·l + log(1 + e^{−|x|}), and multiplies it by the cell's objectness, which
  is spread over the 80 classes.
-/
import proofs.«179941_j67783173865496_2_alg».proof.Proof.Gen.ReferenceIdeal
import proofs.«179941_j67783173865496_2_alg».proof.Proof.Loss
import Idealize.ShloMosaic.Lib.ValueLayout
import Idealize.ShloMosaic.Lib.IdealHost

noncomputable section

namespace Cert.ReferenceIdeal.RefValue

open Cert.ReferenceIdeal Cert.ReferenceIdeal.Gen Idealize.ShloMosaic Idealize.ShloMosaic.ValueIdx

/-- The logistic cross-entropy of every raw class number against its label: max(x, 0) − x·l + log(1 + e^{−|x|}). -/
def classBce (rk lk : FVec Ideal S16x76x76x3x80 .f32) : FVec Ideal S16x76x76x3x80 .f32 :=
  addf
    (subf
      (maximumf rk (broadcastInDim S16x76x76x3x80 ![] bcast_S_S16x76x76x3x80 (constant (F := Ideal) S_ .f32 0x00000000#32)))
      (mulf rk lk))
    (Host.log1p (Host.exp (Host.negf (Host.absf rk))))

/-- The class term: the objectness, spread over the classes, times the cross-entropy. -/
def classArr (rk : FVec Ideal S16x76x76x3x80 .f32) (ob : FVec Ideal S16x76x76x3x1 .f32)
    (lk : FVec Ideal S16x76x76x3x80 .f32) : FVec Ideal S16x76x76x3x80 .f32 :=
  mulf (broadcastInDim S16x76x76x3x80 ![0, 1, 2, 3, 4] bcast_S16x76x76x3x1_S16x76x76x3x80_0_1_2_3_4 ob) (classBce rk lk)

/-- The objectness spread over the classes reads the cell's objectness at every class. -/
theorem spread_apply (ob : S16x76x76x3x1.Idx → EReal) (b : Fin 16) (i j : Fin 76) (a : Fin 3) (k : Fin 80) :
    broadcastInDim S16x76x76x3x80 ![0, 1, 2, 3, 4] bcast_S16x76x76x3x1_S16x76x76x3x80_0_1_2_3_4 ob (ix5 b i j a k)
      = ob (ix5 b i j a (0 : Fin 1)) :=
  broadcastInDim_apply _ _ ob (ix5 b i j a k) (ix5 b i j a (0 : Fin 1)) (fun ax => by
    match ax with
    | ⟨0, _⟩ => rfl
    | ⟨1, _⟩ => rfl
    | ⟨2, _⟩ => rfl
    | ⟨3, _⟩ => rfl
    | ⟨4, _⟩ => rfl)

/-- The cross-entropy array at a cell and class is the scalar cross-entropy of the two entries. -/
theorem classBce_apply (rk lk : S16x76x76x3x80.Idx → EReal) (y : S16x76x76x3x80.Idx) :
    classBce rk lk y = Cert.Loss.bce (rk y) (lk y) := by
  unfold classBce Cert.Loss.bce
  rw [addf_apply, subf_apply, maximumf_apply, mulf_apply, broadcastInDim_scalar_apply, constant_apply]
  rfl

/-- The class term at cell (b, i, j, a) and class k. -/
theorem classArr_apply (rk : S16x76x76x3x80.Idx → EReal) (ob : S16x76x76x3x1.Idx → EReal)
    (lk : S16x76x76x3x80.Idx → EReal) (b : Fin 16) (i j : Fin 76) (a : Fin 3) (k : Fin 80) :
    classArr rk ob lk (ix5 b i j a k)
      = Cert.Loss.classTerm (ob (ix5 b i j a (0 : Fin 1))) (rk (ix5 b i j a k)) (lk (ix5 b i j a k)) := by
  unfold classArr Cert.Loss.classTerm
  rw [mulf_apply, spread_apply, classBce_apply]

end Cert.ReferenceIdeal.RefValue

end
-- ==== Proof.RefTermsLink.lean ====
/-
  What the reference's run leaves in the buffers of the best overlaps, the confidence terms and the class terms, as
  the three array functions applied to what it leaves in the buffers they are computed from.

  Each buffer written by the reference's line holds, after the whole line, its own operation's function of what its
  operands hold after the whole line.  Substituting these equations from a term's last operation back to the arrays
  that enter it gives the composition of operations by which the array function is defined.
-/
import proofs.«179941_j67783173865496_2_alg».proof.Proof.RefStages
import proofs.«179941_j67783173865496_2_alg».proof.Proof.RefPair
import proofs.«179941_j67783173865496_2_alg».proof.Proof.RefConf
import proofs.«179941_j67783173865496_2_alg».proof.Proof.RefClass

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable (V : Valuation τ sig (Elt Ideal))

/-! ## The pairwise overlap -/

theorem link_predSix : W V (Proc.devRef .tc main_v131) = predSix (W V (Proc.devRef .tc main_v48)) := st_main_v131 V

theorem link_gtSix : W V (Proc.devRef .tc main_v132) = gtSix (W V (Proc.devRef .tc main_arg2)) := st_main_v132 V

theorem link_predArea : W V (Proc.devRef .tc main_v137) = predArea (W V (Proc.devRef .tc main_v131)) := by
  rw [st_main_v137, st_main_v134, st_main_v136, st_main_v133, st_main_v135]
  rfl

theorem link_gtArea : W V (Proc.devRef .tc main_v142) = gtArea (W V (Proc.devRef .tc main_v132)) := by
  rw [st_main_v142, st_main_v139, st_main_v141, st_main_v138, st_main_v140]
  rfl

theorem link_predCorners : W V (Proc.devRef .tc main_v153) = predCorners (W V (Proc.devRef .tc main_v131)) := by
  rw [st_main_v153, st_main_v147, st_main_v152, st_main_v146, st_main_v151, st_main_v143, st_main_v144, st_main_v145,
    st_main_v148, st_main_v149, st_main_v150, st_main_cst_18, st_main_cst_19]
  rfl

theorem link_gtCorners : W V (Proc.devRef .tc main_v164) = gtCorners (W V (Proc.devRef .tc main_v132)) := by
  rw [st_main_v164, st_main_v158, st_main_v163, st_main_v157, st_main_v162, st_main_v154, st_main_v155, st_main_v156,
    st_main_v159, st_main_v160, st_main_v161, st_main_cst_20, st_main_cst_21]
  rfl

theorem link_overlap : W V (Proc.devRef .tc main_v177) = overlapArr (W V (Proc.devRef .tc main_v153)) (W V (Proc.devRef .tc main_v164)) := by
  rw [st_main_v177, st_main_v175, st_main_v176, st_main_v174, st_main_v169, st_main_v172, st_main_v173, st_main_v167,
    st_main_v168, st_main_v170, st_main_v171, st_main_v165, st_main_v166, st_main_cst_22]
  rfl

theorem link_inter : W V (Proc.devRef .tc main_v182) = interArr (W V (Proc.devRef .tc main_v177)) := by
  rw [st_main_v182, st_main_v179, st_main_v181, st_main_v178, st_main_v180]
  rfl

theorem link_iou : W V (Proc.devRef .tc main_v187) = iouArr (W V (Proc.devRef .tc main_v137)) (W V (Proc.devRef .tc main_v142)) (W V (Proc.devRef .tc main_v182)) := by
  rw [st_main_v187, st_main_v186, st_main_v185, st_main_v183, st_main_v184]
  rfl

theorem link_pairIou : W V (Proc.devRef .tc main_v187) = pairIouArr (W V (Proc.devRef .tc main_v48)) (W V (Proc.devRef .tc main_arg2)) := by
  rw [link_iou, link_inter, link_overlap, link_predCorners, link_gtCorners, link_predArea, link_gtArea, link_predSix,
    link_gtSix]
  rfl

/-- The buffer of the best overlaps holds the best-overlap array of the predicted and the ground-truth boxes. -/
theorem link_best : W V (Proc.devRef .tc main_v189) = bestArr (W V (Proc.devRef .tc main_v48)) (W V (Proc.devRef .tc main_arg2)) := by
  rw [st_main_v189, st_main_v188, st_main_cst_23, link_pairIou]
  rfl

/-! ## The confidence term -/

theorem link_bgd : W V (Proc.devRef .tc main_v195) = bgdArr (W V (Proc.devRef .tc main_v51)) (W V (Proc.devRef .tc main_v189)) := by
  rw [st_main_v195, st_main_v191, st_main_v194, st_main_v190, st_main_v193, st_main_v192, st_main_cst_24, st_main_cst_25]
  rfl

theorem link_confBce : W V (Proc.devRef .tc main_v206) = confBce (W V (Proc.devRef .tc main_v46)) (W V (Proc.devRef .tc main_v51)) := by
  rw [st_main_v206, st_main_v201, st_main_v205, st_main_v199, st_main_v200, st_main_v204, st_main_v203, st_main_v202,
    st_main_v198, st_main_cst_26]
  rfl

/-- The buffer of the confidence terms holds the confidence array of the predicted confidence, its logit, the
    objectness and the best overlaps. -/
theorem link_conf : W V (Proc.devRef .tc main_v210)
    = confArr (W V (Proc.devRef .tc main_v49)) (W V (Proc.devRef .tc main_v46)) (W V (Proc.devRef .tc main_v51)) (W V (Proc.devRef .tc main_v189)) := by
  rw [st_main_v210, st_main_v197, st_main_v209, st_main_v196, st_main_v207, st_main_v208, link_bgd, link_confBce]
  rfl

/-! ## The class term -/

theorem link_classBce : W V (Proc.devRef .tc main_v219) = classBce (W V (Proc.devRef .tc main_v47)) (W V (Proc.devRef .tc main_v52)) := by
  rw [st_main_v219, st_main_v214, st_main_v218, st_main_v212, st_main_v213, st_main_v217, st_main_v216, st_main_v215,
    st_main_v211, st_main_cst_27]
  rfl

/-- The buffer of the class terms holds the class array of the class logits, the objectness and the class labels. -/
theorem link_class : W V (Proc.devRef .tc main_v221)
    = classArr (W V (Proc.devRef .tc main_v47)) (W V (Proc.devRef .tc main_v51)) (W V (Proc.devRef .tc main_v52)) := by
  rw [st_main_v221, st_main_v220, link_classBce]
  rfl

end Cert.ReferenceIdeal.RefValue

end
-- ==== Proof.RefTotal.lean ====
/-
  The reference's result is the specification's.

  The result buffer holds the three means of the box-term, confidence-term and class-term arrays.  The box term is, cell
  by cell, the specification's; the confidence term is the specification's once the predicted confidence is read as the
  logistic of the raw confidence and the best overlap as the maximum over the ground-truth boxes of the overlap with the
  cell's predicted box; the class term is the specification's class by class.  The sums are the iterated sums over the
  cells, so the three means are the specification's three averaged sums.
-/
import proofs.«179941_j67783173865496_2_alg».proof.Proof.RefLink
import proofs.«179941_j67783173865496_2_alg».proof.Proof.RefTermsLink

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

/-- The three means of the box term, of a confidence term and of a class term that are, cell by cell, the specification's
    terms, are the specification's result. -/
theorem tail_eq_total (x l : S16x76x76x3x85.Idx → EReal) (bb : S16x150x4.Idx → EReal) (anc : S3x2.Idx → EReal)
    (C : S16x76x76x3x1.Idx → EReal) (P : S16x76x76x3x80.Idx → EReal)
    (hC : ∀ (b : Fin 16) (i j : Fin 76) (a : Fin 3), C (ix5 b i j a (0 : Fin 1))
        = Cert.Loss.confSumCell (Cert.Loss.cellOf x b i j a) (Cert.Loss.cellOf l b i j a) (Cert.Loss.boxesOf bb b) anc a i.val j.val)
    (hP : ∀ (b : Fin 16) (i j : Fin 76) (a : Fin 3) (k : Fin 80), P (ix5 b i j a k)
        = Cert.Loss.classCell (Cert.Loss.cellOf x b i j a) (Cert.Loss.cellOf l b i j a) k) :
    tailArr (boxArr x l anc) C P = Cert.Loss.total x l bb anc := by
  funext q
  obtain ⟨k, rfl⟩ : ∃ k : Fin 3, q = ix1 k := ⟨q 0, eq_ix1 q⟩
  obtain ⟨e0, e1, e2⟩ := tailArr_apply (boxArr x l anc) C P
  match k with
  | ⟨0, _⟩ =>
    refine e0.trans ?_
    simp only [boxArr_apply]
    rfl
  | ⟨1, _⟩ =>
    refine e1.trans ?_
    simp only [hC]
    rfl
  | ⟨2, _⟩ =>
    refine e2.trans ?_
    simp only [hP]
    rfl

section Cells

variable (x l : S16x76x76x3x85.Idx → EReal) (bb : S16x150x4.Idx → EReal) (anc : S3x2.Idx → EReal)

/-- The label's class numbers [..,80]. -/
def lclsArr : S16x76x76x3x80.Idx → EReal :=
  extractStridedSlice S16x76x76x3x80 ![0, 0, 0, 0, 5] l slices_S16x76x76x3x85_S16x76x76x3x80_0_0_0_0_5

theorem lclsArr_apply (b : Fin 16) (i j : Fin 76) (a : Fin 3) (k : Fin 80) :
    lclsArr l (ix5 b i j a k) = l (ix5 b i j a (⟨5 + k.val, by omega⟩ : Fin 85)) :=
  slice5_axis4_apply 5 l _ b i j a k _ rfl

/-- The reference's confidence term at a cell is the specification's: the predicted confidence is the logistic of the
    raw one, and the best overlap is taken over the overlaps of the cell's predicted box. -/
theorem conf_cell (b : Fin 16) (i j : Fin 76) (a : Fin 3) :
    confArr (sigConfArr x anc) (rawConfArr x) (lobjArr l) (bestArr (predArr x anc) bb) (ix5 b i j a (0 : Fin 1))
      = Cert.Loss.confSumCell (Cert.Loss.cellOf x b i j a) (Cert.Loss.cellOf l b i j a) (Cert.Loss.boxesOf bb b) anc a i.val j.val := by
  rw [confArr_eq_confSum _ _ _ _ b i j a (by rw [sigConfArr_apply, rawConfArr_apply]), rawConfArr_apply, lobjArr_apply, bestArr_apply]
  obtain ⟨e0, e1, e2, e3⟩ := predArr_apply x anc b i j a
  rw [e0, e1, e2, e3]
  rfl

/-- The reference's class term at a cell and class is the specification's. -/
theorem class_cell (b : Fin 16) (i j : Fin 76) (a : Fin 3) (k : Fin 80) :
    classArr (rawClassArr x) (lobjArr l) (lclsArr l) (ix5 b i j a k)
      = Cert.Loss.classCell (Cert.Loss.cellOf x b i j a) (Cert.Loss.cellOf l b i j a) k := by
  rw [classArr_apply, lobjArr_apply, rawClassArr_apply, lclsArr_apply]
  rfl

/-- The reference's result as one function of its arrays is the specification's result. -/
theorem refTotal_eq :
    tailArr (boxArr x l anc) (confArr (sigConfArr x anc) (rawConfArr x) (lobjArr l) (bestArr (predArr x anc) bb))
        (classArr (rawClassArr x) (lobjArr l) (lclsArr l))
      = Cert.Loss.total x l bb anc :=
  tail_eq_total x l bb anc _ _ (conf_cell x l bb anc) (class_cell x l)

end Cells

section Result

variable (V : Valuation τ sig (Elt Ideal))

/-- The line writes no argument: after it each argument buffer holds what it held. -/
theorem W_arg0 : W V (Proc.devRef .tc main_arg0) = V (Proc.devRef .tc main_arg0) := after_arg0 V
theorem W_arg1 : W V (Proc.devRef .tc main_arg1) = V (Proc.devRef .tc main_arg1) := after_arg1 V
theorem W_arg2 : W V (Proc.devRef .tc main_arg2) = V (Proc.devRef .tc main_arg2) := after_arg2 V

theorem link_lcls : W V (Proc.devRef .tc main_v52) = lclsArr (W V (Proc.devRef .tc main_arg1)) := st_main_v52 V

/-- What the reference's run leaves in its result buffer is the specification's result of the reshaped first argument,
    the labels, the ground-truth boxes and the anchor table. -/
theorem ref_value :
    StableHlo.after (Cert.ReferenceIdeal.RefRun.ops (F := Ideal)) V (Proc.devRef .tc main_v234)
      = Cert.Loss.total
          (shapeCast S16x76x76x3x85 (V (Proc.devRef .tc main_arg0)) shapeCasts_S16x76x76x255_S16x76x76x3x85)
          (V (Proc.devRef .tc main_arg1)) (V (Proc.devRef .tc main_arg2))
          (fun i => Ideal.ofBits .f32 (lit0 (S3x2.rowMajor i))) := by
  show W V (Proc.devRef .tc main_v234) = _
  rw [link_tail, link_box, link_conf, link_class, link_best, link_pred, link_sigConf, link_rawConf, link_rawClass,
    link_lobj, link_lcls, st_main_v0, st_main_cst, W_arg0, W_arg1, W_arg2]
  exact refTotal_eq _ _ _ _

end Result

end Cert.ReferenceIdeal.RefValue
-- ==== Proof.lean ====
/-
  The certificate of a detection loss computed two ways.

  Both programs take the raw network output x (reshaped to 16 images × 76 × 76 cells × 3 anchors × 85 numbers), the
  labels l of the same shape and 150 ground-truth boxes per image, and return three numbers: the averages over the
  images of the sums over all cells of (0) the box term l₄·(2 − l₂l₃/608²)·(1 − GIoU(predicted box, label box)), (1) the
  confidence term (l₄ − σ(x₄))²·bce(x₄, l₄)·(l₄ + (1 − l₄)·[best IoU with a ground-truth box < ½]) and (2) the class
  terms l₄·bce(x₅₊ₖ, l₅₊ₖ) — Proof/Loss.lean states them once, as `Cert.Loss.total`.

  The kernel visits each image in four quarters of 19 rows, adds each quarter's three sums into lanes 0, 1, 2 of the
  image's row of a [16, 1, 128] array (zeroing the row at the first quarter), and the lines after it average each lane
  over the images: Proof/KValue.lean shows that this is `total` of the arrays. The reference computes whole arrays and
  sums them image by image: Proof/RefTotal.lean shows that its result is `total` too. The two differ in the order of
  the additions, which does not matter on the extended reals, and in one regrouping — the kernel multiplies the
  cross-entropy by the sum of the two weights, the reference adds the two products — which is an identity of real numbers
  and is where the precondition (every input finite) is used (Proof/Finite.lean, `Cert.Loss.confProd_eq_confSum`).

  The three frames — each program runs to its end without a fault and leaves its arguments as they were — are the runs'
  own statements (Proof/KFrame.lean and Proof/KFrameBits.lean for the kernel at the ideal and at the word level,
  Proof/RefRun.lean for the reference); the idealization rewrote nothing, so `preserves` has nothing to state.
-/
import proofs.«179941_j67783173865496_2_alg».proof.Defs
import proofs.«179941_j67783173865496_2_alg».proof.Proof.Gen.Kernel
import proofs.«179941_j67783173865496_2_alg».proof.Proof.Gen.KernelIdeal
import proofs.«179941_j67783173865496_2_alg».proof.Proof.Gen.ReferenceIdeal
import proofs.«179941_j67783173865496_2_alg».proof.Proof.Gen.Pre_finite_inputs
import proofs.«179941_j67783173865496_2_alg».proof.Proof.KFrameBits
import proofs.«179941_j67783173865496_2_alg».proof.Proof.KArr
import proofs.«179941_j67783173865496_2_alg».proof.Proof.KBlocks
import proofs.«179941_j67783173865496_2_alg».proof.Proof.KValue
import proofs.«179941_j67783173865496_2_alg».proof.Proof.RefRun
import proofs.«179941_j67783173865496_2_alg».proof.Proof.RefTotal
import proofs.«179941_j67783173865496_2_alg».proof.Proof.Loss
import proofs.«179941_j67783173865496_2_alg».proof.Proof.Finite

noncomputable section

open Idealize.ShloMosaic Idealize.ShloMosaic.TcCoe Idealize.SL.Sem

namespace Cert.Proof

/-- The two programs carry the same anchor table. -/
theorem anchors_eq : Cert.ReferenceIdeal.lit0 = Cert.KernelIdeal.lit0 := by
  funext i; fin_cases i <;> rfl

theorem frame_k : Cert.frame_Kernel := fun m ρ _ => Cert.Kernel.KFrame.frame m ρ
theorem frame_ki : Cert.frame_KernelIdeal := fun m ρ _ => Cert.KernelIdeal.KFrame.frame m ρ
theorem frame_ri : Cert.frame_ReferenceIdeal := fun m ρ _ => Cert.ReferenceIdeal.RefRun.frame m ρ

/-- The idealization is the program's own text read at the ideal values. -/
theorem preserves : Cert.preserves_Kernel_KernelIdeal := trivial

/-- From memories that agree on the arguments both programs end at `Cert.Loss.total` of the arguments: the kernel by
    its run and the value of its result array, the reference by its run and the value of its last buffer; the inputs
    are real numbers by the precondition, which the kernel's side needs for the confidence term. -/
theorem algebraic : Cert.algebraic_KernelIdeal_ReferenceIdeal := by
  intro m ρ m' ρ' hpre hagree
  refine ⟨fun c => Cert.KernelIdeal.KTail.tailK (F := Ideal) (Cert.KernelIdeal.KArr.outArr m c), Cert.KernelIdeal.KArr.run_tail m ρ, ?_⟩
  refine (θ_run Cert.ReferenceIdeal.defs _ _).mono (fun r h c => ⟨?_, ?_, ?_, ?_⟩) (Cert.ReferenceIdeal.RefRun.run (F := Ideal) m' ρ')
  · obtain ⟨f0, f1, f2⟩ := Cert.Finite.finite_of_pre _ _ _ (hpre c)
    rw [h c Cert.ReferenceIdeal.main_v234, Cert.ReferenceIdeal.RefValue.ref_value]
    have hx : ∀ i, Cert.Loss.IsReal (Cert.KernelIdeal.KValue.X m c i) := by
      intro i
      show Cert.Loss.IsReal (Cert.KernelIdeal.KFrame.V m c Cert.KernelIdeal.main_v0 i)
      rw [Cert.KernelIdeal.KArr.V_main_v0]
      exact f0 _
    show _ = Cert.KernelIdeal.KTail.tailK (F := Ideal) (Cert.KernelIdeal.KArr.outArr m c)
    rw [Cert.KernelIdeal.KValue.kernel_total m c hx (fun i => f1 i)]
    obtain ⟨a0, a1, a2⟩ := hagree c
    show Cert.Loss.total _ _ _ _ = Cert.Loss.total (Cert.KernelIdeal.KFrame.V m c Cert.KernelIdeal.main_v0)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (fun i => Ideal.ofBits .f32 (Cert.KernelIdeal.lit0 (Cert.KernelIdeal.S3x2.rowMajor i)))
    rw [Cert.KernelIdeal.KArr.V_main_v0, ← a0, ← a1, ← a2, ← anchors_eq]
  · exact (h c Cert.ReferenceIdeal.main_arg0).trans (Cert.ReferenceIdeal.RefRun.after_arg0 _)
  · exact (h c Cert.ReferenceIdeal.main_arg1).trans (Cert.ReferenceIdeal.RefRun.after_arg1 _)
  · exact (h c Cert.ReferenceIdeal.main_arg2).trans (Cert.ReferenceIdeal.RefRun.after_arg2 _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
